-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S2x320000 : Shape := ⟨2, ![2, 320000]⟩
abbrev S512x512 : Shape := ⟨2, ![512, 512]⟩
abbrev S512 : Shape := ⟨1, ![512]⟩
abbrev S1 : Shape := ⟨1, ![1]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S512 .f32) (main_arg16 : FVec F S512 .f32) (main_arg17 : FVec F S1 .f32) (main_v63 : IVec S_ 1) (main_v67 : IVec S_ 1) : IVec S_ 1 :=
  let main_v68 : IVec S_ 1 := andi main_v63 main_v67
  let main_v69 : FVec F S512 .f32 := Host.absf main_arg15
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512 .f32 := Host.absf main_arg16
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg12 : FVec F S512x512 .f32) (main_arg13 : FVec F S512 .f32) (main_arg14 : FVec F S512x512 .f32) (main_arg15 : FVec F S512 .f32) (main_arg16 : FVec F S512 .f32) (main_arg17 : FVec F S1 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg12
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg13
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x512 .f32 := Host.absf main_arg14
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg15 main_arg16 main_arg17 main_v63 main_v67

def fn_part2 {F : FTy → Type} [FloatOps F] (main_arg8 : FVec F S512 .f32) (main_arg9 : FVec F S512x512 .f32) (main_arg10 : FVec F S512 .f32) (main_arg11 : FVec F S512 .f32) (main_arg12 : FVec F S512x512 .f32) (main_arg13 : FVec F S512 .f32) (main_arg14 : FVec F S512x512 .f32) (main_arg15 : FVec F S512 .f32) (main_arg16 : FVec F S512 .f32) (main_arg17 : FVec F S1 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg9
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg12 main_arg13 main_arg14 main_arg15 main_arg16 main_arg17 main_v48 main_v49 main_v50

def fn_part1 {F : FTy → Type} [FloatOps F] (main_arg5 : FVec F S512 .f32) (main_arg6 : FVec F S512 .f32) (main_arg7 : FVec F S512x512 .f32) (main_arg8 : FVec F S512 .f32) (main_arg9 : FVec F S512x512 .f32) (main_arg10 : FVec F S512 .f32) (main_arg11 : FVec F S512 .f32) (main_arg12 : FVec F S512x512 .f32) (main_arg13 : FVec F S512 .f32) (main_arg14 : FVec F S512x512 .f32) (main_arg15 : FVec F S512 .f32) (main_arg16 : FVec F S512 .f32) (main_arg17 : FVec F S1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S20000x512 .f32) (main_arg1 : IVec S2x320000 32) (main_arg2 : FVec F S512x512 .f32) (main_arg3 : FVec F S512 .f32) (main_arg4 : FVec F S512x512 .f32) (main_arg5 : FVec F S512 .f32) (main_arg6 : FVec F S512 .f32) (main_arg7 : FVec F S512x512 .f32) (main_arg8 : FVec F S512 .f32) (main_arg9 : FVec F S512x512 .f32) (main_arg10 : FVec F S512 .f32) (main_arg11 : FVec F S512 .f32) (main_arg12 : FVec F S512x512 .f32) (main_arg13 : FVec F S512 .f32) (main_arg14 : FVec F S512x512 .f32) (main_arg15 : FVec F S512 .f32) (main_arg16 : FVec F S512 .f32) (main_arg17 : FVec F S1 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S20000x512 : Shape := ⟨2, ![20000, 512]⟩
abbrev S2x320000 : Shape := ⟨2, ![2, 320000]⟩
abbrev S512x512 : Shape := ⟨2, ![512, 512]⟩
abbrev S512 : Shape := ⟨1, ![512]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x512 : Shape := ⟨2, ![320000, 512]⟩
abbrev S20000x1 : Shape := ⟨2, ![20000, 1]⟩
abbrev S1000x512 : Shape := ⟨2, ![1000, 512]⟩
abbrev S1x512 : Shape := ⟨2, ![1, 512]⟩
abbrev S1000 : Shape := ⟨1, ![1000]⟩
abbrev S1000x1 : Shape := ⟨2, ![1000, 1]⟩

abbrev nBuf : Space → Nat
  | .hbm => 105
  | .vmem => 42
  | .smem => 0
  | _ => 0

abbrev bufTy : (tb : Table) → Fin (tcTables nBuf tb) → BufTy
  | .hbm, ⟨0, _⟩ => ⟨S20000x512, .f32⟩
  | .hbm, ⟨1, _⟩ => ⟨S2x320000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S512x512, .f32⟩
  | .hbm, ⟨15, _⟩ => ⟨S512, .f32⟩
  | .hbm, ⟨16, _⟩ => ⟨S512, .f32⟩
  | .hbm, ⟨17, _⟩ => ⟨S1, .f32⟩
  | .hbm, ⟨18, _⟩ => ⟨S1x320000, .i32⟩
  | .hbm, ⟨19, _⟩ => ⟨S320000, .i32⟩
  | .hbm, ⟨20, _⟩ => ⟨S1x320000, .i32⟩
  | .hbm, ⟨21, _⟩ => ⟨S320000, .i32⟩
  | .hbm, ⟨22, _⟩ => ⟨S_, .f32⟩
  | .hbm, ⟨23, _⟩ => ⟨S20000x512, .f32⟩
  | .hbm, ⟨24, _⟩ => ⟨S_, .i32⟩
  | .hbm, ⟨25, _⟩ => ⟨S320000, .i32⟩
  | .hbm, ⟨26, _⟩ => ⟨S320000, .i1⟩
  | .hbm, ⟨27, _⟩ => ⟨S_, .i32⟩
  | .hbm, ⟨28, _⟩ => ⟨S320000, .i32⟩
  | .hbm, ⟨29, _⟩ => ⟨S320000, .i32⟩
  | .hbm, ⟨30, _⟩ => ⟨S320000, .i32⟩
  | .hbm, ⟨31, _⟩ => ⟨S320000x1, .i32⟩
  | .hbm, ⟨32, _⟩ => ⟨S320000x512, .f32⟩
  | .hbm, ⟨33, _⟩ => ⟨S_, .f32⟩
  | .hbm, ⟨34, _⟩ => ⟨S20000x512, .f32⟩
  | .hbm, ⟨35, _⟩ => ⟨S320000x1, .i32⟩
  | .hbm, ⟨36, _⟩ => ⟨S20000x512, .f32⟩
  | .hbm, ⟨37, _⟩ => ⟨S_, .f32⟩
  | .hbm, ⟨38, _⟩ => ⟨S320000x1, .f32⟩
  | .hbm, ⟨39, _⟩ => ⟨S_, .f32⟩
  | .hbm, ⟨40, _⟩ => ⟨S20000x1, .f32⟩
  | .hbm, ⟨41, _⟩ => ⟨S320000x1, .i32⟩
  | .hbm, ⟨42, _⟩ => ⟨S20000x1, .f32⟩
  | .hbm, ⟨43, _⟩ => ⟨S_, .f32⟩
  | .hbm, ⟨44, _⟩ => ⟨S20000x1, .f32⟩
  | .hbm, ⟨45, _⟩ => ⟨S20000x1, .f32⟩
  | .hbm, ⟨46, _⟩ => ⟨S20000x512, .f32⟩
  | .hbm, ⟨47, _⟩ => ⟨S20000x512, .f32⟩
  | .hbm, ⟨48, _⟩ => ⟨S512x512, .f32⟩
  | .hbm, ⟨49, _⟩ => ⟨S512x512, .f32⟩
  | .hbm, ⟨50, _⟩ => ⟨S20000x512, .f32⟩
  | .hbm, ⟨51, _⟩ => ⟨S_, .i32⟩
  | .hbm, ⟨52, _⟩ => ⟨S320000, .i32⟩
  | .hbm, ⟨53, _⟩ => ⟨S320000, .i1⟩
  | .hbm, ⟨54, _⟩ => ⟨S_, .i32⟩
  | .hbm, ⟨55, _⟩ => ⟨S320000, .i32⟩
  | .hbm, ⟨56, _⟩ => ⟨S320000, .i32⟩
  | .hbm, ⟨57, _⟩ => ⟨S320000, .i32⟩
  | .hbm, ⟨58, _⟩ => ⟨S320000x1, .i32⟩
  | .hbm, ⟨59, _⟩ => ⟨S320000x512, .f32⟩
  | .hbm, ⟨60, _⟩ => ⟨S_, .f32⟩
  | .hbm, ⟨61, _⟩ => ⟨S20000x512, .f32⟩
  | .hbm, ⟨62, _⟩ => ⟨S320000x1, .i32⟩
  | .hbm, ⟨63, _⟩ => ⟨S20000x512, .f32⟩
  | .hbm, ⟨64, _⟩ => ⟨S_, .f32⟩
  | .hbm, ⟨65, _⟩ => ⟨S320000x1, .f32⟩
  | .hbm, ⟨66, _⟩ => ⟨S_, .f32⟩
  | .hbm, ⟨67, _⟩ => ⟨S20000x1, .f32⟩
  | .hbm, ⟨68, _⟩ => ⟨S320000x1, .i32⟩
  | .hbm, ⟨69, _⟩ => ⟨S20000x1, .f32⟩
  | .hbm, ⟨70, _⟩ => ⟨S_, .f32⟩
  | .hbm, ⟨71, _⟩ => ⟨S20000x1, .f32⟩
  | .hbm, ⟨72, _⟩ => ⟨S20000x1, .f32⟩
  | .hbm, ⟨73, _⟩ => ⟨S20000x512, .f32⟩
  | .hbm, ⟨74, _⟩ => ⟨S20000x512, .f32⟩
  | .hbm, ⟨75, _⟩ => ⟨S512x512, .f32⟩
  | .hbm, ⟨76, _⟩ => ⟨S512x512, .f32⟩
  | .hbm, ⟨77, _⟩ => ⟨S20000x512, .f32⟩
  | .hbm, ⟨78, _⟩ => ⟨S_, .i32⟩
  | .hbm, ⟨79, _⟩ => ⟨S320000, .i32⟩
  | .hbm, ⟨80, _⟩ => ⟨S320000, .i1⟩
  | .hbm, ⟨81, _⟩ => ⟨S_, .i32⟩
  | .hbm, ⟨82, _⟩ => ⟨S320000, .i32⟩
  | .hbm, ⟨83, _⟩ => ⟨S320000, .i32⟩
  | .hbm, ⟨84, _⟩ => ⟨S320000, .i32⟩
  | .hbm, ⟨85, _⟩ => ⟨S320000x1, .i32⟩
  | .hbm, ⟨86, _⟩ => ⟨S320000x512, .f32⟩
  | .hbm, ⟨87, _⟩ => ⟨S_, .f32⟩
  | .hbm, ⟨88, _⟩ => ⟨S20000x512, .f32⟩
  | .hbm, ⟨89, _⟩ => ⟨S320000x1, .i32⟩
  | .hbm, ⟨90, _⟩ => ⟨S20000x512, .f32⟩
  | .hbm, ⟨91, _⟩ => ⟨S_, .f32⟩
  | .hbm, ⟨92, _⟩ => ⟨S320000x1, .f32⟩
  | .hbm, ⟨93, _⟩ => ⟨S_, .f32⟩
  | .hbm, ⟨94, _⟩ => ⟨S20000x1, .f32⟩
  | .hbm, ⟨95, _⟩ => ⟨S320000x1, .i32⟩
  | .hbm, ⟨96, _⟩ => ⟨S20000x1, .f32⟩
  | .hbm, ⟨97, _⟩ => ⟨S_, .f32⟩
  | .hbm, ⟨98, _⟩ => ⟨S20000x1, .f32⟩
  | .hbm, ⟨99, _⟩ => ⟨S20000x1, .f32⟩
  | .hbm, ⟨100, _⟩ => ⟨S20000x512, .f32⟩
  | .hbm, ⟨101, _⟩ => ⟨S20000x512, .f32⟩
  | .hbm, ⟨102, _⟩ => ⟨S512x512, .f32⟩
  | .hbm, ⟨103, _⟩ => ⟨S512x512, .f32⟩
  | .hbm, ⟨104, _⟩ => ⟨S20000x512, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S1000x512, .f32⟩
  | .local _ .vmem, ⟨5, _⟩ => ⟨S1000x512, .f32⟩
  | .local _ .vmem, ⟨6, _⟩ => ⟨S512x512, .f32⟩
  | .local _ .vmem, ⟨7, _⟩ => ⟨S512, .f32⟩
  | .local _ .vmem, ⟨8, _⟩ => ⟨S512x512, .f32⟩
  | .local _ .vmem, ⟨9, _⟩ => ⟨S512, .f32⟩
  | .local _ .vmem, ⟨10, _⟩ => ⟨S512, .f32⟩
  | .local _ .vmem, ⟨11, _⟩ => ⟨S1, .f32⟩
  | .local _ .vmem, ⟨12, _⟩ => ⟨S1000x512, .f32⟩
  | .local _ .vmem, ⟨13, _⟩ => ⟨S1000x512, .f32⟩
  | .local _ .vmem, ⟨14, _⟩ => ⟨S1000x512, .f32⟩
  | .local _ .vmem, ⟨15, _⟩ => ⟨S1000x512, .f32⟩
  | .local _ .vmem, ⟨16, _⟩ => ⟨S1000x512, .f32⟩
  | .local _ .vmem, ⟨17, _⟩ => ⟨S1000x512, .f32⟩
  | .local _ .vmem, ⟨18, _⟩ => ⟨S1000x512, .f32⟩
  | .local _ .vmem, ⟨19, _⟩ => ⟨S1000x512, .f32⟩
  | .local _ .vmem, ⟨20, _⟩ => ⟨S512x512, .f32⟩
  | .local _ .vmem, ⟨21, _⟩ => ⟨S512, .f32⟩
  | .local _ .vmem, ⟨22, _⟩ => ⟨S512x512, .f32⟩
  | .local _ .vmem, ⟨23, _⟩ => ⟨S512, .f32⟩
  | .local _ .vmem, ⟨24, _⟩ => ⟨S512, .f32⟩
  | .local _ .vmem, ⟨25, _⟩ => ⟨S1, .f32⟩
  | .local _ .vmem, ⟨26, _⟩ => ⟨S1000x512, .f32⟩
  | .local _ .vmem, ⟨27, _⟩ => ⟨S1000x512, .f32⟩
  | .local _ .vmem, ⟨28, _⟩ => ⟨S1000x512, .f32⟩
  | .local _ .vmem, ⟨29, _⟩ => ⟨S1000x512, .f32⟩
  | .local _ .vmem, ⟨30, _⟩ => ⟨S1000x512, .f32⟩
  | .local _ .vmem, ⟨31, _⟩ => ⟨S1000x512, .f32⟩
  | .local _ .vmem, ⟨32, _⟩ => ⟨S1000x512, .f32⟩
  | .local _ .vmem, ⟨33, _⟩ => ⟨S1000x512, .f32⟩
  | .local _ .vmem, ⟨34, _⟩ => ⟨S512x512, .f32⟩
  | .local _ .vmem, ⟨35, _⟩ => ⟨S512, .f32⟩
  | .local _ .vmem, ⟨36, _⟩ => ⟨S512x512, .f32⟩
  | .local _ .vmem, ⟨37, _⟩ => ⟨S512, .f32⟩
  | .local _ .vmem, ⟨38, _⟩ => ⟨S512, .f32⟩
  | .local _ .vmem, ⟨39, _⟩ => ⟨S1, .f32⟩
  | .local _ .vmem, ⟨40, _⟩ => ⟨S1000x512, .f32⟩
  | .local _ .vmem, ⟨41, _⟩ => ⟨S1000x512, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_cst_3 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_5 : Ref sig .tc := ⟨.hbm, 51, rfl⟩
abbrev main_v26 : Ref sig .tc := ⟨.hbm, 52, rfl⟩
abbrev main_v27 : Ref sig .tc := ⟨.hbm, 53, rfl⟩
abbrev main_c_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_8 : Ref sig .tc := ⟨.hbm, 64, rfl⟩
abbrev main_v36 : Ref sig .tc := ⟨.hbm, 65, rfl⟩
abbrev main_cst_9 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_10 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_11 : Ref sig .tc := ⟨.hbm, 78, rfl⟩
abbrev main_v47 : Ref sig .tc := ⟨.hbm, 79, rfl⟩
abbrev main_v48 : Ref sig .tc := ⟨.hbm, 80, rfl⟩
abbrev main_c_12 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_13 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_14 : Ref sig .tc := ⟨.hbm, 91, rfl⟩
abbrev main_v57 : Ref sig .tc := ⟨.hbm, 92, rfl⟩
abbrev main_cst_15 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_16 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg9_0 : Ref sig .tc := ⟨.vmem, 40, rfl⟩
abbrev cc2_stg9_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem8_0 : DmaSem sig := 39
abbrev cc2_sem9_0 : DmaSem sig := 40
abbrev cc2_sem9_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1000x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1000x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S1000x512 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S20000x512 : S_.BroadcastsInDim S20000x512 (![] : Fin 0 → Fin S20000x512.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S_S20000x1 : S_.BroadcastsInDim S20000x1 (![] : Fin 0 → Fin S20000x1.rank)
  bcast_S20000x1_S20000x512_0_1 : S20000x1.BroadcastsInDim S20000x512 (![0, 1] : Fin 2 → Fin S20000x512.rank)
  transposes_S512x512_S512x512_1_0 : S512x512.Transposes [1, 0] S512x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S1000x512 : S1x512.Broadcasts S1000x512
  reduces_S1000x512_S1000 : S1000x512.Reduces [1] S1000
  shapeCasts_S1000_S1000x1 : S1000.ShapeCasts S1000x1
  broadcasts_S1000x1_S1000x512 : S1000x1.Broadcasts S1000x512
  inb_S1_S1_0 : ∀ a, (![0] : Fin 1 → Nat) a + S1.size a ≤ S1.size a
  h_S1 : 0 < S1.numel
  inpos_S1_p0 : ∀ a, (![0] : Fin 1 → Nat) a < S1.size a
  gather_S20000x512_S320000x1_S320000x512_1_0_n_n_0_1_1512_wf : GatherDims.WF S20000x512 S320000x1 S320000x512 [1] [0] [] [0] [] 1 ![1, 512]
  scatter_S20000x512_S320000x1_S320000x512_1_0_0_1_wf : ScatterDims.WF S20000x512 S320000x1 S320000x512 [1] [0] [0] 1
  scatter_S20000x1_S320000x1_S320000x1_1_0_0_1_wf : ScatterDims.WF S20000x1 S320000x1 S320000x1 [1] [0] [0] 1
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S20000x512.size a
  hwx0_0 : ∀ i : grid0.Coords, EltTy.bits .f32 = 32 ∨ (Rect.block (s := S20000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S20000x512.size a
  hwx0_1 : ∀ i : grid0.Coords, EltTy.bits .f32 = 32 ∨ (Rect.block (s := S20000x512) S1000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S20000x512.size a
  hwx0_2 : ∀ i : grid0.Coords, EltTy.bits .f32 = 32 ∨ (Rect.block (s := S20000x512) S1000x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x512.size a ≤ S20000x512.size a
  hwx0_9 : ∀ i : grid0.Coords, EltTy.bits .f32 = 32 ∨ (Rect.block (s := S20000x512) S1000x512.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S20000x512.size a
  hwx1_0 : ∀ i : grid1.Coords, EltTy.bits .f32 = 32 ∨ (Rect.block (s := S20000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S20000x512.size a
  hwx1_1 : ∀ i : grid1.Coords, EltTy.bits .f32 = 32 ∨ (Rect.block (s := S20000x512) S1000x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x512.size a ≤ S20000x512.size a
  hwx1_2 : ∀ i : grid1.Coords, EltTy.bits .f32 = 32 ∨ (Rect.block (s := S20000x512) S1000x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .f32 = 32 ∨ (Rect.block (s := S512x512) S512x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512.size a ≤ S512.size a
  hwx1_6 : ∀ i : grid1.Coords, EltTy.bits .f32 = 32 ∨ (Rect.block (s := S512) S512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512.size a ≤ S512.size a
  hwx1_7 : ∀ i : grid1.Coords, EltTy.bits .f32 = 32 ∨ (Rect.block (s := S512) S512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1.size a ≤ S1.size a
  hwx1_8 : ∀ i : grid1.Coords, EltTy.bits .f32 = 32 ∨ (Rect.block (s := S1) S1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1000x512.size a ≤ S20000x512.size a
  hwx1_9 : ∀ i : grid1.Coords, EltTy.bits .f32 = 32 ∨ (Rect.block (s := S20000x512) S1000x512.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S20000x512.size a
  hwx2_0 : ∀ i : grid2.Coords, EltTy.bits .f32 = 32 ∨ (Rect.block (s := S20000x512) S1000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x512.size a ≤ S20000x512.size a
  hwx2_1 : ∀ i : grid2.Coords, EltTy.bits .f32 = 32 ∨ (Rect.block (s := S20000x512) S1000x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x512.size a ≤ S20000x512.size a
  hwx2_2 : ∀ i : grid2.Coords, EltTy.bits .f32 = 32 ∨ (Rect.block (s := S20000x512) S1000x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .f32 = 32 ∨ (Rect.block (s := S512x512) S512x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512.size a ≤ S512.size a
  hwx2_4 : ∀ i : grid2.Coords, EltTy.bits .f32 = 32 ∨ (Rect.block (s := S512) S512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x512.size a ≤ S512x512.size a
  hwx2_5 : ∀ i : grid2.Coords, EltTy.bits .f32 = 32 ∨ (Rect.block (s := S512x512) S512x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S512.size a ≤ S512.size a
  hwx2_6 : ∀ i : grid2.Coords, EltTy.bits .f32 = 32 ∨ (Rect.block (s := S512) S512.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S512.size a ≤ S512.size a
  hwx2_7 : ∀ i : grid2.Coords, EltTy.bits .f32 = 32 ∨ (Rect.block (s := S512) S512.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1.size a ≤ S1.size a
  hwx2_8 : ∀ i : grid2.Coords, EltTy.bits .f32 = 32 ∨ (Rect.block (s := S1) S1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1000x512.size a ≤ S20000x512.size a
  hwx2_9 : ∀ i : grid2.Coords, EltTy.bits .f32 = 32 ∨ (Rect.block (s := S20000x512) S1000x512.size (cc2_transform_9 i) (hinb2_9 i)).WholeWords (EltTy.packing .f32)

variable [Facts₀]

def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def scatter_S20000x1_S320000x1_S320000x1_1_0_0_1 : ScatterDims S20000x1 S320000x1 S320000x1 where
  updateWindowDims := [1]
  insertedWindowDims := [0]
  scatterDimsToOperandDims := [0]
  indexVectorDim := 1
  wf := scatter_S20000x1_S320000x1_S320000x1_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_v22) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1000x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg17) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S1000x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v43) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1000x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg17) S1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v46) S1000x512.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v64) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1000x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1000x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v65) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S512x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg15) S512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg16) S512.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg17) S1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v67) S1000x512.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S20000x512 : Shape := ⟨2, ![20000, 512]⟩
abbrev S2x320000 : Shape := ⟨2, ![2, 320000]⟩
abbrev S512x512 : Shape := ⟨2, ![512, 512]⟩
abbrev S512 : Shape := ⟨1, ![512]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x512 : Shape := ⟨2, ![320000, 512]⟩
abbrev S20000x1 : Shape := ⟨2, ![20000, 1]⟩
abbrev S1x512 : Shape := ⟨2, ![1, 512]⟩
abbrev S20000 : Shape := ⟨1, ![20000]⟩
abbrev S1x1 : Shape := ⟨2, ![1, 1]⟩

abbrev nBuf : Space → Nat
  | .hbm => 231
  | .vmem => 0
  | .smem => 0
  | _ => 0

abbrev hbmTy0_0 (i : Nat) : BufTy := match i % 128 with
  | 0 => ⟨S20000x512, .f32⟩
  | 1 => ⟨S2x320000, .i32⟩
  | 2 => ⟨S512x512, .f32⟩
  | 3 => ⟨S512, .f32⟩
  | 4 => ⟨S512x512, .f32⟩
  | 5 => ⟨S512, .f32⟩
  | 6 => ⟨S512, .f32⟩
  | 7 => ⟨S512x512, .f32⟩
  | 8 => ⟨S512, .f32⟩
  | 9 => ⟨S512x512, .f32⟩
  | 10 => ⟨S512, .f32⟩
  | 11 => ⟨S512, .f32⟩
  | 12 => ⟨S512x512, .f32⟩
  | 13 => ⟨S512, .f32⟩
  | 14 => ⟨S512x512, .f32⟩
  | 15 => ⟨S512, .f32⟩
  | 16 => ⟨S512, .f32⟩
  | 17 => ⟨S1, .f32⟩
  | 18 => ⟨S1x320000, .i32⟩
  | 19 => ⟨S320000, .i32⟩
  | 20 => ⟨S1x320000, .i32⟩
  | 21 => ⟨S320000, .i32⟩
  | 22 => ⟨S_, .i32⟩
  | 23 => ⟨S320000, .i32⟩
  | 24 => ⟨S320000, .i1⟩
  | 25 => ⟨S_, .i32⟩
  | 26 => ⟨S320000, .i32⟩
  | 27 => ⟨S320000, .i32⟩
  | 28 => ⟨S320000, .i32⟩
  | 29 => ⟨S320000x1, .i32⟩
  | 30 => ⟨S320000x512, .f32⟩
  | 31 => ⟨S_, .f32⟩
  | 32 => ⟨S20000x512, .f32⟩
  | 33 => ⟨S320000x1, .i32⟩
  | 34 => ⟨S20000x512, .f32⟩
  | 35 => ⟨S_, .f32⟩
  | 36 => ⟨S320000x1, .f32⟩
  | 37 => ⟨S_, .f32⟩
  | 38 => ⟨S20000x1, .f32⟩
  | 39 => ⟨S320000x1, .i32⟩
  | 40 => ⟨S20000x1, .f32⟩
  | 41 => ⟨S_, .f32⟩
  | 42 => ⟨S20000x1, .f32⟩
  | 43 => ⟨S20000x1, .f32⟩
  | 44 => ⟨S20000x512, .f32⟩
  | 45 => ⟨S20000x512, .f32⟩
  | 46 => ⟨S512x512, .f32⟩
  | 47 => ⟨S20000x512, .f32⟩
  | 48 => ⟨S1x512, .f32⟩
  | 49 => ⟨S20000x512, .f32⟩
  | 50 => ⟨S20000x512, .f32⟩
  | 51 => ⟨S512x512, .f32⟩
  | 52 => ⟨S20000x512, .f32⟩
  | 53 => ⟨S20000x512, .f32⟩
  | 54 => ⟨S_, .f32⟩
  | 55 => ⟨S20000x512, .f32⟩
  | 56 => ⟨S20000x512, .f32⟩
  | 57 => ⟨S_, .f32⟩
  | 58 => ⟨S20000, .f32⟩
  | 59 => ⟨S20000x1, .f32⟩
  | 60 => ⟨S_, .f32⟩
  | 61 => ⟨S20000x1, .f32⟩
  | 62 => ⟨S20000x1, .f32⟩
  | 63 => ⟨S20000x512, .f32⟩
  | 64 => ⟨S20000x512, .f32⟩
  | 65 => ⟨S20000x512, .f32⟩
  | 66 => ⟨S_, .f32⟩
  | 67 => ⟨S20000, .f32⟩
  | 68 => ⟨S20000x1, .f32⟩
  | 69 => ⟨S_, .f32⟩
  | 70 => ⟨S20000x1, .f32⟩
  | 71 => ⟨S20000x1, .f32⟩
  | 72 => ⟨S20000x512, .f32⟩
  | 73 => ⟨S20000x512, .f32⟩
  | 74 => ⟨S_, .f32⟩
  | 75 => ⟨S20000x1, .f32⟩
  | 76 => ⟨S20000x1, .f32⟩
  | 77 => ⟨S20000x1, .f32⟩
  | 78 => ⟨S20000x512, .f32⟩
  | 79 => ⟨S20000x512, .f32⟩
  | 80 => ⟨S1x512, .f32⟩
  | 81 => ⟨S20000x512, .f32⟩
  | 82 => ⟨S20000x512, .f32⟩
  | 83 => ⟨S1x512, .f32⟩
  | 84 => ⟨S20000x512, .f32⟩
  | 85 => ⟨S20000x512, .f32⟩
  | 86 => ⟨S_, .f32⟩
  | 87 => ⟨S20000x512, .f32⟩
  | 88 => ⟨S20000x512, .i1⟩
  | 89 => ⟨S1x1, .f32⟩
  | 90 => ⟨S20000x512, .f32⟩
  | 91 => ⟨S20000x512, .f32⟩
  | 92 => ⟨S20000x512, .f32⟩
  | 93 => ⟨S_, .i32⟩
  | 94 => ⟨S320000, .i32⟩
  | 95 => ⟨S320000, .i1⟩
  | 96 => ⟨S_, .i32⟩
  | 97 => ⟨S320000, .i32⟩
  | 98 => ⟨S320000, .i32⟩
  | 99 => ⟨S320000, .i32⟩
  | 100 => ⟨S320000x1, .i32⟩
  | 101 => ⟨S320000x512, .f32⟩
  | 102 => ⟨S_, .f32⟩
  | 103 => ⟨S20000x512, .f32⟩
  | 104 => ⟨S320000x1, .i32⟩
  | 105 => ⟨S20000x512, .f32⟩
  | 106 => ⟨S_, .f32⟩
  | 107 => ⟨S320000x1, .f32⟩
  | 108 => ⟨S_, .f32⟩
  | 109 => ⟨S20000x1, .f32⟩
  | 110 => ⟨S320000x1, .i32⟩
  | 111 => ⟨S20000x1, .f32⟩
  | 112 => ⟨S_, .f32⟩
  | 113 => ⟨S20000x1, .f32⟩
  | 114 => ⟨S20000x1, .f32⟩
  | 115 => ⟨S20000x512, .f32⟩
  | 116 => ⟨S20000x512, .f32⟩
  | 117 => ⟨S512x512, .f32⟩
  | 118 => ⟨S20000x512, .f32⟩
  | 119 => ⟨S1x512, .f32⟩
  | 120 => ⟨S20000x512, .f32⟩
  | 121 => ⟨S20000x512, .f32⟩
  | 122 => ⟨S512x512, .f32⟩
  | 123 => ⟨S20000x512, .f32⟩
  | 124 => ⟨S20000x512, .f32⟩
  | 125 => ⟨S20000x512, .f32⟩
  | 126 => ⟨S_, .f32⟩
  | 127 => ⟨S20000, .f32⟩
  | _ => ⟨S20000x512, .f32⟩

abbrev hbmTy0_1 (i : Nat) : BufTy := match i % 128 with
  | 0 => ⟨S20000x1, .f32⟩
  | 1 => ⟨S_, .f32⟩
  | 2 => ⟨S20000x1, .f32⟩
  | 3 => ⟨S20000x1, .f32⟩
  | 4 => ⟨S20000x512, .f32⟩
  | 5 => ⟨S20000x512, .f32⟩
  | 6 => ⟨S20000x512, .f32⟩
  | 7 => ⟨S_, .f32⟩
  | 8 => ⟨S20000, .f32⟩
  | 9 => ⟨S20000x1, .f32⟩
  | 10 => ⟨S_, .f32⟩
  | 11 => ⟨S20000x1, .f32⟩
  | 12 => ⟨S20000x1, .f32⟩
  | 13 => ⟨S20000x512, .f32⟩
  | 14 => ⟨S20000x512, .f32⟩
  | 15 => ⟨S_, .f32⟩
  | 16 => ⟨S20000x1, .f32⟩
  | 17 => ⟨S20000x1, .f32⟩
  | 18 => ⟨S20000x1, .f32⟩
  | 19 => ⟨S20000x512, .f32⟩
  | 20 => ⟨S20000x512, .f32⟩
  | 21 => ⟨S1x512, .f32⟩
  | 22 => ⟨S20000x512, .f32⟩
  | 23 => ⟨S20000x512, .f32⟩
  | 24 => ⟨S1x512, .f32⟩
  | 25 => ⟨S20000x512, .f32⟩
  | 26 => ⟨S20000x512, .f32⟩
  | 27 => ⟨S_, .f32⟩
  | 28 => ⟨S20000x512, .f32⟩
  | 29 => ⟨S20000x512, .i1⟩
  | 30 => ⟨S1x1, .f32⟩
  | 31 => ⟨S20000x512, .f32⟩
  | 32 => ⟨S20000x512, .f32⟩
  | 33 => ⟨S20000x512, .f32⟩
  | 34 => ⟨S_, .i32⟩
  | 35 => ⟨S320000, .i32⟩
  | 36 => ⟨S320000, .i1⟩
  | 37 => ⟨S_, .i32⟩
  | 38 => ⟨S320000, .i32⟩
  | 39 => ⟨S320000, .i32⟩
  | 40 => ⟨S320000, .i32⟩
  | 41 => ⟨S320000x1, .i32⟩
  | 42 => ⟨S320000x512, .f32⟩
  | 43 => ⟨S_, .f32⟩
  | 44 => ⟨S20000x512, .f32⟩
  | 45 => ⟨S320000x1, .i32⟩
  | 46 => ⟨S20000x512, .f32⟩
  | 47 => ⟨S_, .f32⟩
  | 48 => ⟨S320000x1, .f32⟩
  | 49 => ⟨S_, .f32⟩
  | 50 => ⟨S20000x1, .f32⟩
  | 51 => ⟨S320000x1, .i32⟩
  | 52 => ⟨S20000x1, .f32⟩
  | 53 => ⟨S_, .f32⟩
  | 54 => ⟨S20000x1, .f32⟩
  | 55 => ⟨S20000x1, .f32⟩
  | 56 => ⟨S20000x512, .f32⟩
  | 57 => ⟨S20000x512, .f32⟩
  | 58 => ⟨S512x512, .f32⟩
  | 59 => ⟨S20000x512, .f32⟩
  | 60 => ⟨S1x512, .f32⟩
  | 61 => ⟨S20000x512, .f32⟩
  | 62 => ⟨S20000x512, .f32⟩
  | 63 => ⟨S512x512, .f32⟩
  | 64 => ⟨S20000x512, .f32⟩
  | 65 => ⟨S20000x512, .f32⟩
  | 66 => ⟨S20000x512, .f32⟩
  | 67 => ⟨S_, .f32⟩
  | 68 => ⟨S20000, .f32⟩
  | 69 => ⟨S20000x1, .f32⟩
  | 70 => ⟨S_, .f32⟩
  | 71 => ⟨S20000x1, .f32⟩
  | 72 => ⟨S20000x1, .f32⟩
  | 73 => ⟨S20000x512, .f32⟩
  | 74 => ⟨S20000x512, .f32⟩
  | 75 => ⟨S20000x512, .f32⟩
  | 76 => ⟨S_, .f32⟩
  | 77 => ⟨S20000, .f32⟩
  | 78 => ⟨S20000x1, .f32⟩
  | 79 => ⟨S_, .f32⟩
  | 80 => ⟨S20000x1, .f32⟩
  | 81 => ⟨S20000x1, .f32⟩
  | 82 => ⟨S20000x512, .f32⟩
  | 83 => ⟨S20000x512, .f32⟩
  | 84 => ⟨S_, .f32⟩
  | 85 => ⟨S20000x1, .f32⟩
  | 86 => ⟨S20000x1, .f32⟩
  | 87 => ⟨S20000x1, .f32⟩
  | 88 => ⟨S20000x512, .f32⟩
  | 89 => ⟨S20000x512, .f32⟩
  | 90 => ⟨S1x512, .f32⟩
  | 91 => ⟨S20000x512, .f32⟩
  | 92 => ⟨S20000x512, .f32⟩
  | 93 => ⟨S1x512, .f32⟩
  | 94 => ⟨S20000x512, .f32⟩
  | 95 => ⟨S20000x512, .f32⟩
  | 96 => ⟨S_, .f32⟩
  | 97 => ⟨S20000x512, .f32⟩
  | 98 => ⟨S20000x512, .i1⟩
  | 99 => ⟨S1x1, .f32⟩
  | 100 => ⟨S20000x512, .f32⟩
  | 101 => ⟨S20000x512, .f32⟩
  | 102 => ⟨S20000x512, .f32⟩
  | _ => ⟨S20000x512, .f32⟩

abbrev hbmTy (i : Nat) : BufTy := match i / 128 with
  | 0 => hbmTy0_0 i
  | 1 => hbmTy0_1 i
  | _ => ⟨S20000x512, .f32⟩

abbrev bufTy : (tb : Table) → Fin (tcTables nBuf tb) → BufTy
  | .hbm, ⟨i, _⟩ => hbmTy i
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_4 : Ref sig .tc := ⟨.hbm, 54, rfl⟩
abbrev main_v30 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_11 : Ref sig .tc := ⟨.hbm, 93, rfl⟩
abbrev main_v62 : Ref sig .tc := ⟨.hbm, 94, rfl⟩
abbrev main_v63 : Ref sig .tc := ⟨.hbm, 95, rfl⟩
abbrev main_c_12 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_13 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_14 : Ref sig .tc := ⟨.hbm, 106, rfl⟩
abbrev main_v72 : Ref sig .tc := ⟨.hbm, 107, rfl⟩
abbrev main_cst_15 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_16 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_17 : Ref sig .tc := ⟨.hbm, 126, rfl⟩
abbrev main_v89 : Ref sig .tc := ⟨.hbm, 127, rfl⟩
abbrev main_v90 : Ref sig .tc := ⟨.hbm, 128, rfl⟩
abbrev main_cst_18 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_19 : Ref sig .tc := ⟨.hbm, 135, rfl⟩
abbrev main_v96 : Ref sig .tc := ⟨.hbm, 136, rfl⟩
abbrev main_v97 : Ref sig .tc := ⟨.hbm, 137, rfl⟩
abbrev main_cst_20 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_21 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_22 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_c_23 : Ref sig .tc := ⟨.hbm, 162, rfl⟩
abbrev main_v119 : Ref sig .tc := ⟨.hbm, 163, rfl⟩
abbrev main_v120 : Ref sig .tc := ⟨.hbm, 164, rfl⟩
abbrev main_c_24 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_cst_25 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_26 : Ref sig .tc := ⟨.hbm, 175, rfl⟩
abbrev main_v129 : Ref sig .tc := ⟨.hbm, 176, rfl⟩
abbrev main_cst_27 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_cst_28 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_cst_29 : Ref sig .tc := ⟨.hbm, 195, rfl⟩
abbrev main_v146 : Ref sig .tc := ⟨.hbm, 196, rfl⟩
abbrev main_v147 : Ref sig .tc := ⟨.hbm, 197, rfl⟩
abbrev main_cst_30 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_cst_31 : Ref sig .tc := ⟨.hbm, 204, rfl⟩
abbrev main_v153 : Ref sig .tc := ⟨.hbm, 205, rfl⟩
abbrev main_v154 : Ref sig .tc := ⟨.hbm, 206, rfl⟩
abbrev main_cst_32 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_cst_33 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_cst_34 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S20000x512 : S_.BroadcastsInDim S20000x512 (![] : Fin 0 → Fin S20000x512.rank)
  bcast_S_S320000x1 : S_.BroadcastsInDim S320000x1 (![] : Fin 0 → Fin S320000x1.rank)
  bcast_S_S20000x1 : S_.BroadcastsInDim S20000x1 (![] : Fin 0 → Fin S20000x1.rank)
  bcast_S20000x1_S20000x512_0_1 : S20000x1.BroadcastsInDim S20000x512 (![0, 1] : Fin 2 → Fin S20000x512.rank)
  transposes_S512x512_S512x512_1_0 : S512x512.Transposes [1, 0] S512x512
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  reducesTo_S20000x512_S20000_d1 : S20000x512.ReducesTo [1] S20000
  h_S_ : 0 < S_.numel
  bcast_S20000_S20000x1_0 : S20000.BroadcastsInDim S20000x1 (![0] : Fin 1 → Fin S20000x1.rank)
  bcast_S1_S1x1_1 : S1.BroadcastsInDim S1x1 (![1] : Fin 1 → Fin S1x1.rank)
  bcast_S1x1_S20000x512_0_1 : S1x1.BroadcastsInDim S20000x512 (![0, 1] : Fin 2 → Fin S20000x512.rank)
  gather_S20000x512_S320000x1_S320000x512_1_0_n_n_0_1_1512_wf : GatherDims.WF S20000x512 S320000x1 S320000x512 [1] [0] [] [0] [] 1 ![1, 512]
  scatter_S20000x512_S320000x1_S320000x512_1_0_0_1_wf : ScatterDims.WF S20000x512 S320000x1 S320000x512 [1] [0] [0] 1
  scatter_S20000x1_S320000x1_S320000x1_1_0_0_1_wf : ScatterDims.WF S20000x1 S320000x1 S320000x1 [1] [0] [0] 1
  dot_S20000x512_S512x512_S20000x512_1_0_0_1_n_n_wf : DotDims.WF S20000x512 S512x512 S20000x512 [1] [0] [0] [1] [] []

variable [Facts₀]

def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def scatter_S20000x1_S320000x1_S320000x1_1_0_0_1 : ScatterDims S20000x1 S320000x1 S320000x1 where
  updateWindowDims := [1]
  insertedWindowDims := [0]
  scatterDimsToOperandDims := [0]
  indexVectorDim := 1
  wf := scatter_S20000x1_S320000x1_S320000x1_1_0_0_1_wf
def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf

class Facts : Prop extends Facts₀ where

variable [Facts]
-- ==== Proof.KRegion1.lean ====
/-
  Region 1 of @main, one layer's kernel, at a parameter `V` for the buffer contents the region is entered from:
  each window's block at a grid point, what the body leaves in the output window's staging buffer (its one store,
  the layer's arithmetic on the nine input blocks), the body's triple, the pipeline's proof data and the body
  obligation at every point. Windows 0-2 are the 1000-row blocks of the neighbour mean, the features and the residual;
  windows 3-8 the whole weights, bias, scale, shift and slope; window 9 the output's 1000-row block.
-/
import proofs.«171848_j82592221102604_1_alg».proof.Proof.Gen.Kernel.Launch
import proofs.«171848_j82592221102604_1_alg».proof.Proof.Gen.Kernel.Skeleton
import proofs.«171848_j82592221102604_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or carried over. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or carried over. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or carried over. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or carried over. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or carried over. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or carried over. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or carried over. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or carried over. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or carried over. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rA1 : Rect S1000x512 := Rect.unit (s := S1000x512) ![0, 0] S1000x512.size inb_S1000x512_S1000x512_0_0
abbrev rW1 : Rect S512x512 := Rect.unit (s := S512x512) ![0, 0] S512x512.size inb_S512x512_S512x512_0_0
abbrev rV1 : Rect S512 := Rect.unit (s := S512) ![0] S512.size inb_S512_S512_0
abbrev rS1 : Rect S1 := Rect.unit (s := S1) ![0] S1.size inb_S1_S1_0

/-- The output window's staging buffer after the body: its one store, the layer's arithmetic on the input blocks. -/
def out1_9 (x0 : Vec F S1000x512 .f32) (x1 : Vec F S1000x512 .f32) (x2 : Vec F S1000x512 .f32) (x3 : Vec F S512x512 .f32) (x4 : Vec F S512 .f32) (x5 : Vec F S512x512 .f32) (x6 : Vec F S512 .f32) (x7 : Vec F S512 .f32) (x8 : Vec F S1 .f32) : Vec F S1000x512 .f32 :=
  View.canon [⟨rA1, k1_pay1 (k1_pay4 (View.ld x0 rA1) (View.ld x1 rA1) (View.ld x3 rW1) (View.ld x5 rW1) (View.ld x4 rV1) (View.ld x2 rA1)) (k1_pay5 (View.ld x6 rV1)) (k1_pay6 (View.ld x7 rV1)) (k1_pay7 (View.ld x0 rA1) (View.ld x1 rA1) (View.ld x3 rW1) (View.ld x5 rW1) (View.ld x4 rV1) (View.ld x2 rA1)) (Scalar.ofBits .f32 0x3727C5AC#32) (View.ld x8 rS1)⟩]

/-- The store covers the buffer. -/
theorem cover1_9 (p0 : Vec F S1000x512 .f32) (y : S1000x512.Idx) :
    ∃ pc ∈ ([⟨rA1, p0⟩] : List (View.Piece (Elt F) S1000x512 .f32)), y ∈ pc.1.set :=
  View.cover_of_tiled [⟨rA1, p0⟩] S1000x512.size (by rfl) y

set_option maxHeartbeats 4000000 in
/-- The body on whole staging memrefs, the inputs' at contents `xW` and the output's at anything, runs to the
    continuation holding the inputs' as they were and the output's at `out1_9` of the inputs'. -/
theorem sound_kernel1 (c : Dev nD) (E : Set ℕ) (i : grid1.Coords) (arg0 : Memref sig .tc .vmem S1000x512 .f32) (harg0 : arg0.IsWhole) (arg1 : Memref sig .tc .vmem S1000x512 .f32) (harg1 : arg1.IsWhole) (arg2 : Memref sig .tc .vmem S1000x512 .f32) (harg2 : arg2.IsWhole) (arg3 : Memref sig .tc .vmem S512x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512 .f32) (harg7 : arg7.IsWhole) (arg8 : Memref sig .tc .vmem S1 .f32) (harg8 : arg8.IsWhole) (arg9 : Memref sig .tc .vmem S1000x512 .f32) (harg9 : arg9.IsWhole)
    (x0 : Vec F S1000x512 .f32) (x1 : Vec F S1000x512 .f32) (x2 : Vec F S1000x512 .f32) (x3 : Vec F S512x512 .f32) (x4 : Vec F S512 .f32) (x5 : Vec F S512x512 .f32) (x6 : Vec F S512 .f32) (x7 : Vec F S512 .f32) (x8 : Vec F S1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out1_9 x0 x1 x2 x3 x4 x5 x6 x7 x8)) -∗ K ⟨⟩))
      ⊢ wp frame (wpE (defs₀ (F := F)) Variants.none c none) E (cc1__layer_kernel i arg0 harg0 arg1 harg1 arg2 harg2 arg3 harg3 arg4 harg4 arg5 harg5 arg6 harg6 arg7 harg7 arg8 harg8 arg9 harg9) K := by
  simp only [cc1__layer_kernel_eq_skeleton]; unfold cc1__layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

/-- The proof data of pipeline 1 on core `c`: the arrays as the region finds them; after the body at point `t` each
    input's buffer at its block and the output's at `out1_9` of the input blocks; the scoped rest and the generator
    register pass through untouched; nothing owed; the features and the residual are one array, read by windows 1 and 2 at the two halves of its share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' staging buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KShared1.lean ====
/-
  In layers two and three the features and the residual are ONE array, read through two windows. The region's ten windows
  stand on nine buffers; at the region's entry that array's buffer, held whole, is split into the two halves of its share,
  one for each of its two windows, and at the exit the halves are joined again.
-/
import proofs.«171848_j82592221102604_1_alg».proof.Proof.KRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Region 1's ten windows stand on nine buffers: the features and the residual are one array. -/
theorem bigSep_A1 {M : Type} [URA M] (Φ : Ref sig .tc → sProp M) :
    bigSep (Finset.univ.image (Pipeline.arrRef spec1)) Φ = iprop(Φ main_v43 ∗ Φ main_v25 ∗ Φ main_v44 ∗ Φ main_arg8 ∗ Φ main_v45 ∗ Φ main_arg10 ∗ Φ main_arg11 ∗ Φ main_arg17 ∗ Φ main_v46) :=
  bigSep_eq_bigSepL_of_eq [main_v43, main_v25, main_v44, main_arg8, main_v45, main_arg10, main_arg11, main_arg17, main_v46] (by decide) (by decide) Φ

theorem share1_0 (c : Dev nD) : (dat1 V c).share 0 = fullShare := rfl
theorem share1_1 (c : Dev nD) : (dat1 V c).share 1 = fullShare.left := rfl
theorem share1_2 (c : Dev nD) : (dat1 V c).share 2 = fullShare.right := rfl
theorem share1_3 (c : Dev nD) : (dat1 V c).share 3 = fullShare := rfl
theorem share1_4 (c : Dev nD) : (dat1 V c).share 4 = fullShare := rfl
theorem share1_5 (c : Dev nD) : (dat1 V c).share 5 = fullShare := rfl
theorem share1_6 (c : Dev nD) : (dat1 V c).share 6 = fullShare := rfl
theorem share1_7 (c : Dev nD) : (dat1 V c).share 7 = fullShare := rfl
theorem share1_8 (c : Dev nD) : (dat1 V c).share 8 = fullShare := rfl
theorem share1_9 (c : Dev nD) : (dat1 V c).share 9 = fullShare := rfl

set_option maxHeartbeats 8000000 in
/-- The windowed arrays one by one, each a whole buffer at its window's share. -/
theorem arrays1_chain (c : Dev nD) (G : (w : Fin cfg1.W) → Buf (Elt F) ((cfg1.win w).arr.view.loc (c.tc : Thread nD τ))) :
    ((dat1 V c).arrays G : sProp 𝕄)
      = iprop((((c.tc : Thread nD τ).loc (Pipeline.arrRef spec1 0)) ↦{fullShare} G 0)
        ∗ (((c.tc : Thread nD τ).loc (Pipeline.arrRef spec1 1)) ↦{fullShare.left} G 1)
        ∗ (((c.tc : Thread nD τ).loc (Pipeline.arrRef spec1 2)) ↦{fullShare.right} G 2)
        ∗ (((c.tc : Thread nD τ).loc (Pipeline.arrRef spec1 3)) ↦{fullShare} G 3)
        ∗ (((c.tc : Thread nD τ).loc (Pipeline.arrRef spec1 4)) ↦{fullShare} G 4)
        ∗ (((c.tc : Thread nD τ).loc (Pipeline.arrRef spec1 5)) ↦{fullShare} G 5)
        ∗ (((c.tc : Thread nD τ).loc (Pipeline.arrRef spec1 6)) ↦{fullShare} G 6)
        ∗ (((c.tc : Thread nD τ).loc (Pipeline.arrRef spec1 7)) ↦{fullShare} G 7)
        ∗ (((c.tc : Thread nD τ).loc (Pipeline.arrRef spec1 8)) ↦{fullShare} G 8)
        ∗ (((c.tc : Thread nD τ).loc (Pipeline.arrRef spec1 9)) ↦{fullShare} G 9)) := by
  have h : ((dat1 V c).arrays G : sProp 𝕄)
      = bigSep Finset.univ fun w => (((c.tc : Thread nD τ).loc (Pipeline.arrRef spec1 w)) ↦{(dat1 V c).share w} G w : sProp 𝕄) := by
    unfold Dat.arrays
    exact bigSep_congr fun w _ => by rw [(arr_whole1 w).set_eq_univ]
  rw [h, bigSep_W1, share1_0, share1_1, share1_2, share1_3, share1_4, share1_5, share1_6, share1_7, share1_8, share1_9]

set_option maxHeartbeats 8000000 in
/-- ENTRY: the nine buffers, each whole at the full share at the entry contents, are the ten windows' arrays — the shared
    array split into the two halves of its share, one for each of its two windows. -/
theorem split1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrays1_chain]
  unfold Pipeline.arrBufs
  rw [bigSep_A1]
  iintro ⟨H0, H1, H3, H4, H5, H6, H7, H8, H9⟩
  ihave H12 := (pointsTo_share (PosShare.mem_left_op_right fullShare)).1 $$ H1
  icases H12 with ⟨H1, H2⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 8000000 in
/-- EXIT: the ten windows' arrays at their final contents are the nine buffers at any contents `V'` that has the output
    array as the pipeline leaves it and every input array as entered — the two halves of the shared array joined. -/
theorem join1 (c : Dev nD) (V' : (b : Ref sig .tc) → Buf (Elt F) ((c : Thread nD τ).loc b))
    (hF : ∀ w, (dat1 V c).arrAt w cfg1.N = V' (Pipeline.arrRef spec1 w)) :
    ((dat1 V c).arrays ((dat1 V c).arrAt · cfg1.N) : sProp 𝕄)
      ⊢ Pipeline.arrBufs (Ix := Unit) (Name := ℕ) (U := UR sig nD τ) (Lvl := ℕ) spec1 c V' := by
  rw [show ((dat1 V c).arrAt · cfg1.N) = (fun w => V' (Pipeline.arrRef spec1 w)) from funext hF, arrays1_chain]
  unfold Pipeline.arrBufs
  rw [bigSep_A1]
  iintro ⟨H0, H1, H2, H3, H4, H5, H6, H7, H8, H9⟩
  isplitl [H0]; · iexact H0
  isplitl [H1 H2]
  · iapply (pointsTo_share (PosShare.mem_left_op_right fullShare)).2
    isplitl [H1]; · iexact H1
    iexact H2
  isplitl [H3]; · iexact H3
  isplitl [H4]; · iexact H4
  isplitl [H5]; · iexact H5
  isplitl [H6]; · iexact H6
  isplitl [H7]; · iexact H7
  isplitl [H8]; · iexact H8
  iexact H9

end Cert.Kernel.Hand

end
-- ==== Proof.KRegion2.lean ====
/-
  Region 2 of @main, one layer's kernel, at a parameter `V` for the buffer contents the region is entered from:
  each window's block at a grid point, what the body leaves in the output window's staging buffer (its one store,
  the layer's arithmetic on the nine input blocks), the body's triple, the pipeline's proof data and the body
  obligation at every point. Windows 0-2 are the 1000-row blocks of the neighbour mean, the features and the residual;
  windows 3-8 the whole weights, bias, scale, shift and slope; window 9 the output's 1000-row block.
-/
import proofs.«171848_j82592221102604_1_alg».proof.Proof.Gen.Kernel.Launch
import proofs.«171848_j82592221102604_1_alg».proof.Proof.Gen.Kernel.Skeleton
import proofs.«171848_j82592221102604_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or carried over. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or carried over. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or carried over. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or carried over. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or carried over. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or carried over. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or carried over. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or carried over. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or carried over. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rA2 : Rect S1000x512 := Rect.unit (s := S1000x512) ![0, 0] S1000x512.size inb_S1000x512_S1000x512_0_0
abbrev rW2 : Rect S512x512 := Rect.unit (s := S512x512) ![0, 0] S512x512.size inb_S512x512_S512x512_0_0
abbrev rV2 : Rect S512 := Rect.unit (s := S512) ![0] S512.size inb_S512_S512_0
abbrev rS2 : Rect S1 := Rect.unit (s := S1) ![0] S1.size inb_S1_S1_0

/-- The output window's staging buffer after the body: its one store, the layer's arithmetic on the input blocks. -/
def out2_9 (x0 : Vec F S1000x512 .f32) (x1 : Vec F S1000x512 .f32) (x2 : Vec F S1000x512 .f32) (x3 : Vec F S512x512 .f32) (x4 : Vec F S512 .f32) (x5 : Vec F S512x512 .f32) (x6 : Vec F S512 .f32) (x7 : Vec F S512 .f32) (x8 : Vec F S1 .f32) : Vec F S1000x512 .f32 :=
  View.canon [⟨rA2, k2_pay1 (k2_pay4 (View.ld x0 rA2) (View.ld x1 rA2) (View.ld x3 rW2) (View.ld x5 rW2) (View.ld x4 rV2) (View.ld x2 rA2)) (k2_pay5 (View.ld x6 rV2)) (k2_pay6 (View.ld x7 rV2)) (k2_pay7 (View.ld x0 rA2) (View.ld x1 rA2) (View.ld x3 rW2) (View.ld x5 rW2) (View.ld x4 rV2) (View.ld x2 rA2)) (Scalar.ofBits .f32 0x3727C5AC#32) (View.ld x8 rS2)⟩]

/-- The store covers the buffer. -/
theorem cover2_9 (p0 : Vec F S1000x512 .f32) (y : S1000x512.Idx) :
    ∃ pc ∈ ([⟨rA2, p0⟩] : List (View.Piece (Elt F) S1000x512 .f32)), y ∈ pc.1.set :=
  View.cover_of_tiled [⟨rA2, p0⟩] S1000x512.size (by rfl) y

set_option maxHeartbeats 4000000 in
/-- The body on whole staging memrefs, the inputs' at contents `xW` and the output's at anything, runs to the
    continuation holding the inputs' as they were and the output's at `out2_9` of the inputs'. -/
theorem sound_kernel2 (c : Dev nD) (E : Set ℕ) (i : grid2.Coords) (arg0 : Memref sig .tc .vmem S1000x512 .f32) (harg0 : arg0.IsWhole) (arg1 : Memref sig .tc .vmem S1000x512 .f32) (harg1 : arg1.IsWhole) (arg2 : Memref sig .tc .vmem S1000x512 .f32) (harg2 : arg2.IsWhole) (arg3 : Memref sig .tc .vmem S512x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512 .f32) (harg7 : arg7.IsWhole) (arg8 : Memref sig .tc .vmem S1 .f32) (harg8 : arg8.IsWhole) (arg9 : Memref sig .tc .vmem S1000x512 .f32) (harg9 : arg9.IsWhole)
    (x0 : Vec F S1000x512 .f32) (x1 : Vec F S1000x512 .f32) (x2 : Vec F S1000x512 .f32) (x3 : Vec F S512x512 .f32) (x4 : Vec F S512 .f32) (x5 : Vec F S512x512 .f32) (x6 : Vec F S512 .f32) (x7 : Vec F S512 .f32) (x8 : Vec F S1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out2_9 x0 x1 x2 x3 x4 x5 x6 x7 x8)) -∗ K ⟨⟩))
      ⊢ wp frame (wpE (defs₀ (F := F)) Variants.none c none) E (cc2__layer_kernel i arg0 harg0 arg1 harg1 arg2 harg2 arg3 harg3 arg4 harg4 arg5 harg5 arg6 harg6 arg7 harg7 arg8 harg8 arg9 harg9) K := by
  simp only [cc2__layer_kernel_eq_skeleton]; unfold cc2__layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover2_9 _)

/-- The proof data of pipeline 2 on core `c`: the arrays as the region finds them; after the body at point `t` each
    input's buffer at its block and the output's at `out2_9` of the input blocks; the scoped rest and the generator
    register pass through untouched; nothing owed; the features and the residual are one array, read by windows 1 and 2 at the two halves of its share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q w := match w with
    | ⟨1, _⟩ => fullShare.left
    | ⟨2, _⟩ => fullShare.right
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' staging buffers hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KShared2.lean ====
/-
  In layers two and three the features and the residual are ONE array, read through two windows. The region's ten windows
  stand on nine buffers; at the region's entry that array's buffer, held whole, is split into the two halves of its share,
  one for each of its two windows, and at the exit the halves are joined again.
-/
import proofs.«171848_j82592221102604_1_alg».proof.Proof.KRegion2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Region 2's ten windows stand on nine buffers: the features and the residual are one array. -/
theorem bigSep_A2 {M : Type} [URA M] (Φ : Ref sig .tc → sProp M) :
    bigSep (Finset.univ.image (Pipeline.arrRef spec2)) Φ = iprop(Φ main_v64 ∗ Φ main_v46 ∗ Φ main_v65 ∗ Φ main_arg13 ∗ Φ main_v66 ∗ Φ main_arg15 ∗ Φ main_arg16 ∗ Φ main_arg17 ∗ Φ main_v67) :=
  bigSep_eq_bigSepL_of_eq [main_v64, main_v46, main_v65, main_arg13, main_v66, main_arg15, main_arg16, main_arg17, main_v67] (by decide) (by decide) Φ

theorem share2_0 (c : Dev nD) : (dat2 V c).share 0 = fullShare := rfl
theorem share2_1 (c : Dev nD) : (dat2 V c).share 1 = fullShare.left := rfl
theorem share2_2 (c : Dev nD) : (dat2 V c).share 2 = fullShare.right := rfl
theorem share2_3 (c : Dev nD) : (dat2 V c).share 3 = fullShare := rfl
theorem share2_4 (c : Dev nD) : (dat2 V c).share 4 = fullShare := rfl
theorem share2_5 (c : Dev nD) : (dat2 V c).share 5 = fullShare := rfl
theorem share2_6 (c : Dev nD) : (dat2 V c).share 6 = fullShare := rfl
theorem share2_7 (c : Dev nD) : (dat2 V c).share 7 = fullShare := rfl
theorem share2_8 (c : Dev nD) : (dat2 V c).share 8 = fullShare := rfl
theorem share2_9 (c : Dev nD) : (dat2 V c).share 9 = fullShare := rfl

set_option maxHeartbeats 8000000 in
/-- The windowed arrays one by one, each a whole buffer at its window's share. -/
theorem arrays2_chain (c : Dev nD) (G : (w : Fin cfg2.W) → Buf (Elt F) ((cfg2.win w).arr.view.loc (c.tc : Thread nD τ))) :
    ((dat2 V c).arrays G : sProp 𝕄)
      = iprop((((c.tc : Thread nD τ).loc (Pipeline.arrRef spec2 0)) ↦{fullShare} G 0)
        ∗ (((c.tc : Thread nD τ).loc (Pipeline.arrRef spec2 1)) ↦{fullShare.left} G 1)
        ∗ (((c.tc : Thread nD τ).loc (Pipeline.arrRef spec2 2)) ↦{fullShare.right} G 2)
        ∗ (((c.tc : Thread nD τ).loc (Pipeline.arrRef spec2 3)) ↦{fullShare} G 3)
        ∗ (((c.tc : Thread nD τ).loc (Pipeline.arrRef spec2 4)) ↦{fullShare} G 4)
        ∗ (((c.tc : Thread nD τ).loc (Pipeline.arrRef spec2 5)) ↦{fullShare} G 5)
        ∗ (((c.tc : Thread nD τ).loc (Pipeline.arrRef spec2 6)) ↦{fullShare} G 6)
        ∗ (((c.tc : Thread nD τ).loc (Pipeline.arrRef spec2 7)) ↦{fullShare} G 7)
        ∗ (((c.tc : Thread nD τ).loc (Pipeline.arrRef spec2 8)) ↦{fullShare} G 8)
        ∗ (((c.tc : Thread nD τ).loc (Pipeline.arrRef spec2 9)) ↦{fullShare} G 9)) := by
  have h : ((dat2 V c).arrays G : sProp 𝕄)
      = bigSep Finset.univ fun w => (((c.tc : Thread nD τ).loc (Pipeline.arrRef spec2 w)) ↦{(dat2 V c).share w} G w : sProp 𝕄) := by
    unfold Dat.arrays
    exact bigSep_congr fun w _ => by rw [(arr_whole2 w).set_eq_univ]
  rw [h, bigSep_W2, share2_0, share2_1, share2_2, share2_3, share2_4, share2_5, share2_6, share2_7, share2_8, share2_9]

set_option maxHeartbeats 8000000 in
/-- ENTRY: the nine buffers, each whole at the full share at the entry contents, are the ten windows' arrays — the shared
    array split into the two halves of its share, one for each of its two windows. -/
theorem split2 (c : Dev nD) :
    (Pipeline.arrBufs (Ix := Unit) (Name := ℕ) (U := UR sig nD τ) (Lvl := ℕ) spec2 c (V c) : sProp 𝕄)
      ⊢ (dat2 V c).arrays ((dat2 V c).arrAt · 0) := by
  rw [arrays2_chain]
  unfold Pipeline.arrBufs
  rw [bigSep_A2]
  iintro ⟨H0, H1, H3, H4, H5, H6, H7, H8, H9⟩
  ihave H12 := (pointsTo_share (PosShare.mem_left_op_right fullShare)).1 $$ H1
  icases H12 with ⟨H1, H2⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 8000000 in
/-- EXIT: the ten windows' arrays at their final contents are the nine buffers at any contents `V'` that has the output
    array as the pipeline leaves it and every input array as entered — the two halves of the shared array joined. -/
theorem join2 (c : Dev nD) (V' : (b : Ref sig .tc) → Buf (Elt F) ((c : Thread nD τ).loc b))
    (hF : ∀ w, (dat2 V c).arrAt w cfg2.N = V' (Pipeline.arrRef spec2 w)) :
    ((dat2 V c).arrays ((dat2 V c).arrAt · cfg2.N) : sProp 𝕄)
      ⊢ Pipeline.arrBufs (Ix := Unit) (Name := ℕ) (U := UR sig nD τ) (Lvl := ℕ) spec2 c V' := by
  rw [show ((dat2 V c).arrAt · cfg2.N) = (fun w => V' (Pipeline.arrRef spec2 w)) from funext hF, arrays2_chain]
  unfold Pipeline.arrBufs
  rw [bigSep_A2]
  iintro ⟨H0, H1, H2, H3, H4, H5, H6, H7, H8, H9⟩
  isplitl [H0]; · iexact H0
  isplitl [H1 H2]
  · iapply (pointsTo_share (PosShare.mem_left_op_right fullShare)).2
    isplitl [H1]; · iexact H1
    iexact H2
  isplitl [H3]; · iexact H3
  isplitl [H4]; · iexact H4
  isplitl [H5]; · iexact H5
  isplitl [H6]; · iexact H6
  isplitl [H7]; · iexact H7
  isplitl [H8]; · iexact H8
  iexact H9

end Cert.Kernel.Hand

end
-- ==== Proof.KRegion0.lean ====
/-
  Region 0 of @main, one layer's kernel, at a parameter `V` for the buffer contents the region is entered from:
  each window's block at a grid point, what the body leaves in the output window's staging buffer (its one store,
  the layer's arithmetic on the nine input blocks), the body's triple, the pipeline's proof data and the body
  obligation at every point. Windows 0-2 are the 1000-row blocks of the neighbour mean, the features and the residual;
  windows 3-8 the whole weights, bias, scale, shift and slope; window 9 the output's 1000-row block.
-/
import proofs.«171848_j82592221102604_1_alg».proof.Proof.Gen.Kernel.Launch
import proofs.«171848_j82592221102604_1_alg».proof.Proof.Gen.Kernel.Skeleton
import proofs.«171848_j82592221102604_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or carried over. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or carried over. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or carried over. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or carried over. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or carried over. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or carried over. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or carried over. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or carried over. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or carried over. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rA0 : Rect S1000x512 := Rect.unit (s := S1000x512) ![0, 0] S1000x512.size inb_S1000x512_S1000x512_0_0
abbrev rW0 : Rect S512x512 := Rect.unit (s := S512x512) ![0, 0] S512x512.size inb_S512x512_S512x512_0_0
abbrev rV0 : Rect S512 := Rect.unit (s := S512) ![0] S512.size inb_S512_S512_0
abbrev rS0 : Rect S1 := Rect.unit (s := S1) ![0] S1.size inb_S1_S1_0

/-- The output window's staging buffer after the body: its one store, the layer's arithmetic on the input blocks. -/
def out0_9 (x0 : Vec F S1000x512 .f32) (x1 : Vec F S1000x512 .f32) (x2 : Vec F S1000x512 .f32) (x3 : Vec F S512x512 .f32) (x4 : Vec F S512 .f32) (x5 : Vec F S512x512 .f32) (x6 : Vec F S512 .f32) (x7 : Vec F S512 .f32) (x8 : Vec F S1 .f32) : Vec F S1000x512 .f32 :=
  View.canon [⟨rA0, k0_pay1 (k0_pay4 (View.ld x0 rA0) (View.ld x1 rA0) (View.ld x3 rW0) (View.ld x5 rW0) (View.ld x4 rV0) (View.ld x2 rA0)) (k0_pay5 (View.ld x6 rV0)) (k0_pay6 (View.ld x7 rV0)) (k0_pay7 (View.ld x0 rA0) (View.ld x1 rA0) (View.ld x3 rW0) (View.ld x5 rW0) (View.ld x4 rV0) (View.ld x2 rA0)) k0_pay8 (View.ld x8 rS0)⟩]

/-- The store covers the buffer. -/
theorem cover0_9 (p0 : Vec F S1000x512 .f32) (y : S1000x512.Idx) :
    ∃ pc ∈ ([⟨rA0, p0⟩] : List (View.Piece (Elt F) S1000x512 .f32)), y ∈ pc.1.set :=
  View.cover_of_tiled [⟨rA0, p0⟩] S1000x512.size (by rfl) y

set_option maxHeartbeats 4000000 in
/-- The body on whole staging memrefs, the inputs' at contents `xW` and the output's at anything, runs to the
    continuation holding the inputs' as they were and the output's at `out0_9` of the inputs'. -/
theorem sound_kernel0 (c : Dev nD) (E : Set ℕ) (i : grid0.Coords) (arg0 : Memref sig .tc .vmem S1000x512 .f32) (harg0 : arg0.IsWhole) (arg1 : Memref sig .tc .vmem S1000x512 .f32) (harg1 : arg1.IsWhole) (arg2 : Memref sig .tc .vmem S1000x512 .f32) (harg2 : arg2.IsWhole) (arg3 : Memref sig .tc .vmem S512x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512 .f32) (harg7 : arg7.IsWhole) (arg8 : Memref sig .tc .vmem S1 .f32) (harg8 : arg8.IsWhole) (arg9 : Memref sig .tc .vmem S1000x512 .f32) (harg9 : arg9.IsWhole)
    (x0 : Vec F S1000x512 .f32) (x1 : Vec F S1000x512 .f32) (x2 : Vec F S1000x512 .f32) (x3 : Vec F S512x512 .f32) (x4 : Vec F S512 .f32) (x5 : Vec F S512x512 .f32) (x6 : Vec F S512 .f32) (x7 : Vec F S512 .f32) (x8 : Vec F S1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out0_9 x0 x1 x2 x3 x4 x5 x6 x7 x8)) -∗ K ⟨⟩))
      ⊢ wp frame (wpE (defs₀ (F := F)) Variants.none c none) E (cc0__layer_kernel i arg0 harg0 arg1 harg1 arg2 harg2 arg3 harg3 arg4 harg4 arg5 harg5 arg6 harg6 arg7 harg7 arg8 harg8 arg9 harg9) K := by
  simp only [cc0__layer_kernel_eq_skeleton]; unfold cc0__layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0_9 _)

/-- The proof data of pipeline 0 on core `c`: the arrays as the region finds them; after the body at point `t` each
    input's buffer at its block and the output's at `out0_9` of the input blocks; the scoped rest and the generator
    register pass through untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' staging buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBounds.lean ====
/-
  What core `c`'s unscoped buffers hold after j of @main's six items (`Bj c`): a host stretch's operations applied to the
  contents before it; a region's output array at what its write-backs leave, every other buffer as the region found it. At a
  region's exit each input array holds what it held at entry; the argument arrays reach the end as launched.
-/
import proofs.«171848_j82592221102604_1_alg».proof.Proof.KRegion0
import proofs.«171848_j82592221102604_1_alg».proof.Proof.KRegion1
import proofs.«171848_j82592221102604_1_alg».proof.Proof.KRegion2
import proofs.«171848_j82592221102604_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev B0 : Dev nD → Valuation τ sig (Elt F) := fun c b => (s₀ m ρ).mem ((c : Dev nD), b)
abbrev B1 : Dev nD → Valuation τ sig (Elt F) := fun c => StableHlo.after hostOps0 (B0 m ρ c)
abbrev C1 : (c : Dev nD) → (b : Ref sig .tc) → Buf (Elt F) ((c : Thread nD τ).loc b) := fun c b => B1 m ρ c b
def B2 (c : Dev nD) : Valuation τ sig (Elt F) :=
  Function.update (B1 m ρ c) (Proc.devRef .tc main_v25) ((dat0 (C1 m ρ) c).arrAt 9 cfg0.N)
abbrev C2 : (c : Dev nD) → (b : Ref sig .tc) → Buf (Elt F) ((c : Thread nD τ).loc b) := fun c b => B2 m ρ c b
abbrev B3 : Dev nD → Valuation τ sig (Elt F) := fun c => StableHlo.after hostOps1 (B2 m ρ c)
abbrev C3 : (c : Dev nD) → (b : Ref sig .tc) → Buf (Elt F) ((c : Thread nD τ).loc b) := fun c b => B3 m ρ c b
def B4 (c : Dev nD) : Valuation τ sig (Elt F) :=
  Function.update (B3 m ρ c) (Proc.devRef .tc main_v46) ((dat1 (C3 m ρ) c).arrAt 9 cfg1.N)
abbrev C4 : (c : Dev nD) → (b : Ref sig .tc) → Buf (Elt F) ((c : Thread nD τ).loc b) := fun c b => B4 m ρ c b
abbrev B5 : Dev nD → Valuation τ sig (Elt F) := fun c => StableHlo.after hostOps2 (B4 m ρ c)
abbrev C5 : (c : Dev nD) → (b : Ref sig .tc) → Buf (Elt F) ((c : Thread nD τ).loc b) := fun c b => B5 m ρ c b
def B6 (c : Dev nD) : Valuation τ sig (Elt F) :=
  Function.update (B5 m ρ c) (Proc.devRef .tc main_v67) ((dat2 (C5 m ρ) c).arrAt 9 cfg2.N)
abbrev C6 : (c : Dev nD) → (b : Ref sig .tc) → Buf (Elt F) ((c : Thread nD τ).loc b) := fun c b => B6 m ρ c b

theorem B2_out (c : Dev nD) : B2 m ρ c (Proc.devRef .tc main_v25) = (dat0 (C1 m ρ) c).arrAt 9 cfg0.N := by
  unfold B2; exact Function.update_self ..
theorem B2_of_ne (c : Dev nD) (b : Ref sig .tc) (hb : b ≠ main_v25) : B2 m ρ c (Proc.devRef .tc b) = B1 m ρ c (Proc.devRef .tc b) := by
  unfold B2; exact Function.update_of_ne (StableHlo.devRef_ne_of_ne hb) _ _
set_option maxHeartbeats 8000000 in
/-- At region 0's exit its output array holds what the pipeline leaves and each input array what it held at entry. -/
theorem hF0 (c : Dev nD) : ∀ w : Fin cfg0.W, (dat0 (C1 m ρ) c).arrAt w cfg0.N = C2 m ρ c (Pipeline.arrRef spec0 w)
  | ⟨0, _⟩ => (((dat0 (C1 m ρ) c).arrAt_in 0 rfl _).trans (A_eq0 (C1 m ρ) c 0)).trans (B2_of_ne m ρ c _ (by decide)).symm
  | ⟨1, _⟩ => (((dat0 (C1 m ρ) c).arrAt_in 1 rfl _).trans (A_eq0 (C1 m ρ) c 1)).trans (B2_of_ne m ρ c _ (by decide)).symm
  | ⟨2, _⟩ => (((dat0 (C1 m ρ) c).arrAt_in 2 rfl _).trans (A_eq0 (C1 m ρ) c 2)).trans (B2_of_ne m ρ c _ (by decide)).symm
  | ⟨3, _⟩ => (((dat0 (C1 m ρ) c).arrAt_in 3 rfl _).trans (A_eq0 (C1 m ρ) c 3)).trans (B2_of_ne m ρ c _ (by decide)).symm
  | ⟨4, _⟩ => (((dat0 (C1 m ρ) c).arrAt_in 4 rfl _).trans (A_eq0 (C1 m ρ) c 4)).trans (B2_of_ne m ρ c _ (by decide)).symm
  | ⟨5, _⟩ => (((dat0 (C1 m ρ) c).arrAt_in 5 rfl _).trans (A_eq0 (C1 m ρ) c 5)).trans (B2_of_ne m ρ c _ (by decide)).symm
  | ⟨6, _⟩ => (((dat0 (C1 m ρ) c).arrAt_in 6 rfl _).trans (A_eq0 (C1 m ρ) c 6)).trans (B2_of_ne m ρ c _ (by decide)).symm
  | ⟨7, _⟩ => (((dat0 (C1 m ρ) c).arrAt_in 7 rfl _).trans (A_eq0 (C1 m ρ) c 7)).trans (B2_of_ne m ρ c _ (by decide)).symm
  | ⟨8, _⟩ => (((dat0 (C1 m ρ) c).arrAt_in 8 rfl _).trans (A_eq0 (C1 m ρ) c 8)).trans (B2_of_ne m ρ c _ (by decide)).symm
  | ⟨9, _⟩ => (B2_out m ρ c).symm
theorem hrest0 (c : Dev nD) : ∀ b, b ∉ Finset.univ.image (Pipeline.arrRef spec0) → C2 m ρ c b = C1 m ρ c b :=
  fun b hb => B2_of_ne m ρ c b fun e => hb (e ▸ Finset.mem_image.mpr ⟨9, Finset.mem_univ _, rfl⟩)

theorem B4_out (c : Dev nD) : B4 m ρ c (Proc.devRef .tc main_v46) = (dat1 (C3 m ρ) c).arrAt 9 cfg1.N := by
  unfold B4; exact Function.update_self ..
theorem B4_of_ne (c : Dev nD) (b : Ref sig .tc) (hb : b ≠ main_v46) : B4 m ρ c (Proc.devRef .tc b) = B3 m ρ c (Proc.devRef .tc b) := by
  unfold B4; exact Function.update_of_ne (StableHlo.devRef_ne_of_ne hb) _ _
set_option maxHeartbeats 8000000 in
/-- At region 1's exit its output array holds what the pipeline leaves and each input array what it held at entry. -/
theorem hF1 (c : Dev nD) : ∀ w : Fin cfg1.W, (dat1 (C3 m ρ) c).arrAt w cfg1.N = C4 m ρ c (Pipeline.arrRef spec1 w)
  | ⟨0, _⟩ => (((dat1 (C3 m ρ) c).arrAt_in 0 rfl _).trans (A_eq1 (C3 m ρ) c 0)).trans (B4_of_ne m ρ c _ (by decide)).symm
  | ⟨1, _⟩ => (((dat1 (C3 m ρ) c).arrAt_in 1 rfl _).trans (A_eq1 (C3 m ρ) c 1)).trans (B4_of_ne m ρ c _ (by decide)).symm
  | ⟨2, _⟩ => (((dat1 (C3 m ρ) c).arrAt_in 2 rfl _).trans (A_eq1 (C3 m ρ) c 2)).trans (B4_of_ne m ρ c _ (by decide)).symm
  | ⟨3, _⟩ => (((dat1 (C3 m ρ) c).arrAt_in 3 rfl _).trans (A_eq1 (C3 m ρ) c 3)).trans (B4_of_ne m ρ c _ (by decide)).symm
  | ⟨4, _⟩ => (((dat1 (C3 m ρ) c).arrAt_in 4 rfl _).trans (A_eq1 (C3 m ρ) c 4)).trans (B4_of_ne m ρ c _ (by decide)).symm
  | ⟨5, _⟩ => (((dat1 (C3 m ρ) c).arrAt_in 5 rfl _).trans (A_eq1 (C3 m ρ) c 5)).trans (B4_of_ne m ρ c _ (by decide)).symm
  | ⟨6, _⟩ => (((dat1 (C3 m ρ) c).arrAt_in 6 rfl _).trans (A_eq1 (C3 m ρ) c 6)).trans (B4_of_ne m ρ c _ (by decide)).symm
  | ⟨7, _⟩ => (((dat1 (C3 m ρ) c).arrAt_in 7 rfl _).trans (A_eq1 (C3 m ρ) c 7)).trans (B4_of_ne m ρ c _ (by decide)).symm
  | ⟨8, _⟩ => (((dat1 (C3 m ρ) c).arrAt_in 8 rfl _).trans (A_eq1 (C3 m ρ) c 8)).trans (B4_of_ne m ρ c _ (by decide)).symm
  | ⟨9, _⟩ => (B4_out m ρ c).symm
theorem hrest1 (c : Dev nD) : ∀ b, b ∉ Finset.univ.image (Pipeline.arrRef spec1) → C4 m ρ c b = C3 m ρ c b :=
  fun b hb => B4_of_ne m ρ c b fun e => hb (e ▸ Finset.mem_image.mpr ⟨9, Finset.mem_univ _, rfl⟩)

theorem B6_out (c : Dev nD) : B6 m ρ c (Proc.devRef .tc main_v67) = (dat2 (C5 m ρ) c).arrAt 9 cfg2.N := by
  unfold B6; exact Function.update_self ..
theorem B6_of_ne (c : Dev nD) (b : Ref sig .tc) (hb : b ≠ main_v67) : B6 m ρ c (Proc.devRef .tc b) = B5 m ρ c (Proc.devRef .tc b) := by
  unfold B6; exact Function.update_of_ne (StableHlo.devRef_ne_of_ne hb) _ _
set_option maxHeartbeats 8000000 in
/-- At region 2's exit its output array holds what the pipeline leaves and each input array what it held at entry. -/
theorem hF2 (c : Dev nD) : ∀ w : Fin cfg2.W, (dat2 (C5 m ρ) c).arrAt w cfg2.N = C6 m ρ c (Pipeline.arrRef spec2 w)
  | ⟨0, _⟩ => (((dat2 (C5 m ρ) c).arrAt_in 0 rfl _).trans (A_eq2 (C5 m ρ) c 0)).trans (B6_of_ne m ρ c _ (by decide)).symm
  | ⟨1, _⟩ => (((dat2 (C5 m ρ) c).arrAt_in 1 rfl _).trans (A_eq2 (C5 m ρ) c 1)).trans (B6_of_ne m ρ c _ (by decide)).symm
  | ⟨2, _⟩ => (((dat2 (C5 m ρ) c).arrAt_in 2 rfl _).trans (A_eq2 (C5 m ρ) c 2)).trans (B6_of_ne m ρ c _ (by decide)).symm
  | ⟨3, _⟩ => (((dat2 (C5 m ρ) c).arrAt_in 3 rfl _).trans (A_eq2 (C5 m ρ) c 3)).trans (B6_of_ne m ρ c _ (by decide)).symm
  | ⟨4, _⟩ => (((dat2 (C5 m ρ) c).arrAt_in 4 rfl _).trans (A_eq2 (C5 m ρ) c 4)).trans (B6_of_ne m ρ c _ (by decide)).symm
  | ⟨5, _⟩ => (((dat2 (C5 m ρ) c).arrAt_in 5 rfl _).trans (A_eq2 (C5 m ρ) c 5)).trans (B6_of_ne m ρ c _ (by decide)).symm
  | ⟨6, _⟩ => (((dat2 (C5 m ρ) c).arrAt_in 6 rfl _).trans (A_eq2 (C5 m ρ) c 6)).trans (B6_of_ne m ρ c _ (by decide)).symm
  | ⟨7, _⟩ => (((dat2 (C5 m ρ) c).arrAt_in 7 rfl _).trans (A_eq2 (C5 m ρ) c 7)).trans (B6_of_ne m ρ c _ (by decide)).symm
  | ⟨8, _⟩ => (((dat2 (C5 m ρ) c).arrAt_in 8 rfl _).trans (A_eq2 (C5 m ρ) c 8)).trans (B6_of_ne m ρ c _ (by decide)).symm
  | ⟨9, _⟩ => (B6_out m ρ c).symm
theorem hrest2 (c : Dev nD) : ∀ b, b ∉ Finset.univ.image (Pipeline.arrRef spec2) → C6 m ρ c b = C5 m ρ c b :=
  fun b hb => B6_of_ne m ρ c b fun e => hb (e ▸ Finset.mem_image.mpr ⟨9, Finset.mem_univ _, rfl⟩)

/-! ## The arguments end as launched: no stretch writes one and no region's output is one -/

theorem B6_main_arg0 (c : Dev nD) : B6 m ρ c (Proc.devRef .tc main_arg0) = m ((c : Thread nD τ).loc main_arg0) :=
  (B6_of_ne m ρ c main_arg0 (by decide)).trans <| (StableHlo.after_of_writes_sub hostOps2 _ hostOps2_writes (by decide : main_arg0 ∉ hostOps2_W)).trans <|
  (B4_of_ne m ρ c main_arg0 (by decide)).trans <| (StableHlo.after_of_writes_sub hostOps1 _ hostOps1_writes (by decide : main_arg0 ∉ hostOps1_W)).trans <|
  (B2_of_ne m ρ c main_arg0 (by decide)).trans <| (StableHlo.after_of_writes_sub hostOps0 _ hostOps0_writes (by decide : main_arg0 ∉ hostOps0_W)).trans rfl
theorem B6_main_arg1 (c : Dev nD) : B6 m ρ c (Proc.devRef .tc main_arg1) = m ((c : Thread nD τ).loc main_arg1) :=
  (B6_of_ne m ρ c main_arg1 (by decide)).trans <| (StableHlo.after_of_writes_sub hostOps2 _ hostOps2_writes (by decide : main_arg1 ∉ hostOps2_W)).trans <|
  (B4_of_ne m ρ c main_arg1 (by decide)).trans <| (StableHlo.after_of_writes_sub hostOps1 _ hostOps1_writes (by decide : main_arg1 ∉ hostOps1_W)).trans <|
  (B2_of_ne m ρ c main_arg1 (by decide)).trans <| (StableHlo.after_of_writes_sub hostOps0 _ hostOps0_writes (by decide : main_arg1 ∉ hostOps0_W)).trans rfl
theorem B6_main_arg2 (c : Dev nD) : B6 m ρ c (Proc.devRef .tc main_arg2) = m ((c : Thread nD τ).loc main_arg2) :=
  (B6_of_ne m ρ c main_arg2 (by decide)).trans <| (StableHlo.after_of_writes_sub hostOps2 _ hostOps2_writes (by decide : main_arg2 ∉ hostOps2_W)).trans <|
  (B4_of_ne m ρ c main_arg2 (by decide)).trans <| (StableHlo.after_of_writes_sub hostOps1 _ hostOps1_writes (by decide : main_arg2 ∉ hostOps1_W)).trans <|
  (B2_of_ne m ρ c main_arg2 (by decide)).trans <| (StableHlo.after_of_writes_sub hostOps0 _ hostOps0_writes (by decide : main_arg2 ∉ hostOps0_W)).trans rfl
theorem B6_main_arg3 (c : Dev nD) : B6 m ρ c (Proc.devRef .tc main_arg3) = m ((c : Thread nD τ).loc main_arg3) :=
  (B6_of_ne m ρ c main_arg3 (by decide)).trans <| (StableHlo.after_of_writes_sub hostOps2 _ hostOps2_writes (by decide : main_arg3 ∉ hostOps2_W)).trans <|
  (B4_of_ne m ρ c main_arg3 (by decide)).trans <| (StableHlo.after_of_writes_sub hostOps1 _ hostOps1_writes (by decide : main_arg3 ∉ hostOps1_W)).trans <|
  (B2_of_ne m ρ c main_arg3 (by decide)).trans <| (StableHlo.after_of_writes_sub hostOps0 _ hostOps0_writes (by decide : main_arg3 ∉ hostOps0_W)).trans rfl
theorem B6_main_arg4 (c : Dev nD) : B6 m ρ c (Proc.devRef .tc main_arg4) = m ((c : Thread nD τ).loc main_arg4) :=
  (B6_of_ne m ρ c main_arg4 (by decide)).trans <| (StableHlo.after_of_writes_sub hostOps2 _ hostOps2_writes (by decide : main_arg4 ∉ hostOps2_W)).trans <|
  (B4_of_ne m ρ c main_arg4 (by decide)).trans <| (StableHlo.after_of_writes_sub hostOps1 _ hostOps1_writes (by decide : main_arg4 ∉ hostOps1_W)).trans <|
  (B2_of_ne m ρ c main_arg4 (by decide)).trans <| (StableHlo.after_of_writes_sub hostOps0 _ hostOps0_writes (by decide : main_arg4 ∉ hostOps0_W)).trans rfl
theorem B6_main_arg5 (c : Dev nD) : B6 m ρ c (Proc.devRef .tc main_arg5) = m ((c : Thread nD τ).loc main_arg5) :=
  (B6_of_ne m ρ c main_arg5 (by decide)).trans <| (StableHlo.after_of_writes_sub hostOps2 _ hostOps2_writes (by decide : main_arg5 ∉ hostOps2_W)).trans <|
  (B4_of_ne m ρ c main_arg5 (by decide)).trans <| (StableHlo.after_of_writes_sub hostOps1 _ hostOps1_writes (by decide : main_arg5 ∉ hostOps1_W)).trans <|
  (B2_of_ne m ρ c main_arg5 (by decide)).trans <| (StableHlo.after_of_writes_sub hostOps0 _ hostOps0_writes (by decide : main_arg5 ∉ hostOps0_W)).trans rfl
theorem B6_main_arg6 (c : Dev nD) : B6 m ρ c (Proc.devRef .tc main_arg6) = m ((c : Thread nD τ).loc main_arg6) :=
  (B6_of_ne m ρ c main_arg6 (by decide)).trans <| (StableHlo.after_of_writes_sub hostOps2 _ hostOps2_writes (by decide : main_arg6 ∉ hostOps2_W)).trans <|
  (B4_of_ne m ρ c main_arg6 (by decide)).trans <| (StableHlo.after_of_writes_sub hostOps1 _ hostOps1_writes (by decide : main_arg6 ∉ hostOps1_W)).trans <|
  (B2_of_ne m ρ c main_arg6 (by decide)).trans <| (StableHlo.after_of_writes_sub hostOps0 _ hostOps0_writes (by decide : main_arg6 ∉ hostOps0_W)).trans rfl
theorem B6_main_arg7 (c : Dev nD) : B6 m ρ c (Proc.devRef .tc main_arg7) = m ((c : Thread nD τ).loc main_arg7) :=
  (B6_of_ne m ρ c main_arg7 (by decide)).trans <| (StableHlo.after_of_writes_sub hostOps2 _ hostOps2_writes (by decide : main_arg7 ∉ hostOps2_W)).trans <|
  (B4_of_ne m ρ c main_arg7 (by decide)).trans <| (StableHlo.after_of_writes_sub hostOps1 _ hostOps1_writes (by decide : main_arg7 ∉ hostOps1_W)).trans <|
  (B2_of_ne m ρ c main_arg7 (by decide)).trans <| (StableHlo.after_of_writes_sub hostOps0 _ hostOps0_writes (by decide : main_arg7 ∉ hostOps0_W)).trans rfl
theorem B6_main_arg8 (c : Dev nD) : B6 m ρ c (Proc.devRef .tc main_arg8) = m ((c : Thread nD τ).loc main_arg8) :=
  (B6_of_ne m ρ c main_arg8 (by decide)).trans <| (StableHlo.after_of_writes_sub hostOps2 _ hostOps2_writes (by decide : main_arg8 ∉ hostOps2_W)).trans <|
  (B4_of_ne m ρ c main_arg8 (by decide)).trans <| (StableHlo.after_of_writes_sub hostOps1 _ hostOps1_writes (by decide : main_arg8 ∉ hostOps1_W)).trans <|
  (B2_of_ne m ρ c main_arg8 (by decide)).trans <| (StableHlo.after_of_writes_sub hostOps0 _ hostOps0_writes (by decide : main_arg8 ∉ hostOps0_W)).trans rfl
theorem B6_main_arg9 (c : Dev nD) : B6 m ρ c (Proc.devRef .tc main_arg9) = m ((c : Thread nD τ).loc main_arg9) :=
  (B6_of_ne m ρ c main_arg9 (by decide)).trans <| (StableHlo.after_of_writes_sub hostOps2 _ hostOps2_writes (by decide : main_arg9 ∉ hostOps2_W)).trans <|
  (B4_of_ne m ρ c main_arg9 (by decide)).trans <| (StableHlo.after_of_writes_sub hostOps1 _ hostOps1_writes (by decide : main_arg9 ∉ hostOps1_W)).trans <|
  (B2_of_ne m ρ c main_arg9 (by decide)).trans <| (StableHlo.after_of_writes_sub hostOps0 _ hostOps0_writes (by decide : main_arg9 ∉ hostOps0_W)).trans rfl
theorem B6_main_arg10 (c : Dev nD) : B6 m ρ c (Proc.devRef .tc main_arg10) = m ((c : Thread nD τ).loc main_arg10) :=
  (B6_of_ne m ρ c main_arg10 (by decide)).trans <| (StableHlo.after_of_writes_sub hostOps2 _ hostOps2_writes (by decide : main_arg10 ∉ hostOps2_W)).trans <|
  (B4_of_ne m ρ c main_arg10 (by decide)).trans <| (StableHlo.after_of_writes_sub hostOps1 _ hostOps1_writes (by decide : main_arg10 ∉ hostOps1_W)).trans <|
  (B2_of_ne m ρ c main_arg10 (by decide)).trans <| (StableHlo.after_of_writes_sub hostOps0 _ hostOps0_writes (by decide : main_arg10 ∉ hostOps0_W)).trans rfl
theorem B6_main_arg11 (c : Dev nD) : B6 m ρ c (Proc.devRef .tc main_arg11) = m ((c : Thread nD τ).loc main_arg11) :=
  (B6_of_ne m ρ c main_arg11 (by decide)).trans <| (StableHlo.after_of_writes_sub hostOps2 _ hostOps2_writes (by decide : main_arg11 ∉ hostOps2_W)).trans <|
  (B4_of_ne m ρ c main_arg11 (by decide)).trans <| (StableHlo.after_of_writes_sub hostOps1 _ hostOps1_writes (by decide : main_arg11 ∉ hostOps1_W)).trans <|
  (B2_of_ne m ρ c main_arg11 (by decide)).trans <| (StableHlo.after_of_writes_sub hostOps0 _ hostOps0_writes (by decide : main_arg11 ∉ hostOps0_W)).trans rfl
theorem B6_main_arg12 (c : Dev nD) : B6 m ρ c (Proc.devRef .tc main_arg12) = m ((c : Thread nD τ).loc main_arg12) :=
  (B6_of_ne m ρ c main_arg12 (by decide)).trans <| (StableHlo.after_of_writes_sub hostOps2 _ hostOps2_writes (by decide : main_arg12 ∉ hostOps2_W)).trans <|
  (B4_of_ne m ρ c main_arg12 (by decide)).trans <| (StableHlo.after_of_writes_sub hostOps1 _ hostOps1_writes (by decide : main_arg12 ∉ hostOps1_W)).trans <|
  (B2_of_ne m ρ c main_arg12 (by decide)).trans <| (StableHlo.after_of_writes_sub hostOps0 _ hostOps0_writes (by decide : main_arg12 ∉ hostOps0_W)).trans rfl
theorem B6_main_arg13 (c : Dev nD) : B6 m ρ c (Proc.devRef .tc main_arg13) = m ((c : Thread nD τ).loc main_arg13) :=
  (B6_of_ne m ρ c main_arg13 (by decide)).trans <| (StableHlo.after_of_writes_sub hostOps2 _ hostOps2_writes (by decide : main_arg13 ∉ hostOps2_W)).trans <|
  (B4_of_ne m ρ c main_arg13 (by decide)).trans <| (StableHlo.after_of_writes_sub hostOps1 _ hostOps1_writes (by decide : main_arg13 ∉ hostOps1_W)).trans <|
  (B2_of_ne m ρ c main_arg13 (by decide)).trans <| (StableHlo.after_of_writes_sub hostOps0 _ hostOps0_writes (by decide : main_arg13 ∉ hostOps0_W)).trans rfl
theorem B6_main_arg14 (c : Dev nD) : B6 m ρ c (Proc.devRef .tc main_arg14) = m ((c : Thread nD τ).loc main_arg14) :=
  (B6_of_ne m ρ c main_arg14 (by decide)).trans <| (StableHlo.after_of_writes_sub hostOps2 _ hostOps2_writes (by decide : main_arg14 ∉ hostOps2_W)).trans <|
  (B4_of_ne m ρ c main_arg14 (by decide)).trans <| (StableHlo.after_of_writes_sub hostOps1 _ hostOps1_writes (by decide : main_arg14 ∉ hostOps1_W)).trans <|
  (B2_of_ne m ρ c main_arg14 (by decide)).trans <| (StableHlo.after_of_writes_sub hostOps0 _ hostOps0_writes (by decide : main_arg14 ∉ hostOps0_W)).trans rfl
theorem B6_main_arg15 (c : Dev nD) : B6 m ρ c (Proc.devRef .tc main_arg15) = m ((c : Thread nD τ).loc main_arg15) :=
  (B6_of_ne m ρ c main_arg15 (by decide)).trans <| (StableHlo.after_of_writes_sub hostOps2 _ hostOps2_writes (by decide : main_arg15 ∉ hostOps2_W)).trans <|
  (B4_of_ne m ρ c main_arg15 (by decide)).trans <| (StableHlo.after_of_writes_sub hostOps1 _ hostOps1_writes (by decide : main_arg15 ∉ hostOps1_W)).trans <|
  (B2_of_ne m ρ c main_arg15 (by decide)).trans <| (StableHlo.after_of_writes_sub hostOps0 _ hostOps0_writes (by decide : main_arg15 ∉ hostOps0_W)).trans rfl
theorem B6_main_arg16 (c : Dev nD) : B6 m ρ c (Proc.devRef .tc main_arg16) = m ((c : Thread nD τ).loc main_arg16) :=
  (B6_of_ne m ρ c main_arg16 (by decide)).trans <| (StableHlo.after_of_writes_sub hostOps2 _ hostOps2_writes (by decide : main_arg16 ∉ hostOps2_W)).trans <|
  (B4_of_ne m ρ c main_arg16 (by decide)).trans <| (StableHlo.after_of_writes_sub hostOps1 _ hostOps1_writes (by decide : main_arg16 ∉ hostOps1_W)).trans <|
  (B2_of_ne m ρ c main_arg16 (by decide)).trans <| (StableHlo.after_of_writes_sub hostOps0 _ hostOps0_writes (by decide : main_arg16 ∉ hostOps0_W)).trans rfl
theorem B6_main_arg17 (c : Dev nD) : B6 m ρ c (Proc.devRef .tc main_arg17) = m ((c : Thread nD τ).loc main_arg17) :=
  (B6_of_ne m ρ c main_arg17 (by decide)).trans <| (StableHlo.after_of_writes_sub hostOps2 _ hostOps2_writes (by decide : main_arg17 ∉ hostOps2_W)).trans <|
  (B4_of_ne m ρ c main_arg17 (by decide)).trans <| (StableHlo.after_of_writes_sub hostOps1 _ hostOps1_writes (by decide : main_arg17 ∉ hostOps1_W)).trans <|
  (B2_of_ne m ρ c main_arg17 (by decide)).trans <| (StableHlo.after_of_writes_sub hostOps0 _ hostOps0_writes (by decide : main_arg17 ∉ hostOps0_W)).trans rfl

end Cert.Kernel.Hand

end
-- ==== Proof.KRun.lean ====
/-
  @main's run, item by item: three stretches of host operations (the neighbour mean and the transposed weights of a
  layer) and three kernel regions (the layers). `Bj c` is what core `c`'s unscoped buffers hold after j items: a
  stretch's operations applied to the contents before it; a region's output array at what its write-backs leave
  (`Dat.arrAt … N`), every other buffer as the region found it. The regions are entered from and left at "every unscoped
  buffer at the boundary's contents"; in layers two and three the features and the residual are ONE array read through
  two windows, so that array's buffer is split into the halves of its share at the entry and joined at the exit. The
  last theorem says every weakly fair execution ends with every unscoped buffer at `B6`; the argument arrays reach the
  end as launched.
-/
import proofs.«171848_j82592221102604_1_alg».proof.Proof.KShared1
import proofs.«171848_j82592221102604_1_alg».proof.Proof.KShared2
import proofs.«171848_j82592221102604_1_alg».proof.Proof.KBounds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (C1 m ρ) c
  | ⟨1, _⟩ => fun c => dat1 (C3 m ρ) c
  | ⟨2, _⟩ => fun c => dat2 (C5 m ρ) c
abbrev 𝒱₀ : Variants := Variants.none
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B6 m ρ c) ∗ ∃ r, prngReg c r)

set_option backward.isDefEq.respectTransparency.types false in
/-- REGION 0 over the thread state: entered from every unscoped buffer at `B1`, left at `B2`; the generator register
    into the region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (C1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (C1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (C1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (C1 m ρ c) (C2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `B3`, left at `B4`; the generator register
    into the region's invariant and out; nothing owed; no semaphore of the kernel's own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (C3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (C3 m ρ c)
  hentry c := by
    rw [Pipeline.ownSems0_none]
    have hsplit : (unscopedBufs (Ix := Unit) (Name := ℕ) (U := UR sig nD τ) (Lvl := ℕ) c (C3 m ρ c) : sProp 𝕄)
        ⊢ iprop((pdats m ρ 1 c).arrays ((pdats m ρ 1 c).arrAt · 0) ∗ Pipeline.unscopedRest (Ix := Unit) (Name := ℕ) (U := UR sig nD τ) (Lvl := ℕ) spec1 c (C3 m ρ c)) := by
      rw [Pipeline.unscopedBufs_split₀ (Pipeline.pin (pcfgs (F := F)) adm) 1 winFacts₀1.arr_unscoped c (C3 m ρ c)]
      exact sep_mono (split1 (C3 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest (Ix := Unit) (Name := ℕ) (U := UR sig nD τ) (Lvl := ℕ) spec1 c (C3 m ρ c))
        ⊢ (unscopedBufs (Ix := Unit) (Name := ℕ) (U := UR sig nD τ) (Lvl := ℕ) c (C4 m ρ c) : sProp 𝕄) := by
      rw [Pipeline.unscopedBufs_split₀ (Pipeline.pin (pcfgs (F := F)) adm) 1 winFacts₀1.arr_unscoped c (C4 m ρ c)]
      refine sep_mono (join1 (C3 m ρ) c (C4 m ρ c) (hF1 m ρ c)) (Entails.of_eq ?_)
      unfold Pipeline.unscopedRest
      exact bigSep_congr fun b hb => by rw [hrest1 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `B5`, left at `B6`; the generator register
    into the region's invariant and out; nothing owed; no semaphore of the kernel's own. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (C5 m ρ) c).loose
  hwaits := Pipeline.hwaits_of_owed_zero _ _ _ _ L lv 2 fun _ _ => rfl
  pre c := iprop(StableHlo.held (c : Thread nD τ) (Pipeline.ucRefs τ sig) (B5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (C5 m ρ c)
  hentry c := by
    rw [Pipeline.ownSems0_none]
    have hsplit : (unscopedBufs (Ix := Unit) (Name := ℕ) (U := UR sig nD τ) (Lvl := ℕ) c (C5 m ρ c) : sProp 𝕄)
        ⊢ iprop((pdats m ρ 2 c).arrays ((pdats m ρ 2 c).arrAt · 0) ∗ Pipeline.unscopedRest (Ix := Unit) (Name := ℕ) (U := UR sig nD τ) (Lvl := ℕ) spec2 c (C5 m ρ c)) := by
      rw [Pipeline.unscopedBufs_split₀ (Pipeline.pin (pcfgs (F := F)) adm) 2 winFacts₀2.arr_unscoped c (C5 m ρ c)]
      exact sep_mono (split2 (C5 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N) ∗ Pipeline.unscopedRest (Ix := Unit) (Name := ℕ) (U := UR sig nD τ) (Lvl := ℕ) spec2 c (C5 m ρ c))
        ⊢ (unscopedBufs (Ix := Unit) (Name := ℕ) (U := UR sig nD τ) (Lvl := ℕ) c (C6 m ρ c) : sProp 𝕄) := by
      rw [Pipeline.unscopedBufs_split₀ (Pipeline.pin (pcfgs (F := F)) adm) 2 winFacts₀2.arr_unscoped c (C6 m ρ c)]
      refine sep_mono (join2 (C5 m ρ) c (C6 m ρ c) (hF2 m ρ c)) (Entails.of_eq ?_)
      unfold Pipeline.unscopedRest
      exact bigSep_congr fun b hb => by rw [hrest2 m ρ c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

abbrev items : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ) ]
theorem main_run (c : Dev nD) : main (F := F) c = Pipeline.Seg.run (items m ρ) := (main_chain c).trans (by chain_rfl)

set_option backward.isDefEq.respectTransparency.types false in
/-- Every weakly fair execution of @main from memory `m` with zero counters terminates, nothing faulting, with the result
    array at `B6`'s contents and every argument array as launched. -/
theorem run : θ_run defs (onTc (τ := τ) (main (F := F))) ⟨m, fun _ => 0, ρ⟩ (fun r => ∀ c : Dev nD,
      r.2.mem ((c.tc : Thread nD τ).loc main_v67) = B6 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m ρ c b)
    (hfin := fun c s' => by
      iintro ⟨⟨Hh, -⟩, HSI⟩
      unfold StableHlo.held
      imodintro
      iapply (pointsTo_read_all (Pipeline.ucRefs τ sig) (fun b => (((c : Thread nD τ)).1, b)) (B6 m ρ c) s')
      isplitl [Hh] <;> iassumption)
    (hQ := fun s h c =>
      ⟨h c _ (mem_uc main_v67 (by decide)),
       (h c _ (mem_uc main_arg0 (by decide))).trans (B6_main_arg0 m ρ c),
       (h c _ (mem_uc main_arg1 (by decide))).trans (B6_main_arg1 m ρ c),
       (h c _ (mem_uc main_arg2 (by decide))).trans (B6_main_arg2 m ρ c),
       (h c _ (mem_uc main_arg3 (by decide))).trans (B6_main_arg3 m ρ c),
       (h c _ (mem_uc main_arg4 (by decide))).trans (B6_main_arg4 m ρ c),
       (h c _ (mem_uc main_arg5 (by decide))).trans (B6_main_arg5 m ρ c),
       (h c _ (mem_uc main_arg6 (by decide))).trans (B6_main_arg6 m ρ c),
       (h c _ (mem_uc main_arg7 (by decide))).trans (B6_main_arg7 m ρ c),
       (h c _ (mem_uc main_arg8 (by decide))).trans (B6_main_arg8 m ρ c),
       (h c _ (mem_uc main_arg9 (by decide))).trans (B6_main_arg9 m ρ c),
       (h c _ (mem_uc main_arg10 (by decide))).trans (B6_main_arg10 m ρ c),
       (h c _ (mem_uc main_arg11 (by decide))).trans (B6_main_arg11 m ρ c),
       (h c _ (mem_uc main_arg12 (by decide))).trans (B6_main_arg12 m ρ c),
       (h c _ (mem_uc main_arg13 (by decide))).trans (B6_main_arg13 m ρ c),
       (h c _ (mem_uc main_arg14 (by decide))).trans (B6_main_arg14 m ρ c),
       (h c _ (mem_uc main_arg15 (by decide))).trans (B6_main_arg15 m ρ c),
       (h c _ (mem_uc main_arg16 (by decide))).trans (B6_main_arg16 m ρ c),
       (h c _ (mem_uc main_arg17 (by decide))).trans (B6_main_arg17 m ρ c)⟩)

end Cert.Kernel.Hand

end
-- ==== Proof.IRegion1.lean ====
/-
  Region 1 of @main, one layer's kernel, at a parameter `V` for the buffer contents the region is entered from:
  each window's block at a grid point, what the body leaves in the output window's staging buffer (its one store,
  the layer's arithmetic on the nine input blocks), the body's triple, the pipeline's proof data and the body
  obligation at every point. Windows 0-2 are the 1000-row blocks of the neighbour mean, the features and the residual;
  windows 3-8 the whole weights, bias, scale, shift and slope; window 9 the output's 1000-row block.
-/
import proofs.«171848_j82592221102604_1_alg».proof.Proof.Gen.KernelIdeal.Launch
import proofs.«171848_j82592221102604_1_alg».proof.Proof.Gen.KernelIdeal.Skeleton
import proofs.«171848_j82592221102604_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or carried over. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or carried over. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or carried over. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or carried over. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or carried over. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or carried over. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or carried over. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or carried over. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or carried over. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rA1 : Rect S1000x512 := Rect.unit (s := S1000x512) ![0, 0] S1000x512.size inb_S1000x512_S1000x512_0_0
abbrev rW1 : Rect S512x512 := Rect.unit (s := S512x512) ![0, 0] S512x512.size inb_S512x512_S512x512_0_0
abbrev rV1 : Rect S512 := Rect.unit (s := S512) ![0] S512.size inb_S512_S512_0
abbrev rS1 : Rect S1 := Rect.unit (s := S1) ![0] S1.size inb_S1_S1_0

/-- The output window's staging buffer after the body: its one store, the layer's arithmetic on the input blocks. -/
def out1_9 (x0 : Vec F S1000x512 .f32) (x1 : Vec F S1000x512 .f32) (x2 : Vec F S1000x512 .f32) (x3 : Vec F S512x512 .f32) (x4 : Vec F S512 .f32) (x5 : Vec F S512x512 .f32) (x6 : Vec F S512 .f32) (x7 : Vec F S512 .f32) (x8 : Vec F S1 .f32) : Vec F S1000x512 .f32 :=
  View.canon [⟨rA1, k1_pay1 (k1_pay4 (View.ld x0 rA1) (View.ld x1 rA1) (View.ld x3 rW1) (View.ld x5 rW1) (View.ld x4 rV1) (View.ld x2 rA1)) (k1_pay5 (View.ld x6 rV1)) (k1_pay6 (View.ld x7 rV1)) (k1_pay7 (View.ld x0 rA1) (View.ld x1 rA1) (View.ld x3 rW1) (View.ld x5 rW1) (View.ld x4 rV1) (View.ld x2 rA1)) (Scalar.ofBits .f32 0x3727C5AC#32) (View.ld x8 rS1)⟩]

/-- The store covers the buffer. -/
theorem cover1_9 (p0 : Vec F S1000x512 .f32) (y : S1000x512.Idx) :
    ∃ pc ∈ ([⟨rA1, p0⟩] : List (View.Piece (Elt F) S1000x512 .f32)), y ∈ pc.1.set :=
  View.cover_of_tiled [⟨rA1, p0⟩] S1000x512.size (by rfl) y

set_option maxHeartbeats 4000000 in
/-- The body on whole staging memrefs, the inputs' at contents `xW` and the output's at anything, runs to the
    continuation holding the inputs' as they were and the output's at `out1_9` of the inputs'. -/
theorem sound_kernel1 (c : Dev nD) (E : Set ℕ) (i : grid1.Coords) (arg0 : Memref sig .tc .vmem S1000x512 .f32) (harg0 : arg0.IsWhole) (arg1 : Memref sig .tc .vmem S1000x512 .f32) (harg1 : arg1.IsWhole) (arg2 : Memref sig .tc .vmem S1000x512 .f32) (harg2 : arg2.IsWhole) (arg3 : Memref sig .tc .vmem S512x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512 .f32) (harg7 : arg7.IsWhole) (arg8 : Memref sig .tc .vmem S1 .f32) (harg8 : arg8.IsWhole) (arg9 : Memref sig .tc .vmem S1000x512 .f32) (harg9 : arg9.IsWhole)
    (x0 : Vec F S1000x512 .f32) (x1 : Vec F S1000x512 .f32) (x2 : Vec F S1000x512 .f32) (x3 : Vec F S512x512 .f32) (x4 : Vec F S512 .f32) (x5 : Vec F S512x512 .f32) (x6 : Vec F S512 .f32) (x7 : Vec F S512 .f32) (x8 : Vec F S1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out1_9 x0 x1 x2 x3 x4 x5 x6 x7 x8)) -∗ K ⟨⟩))
      ⊢ wp frame (wpE (defs₀ (F := F)) Variants.none c none) E (cc1__layer_kernel i arg0 harg0 arg1 harg1 arg2 harg2 arg3 harg3 arg4 harg4 arg5 harg5 arg6 harg6 arg7 harg7 arg8 harg8 arg9 harg9) K := by
  simp only [cc1__layer_kernel_eq_skeleton]; unfold cc1__layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

/-- The proof data of pipeline 1 on core `c`: the arrays as the region finds them; after the body at point `t` each
    input's buffer at its block and the output's at `out1_9` of the input blocks; the scoped rest and the generator
    register pass through untouched; nothing owed; the features and the residual are one array, read by windows 1 and 2 at the two halves of its share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' staging buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IShared1.lean ====
/-
  In layers two and three the features and the residual are ONE array, read through two windows. The region's ten windows
  stand on nine buffers; at the region's entry that array's buffer, held whole, is split into the two halves of its share,
  one for each of its two windows, and at the exit the halves are joined again.
-/
import proofs.«171848_j82592221102604_1_alg».proof.Proof.IRegion1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Region 1's ten windows stand on nine buffers: the features and the residual are one array. -/
theorem bigSep_A1 {M : Type} [URA M] (Φ : Ref sig .tc → sProp M) :
    bigSep (Finset.univ.image (Pipeline.arrRef spec1)) Φ = iprop(Φ main_v43 ∗ Φ main_v25 ∗ Φ main_v44 ∗ Φ main_arg8 ∗ Φ main_v45 ∗ Φ main_arg10 ∗ Φ main_arg11 ∗ Φ main_arg17 ∗ Φ main_v46) :=
  bigSep_eq_bigSepL_of_eq [main_v43, main_v25, main_v44, main_arg8, main_v45, main_arg10, main_arg11, main_arg17, main_v46] (by decide) (by decide) Φ

theorem share1_0 (c : Dev nD) : (dat1 V c).share 0 = fullShare := rfl
theorem share1_1 (c : Dev nD) : (dat1 V c).share 1 = fullShare.left := rfl
theorem share1_2 (c : Dev nD) : (dat1 V c).share 2 = fullShare.right := rfl
theorem share1_3 (c : Dev nD) : (dat1 V c).share 3 = fullShare := rfl
theorem share1_4 (c : Dev nD) : (dat1 V c).share 4 = fullShare := rfl
theorem share1_5 (c : Dev nD) : (dat1 V c).share 5 = fullShare := rfl
theorem share1_6 (c : Dev nD) : (dat1 V c).share 6 = fullShare := rfl
theorem share1_7 (c : Dev nD) : (dat1 V c).share 7 = fullShare := rfl
theorem share1_8 (c : Dev nD) : (dat1 V c).share 8 = fullShare := rfl
theorem share1_9 (c : Dev nD) : (dat1 V c).share 9 = fullShare := rfl

set_option maxHeartbeats 8000000 in
/-- The windowed arrays one by one, each a whole buffer at its window's share. -/
theorem arrays1_chain (c : Dev nD) (G : (w : Fin cfg1.W) → Buf (Elt F) ((cfg1.win w).arr.view.loc (c.tc : Thread nD τ))) :
    ((dat1 V c).arrays G : sProp 𝕄)
      = iprop((((c.tc : Thread nD τ).loc (Pipeline.arrRef spec1 0)) ↦{fullShare} G 0)
        ∗ (((c.tc : Thread nD τ).loc (Pipeline.arrRef spec1 1)) ↦{fullShare.left} G 1)
        ∗ (((c.tc : Thread nD τ).loc (Pipeline.arrRef spec1 2)) ↦{fullShare.right} G 2)
        ∗ (((c.tc : Thread nD τ).loc (Pipeline.arrRef spec1 3)) ↦{fullShare} G 3)
        ∗ (((c.tc : Thread nD τ).loc (Pipeline.arrRef spec1 4)) ↦{fullShare} G 4)
        ∗ (((c.tc : Thread nD τ).loc (Pipeline.arrRef spec1 5)) ↦{fullShare} G 5)
        ∗ (((c.tc : Thread nD τ).loc (Pipeline.arrRef spec1 6)) ↦{fullShare} G 6)
        ∗ (((c.tc : Thread nD τ).loc (Pipeline.arrRef spec1 7)) ↦{fullShare} G 7)
        ∗ (((c.tc : Thread nD τ).loc (Pipeline.arrRef spec1 8)) ↦{fullShare} G 8)
        ∗ (((c.tc : Thread nD τ).loc (Pipeline.arrRef spec1 9)) ↦{fullShare} G 9)) := by
  have h : ((dat1 V c).arrays G : sProp 𝕄)
      = bigSep Finset.univ fun w => (((c.tc : Thread nD τ).loc (Pipeline.arrRef spec1 w)) ↦{(dat1 V c).share w} G w : sProp 𝕄) := by
    unfold Dat.arrays
    exact bigSep_congr fun w _ => by rw [(arr_whole1 w).set_eq_univ]
  rw [h, bigSep_W1, share1_0, share1_1, share1_2, share1_3, share1_4, share1_5, share1_6, share1_7, share1_8, share1_9]

set_option maxHeartbeats 8000000 in
/-- ENTRY: the nine buffers, each whole at the full share at the entry contents, are the ten windows' arrays — the shared
    array split into the two halves of its share, one for each of its two windows. -/
theorem split1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrays1_chain]
  unfold Pipeline.arrBufs
  rw [bigSep_A1]
  iintro ⟨H0, H1, H3, H4, H5, H6, H7, H8, H9⟩
  ihave H12 := (pointsTo_share (PosShare.mem_left_op_right fullShare)).1 $$ H1
  icases H12 with ⟨H1, H2⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 8000000 in
/-- EXIT: the ten windows' arrays at their final contents are the nine buffers at any contents `V'` that has the output
    array as the pipeline leaves it and every input array as entered — the two halves of the shared array joined. -/
theorem join1 (c : Dev nD) (V' : (b : Ref sig .tc) → Buf (Elt F) ((c : Thread nD τ).loc b))
    (hF : ∀ w, (dat1 V c).arrAt w cfg1.N = V' (Pipeline.arrRef spec1 w)) :
    ((dat1 V c).arrays ((dat1 V c).arrAt · cfg1.N) : sProp 𝕄)
      ⊢ Pipeline.arrBufs (Ix := Unit) (Name := ℕ) (U := UR sig nD τ) (Lvl := ℕ) spec1 c V' := by
  rw [show ((dat1 V c).arrAt · cfg1.N) = (fun w => V' (Pipeline.arrRef spec1 w)) from funext hF, arrays1_chain]
  unfold Pipeline.arrBufs
  rw [bigSep_A1]
  iintro ⟨H0, H1, H2, H3, H4, H5, H6, H7, H8, H9⟩
  isplitl [H0]; · iexact H0
  isplitl [H1 H2]
  · iapply (pointsTo_share (PosShare.mem_left_op_right fullShare)).2
    isplitl [H1]; · iexact H1
    iexact H2
  isplitl [H3]; · iexact H3
  isplitl [H4]; · iexact H4
  isplitl [H5]; · iexact H5
  isplitl [H6]; · iexact H6
  isplitl [H7]; · iexact H7
  isplitl [H8]; · iexact H8
  iexact H9

end Cert.KernelIdeal.Hand

end
-- ==== Proof.IRegion2.lean ====
/-
  Region 2 of @main, one layer's kernel, at a parameter `V` for the buffer contents the region is entered from:
  each window's block at a grid point, what the body leaves in the output window's staging buffer (its one store,
  the layer's arithmetic on the nine input blocks), the body's triple, the pipeline's proof data and the body
  obligation at every point. Windows 0-2 are the 1000-row blocks of the neighbour mean, the features and the residual;
  windows 3-8 the whole weights, bias, scale, shift and slope; window 9 the output's 1000-row block.
-/
import proofs.«171848_j82592221102604_1_alg».proof.Proof.Gen.KernelIdeal.Launch
import proofs.«171848_j82592221102604_1_alg».proof.Proof.Gen.KernelIdeal.Skeleton
import proofs.«171848_j82592221102604_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or carried over. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or carried over. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or carried over. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or carried over. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or carried over. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or carried over. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or carried over. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or carried over. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or carried over. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rA2 : Rect S1000x512 := Rect.unit (s := S1000x512) ![0, 0] S1000x512.size inb_S1000x512_S1000x512_0_0
abbrev rW2 : Rect S512x512 := Rect.unit (s := S512x512) ![0, 0] S512x512.size inb_S512x512_S512x512_0_0
abbrev rV2 : Rect S512 := Rect.unit (s := S512) ![0] S512.size inb_S512_S512_0
abbrev rS2 : Rect S1 := Rect.unit (s := S1) ![0] S1.size inb_S1_S1_0

/-- The output window's staging buffer after the body: its one store, the layer's arithmetic on the input blocks. -/
def out2_9 (x0 : Vec F S1000x512 .f32) (x1 : Vec F S1000x512 .f32) (x2 : Vec F S1000x512 .f32) (x3 : Vec F S512x512 .f32) (x4 : Vec F S512 .f32) (x5 : Vec F S512x512 .f32) (x6 : Vec F S512 .f32) (x7 : Vec F S512 .f32) (x8 : Vec F S1 .f32) : Vec F S1000x512 .f32 :=
  View.canon [⟨rA2, k2_pay1 (k2_pay4 (View.ld x0 rA2) (View.ld x1 rA2) (View.ld x3 rW2) (View.ld x5 rW2) (View.ld x4 rV2) (View.ld x2 rA2)) (k2_pay5 (View.ld x6 rV2)) (k2_pay6 (View.ld x7 rV2)) (k2_pay7 (View.ld x0 rA2) (View.ld x1 rA2) (View.ld x3 rW2) (View.ld x5 rW2) (View.ld x4 rV2) (View.ld x2 rA2)) (Scalar.ofBits .f32 0x3727C5AC#32) (View.ld x8 rS2)⟩]

/-- The store covers the buffer. -/
theorem cover2_9 (p0 : Vec F S1000x512 .f32) (y : S1000x512.Idx) :
    ∃ pc ∈ ([⟨rA2, p0⟩] : List (View.Piece (Elt F) S1000x512 .f32)), y ∈ pc.1.set :=
  View.cover_of_tiled [⟨rA2, p0⟩] S1000x512.size (by rfl) y

set_option maxHeartbeats 4000000 in
/-- The body on whole staging memrefs, the inputs' at contents `xW` and the output's at anything, runs to the
    continuation holding the inputs' as they were and the output's at `out2_9` of the inputs'. -/
theorem sound_kernel2 (c : Dev nD) (E : Set ℕ) (i : grid2.Coords) (arg0 : Memref sig .tc .vmem S1000x512 .f32) (harg0 : arg0.IsWhole) (arg1 : Memref sig .tc .vmem S1000x512 .f32) (harg1 : arg1.IsWhole) (arg2 : Memref sig .tc .vmem S1000x512 .f32) (harg2 : arg2.IsWhole) (arg3 : Memref sig .tc .vmem S512x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512 .f32) (harg7 : arg7.IsWhole) (arg8 : Memref sig .tc .vmem S1 .f32) (harg8 : arg8.IsWhole) (arg9 : Memref sig .tc .vmem S1000x512 .f32) (harg9 : arg9.IsWhole)
    (x0 : Vec F S1000x512 .f32) (x1 : Vec F S1000x512 .f32) (x2 : Vec F S1000x512 .f32) (x3 : Vec F S512x512 .f32) (x4 : Vec F S512 .f32) (x5 : Vec F S512x512 .f32) (x6 : Vec F S512 .f32) (x7 : Vec F S512 .f32) (x8 : Vec F S1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out2_9 x0 x1 x2 x3 x4 x5 x6 x7 x8)) -∗ K ⟨⟩))
      ⊢ wp frame (wpE (defs₀ (F := F)) Variants.none c none) E (cc2__layer_kernel i arg0 harg0 arg1 harg1 arg2 harg2 arg3 harg3 arg4 harg4 arg5 harg5 arg6 harg6 arg7 harg7 arg8 harg8 arg9 harg9) K := by
  simp only [cc2__layer_kernel_eq_skeleton]; unfold cc2__layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover2_9 _)

/-- The proof data of pipeline 2 on core `c`: the arrays as the region finds them; after the body at point `t` each
    input's buffer at its block and the output's at `out2_9` of the input blocks; the scoped rest and the generator
    register pass through untouched; nothing owed; the features and the residual are one array, read by windows 1 and 2 at the two halves of its share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q w := match w with
    | ⟨1, _⟩ => fullShare.left
    | ⟨2, _⟩ => fullShare.right
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' staging buffers hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IShared2.lean ====
/-
  In layers two and three the features and the residual are ONE array, read through two windows. The region's ten windows
  stand on nine buffers; at the region's entry that array's buffer, held whole, is split into the two halves of its share,
  one for each of its two windows, and at the exit the halves are joined again.
-/
import proofs.«171848_j82592221102604_1_alg».proof.Proof.IRegion2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Region 2's ten windows stand on nine buffers: the features and the residual are one array. -/
theorem bigSep_A2 {M : Type} [URA M] (Φ : Ref sig .tc → sProp M) :
    bigSep (Finset.univ.image (Pipeline.arrRef spec2)) Φ = iprop(Φ main_v64 ∗ Φ main_v46 ∗ Φ main_v65 ∗ Φ main_arg13 ∗ Φ main_v66 ∗ Φ main_arg15 ∗ Φ main_arg16 ∗ Φ main_arg17 ∗ Φ main_v67) :=
  bigSep_eq_bigSepL_of_eq [main_v64, main_v46, main_v65, main_arg13, main_v66, main_arg15, main_arg16, main_arg17, main_v67] (by decide) (by decide) Φ

theorem share2_0 (c : Dev nD) : (dat2 V c).share 0 = fullShare := rfl
theorem share2_1 (c : Dev nD) : (dat2 V c).share 1 = fullShare.left := rfl
theorem share2_2 (c : Dev nD) : (dat2 V c).share 2 = fullShare.right := rfl
theorem share2_3 (c : Dev nD) : (dat2 V c).share 3 = fullShare := rfl
theorem share2_4 (c : Dev nD) : (dat2 V c).share 4 = fullShare := rfl
theorem share2_5 (c : Dev nD) : (dat2 V c).share 5 = fullShare := rfl
theorem share2_6 (c : Dev nD) : (dat2 V c).share 6 = fullShare := rfl
theorem share2_7 (c : Dev nD) : (dat2 V c).share 7 = fullShare := rfl
theorem share2_8 (c : Dev nD) : (dat2 V c).share 8 = fullShare := rfl
theorem share2_9 (c : Dev nD) : (dat2 V c).share 9 = fullShare := rfl

set_option maxHeartbeats 8000000 in
/-- The windowed arrays one by one, each a whole buffer at its window's share. -/
theorem arrays2_chain (c : Dev nD) (G : (w : Fin cfg2.W) → Buf (Elt F) ((cfg2.win w).arr.view.loc (c.tc : Thread nD τ))) :
    ((dat2 V c).arrays G : sProp 𝕄)
      = iprop((((c.tc : Thread nD τ).loc (Pipeline.arrRef spec2 0)) ↦{fullShare} G 0)
        ∗ (((c.tc : Thread nD τ).loc (Pipeline.arrRef spec2 1)) ↦{fullShare.left} G 1)
        ∗ (((c.tc : Thread nD τ).loc (Pipeline.arrRef spec2 2)) ↦{fullShare.right} G 2)
        ∗ (((c.tc : Thread nD τ).loc (Pipeline.arrRef spec2 3)) ↦{fullShare} G 3)
        ∗ (((c.tc : Thread nD τ).loc (Pipeline.arrRef spec2 4)) ↦{fullShare} G 4)
        ∗ (((c.tc : Thread nD τ).loc (Pipeline.arrRef spec2 5)) ↦{fullShare} G 5)
        ∗ (((c.tc : Thread nD τ).loc (Pipeline.arrRef spec2 6)) ↦{fullShare} G 6)
        ∗ (((c.tc : Thread nD τ).loc (Pipeline.arrRef spec2 7)) ↦{fullShare} G 7)
        ∗ (((c.tc : Thread nD τ).loc (Pipeline.arrRef spec2 8)) ↦{fullShare} G 8)
        ∗ (((c.tc : Thread nD τ).loc (Pipeline.arrRef spec2 9)) ↦{fullShare} G 9)) := by
  have h : ((dat2 V c).arrays G : sProp 𝕄)
      = bigSep Finset.univ fun w => (((c.tc : Thread nD τ).loc (Pipeline.arrRef spec2 w)) ↦{(dat2 V c).share w} G w : sProp 𝕄) := by
    unfold Dat.arrays
    exact bigSep_congr fun w _ => by rw [(arr_whole2 w).set_eq_univ]
  rw [h, bigSep_W2, share2_0, share2_1, share2_2, share2_3, share2_4, share2_5, share2_6, share2_7, share2_8, share2_9]

set_option maxHeartbeats 8000000 in
/-- ENTRY: the nine buffers, each whole at the full share at the entry contents, are the ten windows' arrays — the shared
    array split into the two halves of its share, one for each of its two windows. -/
theorem split2 (c : Dev nD) :
    (Pipeline.arrBufs (Ix := Unit) (Name := ℕ) (U := UR sig nD τ) (Lvl := ℕ) spec2 c (V c) : sProp 𝕄)
      ⊢ (dat2 V c).arrays ((dat2 V c).arrAt · 0) := by
  rw [arrays2_chain]
  unfold Pipeline.arrBufs
  rw [bigSep_A2]
  iintro ⟨H0, H1, H3, H4, H5, H6, H7, H8, H9⟩
  ihave H12 := (pointsTo_share (PosShare.mem_left_op_right fullShare)).1 $$ H1
  icases H12 with ⟨H1, H2⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 8000000 in
/-- EXIT: the ten windows' arrays at their final contents are the nine buffers at any contents `V'` that has the output
    array as the pipeline leaves it and every input array as entered — the two halves of the shared array joined. -/
theorem join2 (c : Dev nD) (V' : (b : Ref sig .tc) → Buf (Elt F) ((c : Thread nD τ).loc b))
    (hF : ∀ w, (dat2 V c).arrAt w cfg2.N = V' (Pipeline.arrRef spec2 w)) :
    ((dat2 V c).arrays ((dat2 V c).arrAt · cfg2.N) : sProp 𝕄)
      ⊢ Pipeline.arrBufs (Ix := Unit) (Name := ℕ) (U := UR sig nD τ) (Lvl := ℕ) spec2 c V' := by
  rw [show ((dat2 V c).arrAt · cfg2.N) = (fun w => V' (Pipeline.arrRef spec2 w)) from funext hF, arrays2_chain]
  unfold Pipeline.arrBufs
  rw [bigSep_A2]
  iintro ⟨H0, H1, H2, H3, H4, H5, H6, H7, H8, H9⟩
  isplitl [H0]; · iexact H0
  isplitl [H1 H2]
  · iapply (pointsTo_share (PosShare.mem_left_op_right fullShare)).2
    isplitl [H1]; · iexact H1
    iexact H2
  isplitl [H3]; · iexact H3
  isplitl [H4]; · iexact H4
  isplitl [H5]; · iexact H5
  isplitl [H6]; · iexact H6
  isplitl [H7]; · iexact H7
  isplitl [H8]; · iexact H8
  iexact H9

end Cert.KernelIdeal.Hand

end
-- ==== Proof.IRegion0.lean ====
/-
  Region 0 of @main, one layer's kernel, at a parameter `V` for the buffer contents the region is entered from:
  each window's block at a grid point, what the body leaves in the output window's staging buffer (its one store,
  the layer's arithmetic on the nine input blocks), the body's triple, the pipeline's proof data and the body
  obligation at every point. Windows 0-2 are the 1000-row blocks of the neighbour mean, the features and the residual;
  windows 3-8 the whole weights, bias, scale, shift and slope; window 9 the output's 1000-row block.
-/
import proofs.«171848_j82592221102604_1_alg».proof.Proof.Gen.KernelIdeal.Launch
import proofs.«171848_j82592221102604_1_alg».proof.Proof.Gen.KernelIdeal.Skeleton
import proofs.«171848_j82592221102604_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or carried over. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or carried over. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or carried over. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or carried over. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or carried over. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or carried over. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or carried over. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or carried over. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or carried over. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rA0 : Rect S1000x512 := Rect.unit (s := S1000x512) ![0, 0] S1000x512.size inb_S1000x512_S1000x512_0_0
abbrev rW0 : Rect S512x512 := Rect.unit (s := S512x512) ![0, 0] S512x512.size inb_S512x512_S512x512_0_0
abbrev rV0 : Rect S512 := Rect.unit (s := S512) ![0] S512.size inb_S512_S512_0
abbrev rS0 : Rect S1 := Rect.unit (s := S1) ![0] S1.size inb_S1_S1_0

/-- The output window's staging buffer after the body: its one store, the layer's arithmetic on the input blocks. -/
def out0_9 (x0 : Vec F S1000x512 .f32) (x1 : Vec F S1000x512 .f32) (x2 : Vec F S1000x512 .f32) (x3 : Vec F S512x512 .f32) (x4 : Vec F S512 .f32) (x5 : Vec F S512x512 .f32) (x6 : Vec F S512 .f32) (x7 : Vec F S512 .f32) (x8 : Vec F S1 .f32) : Vec F S1000x512 .f32 :=
  View.canon [⟨rA0, k0_pay1 (k0_pay4 (View.ld x0 rA0) (View.ld x1 rA0) (View.ld x3 rW0) (View.ld x5 rW0) (View.ld x4 rV0) (View.ld x2 rA0)) (k0_pay5 (View.ld x6 rV0)) (k0_pay6 (View.ld x7 rV0)) (k0_pay7 (View.ld x0 rA0) (View.ld x1 rA0) (View.ld x3 rW0) (View.ld x5 rW0) (View.ld x4 rV0) (View.ld x2 rA0)) k0_pay8 (View.ld x8 rS0)⟩]

/-- The store covers the buffer. -/
theorem cover0_9 (p0 : Vec F S1000x512 .f32) (y : S1000x512.Idx) :
    ∃ pc ∈ ([⟨rA0, p0⟩] : List (View.Piece (Elt F) S1000x512 .f32)), y ∈ pc.1.set :=
  View.cover_of_tiled [⟨rA0, p0⟩] S1000x512.size (by rfl) y

set_option maxHeartbeats 4000000 in
/-- The body on whole staging memrefs, the inputs' at contents `xW` and the output's at anything, runs to the
    continuation holding the inputs' as they were and the output's at `out0_9` of the inputs'. -/
theorem sound_kernel0 (c : Dev nD) (E : Set ℕ) (i : grid0.Coords) (arg0 : Memref sig .tc .vmem S1000x512 .f32) (harg0 : arg0.IsWhole) (arg1 : Memref sig .tc .vmem S1000x512 .f32) (harg1 : arg1.IsWhole) (arg2 : Memref sig .tc .vmem S1000x512 .f32) (harg2 : arg2.IsWhole) (arg3 : Memref sig .tc .vmem S512x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512 .f32) (harg7 : arg7.IsWhole) (arg8 : Memref sig .tc .vmem S1 .f32) (harg8 : arg8.IsWhole) (arg9 : Memref sig .tc .vmem S1000x512 .f32) (harg9 : arg9.IsWhole)
    (x0 : Vec F S1000x512 .f32) (x1 : Vec F S1000x512 .f32) (x2 : Vec F S1000x512 .f32) (x3 : Vec F S512x512 .f32) (x4 : Vec F S512 .f32) (x5 : Vec F S512x512 .f32) (x6 : Vec F S512 .f32) (x7 : Vec F S512 .f32) (x8 : Vec F S1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out0_9 x0 x1 x2 x3 x4 x5 x6 x7 x8)) -∗ K ⟨⟩))
      ⊢ wp frame (wpE (defs₀ (F := F)) Variants.none c none) E (cc0__layer_kernel i arg0 harg0 arg1 harg1 arg2 harg2 arg3 harg3 arg4 harg4 arg5 harg5 arg6 harg6 arg7 harg7 arg8 harg8 arg9 harg9) K := by
  simp only [cc0__layer_kernel_eq_skeleton]; unfold cc0__layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0_9 _)

/-- The proof data of pipeline 0 on core `c`: the arrays as the region finds them; after the body at point `t` each
    input's buffer at its block and the output's at `out0_9` of the input blocks; the scoped rest and the generator
    register pass through untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' staging buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IBounds.lean ====
/-
  What core `c`'s unscoped buffers hold after j of @main's six items (`Bj c`): a host stretch's operations applied to the
  contents before it; a region's output array at what its write-backs leave, every other buffer as the region found it. At a
  region's exit each input array holds what it held at entry; the argument arrays reach the end as launched.
-/
import proofs.«171848_j82592221102604_1_alg».proof.Proof.IRegion0
import proofs.«171848_j82592221102604_1_alg».proof.Proof.IRegion1
import proofs.«171848_j82592221102604_1_alg».proof.Proof.IRegion2
import proofs.«171848_j82592221102604_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev B0 : Dev nD → Valuation τ sig (Elt F) := fun c b => (s₀ m ρ).mem ((c : Dev nD), b)
abbrev B1 : Dev nD → Valuation τ sig (Elt F) := fun c => StableHlo.after hostOps0 (B0 m ρ c)
abbrev C1 : (c : Dev nD) → (b : Ref sig .tc) → Buf (Elt F) ((c : Thread nD τ).loc b) := fun c b => B1 m ρ c b
def B2 (c : Dev nD) : Valuation τ sig (Elt F) :=
  Function.update (B1 m ρ c) (Proc.devRef .tc main_v25) ((dat0 (C1 m ρ) c).arrAt 9 cfg0.N)
abbrev C2 : (c : Dev nD) → (b : Ref sig .tc) → Buf (Elt F) ((c : Thread nD τ).loc b) := fun c b => B2 m ρ c b
abbrev B3 : Dev nD → Valuation τ sig (Elt F) := fun c => StableHlo.after hostOps1 (B2 m ρ c)
abbrev C3 : (c : Dev nD) → (b : Ref sig .tc) → Buf (Elt F) ((c : Thread nD τ).loc b) := fun c b => B3 m ρ c b
def B4 (c : Dev nD) : Valuation τ sig (Elt F) :=
  Function.update (B3 m ρ c) (Proc.devRef .tc main_v46) ((dat1 (C3 m ρ) c).arrAt 9 cfg1.N)
abbrev C4 : (c : Dev nD) → (b : Ref sig .tc) → Buf (Elt F) ((c : Thread nD τ).loc b) := fun c b => B4 m ρ c b
abbrev B5 : Dev nD → Valuation τ sig (Elt F) := fun c => StableHlo.after hostOps2 (B4 m ρ c)
abbrev C5 : (c : Dev nD) → (b : Ref sig .tc) → Buf (Elt F) ((c : Thread nD τ).loc b) := fun c b => B5 m ρ c b
def B6 (c : Dev nD) : Valuation τ sig (Elt F) :=
  Function.update (B5 m ρ c) (Proc.devRef .tc main_v67) ((dat2 (C5 m ρ) c).arrAt 9 cfg2.N)
abbrev C6 : (c : Dev nD) → (b : Ref sig .tc) → Buf (Elt F) ((c : Thread nD τ).loc b) := fun c b => B6 m ρ c b

theorem B2_out (c : Dev nD) : B2 m ρ c (Proc.devRef .tc main_v25) = (dat0 (C1 m ρ) c).arrAt 9 cfg0.N := by
  unfold B2; exact Function.update_self ..
theorem B2_of_ne (c : Dev nD) (b : Ref sig .tc) (hb : b ≠ main_v25) : B2 m ρ c (Proc.devRef .tc b) = B1 m ρ c (Proc.devRef .tc b) := by
  unfold B2; exact Function.update_of_ne (StableHlo.devRef_ne_of_ne hb) _ _
set_option maxHeartbeats 8000000 in
/-- At region 0's exit its output array holds what the pipeline leaves and each input array what it held at entry. -/
theorem hF0 (c : Dev nD) : ∀ w : Fin cfg0.W, (dat0 (C1 m ρ) c).arrAt w cfg0.N = C2 m ρ c (Pipeline.arrRef spec0 w)
  | ⟨0, _⟩ => (((dat0 (C1 m ρ) c).arrAt_in 0 rfl _).trans (A_eq0 (C1 m ρ) c 0)).trans (B2_of_ne m ρ c _ (by decide)).symm
  | ⟨1, _⟩ => (((dat0 (C1 m ρ) c).arrAt_in 1 rfl _).trans (A_eq0 (C1 m ρ) c 1)).trans (B2_of_ne m ρ c _ (by decide)).symm
  | ⟨2, _⟩ => (((dat0 (C1 m ρ) c).arrAt_in 2 rfl _).trans (A_eq0 (C1 m ρ) c 2)).trans (B2_of_ne m ρ c _ (by decide)).symm
  | ⟨3, _⟩ => (((dat0 (C1 m ρ) c).arrAt_in 3 rfl _).trans (A_eq0 (C1 m ρ) c 3)).trans (B2_of_ne m ρ c _ (by decide)).symm
  | ⟨4, _⟩ => (((dat0 (C1 m ρ) c).arrAt_in 4 rfl _).trans (A_eq0 (C1 m ρ) c 4)).trans (B2_of_ne m ρ c _ (by decide)).symm
  | ⟨5, _⟩ => (((dat0 (C1 m ρ) c).arrAt_in 5 rfl _).trans (A_eq0 (C1 m ρ) c 5)).trans (B2_of_ne m ρ c _ (by decide)).symm
  | ⟨6, _⟩ => (((dat0 (C1 m ρ) c).arrAt_in 6 rfl _).trans (A_eq0 (C1 m ρ) c 6)).trans (B2_of_ne m ρ c _ (by decide)).symm
  | ⟨7, _⟩ => (((dat0 (C1 m ρ) c).arrAt_in 7 rfl _).trans (A_eq0 (C1 m ρ) c 7)).trans (B2_of_ne m ρ c _ (by decide)).symm
  | ⟨8, _⟩ => (((dat0 (C1 m ρ) c).arrAt_in 8 rfl _).trans (A_eq0 (C1 m ρ) c 8)).trans (B2_of_ne m ρ c _ (by decide)).symm
  | ⟨9, _⟩ => (B2_out m ρ c).symm
theorem hrest0 (c : Dev nD) : ∀ b, b ∉ Finset.univ.image (Pipeline.arrRef spec0) → C2 m ρ c b = C1 m ρ c b :=
  fun b hb => B2_of_ne m ρ c b fun e => hb (e ▸ Finset.mem_image.mpr ⟨9, Finset.mem_univ _, rfl⟩)

theorem B4_out (c : Dev nD) : B4 m ρ c (Proc.devRef .tc main_v46) = (dat1 (C3 m ρ) c).arrAt 9 cfg1.N := by
  unfold B4; exact Function.update_self ..
theorem B4_of_ne (c : Dev nD) (b : Ref sig .tc) (hb : b ≠ main_v46) : B4 m ρ c (Proc.devRef .tc b) = B3 m ρ c (Proc.devRef .tc b) := by
  unfold B4; exact Function.update_of_ne (StableHlo.devRef_ne_of_ne hb) _ _
set_option maxHeartbeats 8000000 in
/-- At region 1's exit its output array holds what the pipeline leaves and each input array what it held at entry. -/
theorem hF1 (c : Dev nD) : ∀ w : Fin cfg1.W, (dat1 (C3 m ρ) c).arrAt w cfg1.N = C4 m ρ c (Pipeline.arrRef spec1 w)
  | ⟨0, _⟩ => (((dat1 (C3 m ρ) c).arrAt_in 0 rfl _).trans (A_eq1 (C3 m ρ) c 0)).trans (B4_of_ne m ρ c _ (by decide)).symm
  | ⟨1, _⟩ => (((dat1 (C3 m ρ) c).arrAt_in 1 rfl _).trans (A_eq1 (C3 m ρ) c 1)).trans (B4_of_ne m ρ c _ (by decide)).symm
  | ⟨2, _⟩ => (((dat1 (C3 m ρ) c).arrAt_in 2 rfl _).trans (A_eq1 (C3 m ρ) c 2)).trans (B4_of_ne m ρ c _ (by decide)).symm
  | ⟨3, _⟩ => (((dat1 (C3 m ρ) c).arrAt_in 3 rfl _).trans (A_eq1 (C3 m ρ) c 3)).trans (B4_of_ne m ρ c _ (by decide)).symm
  | ⟨4, _⟩ => (((dat1 (C3 m ρ) c).arrAt_in 4 rfl _).trans (A_eq1 (C3 m ρ) c 4)).trans (B4_of_ne m ρ c _ (by decide)).symm
  | ⟨5, _⟩ => (((dat1 (C3 m ρ) c).arrAt_in 5 rfl _).trans (A_eq1 (C3 m ρ) c 5)).trans (B4_of_ne m ρ c _ (by decide)).symm
  | ⟨6, _⟩ => (((dat1 (C3 m ρ) c).arrAt_in 6 rfl _).trans (A_eq1 (C3 m ρ) c 6)).trans (B4_of_ne m ρ c _ (by decide)).symm
  | ⟨7, _⟩ => (((dat1 (C3 m ρ) c).arrAt_in 7 rfl _).trans (A_eq1 (C3 m ρ) c 7)).trans (B4_of_ne m ρ c _ (by decide)).symm
  | ⟨8, _⟩ => (((dat1 (C3 m ρ) c).arrAt_in 8 rfl _).trans (A_eq1 (C3 m ρ) c 8)).trans (B4_of_ne m ρ c _ (by decide)).symm
  | ⟨9, _⟩ => (B4_out m ρ c).symm
theorem hrest1 (c : Dev nD) : ∀ b, b ∉ Finset.univ.image (Pipeline.arrRef spec1) → C4 m ρ c b = C3 m ρ c b :=
  fun b hb => B4_of_ne m ρ c b fun e => hb (e ▸ Finset.mem_image.mpr ⟨9, Finset.mem_univ _, rfl⟩)

theorem B6_out (c : Dev nD) : B6 m ρ c (Proc.devRef .tc main_v67) = (dat2 (C5 m ρ) c).arrAt 9 cfg2.N := by
  unfold B6; exact Function.update_self ..
theorem B6_of_ne (c : Dev nD) (b : Ref sig .tc) (hb : b ≠ main_v67) : B6 m ρ c (Proc.devRef .tc b) = B5 m ρ c (Proc.devRef .tc b) := by
  unfold B6; exact Function.update_of_ne (StableHlo.devRef_ne_of_ne hb) _ _
set_option maxHeartbeats 8000000 in
/-- At region 2's exit its output array holds what the pipeline leaves and each input array what it held at entry. -/
theorem hF2 (c : Dev nD) : ∀ w : Fin cfg2.W, (dat2 (C5 m ρ) c).arrAt w cfg2.N = C6 m ρ c (Pipeline.arrRef spec2 w)
  | ⟨0, _⟩ => (((dat2 (C5 m ρ) c).arrAt_in 0 rfl _).trans (A_eq2 (C5 m ρ) c 0)).trans (B6_of_ne m ρ c _ (by decide)).symm
  | ⟨1, _⟩ => (((dat2 (C5 m ρ) c).arrAt_in 1 rfl _).trans (A_eq2 (C5 m ρ) c 1)).trans (B6_of_ne m ρ c _ (by decide)).symm
  | ⟨2, _⟩ => (((dat2 (C5 m ρ) c).arrAt_in 2 rfl _).trans (A_eq2 (C5 m ρ) c 2)).trans (B6_of_ne m ρ c _ (by decide)).symm
  | ⟨3, _⟩ => (((dat2 (C5 m ρ) c).arrAt_in 3 rfl _).trans (A_eq2 (C5 m ρ) c 3)).trans (B6_of_ne m ρ c _ (by decide)).symm
  | ⟨4, _⟩ => (((dat2 (C5 m ρ) c).arrAt_in 4 rfl _).trans (A_eq2 (C5 m ρ) c 4)).trans (B6_of_ne m ρ c _ (by decide)).symm
  | ⟨5, _⟩ => (((dat2 (C5 m ρ) c).arrAt_in 5 rfl _).trans (A_eq2 (C5 m ρ) c 5)).trans (B6_of_ne m ρ c _ (by decide)).symm
  | ⟨6, _⟩ => (((dat2 (C5 m ρ) c).arrAt_in 6 rfl _).trans (A_eq2 (C5 m ρ) c 6)).trans (B6_of_ne m ρ c _ (by decide)).symm
  | ⟨7, _⟩ => (((dat2 (C5 m ρ) c).arrAt_in 7 rfl _).trans (A_eq2 (C5 m ρ) c 7)).trans (B6_of_ne m ρ c _ (by decide)).symm
  | ⟨8, _⟩ => (((dat2 (C5 m ρ) c).arrAt_in 8 rfl _).trans (A_eq2 (C5 m ρ) c 8)).trans (B6_of_ne m ρ c _ (by decide)).symm
  | ⟨9, _⟩ => (B6_out m ρ c).symm
theorem hrest2 (c : Dev nD) : ∀ b, b ∉ Finset.univ.image (Pipeline.arrRef spec2) → C6 m ρ c b = C5 m ρ c b :=
  fun b hb => B6_of_ne m ρ c b fun e => hb (e ▸ Finset.mem_image.mpr ⟨9, Finset.mem_univ _, rfl⟩)

/-! ## The arguments end as launched: no stretch writes one and no region's output is one -/

theorem B6_main_arg0 (c : Dev nD) : B6 m ρ c (Proc.devRef .tc main_arg0) = m ((c : Thread nD τ).loc main_arg0) :=
  (B6_of_ne m ρ c main_arg0 (by decide)).trans <| (StableHlo.after_of_writes_sub hostOps2 _ hostOps2_writes (by decide : main_arg0 ∉ hostOps2_W)).trans <|
  (B4_of_ne m ρ c main_arg0 (by decide)).trans <| (StableHlo.after_of_writes_sub hostOps1 _ hostOps1_writes (by decide : main_arg0 ∉ hostOps1_W)).trans <|
  (B2_of_ne m ρ c main_arg0 (by decide)).trans <| (StableHlo.after_of_writes_sub hostOps0 _ hostOps0_writes (by decide : main_arg0 ∉ hostOps0_W)).trans rfl
theorem B6_main_arg1 (c : Dev nD) : B6 m ρ c (Proc.devRef .tc main_arg1) = m ((c : Thread nD τ).loc main_arg1) :=
  (B6_of_ne m ρ c main_arg1 (by decide)).trans <| (StableHlo.after_of_writes_sub hostOps2 _ hostOps2_writes (by decide : main_arg1 ∉ hostOps2_W)).trans <|
  (B4_of_ne m ρ c main_arg1 (by decide)).trans <| (StableHlo.after_of_writes_sub hostOps1 _ hostOps1_writes (by decide : main_arg1 ∉ hostOps1_W)).trans <|
  (B2_of_ne m ρ c main_arg1 (by decide)).trans <| (StableHlo.after_of_writes_sub hostOps0 _ hostOps0_writes (by decide : main_arg1 ∉ hostOps0_W)).trans rfl
theorem B6_main_arg2 (c : Dev nD) : B6 m ρ c (Proc.devRef .tc main_arg2) = m ((c : Thread nD τ).loc main_arg2) :=
  (B6_of_ne m ρ c main_arg2 (by decide)).trans <| (StableHlo.after_of_writes_sub hostOps2 _ hostOps2_writes (by decide : main_arg2 ∉ hostOps2_W)).trans <|
  (B4_of_ne m ρ c main_arg2 (by decide)).trans <| (StableHlo.after_of_writes_sub hostOps1 _ hostOps1_writes (by decide : main_arg2 ∉ hostOps1_W)).trans <|
  (B2_of_ne m ρ c main_arg2 (by decide)).trans <| (StableHlo.after_of_writes_sub hostOps0 _ hostOps0_writes (by decide : main_arg2 ∉ hostOps0_W)).trans rfl
theorem B6_main_arg3 (c : Dev nD) : B6 m ρ c (Proc.devRef .tc main_arg3) = m ((c : Thread nD τ).loc main_arg3) :=
  (B6_of_ne m ρ c main_arg3 (by decide)).trans <| (StableHlo.after_of_writes_sub hostOps2 _ hostOps2_writes (by decide : main_arg3 ∉ hostOps2_W)).trans <|
  (B4_of_ne m ρ c main_arg3 (by decide)).trans <| (StableHlo.after_of_writes_sub hostOps1 _ hostOps1_writes (by decide : main_arg3 ∉ hostOps1_W)).trans <|
  (B2_of_ne m ρ c main_arg3 (by decide)).trans <| (StableHlo.after_of_writes_sub hostOps0 _ hostOps0_writes (by decide : main_arg3 ∉ hostOps0_W)).trans rfl
theorem B6_main_arg4 (c : Dev nD) : B6 m ρ c (Proc.devRef .tc main_arg4) = m ((c : Thread nD τ).loc main_arg4) :=
  (B6_of_ne m ρ c main_arg4 (by decide)).trans <| (StableHlo.after_of_writes_sub hostOps2 _ hostOps2_writes (by decide : main_arg4 ∉ hostOps2_W)).trans <|
  (B4_of_ne m ρ c main_arg4 (by decide)).trans <| (StableHlo.after_of_writes_sub hostOps1 _ hostOps1_writes (by decide : main_arg4 ∉ hostOps1_W)).trans <|
  (B2_of_ne m ρ c main_arg4 (by decide)).trans <| (StableHlo.after_of_writes_sub hostOps0 _ hostOps0_writes (by decide : main_arg4 ∉ hostOps0_W)).trans rfl
theorem B6_main_arg5 (c : Dev nD) : B6 m ρ c (Proc.devRef .tc main_arg5) = m ((c : Thread nD τ).loc main_arg5) :=
  (B6_of_ne m ρ c main_arg5 (by decide)).trans <| (StableHlo.after_of_writes_sub hostOps2 _ hostOps2_writes (by decide : main_arg5 ∉ hostOps2_W)).trans <|
  (B4_of_ne m ρ c main_arg5 (by decide)).trans <| (StableHlo.after_of_writes_sub hostOps1 _ hostOps1_writes (by decide : main_arg5 ∉ hostOps1_W)).trans <|
  (B2_of_ne m ρ c main_arg5 (by decide)).trans <| (StableHlo.after_of_writes_sub hostOps0 _ hostOps0_writes (by decide : main_arg5 ∉ hostOps0_W)).trans rfl
theorem B6_main_arg6 (c : Dev nD) : B6 m ρ c (Proc.devRef .tc main_arg6) = m ((c : Thread nD τ).loc main_arg6) :=
  (B6_of_ne m ρ c main_arg6 (by decide)).trans <| (StableHlo.after_of_writes_sub hostOps2 _ hostOps2_writes (by decide : main_arg6 ∉ hostOps2_W)).trans <|
  (B4_of_ne m ρ c main_arg6 (by decide)).trans <| (StableHlo.after_of_writes_sub hostOps1 _ hostOps1_writes (by decide : main_arg6 ∉ hostOps1_W)).trans <|
  (B2_of_ne m ρ c main_arg6 (by decide)).trans <| (StableHlo.after_of_writes_sub hostOps0 _ hostOps0_writes (by decide : main_arg6 ∉ hostOps0_W)).trans rfl
theorem B6_main_arg7 (c : Dev nD) : B6 m ρ c (Proc.devRef .tc main_arg7) = m ((c : Thread nD τ).loc main_arg7) :=
  (B6_of_ne m ρ c main_arg7 (by decide)).trans <| (StableHlo.after_of_writes_sub hostOps2 _ hostOps2_writes (by decide : main_arg7 ∉ hostOps2_W)).trans <|
  (B4_of_ne m ρ c main_arg7 (by decide)).trans <| (StableHlo.after_of_writes_sub hostOps1 _ hostOps1_writes (by decide : main_arg7 ∉ hostOps1_W)).trans <|
  (B2_of_ne m ρ c main_arg7 (by decide)).trans <| (StableHlo.after_of_writes_sub hostOps0 _ hostOps0_writes (by decide : main_arg7 ∉ hostOps0_W)).trans rfl
theorem B6_main_arg8 (c : Dev nD) : B6 m ρ c (Proc.devRef .tc main_arg8) = m ((c : Thread nD τ).loc main_arg8) :=
  (B6_of_ne m ρ c main_arg8 (by decide)).trans <| (StableHlo.after_of_writes_sub hostOps2 _ hostOps2_writes (by decide : main_arg8 ∉ hostOps2_W)).trans <|
  (B4_of_ne m ρ c main_arg8 (by decide)).trans <| (StableHlo.after_of_writes_sub hostOps1 _ hostOps1_writes (by decide : main_arg8 ∉ hostOps1_W)).trans <|
  (B2_of_ne m ρ c main_arg8 (by decide)).trans <| (StableHlo.after_of_writes_sub hostOps0 _ hostOps0_writes (by decide : main_arg8 ∉ hostOps0_W)).trans rfl
theorem B6_main_arg9 (c : Dev nD) : B6 m ρ c (Proc.devRef .tc main_arg9) = m ((c : Thread nD τ).loc main_arg9) :=
  (B6_of_ne m ρ c main_arg9 (by decide)).trans <| (StableHlo.after_of_writes_sub hostOps2 _ hostOps2_writes (by decide : main_arg9 ∉ hostOps2_W)).trans <|
  (B4_of_ne m ρ c main_arg9 (by decide)).trans <| (StableHlo.after_of_writes_sub hostOps1 _ hostOps1_writes (by decide : main_arg9 ∉ hostOps1_W)).trans <|
  (B2_of_ne m ρ c main_arg9 (by decide)).trans <| (StableHlo.after_of_writes_sub hostOps0 _ hostOps0_writes (by decide : main_arg9 ∉ hostOps0_W)).trans rfl
theorem B6_main_arg10 (c : Dev nD) : B6 m ρ c (Proc.devRef .tc main_arg10) = m ((c : Thread nD τ).loc main_arg10) :=
  (B6_of_ne m ρ c main_arg10 (by decide)).trans <| (StableHlo.after_of_writes_sub hostOps2 _ hostOps2_writes (by decide : main_arg10 ∉ hostOps2_W)).trans <|
  (B4_of_ne m ρ c main_arg10 (by decide)).trans <| (StableHlo.after_of_writes_sub hostOps1 _ hostOps1_writes (by decide : main_arg10 ∉ hostOps1_W)).trans <|
  (B2_of_ne m ρ c main_arg10 (by decide)).trans <| (StableHlo.after_of_writes_sub hostOps0 _ hostOps0_writes (by decide : main_arg10 ∉ hostOps0_W)).trans rfl
theorem B6_main_arg11 (c : Dev nD) : B6 m ρ c (Proc.devRef .tc main_arg11) = m ((c : Thread nD τ).loc main_arg11) :=
  (B6_of_ne m ρ c main_arg11 (by decide)).trans <| (StableHlo.after_of_writes_sub hostOps2 _ hostOps2_writes (by decide : main_arg11 ∉ hostOps2_W)).trans <|
  (B4_of_ne m ρ c main_arg11 (by decide)).trans <| (StableHlo.after_of_writes_sub hostOps1 _ hostOps1_writes (by decide : main_arg11 ∉ hostOps1_W)).trans <|
  (B2_of_ne m ρ c main_arg11 (by decide)).trans <| (StableHlo.after_of_writes_sub hostOps0 _ hostOps0_writes (by decide : main_arg11 ∉ hostOps0_W)).trans rfl
theorem B6_main_arg12 (c : Dev nD) : B6 m ρ c (Proc.devRef .tc main_arg12) = m ((c : Thread nD τ).loc main_arg12) :=
  (B6_of_ne m ρ c main_arg12 (by decide)).trans <| (StableHlo.after_of_writes_sub hostOps2 _ hostOps2_writes (by decide : main_arg12 ∉ hostOps2_W)).trans <|
  (B4_of_ne m ρ c main_arg12 (by decide)).trans <| (StableHlo.after_of_writes_sub hostOps1 _ hostOps1_writes (by decide : main_arg12 ∉ hostOps1_W)).trans <|
  (B2_of_ne m ρ c main_arg12 (by decide)).trans <| (StableHlo.after_of_writes_sub hostOps0 _ hostOps0_writes (by decide : main_arg12 ∉ hostOps0_W)).trans rfl
theorem B6_main_arg13 (c : Dev nD) : B6 m ρ c (Proc.devRef .tc main_arg13) = m ((c : Thread nD τ).loc main_arg13) :=
  (B6_of_ne m ρ c main_arg13 (by decide)).trans <| (StableHlo.after_of_writes_sub hostOps2 _ hostOps2_writes (by decide : main_arg13 ∉ hostOps2_W)).trans <|
  (B4_of_ne m ρ c main_arg13 (by decide)).trans <| (StableHlo.after_of_writes_sub hostOps1 _ hostOps1_writes (by decide : main_arg13 ∉ hostOps1_W)).trans <|
  (B2_of_ne m ρ c main_arg13 (by decide)).trans <| (StableHlo.after_of_writes_sub hostOps0 _ hostOps0_writes (by decide : main_arg13 ∉ hostOps0_W)).trans rfl
theorem B6_main_arg14 (c : Dev nD) : B6 m ρ c (Proc.devRef .tc main_arg14) = m ((c : Thread nD τ).loc main_arg14) :=
  (B6_of_ne m ρ c main_arg14 (by decide)).trans <| (StableHlo.after_of_writes_sub hostOps2 _ hostOps2_writes (by decide : main_arg14 ∉ hostOps2_W)).trans <|
  (B4_of_ne m ρ c main_arg14 (by decide)).trans <| (StableHlo.after_of_writes_sub hostOps1 _ hostOps1_writes (by decide : main_arg14 ∉ hostOps1_W)).trans <|
  (B2_of_ne m ρ c main_arg14 (by decide)).trans <| (StableHlo.after_of_writes_sub hostOps0 _ hostOps0_writes (by decide : main_arg14 ∉ hostOps0_W)).trans rfl
theorem B6_main_arg15 (c : Dev nD) : B6 m ρ c (Proc.devRef .tc main_arg15) = m ((c : Thread nD τ).loc main_arg15) :=
  (B6_of_ne m ρ c main_arg15 (by decide)).trans <| (StableHlo.after_of_writes_sub hostOps2 _ hostOps2_writes (by decide : main_arg15 ∉ hostOps2_W)).trans <|
  (B4_of_ne m ρ c main_arg15 (by decide)).trans <| (StableHlo.after_of_writes_sub hostOps1 _ hostOps1_writes (by decide : main_arg15 ∉ hostOps1_W)).trans <|
  (B2_of_ne m ρ c main_arg15 (by decide)).trans <| (StableHlo.after_of_writes_sub hostOps0 _ hostOps0_writes (by decide : main_arg15 ∉ hostOps0_W)).trans rfl
theorem B6_main_arg16 (c : Dev nD) : B6 m ρ c (Proc.devRef .tc main_arg16) = m ((c : Thread nD τ).loc main_arg16) :=
  (B6_of_ne m ρ c main_arg16 (by decide)).trans <| (StableHlo.after_of_writes_sub hostOps2 _ hostOps2_writes (by decide : main_arg16 ∉ hostOps2_W)).trans <|
  (B4_of_ne m ρ c main_arg16 (by decide)).trans <| (StableHlo.after_of_writes_sub hostOps1 _ hostOps1_writes (by decide : main_arg16 ∉ hostOps1_W)).trans <|
  (B2_of_ne m ρ c main_arg16 (by decide)).trans <| (StableHlo.after_of_writes_sub hostOps0 _ hostOps0_writes (by decide : main_arg16 ∉ hostOps0_W)).trans rfl
theorem B6_main_arg17 (c : Dev nD) : B6 m ρ c (Proc.devRef .tc main_arg17) = m ((c : Thread nD τ).loc main_arg17) :=
  (B6_of_ne m ρ c main_arg17 (by decide)).trans <| (StableHlo.after_of_writes_sub hostOps2 _ hostOps2_writes (by decide : main_arg17 ∉ hostOps2_W)).trans <|
  (B4_of_ne m ρ c main_arg17 (by decide)).trans <| (StableHlo.after_of_writes_sub hostOps1 _ hostOps1_writes (by decide : main_arg17 ∉ hostOps1_W)).trans <|
  (B2_of_ne m ρ c main_arg17 (by decide)).trans <| (StableHlo.after_of_writes_sub hostOps0 _ hostOps0_writes (by decide : main_arg17 ∉ hostOps0_W)).trans rfl

end Cert.KernelIdeal.Hand

end
-- ==== Proof.IRun.lean ====
/-
  @main's run, item by item: three stretches of host operations (the neighbour mean and the transposed weights of a
  layer) and three kernel regions (the layers). `Bj c` is what core `c`'s unscoped buffers hold after j items: a
  stretch's operations applied to the contents before it; a region's output array at what its write-backs leave
  (`Dat.arrAt … N`), every other buffer as the region found it. The regions are entered from and left at "every unscoped
  buffer at the boundary's contents"; in layers two and three the features and the residual are ONE array read through
  two windows, so that array's buffer is split into the halves of its share at the entry and joined at the exit. The
  last theorem says every weakly fair execution ends with every unscoped buffer at `B6`; the argument arrays reach the
  end as launched.
-/
import proofs.«171848_j82592221102604_1_alg».proof.Proof.IShared1
import proofs.«171848_j82592221102604_1_alg».proof.Proof.IShared2
import proofs.«171848_j82592221102604_1_alg».proof.Proof.IBounds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (C1 m ρ) c
  | ⟨1, _⟩ => fun c => dat1 (C3 m ρ) c
  | ⟨2, _⟩ => fun c => dat2 (C5 m ρ) c
abbrev 𝒱₀ : Variants := Variants.none
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B6 m ρ c) ∗ ∃ r, prngReg c r)

set_option backward.isDefEq.respectTransparency.types false in
/-- REGION 0 over the thread state: entered from every unscoped buffer at `B1`, left at `B2`; the generator register
    into the region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (C1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (C1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (C1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (C1 m ρ c) (C2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `B3`, left at `B4`; the generator register
    into the region's invariant and out; nothing owed; no semaphore of the kernel's own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (C3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (C3 m ρ c)
  hentry c := by
    rw [Pipeline.ownSems0_none]
    have hsplit : (unscopedBufs (Ix := Unit) (Name := ℕ) (U := UR sig nD τ) (Lvl := ℕ) c (C3 m ρ c) : sProp 𝕄)
        ⊢ iprop((pdats m ρ 1 c).arrays ((pdats m ρ 1 c).arrAt · 0) ∗ Pipeline.unscopedRest (Ix := Unit) (Name := ℕ) (U := UR sig nD τ) (Lvl := ℕ) spec1 c (C3 m ρ c)) := by
      rw [Pipeline.unscopedBufs_split₀ (Pipeline.pin (pcfgs (F := F)) adm) 1 winFacts₀1.arr_unscoped c (C3 m ρ c)]
      exact sep_mono (split1 (C3 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest (Ix := Unit) (Name := ℕ) (U := UR sig nD τ) (Lvl := ℕ) spec1 c (C3 m ρ c))
        ⊢ (unscopedBufs (Ix := Unit) (Name := ℕ) (U := UR sig nD τ) (Lvl := ℕ) c (C4 m ρ c) : sProp 𝕄) := by
      rw [Pipeline.unscopedBufs_split₀ (Pipeline.pin (pcfgs (F := F)) adm) 1 winFacts₀1.arr_unscoped c (C4 m ρ c)]
      refine sep_mono (join1 (C3 m ρ) c (C4 m ρ c) (hF1 m ρ c)) (Entails.of_eq ?_)
      unfold Pipeline.unscopedRest
      exact bigSep_congr fun b hb => by rw [hrest1 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `B5`, left at `B6`; the generator register
    into the region's invariant and out; nothing owed; no semaphore of the kernel's own. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (C5 m ρ) c).loose
  hwaits := Pipeline.hwaits_of_owed_zero _ _ _ _ L lv 2 fun _ _ => rfl
  pre c := iprop(StableHlo.held (c : Thread nD τ) (Pipeline.ucRefs τ sig) (B5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (C5 m ρ c)
  hentry c := by
    rw [Pipeline.ownSems0_none]
    have hsplit : (unscopedBufs (Ix := Unit) (Name := ℕ) (U := UR sig nD τ) (Lvl := ℕ) c (C5 m ρ c) : sProp 𝕄)
        ⊢ iprop((pdats m ρ 2 c).arrays ((pdats m ρ 2 c).arrAt · 0) ∗ Pipeline.unscopedRest (Ix := Unit) (Name := ℕ) (U := UR sig nD τ) (Lvl := ℕ) spec2 c (C5 m ρ c)) := by
      rw [Pipeline.unscopedBufs_split₀ (Pipeline.pin (pcfgs (F := F)) adm) 2 winFacts₀2.arr_unscoped c (C5 m ρ c)]
      exact sep_mono (split2 (C5 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N) ∗ Pipeline.unscopedRest (Ix := Unit) (Name := ℕ) (U := UR sig nD τ) (Lvl := ℕ) spec2 c (C5 m ρ c))
        ⊢ (unscopedBufs (Ix := Unit) (Name := ℕ) (U := UR sig nD τ) (Lvl := ℕ) c (C6 m ρ c) : sProp 𝕄) := by
      rw [Pipeline.unscopedBufs_split₀ (Pipeline.pin (pcfgs (F := F)) adm) 2 winFacts₀2.arr_unscoped c (C6 m ρ c)]
      refine sep_mono (join2 (C5 m ρ) c (C6 m ρ c) (hF2 m ρ c)) (Entails.of_eq ?_)
      unfold Pipeline.unscopedRest
      exact bigSep_congr fun b hb => by rw [hrest2 m ρ c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

abbrev items : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ) ]
theorem main_run (c : Dev nD) : main (F := F) c = Pipeline.Seg.run (items m ρ) := (main_chain c).trans (by chain_rfl)

set_option backward.isDefEq.respectTransparency.types false in
/-- Every weakly fair execution of @main from memory `m` with zero counters terminates, nothing faulting, with the result
    array at `B6`'s contents and every argument array as launched. -/
theorem run : θ_run defs (onTc (τ := τ) (main (F := F))) ⟨m, fun _ => 0, ρ⟩ (fun r => ∀ c : Dev nD,
      r.2.mem ((c.tc : Thread nD τ).loc main_v67) = B6 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m ρ c b)
    (hfin := fun c s' => by
      iintro ⟨⟨Hh, -⟩, HSI⟩
      unfold StableHlo.held
      imodintro
      iapply (pointsTo_read_all (Pipeline.ucRefs τ sig) (fun b => (((c : Thread nD τ)).1, b)) (B6 m ρ c) s')
      isplitl [Hh] <;> iassumption)
    (hQ := fun s h c =>
      ⟨h c _ (mem_uc main_v67 (by decide)),
       (h c _ (mem_uc main_arg0 (by decide))).trans (B6_main_arg0 m ρ c),
       (h c _ (mem_uc main_arg1 (by decide))).trans (B6_main_arg1 m ρ c),
       (h c _ (mem_uc main_arg2 (by decide))).trans (B6_main_arg2 m ρ c),
       (h c _ (mem_uc main_arg3 (by decide))).trans (B6_main_arg3 m ρ c),
       (h c _ (mem_uc main_arg4 (by decide))).trans (B6_main_arg4 m ρ c),
       (h c _ (mem_uc main_arg5 (by decide))).trans (B6_main_arg5 m ρ c),
       (h c _ (mem_uc main_arg6 (by decide))).trans (B6_main_arg6 m ρ c),
       (h c _ (mem_uc main_arg7 (by decide))).trans (B6_main_arg7 m ρ c),
       (h c _ (mem_uc main_arg8 (by decide))).trans (B6_main_arg8 m ρ c),
       (h c _ (mem_uc main_arg9 (by decide))).trans (B6_main_arg9 m ρ c),
       (h c _ (mem_uc main_arg10 (by decide))).trans (B6_main_arg10 m ρ c),
       (h c _ (mem_uc main_arg11 (by decide))).trans (B6_main_arg11 m ρ c),
       (h c _ (mem_uc main_arg12 (by decide))).trans (B6_main_arg12 m ρ c),
       (h c _ (mem_uc main_arg13 (by decide))).trans (B6_main_arg13 m ρ c),
       (h c _ (mem_uc main_arg14 (by decide))).trans (B6_main_arg14 m ρ c),
       (h c _ (mem_uc main_arg15 (by decide))).trans (B6_main_arg15 m ρ c),
       (h c _ (mem_uc main_arg16 (by decide))).trans (B6_main_arg16 m ρ c),
       (h c _ (mem_uc main_arg17 (by decide))).trans (B6_main_arg17 m ρ c)⟩)

end Cert.KernelIdeal.Hand

end
-- ==== Proof.IBlocks.lean ====
/-
  From blocks to arrays. Each layer's kernel works on twenty blocks of a thousand rows: at grid point `t` the windows of
  the neighbour mean, the features, the residual and the output stand on rows `1000 t … 1000 t + 999` of their arrays,
  the other windows on their whole arrays. Since the twenty output blocks tile the output array, the array after the
  region is the one function of the array index whose block `t` is what the body leaves at point `t`.
-/
import proofs.«171848_j82592221102604_1_alg».proof.Proof.IRegion0
import proofs.«171848_j82592221102604_1_alg».proof.Proof.IRegion1
import proofs.«171848_j82592221102604_1_alg».proof.Proof.IRegion2
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-! ## Region 0 -/

/-- The printed index maps over the grid: the row-block windows (the mean, the features, the residual, the output) take
    block `t` of rows at point `t`; the weights, bias, scale, shift and slope stay at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0
    ∧ win0_3.index t (0 : Fin 2) = 0 ∧ win0_3.index t (1 : Fin 2) = 0
    ∧ win0_5.index t (0 : Fin 2) = 0 ∧ win0_5.index t (1 : Fin 2) = 0
    ∧ win0_4.index t (0 : Fin 1) = 0 ∧ win0_6.index t (0 : Fin 1) = 0
    ∧ win0_7.index t (0 : Fin 1) = 0 ∧ win0_8.index t (0 : Fin 1) = 0 :=
  (by decide +kernel : ∀ t : Fin grid0.N, _)

/-- Window 0's block at point `t` is rows `1000 t … 1000 t + 999` of its array. -/
theorem iblk0_0_apply (c : Dev nD) (t : Fin cfg0.N) (y : S1000x512.Idx) (i : S20000x512.Idx)
    (h0 : (i 0).val = 1000 * t.val + (y 0).val) (h1 : (i 1).val = (y 1).val) :
    (iblk0 V c 0 t : Vec F S1000x512 .f32) y = (V c main_v22 : S20000x512.Idx → Elt F .f32) i := by
  obtain ⟨e00, e01, e10, e11, e20, e21, e90, e91, e30, e31, e50, e51, e4, e6, e7, e8⟩ := idx_facts0 t
  unfold iblk0
  rw [View.read_apply]
  show V c main_v22 _ = V c main_v22 _
  congr 1
  funext a
  apply Fin.ext
  match a with
  | ⟨0, _⟩ => show win0_0.index t 0 * 1000 + 1 * (y 0).val = (i 0).val; rw [e00, h0]; omega
  | ⟨1, _⟩ => show win0_0.index t 1 * 512 + 1 * (y 1).val = (i 1).val; rw [e01, h1]; omega

/-- Window 1's block at point `t` is rows `1000 t … 1000 t + 999` of its array. -/
theorem iblk0_1_apply (c : Dev nD) (t : Fin cfg0.N) (y : S1000x512.Idx) (i : S20000x512.Idx)
    (h0 : (i 0).val = 1000 * t.val + (y 0).val) (h1 : (i 1).val = (y 1).val) :
    (iblk0 V c 1 t : Vec F S1000x512 .f32) y = (V c main_arg0 : S20000x512.Idx → Elt F .f32) i := by
  obtain ⟨e00, e01, e10, e11, e20, e21, e90, e91, e30, e31, e50, e51, e4, e6, e7, e8⟩ := idx_facts0 t
  unfold iblk0
  rw [View.read_apply]
  show V c main_arg0 _ = V c main_arg0 _
  congr 1
  funext a
  apply Fin.ext
  match a with
  | ⟨0, _⟩ => show win0_1.index t 0 * 1000 + 1 * (y 0).val = (i 0).val; rw [e10, h0]; omega
  | ⟨1, _⟩ => show win0_1.index t 1 * 512 + 1 * (y 1).val = (i 1).val; rw [e11, h1]; omega

/-- Window 2's block at point `t` is rows `1000 t … 1000 t + 999` of its array. -/
theorem iblk0_2_apply (c : Dev nD) (t : Fin cfg0.N) (y : S1000x512.Idx) (i : S20000x512.Idx)
    (h0 : (i 0).val = 1000 * t.val + (y 0).val) (h1 : (i 1).val = (y 1).val) :
    (iblk0 V c 2 t : Vec F S1000x512 .f32) y = (V c main_v4 : S20000x512.Idx → Elt F .f32) i := by
  obtain ⟨e00, e01, e10, e11, e20, e21, e90, e91, e30, e31, e50, e51, e4, e6, e7, e8⟩ := idx_facts0 t
  unfold iblk0
  rw [View.read_apply]
  show V c main_v4 _ = V c main_v4 _
  congr 1
  funext a
  apply Fin.ext
  match a with
  | ⟨0, _⟩ => show win0_2.index t 0 * 1000 + 1 * (y 0).val = (i 0).val; rw [e20, h0]; omega
  | ⟨1, _⟩ => show win0_2.index t 1 * 512 + 1 * (y 1).val = (i 1).val; rw [e21, h1]; omega

/-- Window 3's block at every point is its whole array. -/
theorem iblk0_3_eq (c : Dev nD) (t : Fin cfg0.N) :
    (iblk0 V c 3 t : Vec F S512x512 .f32) = (V c main_v23 : S512x512.Idx → Elt F .f32) := by
  obtain ⟨e00, e01, e10, e11, e20, e21, e90, e91, e30, e31, e50, e51, e4, e6, e7, e8⟩ := idx_facts0 t
  funext y
  unfold iblk0
  rw [View.read_apply]
  show V c main_v23 _ = V c main_v23 _
  congr 1
  funext a
  apply Fin.ext
  match a with
  | ⟨0, _⟩ => show win0_3.index t 0 * 512 + 1 * (y 0).val = (y 0).val; rw [e30]; omega
  | ⟨1, _⟩ => show win0_3.index t 1 * 512 + 1 * (y 1).val = (y 1).val; rw [e31]; omega

/-- Window 5's block at every point is its whole array. -/
theorem iblk0_5_eq (c : Dev nD) (t : Fin cfg0.N) :
    (iblk0 V c 5 t : Vec F S512x512 .f32) = (V c main_v24 : S512x512.Idx → Elt F .f32) := by
  obtain ⟨e00, e01, e10, e11, e20, e21, e90, e91, e30, e31, e50, e51, e4, e6, e7, e8⟩ := idx_facts0 t
  funext y
  unfold iblk0
  rw [View.read_apply]
  show V c main_v24 _ = V c main_v24 _
  congr 1
  funext a
  apply Fin.ext
  match a with
  | ⟨0, _⟩ => show win0_5.index t 0 * 512 + 1 * (y 0).val = (y 0).val; rw [e50]; omega
  | ⟨1, _⟩ => show win0_5.index t 1 * 512 + 1 * (y 1).val = (y 1).val; rw [e51]; omega

/-- Window 4's block at every point is its whole array. -/
theorem iblk0_4_eq (c : Dev nD) (t : Fin cfg0.N) :
    (iblk0 V c 4 t : Vec F S512 .f32) = (V c main_arg3 : S512.Idx → Elt F .f32) := by
  obtain ⟨e00, e01, e10, e11, e20, e21, e90, e91, e30, e31, e50, e51, e4, e6, e7, e8⟩ := idx_facts0 t
  funext y
  unfold iblk0
  rw [View.read_apply]
  show V c main_arg3 _ = V c main_arg3 _
  congr 1
  funext a
  apply Fin.ext
  match a with
  | ⟨0, _⟩ => show win0_4.index t 0 * 512 + 1 * (y 0).val = (y 0).val; rw [e4]; omega

/-- Window 6's block at every point is its whole array. -/
theorem iblk0_6_eq (c : Dev nD) (t : Fin cfg0.N) :
    (iblk0 V c 6 t : Vec F S512 .f32) = (V c main_arg5 : S512.Idx → Elt F .f32) := by
  obtain ⟨e00, e01, e10, e11, e20, e21, e90, e91, e30, e31, e50, e51, e4, e6, e7, e8⟩ := idx_facts0 t
  funext y
  unfold iblk0
  rw [View.read_apply]
  show V c main_arg5 _ = V c main_arg5 _
  congr 1
  funext a
  apply Fin.ext
  match a with
  | ⟨0, _⟩ => show win0_6.index t 0 * 512 + 1 * (y 0).val = (y 0).val; rw [e6]; omega

/-- Window 7's block at every point is its whole array. -/
theorem iblk0_7_eq (c : Dev nD) (t : Fin cfg0.N) :
    (iblk0 V c 7 t : Vec F S512 .f32) = (V c main_arg6 : S512.Idx → Elt F .f32) := by
  obtain ⟨e00, e01, e10, e11, e20, e21, e90, e91, e30, e31, e50, e51, e4, e6, e7, e8⟩ := idx_facts0 t
  funext y
  unfold iblk0
  rw [View.read_apply]
  show V c main_arg6 _ = V c main_arg6 _
  congr 1
  funext a
  apply Fin.ext
  match a with
  | ⟨0, _⟩ => show win0_7.index t 0 * 512 + 1 * (y 0).val = (y 0).val; rw [e7]; omega

/-- Window 8's block at every point is its whole array. -/
theorem iblk0_8_eq (c : Dev nD) (t : Fin cfg0.N) :
    (iblk0 V c 8 t : Vec F S1 .f32) = (V c main_arg17 : S1.Idx → Elt F .f32) := by
  obtain ⟨e00, e01, e10, e11, e20, e21, e90, e91, e30, e31, e50, e51, e4, e6, e7, e8⟩ := idx_facts0 t
  funext y
  unfold iblk0
  rw [View.read_apply]
  show V c main_arg17 _ = V c main_arg17 _
  congr 1
  funext a
  apply Fin.ext
  match a with
  | ⟨0, _⟩ => show win0_8.index t 0 * 1 + 1 * (y 0).val = (y 0).val; rw [e8]; omega

/-- THE OUTPUT ARRAY after the region: any function `G` of the array index whose rows `1000 t … 1000 t + 999` are what the
    body leaves at point `t` — the twenty row blocks tile the array. -/
theorem final0 (c : Dev nD) (G : S20000x512.Idx → Elt F .f32)
    (hG : ∀ (t : Fin cfg0.N) (y : S1000x512.Idx) (i : S20000x512.Idx), (i 0).val = 1000 * t.val + (y 0).val → (i 1).val = (y 1).val →
      out0_9 (iblk0 V c 0 t) (iblk0 V c 1 t) (iblk0 V c 2 t) (iblk0 V c 3 t) (iblk0 V c 4 t) (iblk0 V c 5 t) (iblk0 V c 6 t) (iblk0 V c 7 t) (iblk0 V c 8 t) y = G i) :
    (dat0 V c).arrAt 9 cfg0.N = G := by
  refine (dat0 V c).arrAt_eq_of_cover 9 G (fun t _ => ?_) (fun i => ?_)
  · show (cfg0.win 9).cut (grid0.coords t) ((dat0 V c).after 9 t) = _
    rw [after0_9]
    obtain ⟨e00, e01, e10, e11, e20, e21, e90, e91, e30, e31, e50, e51, e4, e6, e7, e8⟩ := idx_facts0 t
    funext y
    refine hG t y (((cfg0.win 9).blk t).view.emb y) ?_ ?_
    · show win0_9.index t 0 * 1000 + 1 * (y 0).val = 1000 * t.val + (y 0).val; rw [e90]; omega
    · show win0_9.index t 1 * 512 + 1 * (y 1).val = (y 1).val; rw [e91]; omega
  · have hi0 : (i 0).val < 20000 := (i 0).isLt
    have hi1 : (i 1).val < 512 := (i 1).isLt
    have hN : cfg0.N = 20 := N_0
    let t : Fin cfg0.N := ⟨(i 0).val / 1000, by rw [hN]; omega⟩
    obtain ⟨e00, e01, e10, e11, e20, e21, e90, e91, e30, e31, e50, e51, e4, e6, e7, e8⟩ := idx_facts0 t
    refine ⟨t, flush0_9 t, ?_⟩
    show i ∈ ((View.whole main_v25).slice (win0_9.rect t)).set
    rw [View.set_slice_whole, Rect.mem_set_unit]
    intro a
    match a with
    | ⟨0, _⟩ => show win0_9.index t 0 * 1000 ≤ (i 0).val ∧ (i 0).val < win0_9.index t 0 * 1000 + 1000
                rw [e90]; show (i 0).val / 1000 * 1000 ≤ (i 0).val ∧ (i 0).val < (i 0).val / 1000 * 1000 + 1000; omega
    | ⟨1, _⟩ => show win0_9.index t 1 * 512 ≤ (i 1).val ∧ (i 1).val < win0_9.index t 1 * 512 + 512
                rw [e91]; omega

/-! ## Region 1 -/

/-- The printed index maps over the grid: the row-block windows (the mean, the features, the residual, the output) take
    block `t` of rows at point `t`; the weights, bias, scale, shift and slope stay at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_9.index t (0 : Fin 2) = t.val ∧ win1_9.index t (1 : Fin 2) = 0
    ∧ win1_3.index t (0 : Fin 2) = 0 ∧ win1_3.index t (1 : Fin 2) = 0
    ∧ win1_5.index t (0 : Fin 2) = 0 ∧ win1_5.index t (1 : Fin 2) = 0
    ∧ win1_4.index t (0 : Fin 1) = 0 ∧ win1_6.index t (0 : Fin 1) = 0
    ∧ win1_7.index t (0 : Fin 1) = 0 ∧ win1_8.index t (0 : Fin 1) = 0 :=
  (by decide +kernel : ∀ t : Fin grid1.N, _)

/-- Window 0's block at point `t` is rows `1000 t … 1000 t + 999` of its array. -/
theorem iblk1_0_apply (c : Dev nD) (t : Fin cfg1.N) (y : S1000x512.Idx) (i : S20000x512.Idx)
    (h0 : (i 0).val = 1000 * t.val + (y 0).val) (h1 : (i 1).val = (y 1).val) :
    (iblk1 V c 0 t : Vec F S1000x512 .f32) y = (V c main_v43 : S20000x512.Idx → Elt F .f32) i := by
  obtain ⟨e00, e01, e10, e11, e20, e21, e90, e91, e30, e31, e50, e51, e4, e6, e7, e8⟩ := idx_facts1 t
  unfold iblk1
  rw [View.read_apply]
  show V c main_v43 _ = V c main_v43 _
  congr 1
  funext a
  apply Fin.ext
  match a with
  | ⟨0, _⟩ => show win1_0.index t 0 * 1000 + 1 * (y 0).val = (i 0).val; rw [e00, h0]; omega
  | ⟨1, _⟩ => show win1_0.index t 1 * 512 + 1 * (y 1).val = (i 1).val; rw [e01, h1]; omega

/-- Window 1's block at point `t` is rows `1000 t … 1000 t + 999` of its array. -/
theorem iblk1_1_apply (c : Dev nD) (t : Fin cfg1.N) (y : S1000x512.Idx) (i : S20000x512.Idx)
    (h0 : (i 0).val = 1000 * t.val + (y 0).val) (h1 : (i 1).val = (y 1).val) :
    (iblk1 V c 1 t : Vec F S1000x512 .f32) y = (V c main_v25 : S20000x512.Idx → Elt F .f32) i := by
  obtain ⟨e00, e01, e10, e11, e20, e21, e90, e91, e30, e31, e50, e51, e4, e6, e7, e8⟩ := idx_facts1 t
  unfold iblk1
  rw [View.read_apply]
  show V c main_v25 _ = V c main_v25 _
  congr 1
  funext a
  apply Fin.ext
  match a with
  | ⟨0, _⟩ => show win1_1.index t 0 * 1000 + 1 * (y 0).val = (i 0).val; rw [e10, h0]; omega
  | ⟨1, _⟩ => show win1_1.index t 1 * 512 + 1 * (y 1).val = (i 1).val; rw [e11, h1]; omega

/-- Window 2's block at point `t` is rows `1000 t … 1000 t + 999` of its array. -/
theorem iblk1_2_apply (c : Dev nD) (t : Fin cfg1.N) (y : S1000x512.Idx) (i : S20000x512.Idx)
    (h0 : (i 0).val = 1000 * t.val + (y 0).val) (h1 : (i 1).val = (y 1).val) :
    (iblk1 V c 2 t : Vec F S1000x512 .f32) y = (V c main_v25 : S20000x512.Idx → Elt F .f32) i := by
  obtain ⟨e00, e01, e10, e11, e20, e21, e90, e91, e30, e31, e50, e51, e4, e6, e7, e8⟩ := idx_facts1 t
  unfold iblk1
  rw [View.read_apply]
  show V c main_v25 _ = V c main_v25 _
  congr 1
  funext a
  apply Fin.ext
  match a with
  | ⟨0, _⟩ => show win1_2.index t 0 * 1000 + 1 * (y 0).val = (i 0).val; rw [e20, h0]; omega
  | ⟨1, _⟩ => show win1_2.index t 1 * 512 + 1 * (y 1).val = (i 1).val; rw [e21, h1]; omega

/-- Window 3's block at every point is its whole array. -/
theorem iblk1_3_eq (c : Dev nD) (t : Fin cfg1.N) :
    (iblk1 V c 3 t : Vec F S512x512 .f32) = (V c main_v44 : S512x512.Idx → Elt F .f32) := by
  obtain ⟨e00, e01, e10, e11, e20, e21, e90, e91, e30, e31, e50, e51, e4, e6, e7, e8⟩ := idx_facts1 t
  funext y
  unfold iblk1
  rw [View.read_apply]
  show V c main_v44 _ = V c main_v44 _
  congr 1
  funext a
  apply Fin.ext
  match a with
  | ⟨0, _⟩ => show win1_3.index t 0 * 512 + 1 * (y 0).val = (y 0).val; rw [e30]; omega
  | ⟨1, _⟩ => show win1_3.index t 1 * 512 + 1 * (y 1).val = (y 1).val; rw [e31]; omega

/-- Window 5's block at every point is its whole array. -/
theorem iblk1_5_eq (c : Dev nD) (t : Fin cfg1.N) :
    (iblk1 V c 5 t : Vec F S512x512 .f32) = (V c main_v45 : S512x512.Idx → Elt F .f32) := by
  obtain ⟨e00, e01, e10, e11, e20, e21, e90, e91, e30, e31, e50, e51, e4, e6, e7, e8⟩ := idx_facts1 t
  funext y
  unfold iblk1
  rw [View.read_apply]
  show V c main_v45 _ = V c main_v45 _
  congr 1
  funext a
  apply Fin.ext
  match a with
  | ⟨0, _⟩ => show win1_5.index t 0 * 512 + 1 * (y 0).val = (y 0).val; rw [e50]; omega
  | ⟨1, _⟩ => show win1_5.index t 1 * 512 + 1 * (y 1).val = (y 1).val; rw [e51]; omega

/-- Window 4's block at every point is its whole array. -/
theorem iblk1_4_eq (c : Dev nD) (t : Fin cfg1.N) :
    (iblk1 V c 4 t : Vec F S512 .f32) = (V c main_arg8 : S512.Idx → Elt F .f32) := by
  obtain ⟨e00, e01, e10, e11, e20, e21, e90, e91, e30, e31, e50, e51, e4, e6, e7, e8⟩ := idx_facts1 t
  funext y
  unfold iblk1
  rw [View.read_apply]
  show V c main_arg8 _ = V c main_arg8 _
  congr 1
  funext a
  apply Fin.ext
  match a with
  | ⟨0, _⟩ => show win1_4.index t 0 * 512 + 1 * (y 0).val = (y 0).val; rw [e4]; omega

/-- Window 6's block at every point is its whole array. -/
theorem iblk1_6_eq (c : Dev nD) (t : Fin cfg1.N) :
    (iblk1 V c 6 t : Vec F S512 .f32) = (V c main_arg10 : S512.Idx → Elt F .f32) := by
  obtain ⟨e00, e01, e10, e11, e20, e21, e90, e91, e30, e31, e50, e51, e4, e6, e7, e8⟩ := idx_facts1 t
  funext y
  unfold iblk1
  rw [View.read_apply]
  show V c main_arg10 _ = V c main_arg10 _
  congr 1
  funext a
  apply Fin.ext
  match a with
  | ⟨0, _⟩ => show win1_6.index t 0 * 512 + 1 * (y 0).val = (y 0).val; rw [e6]; omega

/-- Window 7's block at every point is its whole array. -/
theorem iblk1_7_eq (c : Dev nD) (t : Fin cfg1.N) :
    (iblk1 V c 7 t : Vec F S512 .f32) = (V c main_arg11 : S512.Idx → Elt F .f32) := by
  obtain ⟨e00, e01, e10, e11, e20, e21, e90, e91, e30, e31, e50, e51, e4, e6, e7, e8⟩ := idx_facts1 t
  funext y
  unfold iblk1
  rw [View.read_apply]
  show V c main_arg11 _ = V c main_arg11 _
  congr 1
  funext a
  apply Fin.ext
  match a with
  | ⟨0, _⟩ => show win1_7.index t 0 * 512 + 1 * (y 0).val = (y 0).val; rw [e7]; omega

/-- Window 8's block at every point is its whole array. -/
theorem iblk1_8_eq (c : Dev nD) (t : Fin cfg1.N) :
    (iblk1 V c 8 t : Vec F S1 .f32) = (V c main_arg17 : S1.Idx → Elt F .f32) := by
  obtain ⟨e00, e01, e10, e11, e20, e21, e90, e91, e30, e31, e50, e51, e4, e6, e7, e8⟩ := idx_facts1 t
  funext y
  unfold iblk1
  rw [View.read_apply]
  show V c main_arg17 _ = V c main_arg17 _
  congr 1
  funext a
  apply Fin.ext
  match a with
  | ⟨0, _⟩ => show win1_8.index t 0 * 1 + 1 * (y 0).val = (y 0).val; rw [e8]; omega

/-- THE OUTPUT ARRAY after the region: any function `G` of the array index whose rows `1000 t … 1000 t + 999` are what the
    body leaves at point `t` — the twenty row blocks tile the array. -/
theorem final1 (c : Dev nD) (G : S20000x512.Idx → Elt F .f32)
    (hG : ∀ (t : Fin cfg1.N) (y : S1000x512.Idx) (i : S20000x512.Idx), (i 0).val = 1000 * t.val + (y 0).val → (i 1).val = (y 1).val →
      out1_9 (iblk1 V c 0 t) (iblk1 V c 1 t) (iblk1 V c 2 t) (iblk1 V c 3 t) (iblk1 V c 4 t) (iblk1 V c 5 t) (iblk1 V c 6 t) (iblk1 V c 7 t) (iblk1 V c 8 t) y = G i) :
    (dat1 V c).arrAt 9 cfg1.N = G := by
  refine (dat1 V c).arrAt_eq_of_cover 9 G (fun t _ => ?_) (fun i => ?_)
  · show (cfg1.win 9).cut (grid1.coords t) ((dat1 V c).after 9 t) = _
    rw [after1_9]
    obtain ⟨e00, e01, e10, e11, e20, e21, e90, e91, e30, e31, e50, e51, e4, e6, e7, e8⟩ := idx_facts1 t
    funext y
    refine hG t y (((cfg1.win 9).blk t).view.emb y) ?_ ?_
    · show win1_9.index t 0 * 1000 + 1 * (y 0).val = 1000 * t.val + (y 0).val; rw [e90]; omega
    · show win1_9.index t 1 * 512 + 1 * (y 1).val = (y 1).val; rw [e91]; omega
  · have hi0 : (i 0).val < 20000 := (i 0).isLt
    have hi1 : (i 1).val < 512 := (i 1).isLt
    have hN : cfg1.N = 20 := N_1
    let t : Fin cfg1.N := ⟨(i 0).val / 1000, by rw [hN]; omega⟩
    obtain ⟨e00, e01, e10, e11, e20, e21, e90, e91, e30, e31, e50, e51, e4, e6, e7, e8⟩ := idx_facts1 t
    refine ⟨t, flush1_9 t, ?_⟩
    show i ∈ ((View.whole main_v46).slice (win1_9.rect t)).set
    rw [View.set_slice_whole, Rect.mem_set_unit]
    intro a
    match a with
    | ⟨0, _⟩ => show win1_9.index t 0 * 1000 ≤ (i 0).val ∧ (i 0).val < win1_9.index t 0 * 1000 + 1000
                rw [e90]; show (i 0).val / 1000 * 1000 ≤ (i 0).val ∧ (i 0).val < (i 0).val / 1000 * 1000 + 1000; omega
    | ⟨1, _⟩ => show win1_9.index t 1 * 512 ≤ (i 1).val ∧ (i 1).val < win1_9.index t 1 * 512 + 512
                rw [e91]; omega

/-! ## Region 2 -/

/-- The printed index maps over the grid: the row-block windows (the mean, the features, the residual, the output) take
    block `t` of rows at point `t`; the weights, bias, scale, shift and slope stay at block 0. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_9.index t (0 : Fin 2) = t.val ∧ win2_9.index t (1 : Fin 2) = 0
    ∧ win2_3.index t (0 : Fin 2) = 0 ∧ win2_3.index t (1 : Fin 2) = 0
    ∧ win2_5.index t (0 : Fin 2) = 0 ∧ win2_5.index t (1 : Fin 2) = 0
    ∧ win2_4.index t (0 : Fin 1) = 0 ∧ win2_6.index t (0 : Fin 1) = 0
    ∧ win2_7.index t (0 : Fin 1) = 0 ∧ win2_8.index t (0 : Fin 1) = 0 :=
  (by decide +kernel : ∀ t : Fin grid2.N, _)

/-- Window 0's block at point `t` is rows `1000 t … 1000 t + 999` of its array. -/
theorem iblk2_0_apply (c : Dev nD) (t : Fin cfg2.N) (y : S1000x512.Idx) (i : S20000x512.Idx)
    (h0 : (i 0).val = 1000 * t.val + (y 0).val) (h1 : (i 1).val = (y 1).val) :
    (iblk2 V c 0 t : Vec F S1000x512 .f32) y = (V c main_v64 : S20000x512.Idx → Elt F .f32) i := by
  obtain ⟨e00, e01, e10, e11, e20, e21, e90, e91, e30, e31, e50, e51, e4, e6, e7, e8⟩ := idx_facts2 t
  unfold iblk2
  rw [View.read_apply]
  show V c main_v64 _ = V c main_v64 _
  congr 1
  funext a
  apply Fin.ext
  match a with
  | ⟨0, _⟩ => show win2_0.index t 0 * 1000 + 1 * (y 0).val = (i 0).val; rw [e00, h0]; omega
  | ⟨1, _⟩ => show win2_0.index t 1 * 512 + 1 * (y 1).val = (i 1).val; rw [e01, h1]; omega

/-- Window 1's block at point `t` is rows `1000 t … 1000 t + 999` of its array. -/
theorem iblk2_1_apply (c : Dev nD) (t : Fin cfg2.N) (y : S1000x512.Idx) (i : S20000x512.Idx)
    (h0 : (i 0).val = 1000 * t.val + (y 0).val) (h1 : (i 1).val = (y 1).val) :
    (iblk2 V c 1 t : Vec F S1000x512 .f32) y = (V c main_v46 : S20000x512.Idx → Elt F .f32) i := by
  obtain ⟨e00, e01, e10, e11, e20, e21, e90, e91, e30, e31, e50, e51, e4, e6, e7, e8⟩ := idx_facts2 t
  unfold iblk2
  rw [View.read_apply]
  show V c main_v46 _ = V c main_v46 _
  congr 1
  funext a
  apply Fin.ext
  match a with
  | ⟨0, _⟩ => show win2_1.index t 0 * 1000 + 1 * (y 0).val = (i 0).val; rw [e10, h0]; omega
  | ⟨1, _⟩ => show win2_1.index t 1 * 512 + 1 * (y 1).val = (i 1).val; rw [e11, h1]; omega

/-- Window 2's block at point `t` is rows `1000 t … 1000 t + 999` of its array. -/
theorem iblk2_2_apply (c : Dev nD) (t : Fin cfg2.N) (y : S1000x512.Idx) (i : S20000x512.Idx)
    (h0 : (i 0).val = 1000 * t.val + (y 0).val) (h1 : (i 1).val = (y 1).val) :
    (iblk2 V c 2 t : Vec F S1000x512 .f32) y = (V c main_v46 : S20000x512.Idx → Elt F .f32) i := by
  obtain ⟨e00, e01, e10, e11, e20, e21, e90, e91, e30, e31, e50, e51, e4, e6, e7, e8⟩ := idx_facts2 t
  unfold iblk2
  rw [View.read_apply]
  show V c main_v46 _ = V c main_v46 _
  congr 1
  funext a
  apply Fin.ext
  match a with
  | ⟨0, _⟩ => show win2_2.index t 0 * 1000 + 1 * (y 0).val = (i 0).val; rw [e20, h0]; omega
  | ⟨1, _⟩ => show win2_2.index t 1 * 512 + 1 * (y 1).val = (i 1).val; rw [e21, h1]; omega

/-- Window 3's block at every point is its whole array. -/
theorem iblk2_3_eq (c : Dev nD) (t : Fin cfg2.N) :
    (iblk2 V c 3 t : Vec F S512x512 .f32) = (V c main_v65 : S512x512.Idx → Elt F .f32) := by
  obtain ⟨e00, e01, e10, e11, e20, e21, e90, e91, e30, e31, e50, e51, e4, e6, e7, e8⟩ := idx_facts2 t
  funext y
  unfold iblk2
  rw [View.read_apply]
  show V c main_v65 _ = V c main_v65 _
  congr 1
  funext a
  apply Fin.ext
  match a with
  | ⟨0, _⟩ => show win2_3.index t 0 * 512 + 1 * (y 0).val = (y 0).val; rw [e30]; omega
  | ⟨1, _⟩ => show win2_3.index t 1 * 512 + 1 * (y 1).val = (y 1).val; rw [e31]; omega

/-- Window 5's block at every point is its whole array. -/
theorem iblk2_5_eq (c : Dev nD) (t : Fin cfg2.N) :
    (iblk2 V c 5 t : Vec F S512x512 .f32) = (V c main_v66 : S512x512.Idx → Elt F .f32) := by
  obtain ⟨e00, e01, e10, e11, e20, e21, e90, e91, e30, e31, e50, e51, e4, e6, e7, e8⟩ := idx_facts2 t
  funext y
  unfold iblk2
  rw [View.read_apply]
  show V c main_v66 _ = V c main_v66 _
  congr 1
  funext a
  apply Fin.ext
  match a with
  | ⟨0, _⟩ => show win2_5.index t 0 * 512 + 1 * (y 0).val = (y 0).val; rw [e50]; omega
  | ⟨1, _⟩ => show win2_5.index t 1 * 512 + 1 * (y 1).val = (y 1).val; rw [e51]; omega

/-- Window 4's block at every point is its whole array. -/
theorem iblk2_4_eq (c : Dev nD) (t : Fin cfg2.N) :
    (iblk2 V c 4 t : Vec F S512 .f32) = (V c main_arg13 : S512.Idx → Elt F .f32) := by
  obtain ⟨e00, e01, e10, e11, e20, e21, e90, e91, e30, e31, e50, e51, e4, e6, e7, e8⟩ := idx_facts2 t
  funext y
  unfold iblk2
  rw [View.read_apply]
  show V c main_arg13 _ = V c main_arg13 _
  congr 1
  funext a
  apply Fin.ext
  match a with
  | ⟨0, _⟩ => show win2_4.index t 0 * 512 + 1 * (y 0).val = (y 0).val; rw [e4]; omega

/-- Window 6's block at every point is its whole array. -/
theorem iblk2_6_eq (c : Dev nD) (t : Fin cfg2.N) :
    (iblk2 V c 6 t : Vec F S512 .f32) = (V c main_arg15 : S512.Idx → Elt F .f32) := by
  obtain ⟨e00, e01, e10, e11, e20, e21, e90, e91, e30, e31, e50, e51, e4, e6, e7, e8⟩ := idx_facts2 t
  funext y
  unfold iblk2
  rw [View.read_apply]
  show V c main_arg15 _ = V c main_arg15 _
  congr 1
  funext a
  apply Fin.ext
  match a with
  | ⟨0, _⟩ => show win2_6.index t 0 * 512 + 1 * (y 0).val = (y 0).val; rw [e6]; omega

/-- Window 7's block at every point is its whole array. -/
theorem iblk2_7_eq (c : Dev nD) (t : Fin cfg2.N) :
    (iblk2 V c 7 t : Vec F S512 .f32) = (V c main_arg16 : S512.Idx → Elt F .f32) := by
  obtain ⟨e00, e01, e10, e11, e20, e21, e90, e91, e30, e31, e50, e51, e4, e6, e7, e8⟩ := idx_facts2 t
  funext y
  unfold iblk2
  rw [View.read_apply]
  show V c main_arg16 _ = V c main_arg16 _
  congr 1
  funext a
  apply Fin.ext
  match a with
  | ⟨0, _⟩ => show win2_7.index t 0 * 512 + 1 * (y 0).val = (y 0).val; rw [e7]; omega

/-- Window 8's block at every point is its whole array. -/
theorem iblk2_8_eq (c : Dev nD) (t : Fin cfg2.N) :
    (iblk2 V c 8 t : Vec F S1 .f32) = (V c main_arg17 : S1.Idx → Elt F .f32) := by
  obtain ⟨e00, e01, e10, e11, e20, e21, e90, e91, e30, e31, e50, e51, e4, e6, e7, e8⟩ := idx_facts2 t
  funext y
  unfold iblk2
  rw [View.read_apply]
  show V c main_arg17 _ = V c main_arg17 _
  congr 1
  funext a
  apply Fin.ext
  match a with
  | ⟨0, _⟩ => show win2_8.index t 0 * 1 + 1 * (y 0).val = (y 0).val; rw [e8]; omega

/-- THE OUTPUT ARRAY after the region: any function `G` of the array index whose rows `1000 t … 1000 t + 999` are what the
    body leaves at point `t` — the twenty row blocks tile the array. -/
theorem final2 (c : Dev nD) (G : S20000x512.Idx → Elt F .f32)
    (hG : ∀ (t : Fin cfg2.N) (y : S1000x512.Idx) (i : S20000x512.Idx), (i 0).val = 1000 * t.val + (y 0).val → (i 1).val = (y 1).val →
      out2_9 (iblk2 V c 0 t) (iblk2 V c 1 t) (iblk2 V c 2 t) (iblk2 V c 3 t) (iblk2 V c 4 t) (iblk2 V c 5 t) (iblk2 V c 6 t) (iblk2 V c 7 t) (iblk2 V c 8 t) y = G i) :
    (dat2 V c).arrAt 9 cfg2.N = G := by
  refine (dat2 V c).arrAt_eq_of_cover 9 G (fun t _ => ?_) (fun i => ?_)
  · show (cfg2.win 9).cut (grid2.coords t) ((dat2 V c).after 9 t) = _
    rw [after2_9]
    obtain ⟨e00, e01, e10, e11, e20, e21, e90, e91, e30, e31, e50, e51, e4, e6, e7, e8⟩ := idx_facts2 t
    funext y
    refine hG t y (((cfg2.win 9).blk t).view.emb y) ?_ ?_
    · show win2_9.index t 0 * 1000 + 1 * (y 0).val = 1000 * t.val + (y 0).val; rw [e90]; omega
    · show win2_9.index t 1 * 512 + 1 * (y 1).val = (y 1).val; rw [e91]; omega
  · have hi0 : (i 0).val < 20000 := (i 0).isLt
    have hi1 : (i 1).val < 512 := (i 1).isLt
    have hN : cfg2.N = 20 := N_2
    let t : Fin cfg2.N := ⟨(i 0).val / 1000, by rw [hN]; omega⟩
    obtain ⟨e00, e01, e10, e11, e20, e21, e90, e91, e30, e31, e50, e51, e4, e6, e7, e8⟩ := idx_facts2 t
    refine ⟨t, flush2_9 t, ?_⟩
    show i ∈ ((View.whole main_v67).slice (win2_9.rect t)).set
    rw [View.set_slice_whole, Rect.mem_set_unit]
    intro a
    match a with
    | ⟨0, _⟩ => show win2_9.index t 0 * 1000 ≤ (i 0).val ∧ (i 0).val < win2_9.index t 0 * 1000 + 1000
                rw [e90]; show (i 0).val / 1000 * 1000 ≤ (i 0).val ∧ (i 0).val < (i 0).val / 1000 * 1000 + 1000; omega
    | ⟨1, _⟩ => show win2_9.index t 1 * 512 ≤ (i 1).val ∧ (i 1).val < win2_9.index t 1 * 512 + 512
                rw [e91]; omega

end Cert.KernelIdeal.Hand

end
-- ==== Proof.LibMatmulPlain.lean ====
/-
  A plain matrix product read at an index.

  A `tpu.matmul` of a left operand `[M, K]` by a right operand `[K, N]` that contracts the left operand's second
  axis against the right operand's first, with no batch axis, started from the zero accumulator, is at the exact
  values the textbook product: entry `(p, o)` is the sum over `k : Fin K` of `l (p, k) * r (k, o)`. The operand
  indices a contraction position selects are read off the dimension record axis by axis: a contracted axis takes
  the contraction coordinate, the left operand's free axis the result's row, the right operand's free axis the
  result's column. Stated for any record whose six axis lists are `[1] [0] [0] [1] [] []` (on a printed record each
  hypothesis is `rfl`), general in the three extents and in the operands' float formats.
-/
import Idealize.ShloMosaic.PureOps.Ideal.Laws
import Idealize.ShloMosaic.Lib.ValueIdx

noncomputable section

open scoped BigOperators

namespace Cert.MatmulPlain

open Idealize.ShloMosaic Idealize.ShloMosaic.ValueIdx

variable {M K N : ℕ}

/-- A coordinate of `ix2 p o` read at an axis number known only through an equation. -/
private theorem ix2_val_of_eq {a b : ℕ} (p : Fin a) (o : Fin b) (q : ℕ) (hq : q < 2) :
    (q = 0 → ((ix2 p o : (⟨2, ![a, b]⟩ : Shape).Idx) ⟨q, hq⟩).val = p.val)
    ∧ (q = 1 → ((ix2 p o : (⟨2, ![a, b]⟩ : Shape).Idx) ⟨q, hq⟩).val = o.val) :=
  ⟨fun h => by subst h; rfl, fun h => by subst h; rfl⟩

/-- The one contracted axis has extent `K`, and the contraction shape has that one axis. -/
theorem contr_rank (d : DotDims ⟨2, ![M, K]⟩ ⟨2, ![K, N]⟩ ⟨2, ![M, N]⟩) (hlc : d.lhsContracting = [1]) :
    d.contr.rank = 1 := by rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos)]
  have : d.lhsContracting[0]'(by rw [hlc]; exact Nat.one_pos) = (1 : Fin 2) := by simp [hlc]
  rw [this]; rfl

/-- The left operand's index at result `(p, o)` and contraction coordinate `k` is `(p, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (p : Fin M) (o : Fin N) (k : Fin K) :
    d.lhsIdx (ix2 p o) ((contrEquiv1 d K (contr_rank d hlc) (contr_size d hlc)).symm k) = ix2 p k := by
  have hk := contrEquiv1_symm_val d K (contr_rank d hlc) (contr_size d hlc) k
  funext a
  apply Fin.ext
  match a with
  | ⟨0, _⟩ =>
    unfold DotDims.lhsIdx
    rw [dif_neg (by rw [hlb]; exact List.not_mem_nil), dif_pos (by rw [hln]; exact List.mem_singleton.mpr rfl)]
    simp only [Fin.val_cast]
    exact (ix2_val_of_eq p o _ _).1 (by simp [hlb, hln])
  | ⟨1, _⟩ => exact (d.lhsIdx_val_of_single hlc _ _).trans hk

/-- The right operand's index at result `(p, o)` and contraction coordinate `k` is `(k, o)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (p : Fin M) (o : Fin N) (k : Fin K) :
    d.rhsIdx (ix2 p o) ((contrEquiv1 d K (contr_rank d hlc) (contr_size d hlc)).symm k) = ix2 k o := by
  have hk := contrEquiv1_symm_val d K (contr_rank d hlc) (contr_size d hlc) k
  funext a
  apply Fin.ext
  match a with
  | ⟨0, _⟩ => exact (d.rhsIdx_val_of_single hrc _ _).trans hk
  | ⟨1, _⟩ =>
    unfold DotDims.rhsIdx
    rw [dif_neg (by rw [hrb]; exact List.not_mem_nil), dif_pos (by rw [hrn]; exact List.mem_singleton.mpr rfl)]
    simp only [Fin.val_cast]
    exact (ix2_val_of_eq p o _ _).2 (by simp [hlb, hln, hrn])

/-- A plain matrix product from the zero accumulator, read at `(p, o)`: `∑ k, l (p, k) * r (k, o)`. -/
theorem matmul_plain_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (o : Fin N) :
    FloatOps.matmul d prec l r (constant (F := Ideal) ⟨2, ![M, N]⟩ .f32 0x00000000#32) (ix2 p o)
      = ∑ k : Fin K, l (ix2 p k) * r (ix2 k o) := by
  rw [Ideal.matmul_constant_zero_apply,
    ← Equiv.sum_comp (contrEquiv1 d K (contr_rank d hlc) (contr_size d hlc)).symm]
  refine Finset.sum_congr rfl fun k _ => ?_
  rw [lhsIdx_eq d hlc hln hlb p o k, rhsIdx_eq d hlc hrc hln hrn hlb hrb p o k]

end Cert.MatmulPlain

end
-- ==== Proof.LibAxisReads.lean ====
/-
  Reductions along ONE axis and rank-three layout steps, each read at an index given by its coordinates.

  A sum (or a maximum) along one axis of an array, read at a reduced index, ranges over the coordinates of the
  reduced axis with the other coordinates held: along the columns of a matrix [a, b] at row r it is over
  (r, k); along the middle axis of [a, b, c] at (p, q) over (p, k, q); along the last axis at (p, q)
  over (p, q, k). A maximum is the fold of max from the accumulator's value, in any order.

  A stack of m matrices [m, a, b] and the tall matrix [m * a, b] of their rows hold the same entries in the
  same row-major order: row p * a + q of the tall matrix is row q of matrix p. Inserting a unit axis moves
  nothing. A broadcast along an axis of extent one repeats the operand along it: the result at (p, q, r) reads
  the operand with 0 on each of its unit axes. General in the extents and in the element type.
-/
import Idealize.ShloMosaic.Lib.Pipeline.Value
import Idealize.ShloMosaic.Lib.ValueIdx
import Idealize.ShloMosaic.PureOps.Ideal.Laws

namespace Cert.AxisReads

open Idealize.ShloMosaic Idealize.ShloMosaic.ValueIdx

variable {α : Type}

/-! ## The reduced index with the coordinate put back -/

theorem lift_cols {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

theorem lift_mid {a b c : ℕ} (h : (⟨3, ![a, b, c]⟩ : Shape).Reduces [1] ⟨2, ![a, c]⟩) (p : Fin a) (q : Fin c)
    (k : Fin ((⟨3, ![a, b, c]⟩ : Shape).size 1)) : h.lift (ix2 p q) k = ix3 p (⟨k.val, k.isLt⟩ : Fin b) q := by
  funext d; apply Fin.ext
  fin_cases d <;> rfl

theorem lift_last {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-! ## Sums along one axis (a kernel's f32 lane or sublane sum from the zero accumulator) -/

/-- Along the columns of [a, b], at row r: the sum over k of the entries (r, k). -/
theorem sum_cols {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (lift_cols h r k))

/-- Along the middle axis of [a, b, c], at (p, q): the sum over k of the entries (p, k, q). -/
theorem sum_mid {a b c : ℕ} (src : FVec Ideal ⟨3, ![a, b, c]⟩ .f32) (h : (⟨3, ![a, b, c]⟩ : Shape).Reduces [1] ⟨2, ![a, c]⟩)
    (p : Fin a) (q : Fin c) :
    multiReduction .add [1] ⟨2, ![a, c]⟩ src 0x00000000#32 h (.inl rfl) rfl (ix2 p q) = ∑ k : Fin b, src (ix3 p k q) :=
  (Ideal.multiReduction_add_single src 0x00000000#32 h (.inl rfl) rfl (ix2 p q)).trans
    (Finset.sum_congr rfl fun k _ => congrArg src (lift_mid h p q k))

/-- Along the last axis of [a, b, c], at (p, q): the sum over k of the entries (p, q, k). -/
theorem sum_last {a b c : ℕ} (src : FVec Ideal ⟨3, ![a, b, c]⟩ .f32) (h : (⟨3, ![a, b, c]⟩ : Shape).Reduces [2] ⟨2, ![a, b]⟩)
    (p : Fin a) (q : Fin b) :
    multiReduction .add [2] ⟨2, ![a, b]⟩ src 0x00000000#32 h (.inl rfl) rfl (ix2 p q) = ∑ k : Fin c, src (ix3 p q k) :=
  (Ideal.multiReduction_add_single src 0x00000000#32 h (.inl rfl) rfl (ix2 p q)).trans
    (Finset.sum_congr rfl fun k _ => congrArg src (lift_last h p q k))

/-! ## Maxima along the columns, from the accumulator at minus infinity -/

/-- A kernel's row maximum of [a, b] at row r: the fold of max from the accumulator's value over the entries (r, k). -/
theorem max_cols {a b : ℕ} (src : FVec Ideal ⟨2, ![a, b]⟩ .f32) (h : (⟨2, ![a, b]⟩ : Shape).Reduces [1] ⟨1, ![a]⟩) (r : Fin a) :
    multiReduction .maximumf [1] ⟨1, ![a]⟩ src 0xFF800000#32 h (.inl rfl) rfl (ix1 r)
      = (Finset.univ : Finset (Fin b)).fold max (Ideal.ofBits .f32 0xFF800000#32) (fun k => src (ix2 r k)) :=
  (Ideal.multiReduction_maximumf_single src 0xFF800000#32 h (.inl rfl) rfl (ix1 r)).trans
    (congrArg ((Finset.univ : Finset (Fin b)).fold max (Ideal.ofBits .f32 0xFF800000#32))
      (funext fun k => congrArg src (lift_cols h r k)))

/-- The host's reduce with a maximum body along the columns of [a, b], at row r, from a rank-zero initial value. -/
theorem hostMax_cols {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init ix0) (fun k => x (ix2 r k)) := by
  rw [Host.reduce_eq_fold_single FloatOps.maximumf x init h' h hu (ix1 r)]
  have e0 : Shape.Idx.first hu = ix0 := funext fun d => d.elim0
  rw [e0]
  exact congrArg ((Finset.univ : Finset (Fin b)).fold max (init ix0)) (funext fun k => congrArg x (lift_cols h r k))

/-! ## A stack of matrices and the tall matrix of their rows -/

/-- The stack [m, a, b] cast to the tall matrix [n, b], n = m * a: row p * a + q is row q of matrix p. -/
theorem shapeCast_stack_tall_apply {m a b n : ℕ} (x : (⟨3, ![m, a, b]⟩ : Shape).Idx → α)
    (h : (⟨3, ![m, a, b]⟩ : Shape).ShapeCasts ⟨2, ![n, b]⟩) (r : Fin n) (p : Fin m) (q : Fin a) (d : Fin b)
    (hr : r.val = p.val * a + q.val) : shapeCast ⟨2, ![n, b]⟩ x h (ix2 r d) = x (ix3 p q d) :=
  shapeCast_apply x h _ _ (by
    rw [Shape.rowMajor_val_three, Shape.rowMajor_val_two]
    show (p.val * a + q.val) * b + d.val = r.val * b + d.val
    rw [hr])

/-- The tall matrix [n, b], n = m * a, cast to the stack [m, a, b]: row q of matrix p is row p * a + q. -/
theorem shapeCast_tall_stack_apply {m a b n : ℕ} (x : (⟨2, ![n, b]⟩ : Shape).Idx → α)
    (h : (⟨2, ![n, b]⟩ : Shape).ShapeCasts ⟨3, ![m, a, b]⟩) (r : Fin n) (p : Fin m) (q : Fin a) (d : Fin b)
    (hr : r.val = p.val * a + q.val) : shapeCast ⟨3, ![m, a, b]⟩ x h (ix3 p q d) = x (ix2 r d) :=
  shapeCast_apply x h _ _ (by
    rw [Shape.rowMajor_val_three, Shape.rowMajor_val_two]
    show r.val * b + d.val = (p.val * a + q.val) * b + d.val
    rw [hr])

/-! ## A unit axis inserted -/

/-- [a, b] cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a, b] cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## Broadcasts along unit axes of a rank-three array -/

/-- [a, 1, c] broadcast to [a, b, c] reads, at (p, q, r), the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [1, b, c] broadcast to [a, b, c] reads, at (p, q, r), the operand at (0, q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- [a, b, 1] broadcast to [a, b, c] reads, at (p, q, r), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, 1] broadcast to [a, b, c] reads, at (p, q, r), the operand at (p, 0, 0). -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Cert.AxisReads
-- ==== Proof.LibColumnForms.lean ====
/-
  Two layout operations on a COLUMN, read at an index given by its coordinates.

  A row-wise reduction with `keepdims` leaves its result as a column: a vector of `a` entries is cast to the
  shape `[a, 1]`, and the column is then broadcast along the second axis to `[a, b]`. Each of the two steps
  reads, at an index of its result, the operand at one index: the cast at `(i, u)` reads entry `i` (the unit
  coordinate `u` is `0` and carries nothing), and the broadcast at `(p, c)` reads the column's entry `(p, 0)`
  (the column is constant along the second axis). General in the extents and in the element type.
-/
import Idealize.ShloMosaic.Lib.Pipeline.Value
import Idealize.ShloMosaic.Lib.ValueIdx

namespace Cert.ColumnForms

open Idealize.ShloMosaic Idealize.ShloMosaic.ValueIdx

variable {α : Type}

/-- A vector of `a` entries cast to the column shape `[a, 1]` reads, at `(i, u)`, entry `i`: both indices have
    row-major position `i`, since the unit coordinate is `0`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `(p, 0)`: the first axis is
    kept (or has extent one, where `p` is `0` anyway), the second is the column's unit axis. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnForms
-- ==== Proof.BridgeNorm.lean ====
/-
  One row of the layer's second half, as a function of a row of extended reals.

  Given a row `row : Fin 512 → EReal` (one node's 512 features after the two products, the bias and the
  residual have been added), the layer subtracts the row's mean, multiplies by the reciprocal square root of
  the row's variance plus a small constant, scales by `g`, shifts by `b`, and applies the leaky rectifier of
  slope `a`: `x` where `x ≥ 0`, `a · x` elsewhere. The mean and the variance are sums over the row divided
  by the float 512; the three float words involved (512, the small constant, zero) are kept as words and never
  evaluated. Both the kernel's block and the reference's whole array are this one function applied to a row.
-/
import Idealize.ShloMosaic.PureOps.Ideal

noncomputable section

open scoped BigOperators

namespace Cert.Bridge

open Idealize.ShloMosaic

/-- The mean of a row: its sum over the float 512. -/
def rowMean (row : Fin 512 → EReal) : EReal :=
  Ideal.div (∑ k : Fin 512, row k) (Ideal.ofBits .f32 0x44000000#32)

/-- The variance of a row: the sum of the squared deviations from the mean, over the float 512. -/
def rowVar (row : Fin 512 → EReal) : EReal :=
  Ideal.div (∑ k : Fin 512, (row k - rowMean row) * (row k - rowMean row)) (Ideal.ofBits .f32 0x44000000#32)

/-- The leaky rectifier of slope `a`: `x` where `x ≥ 0`, `a · x` elsewhere. -/
def leaky (a x : EReal) : EReal :=
  Scalar.select (Ideal.cmp .oge x (Ideal.ofBits .f32 0x00000000#32)) x (a * x)

/-- Entry `q` of the normalised, scaled, shifted and rectified row. -/
def normRow (row : Fin 512 → EReal) (gq bq a : EReal) (q : Fin 512) : EReal :=
  leaky a (((row q - rowMean row) * Ideal.rsqrt (rowVar row + Ideal.ofBits .f32 0x3727C5AC#32)) * gq + bq)

/-- The function depends on the row only through its entries. -/
theorem normRow_congr {row row' : Fin 512 → EReal} (h : ∀ k, row k = row' k) (gq bq a : EReal) (q : Fin 512) :
    normRow row gq bq a q = normRow row' gq bq a q := by
  rw [show row = row' from funext h]

end Cert.Bridge

end
-- ==== Proof.BridgeKernel.lean ====
/-
  One block of the kernel's body, read entry by entry.

  The kernel's block at a grid point computes, from the block's rows of the three arrays and the whole weight
  matrices, `pre = ((res + agg · WlT) + bl) + h · WrT` with the two products started from the zero accumulator, and
  then normalises each row of `pre`. Here each stored value of the body is read at an index: `pre` at `(r, q)` as
  the residual entry plus two sums over the contraction coordinate plus the bias entry; the row mean and the row
  variance as sums over the row of `pre` divided by the float 512; the stored result as the one function
  `normRow` of the row `k ↦ pre (r, k)`. Narrowing the operands' format before the products changes nothing at the
  exact values, and a shape cast to the same shape moves nothing.
-/
import proofs.«171848_j82592221102604_1_alg».proof.Proof.Gen.KernelIdeal.Skeleton
import Idealize.ShloMosaic.Lib.ValueLayout
import proofs.«171848_j82592221102604_1_alg».proof.Proof.LibMatmulPlain
import proofs.«171848_j82592221102604_1_alg».proof.Proof.LibAxisReads
import proofs.«171848_j82592221102604_1_alg».proof.Proof.LibColumnForms
import proofs.«171848_j82592221102604_1_alg».proof.Proof.BridgeNorm

noncomputable section

open scoped BigOperators

namespace Cert.Bridge

open Idealize.ShloMosaic Idealize.ShloMosaic.ValueIdx Cert.KernelIdeal Cert.KernelIdeal.Gen

/-! ## The first half: the two products, the bias and the residual -/

/-- A product of the kernel from the zero accumulator at `(r, q)`: the sum over the contraction coordinate. -/
theorem product_apply (l : FVec Ideal S1000x512 .bf16) (w : FVec Ideal S512x512 .bf16) (r : Fin 1000) (q : Fin 512) :
    matmul dot_S1000x512_S512x512_S1000x512_1_0_0_1_n_n none l w (constant (F := Ideal) S1000x512 .f32 0x00000000#32)
        (ix2 r q)
      = ∑ k : Fin 512, l (ix2 r k) * w (ix2 k q) :=
  Cert.MatmulPlain.matmul_plain_apply dot_S1000x512_S512x512_S1000x512_1_0_0_1_n_n rfl rfl rfl rfl rfl rfl none l w r q

/-- The sum of the four terms at `(r, q)`, as the kernel associates it. -/
theorem pre_apply (v0 v3 : Vec Ideal S1000x512 .f32) (v5 v8 : Vec Ideal S512x512 .f32) (v13 : Vec Ideal S512 .f32)
    (v15 : Vec Ideal S1000x512 .f32) (r : Fin 1000) (q : Fin 512) :
    k0_pay2 (F := Ideal) v0 v3 v5 v8 v13 v15 (ix2 r q)
      = ((v15 (ix2 r q) + ∑ k : Fin 512, v0 (ix2 r k) * v5 (ix2 k q)) + v13 (ix1 q))
          + ∑ k : Fin 512, v3 (ix2 r k) * v8 (ix2 k q) := by
  have e0 : shapeCast S1000x512 v0 shapeCasts_S1000x512_S1000x512 = v0 := shapeCast_self v0 _
  have e5 : shapeCast S512x512 v5 shapeCasts_S512x512_S512x512 = v5 := shapeCast_self v5 _
  have e8 : shapeCast S512x512 v8 shapeCasts_S512x512_S512x512 = v8 := shapeCast_self v8 _
  have e15 : shapeCast S1000x512 v15 shapeCasts_S1000x512_S1000x512 = v15 := shapeCast_self v15 _
  unfold k0_pay2
  simp only [e0, e5, e8, e15]
  rw [addf_apply, addf_apply, addf_apply, product_apply, product_apply, broadcastTo_1b_ab_apply,
    ValueIdx.shapeCast_a_1a_apply]
  rfl

/-! ## The row mean and the deviations from it -/

/-- The row mean at `(r, u)`: the sum of the row of `pre` over the float 512. -/
theorem mean_apply (v0 v3 : Vec Ideal S1000x512 .f32) (v5 v8 : Vec Ideal S512x512 .f32) (v13 : Vec Ideal S512 .f32)
    (v15 : Vec Ideal S1000x512 .f32) (r : Fin 1000) (u : Fin 1) :
    k0_pay3 (F := Ideal) v0 v3 v5 v8 v13 v15 (ix2 r u)
      = rowMean fun k => k0_pay2 (F := Ideal) v0 v3 v5 v8 v13 v15 (ix2 r k) := by
  unfold k0_pay3 rowMean
  rw [divf_apply, Cert.ColumnForms.shapeCast_a_a1_apply, Cert.AxisReads.sum_cols]
  rfl

/-- The deviation from the row mean at `(r, q)`. -/
theorem dev_apply (v0 v3 : Vec Ideal S1000x512 .f32) (v5 v8 : Vec Ideal S512x512 .f32) (v13 : Vec Ideal S512 .f32)
    (v15 : Vec Ideal S1000x512 .f32) (r : Fin 1000) (q : Fin 512) :
    k0_pay7 (F := Ideal) v0 v3 v5 v8 v13 v15 (ix2 r q)
      = k0_pay2 (F := Ideal) v0 v3 v5 v8 v13 v15 (ix2 r q)
          - rowMean fun k => k0_pay2 (F := Ideal) v0 v3 v5 v8 v13 v15 (ix2 r k) := by
  unfold k0_pay7
  rw [subf_apply, Cert.ColumnForms.broadcastTo_a1_ab_apply, mean_apply]

/-- The row variance at `(r, u)`: the sum of the squared deviations over the float 512. -/
theorem var_apply (v0 v3 : Vec Ideal S1000x512 .f32) (v5 v8 : Vec Ideal S512x512 .f32) (v13 : Vec Ideal S512 .f32)
    (v15 : Vec Ideal S1000x512 .f32) (r : Fin 1000) (u : Fin 1) :
    k0_pay4 (F := Ideal) v0 v3 v5 v8 v13 v15 (ix2 r u)
      = rowVar fun k => k0_pay2 (F := Ideal) v0 v3 v5 v8 v13 v15 (ix2 r k) := by
  have hdev : ∀ k : Fin 512,
      subf (k0_pay2 (F := Ideal) v0 v3 v5 v8 v13 v15)
          (broadcastTo S1000x512 (k0_pay3 (F := Ideal) v0 v3 v5 v8 v13 v15) broadcasts_S1000x1_S1000x512) (ix2 r k)
        = k0_pay2 (F := Ideal) v0 v3 v5 v8 v13 v15 (ix2 r k)
            - rowMean fun k => k0_pay2 (F := Ideal) v0 v3 v5 v8 v13 v15 (ix2 r k) := dev_apply v0 v3 v5 v8 v13 v15 r
  unfold k0_pay4 rowVar
  rw [divf_apply, Cert.ColumnForms.shapeCast_a_a1_apply, Cert.AxisReads.sum_cols]
  refine congrArg₂ Ideal.div (Finset.sum_congr rfl fun k _ => ?_) rfl
  rw [mulf_apply, hdev k]

/-! ## The second half: normalise, scale, shift, rectify -/

/-- The one entry of a one-entry vector. -/
theorem extract_one (v : Vec Ideal S1 .f32) (h : ∀ a, (![0] : Fin 1 → Nat) a < S1.size a) :
    extractAt ![0] v h = v (ix1 (0 : Fin 1)) :=
  congrArg v (funext fun a => by match a with | ⟨0, _⟩ => rfl)

/-- The stored value at `(r, q)` from the values the body reads it from. -/
theorem out_apply (v31 : FVec Ideal S1000x1 .f32) (v33 v35 : FVec Ideal S1x512 .f32) (v37 : FVec Ideal S1000x512 .f32)
    (v38 : FVec Ideal S1000x1 .f32) (v47 : Vec Ideal S1 .f32) (r : Fin 1000) (q : Fin 512) :
    k0_pay1 (F := Ideal) v31 v33 v35 v37 v38 v47 (ix2 r q)
      = leaky (v47 (ix1 (0 : Fin 1)))
          ((v37 (ix2 r q) * Ideal.rsqrt (v31 (ix2 r (0 : Fin 1)) + v38 (ix2 r (0 : Fin 1)))) * v33 (ix2 (0 : Fin 1) q)
            + v35 (ix2 (0 : Fin 1) q)) := by
  unfold k0_pay1 leaky
  rw [extract_one]
  simp only [select_apply, cmpf_apply, mulf_apply, addf_apply, broadcast_apply,
    Cert.ColumnForms.broadcastTo_a1_ab_apply, broadcastTo_1b_ab_apply]
  rfl

/-- One block of the kernel's body at `(r, q)`: the row function of the row `k ↦ pre (r, k)`. -/
theorem block_apply (v0 v3 : Vec Ideal S1000x512 .f32) (v5 v8 : Vec Ideal S512x512 .f32) (v13 : Vec Ideal S512 .f32)
    (v15 : Vec Ideal S1000x512 .f32) (g b : Vec Ideal S512 .f32) (a : Vec Ideal S1 .f32) (r : Fin 1000) (q : Fin 512) :
    k0_pay1 (F := Ideal) (k0_pay4 v0 v3 v5 v8 v13 v15) (k0_pay5 g) (k0_pay6 b) (k0_pay7 v0 v3 v5 v8 v13 v15) k0_pay8 a
        (ix2 r q)
      = normRow (fun k => k0_pay2 (F := Ideal) v0 v3 v5 v8 v13 v15 (ix2 r k)) (g (ix1 q)) (b (ix1 q))
          (a (ix1 (0 : Fin 1))) q := by
  rw [out_apply, var_apply, dev_apply]
  unfold normRow k0_pay5 k0_pay6 k0_pay8
  rw [ValueIdx.shapeCast_a_1a_apply, ValueIdx.shapeCast_a_1a_apply]
  rfl

end Cert.Bridge

end
-- ==== Proof.Layers.lean ====
/-
  The two functions every layer of this network is made of, written once, over any float type, as the host
  operations spell them.

  `neighbourMean h src dst`: the rows of `h` gathered at the source numbers (a source number below zero first
  has the node count added to it), added up per node at the destination numbers, and divided by the larger of
  1 and the same scatter-sum of ones.

  `layer res h agg Wl bl Wr g b a`: `res + ((agg · Wlᵀ + bl) + h · Wrᵀ)`, normalised along each row (subtract
  the row mean, multiply by `rsqrt (row variance + ε)`, scale by `g`, shift by `b`), then `x ↦ x` where
  `x ≥ 0` and `a · x` elsewhere.

  `network`: three layers, each fed the previous layer's output both as features and as residual, the first
  one a zero residual.
-/
import proofs.«171848_j82592221102604_1_alg».proof.ReferenceIdeal
import proofs.«171848_j82592221102604_1_alg».proof.Proof.Gen.ReferenceIdeal

noncomputable section

namespace Cert.Layers

open Cert.ReferenceIdeal Cert.ReferenceIdeal.Gen Idealize.ShloMosaic

variable {F : FTy → Type} [FloatOps F]

/-- The edges' source numbers: row 0 of the edge table, as a vector. -/
def srcRow (ei : (⟨S2x320000, .i32⟩ : BufTy).Contents (Elt F)) :
    (⟨S320000, .i32⟩ : BufTy).Contents (Elt F) :=
  have v0 := ((extractStridedSlice S1x320000 ![0, 0] · slices_S2x320000_S1x320000_0_0) : (⟨S2x320000, .i32⟩ : BufTy).Contents (Elt F) → (⟨S1x320000, .i32⟩ : BufTy).Contents (Elt F)) ei
  have v1 := (shapeCast _ v0 shapeCasts_S1x320000_S320000 : (⟨S320000, .i32⟩ : BufTy).Contents (Elt F))
  v1

/-- The edges' destination numbers: row 1 of the edge table, as a vector. -/
def dstRow (ei : (⟨S2x320000, .i32⟩ : BufTy).Contents (Elt F)) :
    (⟨S320000, .i32⟩ : BufTy).Contents (Elt F) :=
  have v2 := ((extractStridedSlice S1x320000 ![1, 0] · slices_S2x320000_S1x320000_1_0) : (⟨S2x320000, .i32⟩ : BufTy).Contents (Elt F) → (⟨S1x320000, .i32⟩ : BufTy).Contents (Elt F)) ei
  have v3 := (shapeCast _ v2 shapeCasts_S1x320000_S320000 : (⟨S320000, .i32⟩ : BufTy).Contents (Elt F))
  v3

/-- The gathered rows of `h`, summed per destination node, over the larger of 1 and the per-node count of edges. -/
def neighbourMean (h : (⟨S20000x512, .f32⟩ : BufTy).Contents (Elt F)) (src : (⟨S320000, .i32⟩ : BufTy).Contents (Elt F)) (dst : (⟨S320000, .i32⟩ : BufTy).Contents (Elt F)) :
    (⟨S20000x512, .f32⟩ : BufTy).Contents (Elt F) :=
  have c := (constantI S_ 32 0#32 : (⟨S_, .i32⟩ : BufTy).Contents (Elt F))
  have v4 := (broadcastInDim S320000 ![] bcast_S_S320000 : (⟨S_, .i32⟩ : BufTy).Contents (Elt F) → (⟨S320000, .i32⟩ : BufTy).Contents (Elt F)) c
  have v5 := (cmpi .slt : (⟨S320000, .i32⟩ : BufTy).Contents (Elt F) → (⟨S320000, .i32⟩ : BufTy).Contents (Elt F) → (⟨S320000, .i1⟩ : BufTy).Contents (Elt F)) src v4
  have c_0 := (constantI S_ 32 20000#32 : (⟨S_, .i32⟩ : BufTy).Contents (Elt F))
  have v6 := (broadcastInDim S320000 ![] bcast_S_S320000 : (⟨S_, .i32⟩ : BufTy).Contents (Elt F) → (⟨S320000, .i32⟩ : BufTy).Contents (Elt F)) c_0
  have v7 := (addi : (⟨S320000, .i32⟩ : BufTy).Contents (Elt F) → (⟨S320000, .i32⟩ : BufTy).Contents (Elt F) → (⟨S320000, .i32⟩ : BufTy).Contents (Elt F)) src v6
  have v8 := (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) v5 v7 src
  have v9 := (broadcastInDim S320000x1 ![0] bcast_S320000_S320000x1_0 : (⟨S320000, .i32⟩ : BufTy).Contents (Elt F) → (⟨S320000x1, .i32⟩ : BufTy).Contents (Elt F)) v8
  have v10 := ((fun x i => Host.gather gather_S20000x512_S320000x1_S320000x512_1_0_n_n_0_1_1512 x i) : (⟨S20000x512, .f32⟩ : BufTy).Contents (Elt F) → (⟨S320000x1, .i32⟩ : BufTy).Contents (Elt F) → (⟨S320000x512, .f32⟩ : BufTy).Contents (Elt F)) h v9
  have cst := (constant (F := F) S_ .f32 0x00000000#32 : (⟨S_, .f32⟩ : BufTy).Contents (Elt F))
  have v11 := (broadcastInDim S20000x512 ![] bcast_S_S20000x512 : (⟨S_, .f32⟩ : BufTy).Contents (Elt F) → (⟨S20000x512, .f32⟩ : BufTy).Contents (Elt F)) cst
  have v12 := (broadcastInDim S320000x1 ![0] bcast_S320000_S320000x1_0 : (⟨S320000, .i32⟩ : BufTy).Contents (Elt F) → (⟨S320000x1, .i32⟩ : BufTy).Contents (Elt F)) dst
  have v13 := ((fun x i u => Host.scatterAdd scatter_S20000x512_S320000x1_S320000x512_1_0_0_1 x i u) : (⟨S20000x512, .f32⟩ : BufTy).Contents (Elt F) → (⟨S320000x1, .i32⟩ : BufTy).Contents (Elt F) → (⟨S320000x512, .f32⟩ : BufTy).Contents (Elt F) → (⟨S20000x512, .f32⟩ : BufTy).Contents (Elt F)) v11 v12 v10
  have cst_1 := (constant (F := F) S_ .f32 0x3F800000#32 : (⟨S_, .f32⟩ : BufTy).Contents (Elt F))
  have v14 := (broadcastInDim S320000x1 ![] bcast_S_S320000x1 : (⟨S_, .f32⟩ : BufTy).Contents (Elt F) → (⟨S320000x1, .f32⟩ : BufTy).Contents (Elt F)) cst_1
  have cst_2 := (constant (F := F) S_ .f32 0x00000000#32 : (⟨S_, .f32⟩ : BufTy).Contents (Elt F))
  have v15 := (broadcastInDim S20000x1 ![] bcast_S_S20000x1 : (⟨S_, .f32⟩ : BufTy).Contents (Elt F) → (⟨S20000x1, .f32⟩ : BufTy).Contents (Elt F)) cst_2
  have v16 := (broadcastInDim S320000x1 ![0] bcast_S320000_S320000x1_0 : (⟨S320000, .i32⟩ : BufTy).Contents (Elt F) → (⟨S320000x1, .i32⟩ : BufTy).Contents (Elt F)) dst
  have v17 := ((fun x i u => Host.scatterAdd scatter_S20000x1_S320000x1_S320000x1_1_0_0_1 x i u) : (⟨S20000x1, .f32⟩ : BufTy).Contents (Elt F) → (⟨S320000x1, .i32⟩ : BufTy).Contents (Elt F) → (⟨S320000x1, .f32⟩ : BufTy).Contents (Elt F) → (⟨S20000x1, .f32⟩ : BufTy).Contents (Elt F)) v15 v16 v14
  have cst_3 := (constant (F := F) S_ .f32 0x3F800000#32 : (⟨S_, .f32⟩ : BufTy).Contents (Elt F))
  have v18 := (broadcastInDim S20000x1 ![] bcast_S_S20000x1 : (⟨S_, .f32⟩ : BufTy).Contents (Elt F) → (⟨S20000x1, .f32⟩ : BufTy).Contents (Elt F)) cst_3
  have v19 := (maximumf : (⟨S20000x1, .f32⟩ : BufTy).Contents (Elt F) → (⟨S20000x1, .f32⟩ : BufTy).Contents (Elt F) → (⟨S20000x1, .f32⟩ : BufTy).Contents (Elt F)) v17 v18
  have v20 := (broadcastInDim S20000x512 ![0, 1] bcast_S20000x1_S20000x512_0_1 : (⟨S20000x1, .f32⟩ : BufTy).Contents (Elt F) → (⟨S20000x512, .f32⟩ : BufTy).Contents (Elt F)) v19
  have v21 := (Host.divf : (⟨S20000x512, .f32⟩ : BufTy).Contents (Elt F) → (⟨S20000x512, .f32⟩ : BufTy).Contents (Elt F) → (⟨S20000x512, .f32⟩ : BufTy).Contents (Elt F)) v13 v20
  v21

/-- The first layer's residual: the zero array. -/
def zeroRes  :
    (⟨S20000x512, .f32⟩ : BufTy).Contents (Elt F) :=
  have cst_4 := (constant (F := F) S_ .f32 0x00000000#32 : (⟨S_, .f32⟩ : BufTy).Contents (Elt F))
  have v30 := (broadcastInDim S20000x512 ![] bcast_S_S20000x512 : (⟨S_, .f32⟩ : BufTy).Contents (Elt F) → (⟨S20000x512, .f32⟩ : BufTy).Contents (Elt F)) cst_4
  v30

/-- One layer: the two products and the bias added to the residual, normalised along each row, then the leaky rectifier of slope `a`. -/
def layer (res : (⟨S20000x512, .f32⟩ : BufTy).Contents (Elt F)) (h : (⟨S20000x512, .f32⟩ : BufTy).Contents (Elt F)) (agg : (⟨S20000x512, .f32⟩ : BufTy).Contents (Elt F)) (Wl : (⟨S512x512, .f32⟩ : BufTy).Contents (Elt F)) (bl : (⟨S512, .f32⟩ : BufTy).Contents (Elt F)) (Wr : (⟨S512x512, .f32⟩ : BufTy).Contents (Elt F)) (g : (⟨S512, .f32⟩ : BufTy).Contents (Elt F)) (b : (⟨S512, .f32⟩ : BufTy).Contents (Elt F)) (a : (⟨S1, .f32⟩ : BufTy).Contents (Elt F)) :
    (⟨S20000x512, .f32⟩ : BufTy).Contents (Elt F) :=
  have v22 := ((transpose S512x512 [1, 0] · transposes_S512x512_S512x512_1_0) : (⟨S512x512, .f32⟩ : BufTy).Contents (Elt F) → (⟨S512x512, .f32⟩ : BufTy).Contents (Elt F)) Wl
  have v23 := ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)) agg v22
  have v24 := (broadcastInDim S1x512 ![1] bcast_S512_S1x512_1 : (⟨S512, .f32⟩ : BufTy).Contents (Elt F) → (⟨S1x512, .f32⟩ : BufTy).Contents (Elt F)) bl
  have v25 := (broadcastInDim S20000x512 ![0, 1] bcast_S1x512_S20000x512_0_1 : (⟨S1x512, .f32⟩ : BufTy).Contents (Elt F) → (⟨S20000x512, .f32⟩ : BufTy).Contents (Elt F)) v24
  have v26 := (addf : (⟨S20000x512, .f32⟩ : BufTy).Contents (Elt F) → (⟨S20000x512, .f32⟩ : BufTy).Contents (Elt F) → (⟨S20000x512, .f32⟩ : BufTy).Contents (Elt F)) v23 v25
  have v27 := ((transpose S512x512 [1, 0] · transposes_S512x512_S512x512_1_0) : (⟨S512x512, .f32⟩ : BufTy).Contents (Elt F) → (⟨S512x512, .f32⟩ : BufTy).Contents (Elt F)) Wr
  have v28 := ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)) h v27
  have v29 := (addf : (⟨S20000x512, .f32⟩ : BufTy).Contents (Elt F) → (⟨S20000x512, .f32⟩ : BufTy).Contents (Elt F) → (⟨S20000x512, .f32⟩ : BufTy).Contents (Elt F)) v26 v28
  have v31 := (addf : (⟨S20000x512, .f32⟩ : BufTy).Contents (Elt F) → (⟨S20000x512, .f32⟩ : BufTy).Contents (Elt F) → (⟨S20000x512, .f32⟩ : BufTy).Contents (Elt F)) res v29
  have cst_5 := (constant (F := F) S_ .f32 0x00000000#32 : (⟨S_, .f32⟩ : BufTy).Contents (Elt F))
  have v32 := ((fun x v => Host.reduceAdd x v reducesTo_S20000x512_S20000_d1 h_S_) : (⟨S20000x512, .f32⟩ : BufTy).Contents (Elt F) → (⟨S_, .f32⟩ : BufTy).Contents (Elt F) → (⟨S20000, .f32⟩ : BufTy).Contents (Elt F)) v31 cst_5
  have v33 := (broadcastInDim S20000x1 ![0] bcast_S20000_S20000x1_0 : (⟨S20000, .f32⟩ : BufTy).Contents (Elt F) → (⟨S20000x1, .f32⟩ : BufTy).Contents (Elt F)) v32
  have cst_6 := (constant (F := F) S_ .f32 0x44000000#32 : (⟨S_, .f32⟩ : BufTy).Contents (Elt F))
  have v34 := (broadcastInDim S20000x1 ![] bcast_S_S20000x1 : (⟨S_, .f32⟩ : BufTy).Contents (Elt F) → (⟨S20000x1, .f32⟩ : BufTy).Contents (Elt F)) cst_6
  have v35 := (Host.divf : (⟨S20000x1, .f32⟩ : BufTy).Contents (Elt F) → (⟨S20000x1, .f32⟩ : BufTy).Contents (Elt F) → (⟨S20000x1, .f32⟩ : BufTy).Contents (Elt F)) v33 v34
  have v36 := (broadcastInDim S20000x512 ![0, 1] bcast_S20000x1_S20000x512_0_1 : (⟨S20000x1, .f32⟩ : BufTy).Contents (Elt F) → (⟨S20000x512, .f32⟩ : BufTy).Contents (Elt F)) v35
  have v37 := (subf : (⟨S20000x512, .f32⟩ : BufTy).Contents (Elt F) → (⟨S20000x512, .f32⟩ : BufTy).Contents (Elt F) → (⟨S20000x512, .f32⟩ : BufTy).Contents (Elt F)) v31 v36
  have v38 := (mulf : (⟨S20000x512, .f32⟩ : BufTy).Contents (Elt F) → (⟨S20000x512, .f32⟩ : BufTy).Contents (Elt F) → (⟨S20000x512, .f32⟩ : BufTy).Contents (Elt F)) v37 v37
  have cst_7 := (constant (F := F) S_ .f32 0x00000000#32 : (⟨S_, .f32⟩ : BufTy).Contents (Elt F))
  have v39 := ((fun x v => Host.reduceAdd x v reducesTo_S20000x512_S20000_d1 h_S_) : (⟨S20000x512, .f32⟩ : BufTy).Contents (Elt F) → (⟨S_, .f32⟩ : BufTy).Contents (Elt F) → (⟨S20000, .f32⟩ : BufTy).Contents (Elt F)) v38 cst_7
  have v40 := (broadcastInDim S20000x1 ![0] bcast_S20000_S20000x1_0 : (⟨S20000, .f32⟩ : BufTy).Contents (Elt F) → (⟨S20000x1, .f32⟩ : BufTy).Contents (Elt F)) v39
  have cst_8 := (constant (F := F) S_ .f32 0x44000000#32 : (⟨S_, .f32⟩ : BufTy).Contents (Elt F))
  have v41 := (broadcastInDim S20000x1 ![] bcast_S_S20000x1 : (⟨S_, .f32⟩ : BufTy).Contents (Elt F) → (⟨S20000x1, .f32⟩ : BufTy).Contents (Elt F)) cst_8
  have v42 := (Host.divf : (⟨S20000x1, .f32⟩ : BufTy).Contents (Elt F) → (⟨S20000x1, .f32⟩ : BufTy).Contents (Elt F) → (⟨S20000x1, .f32⟩ : BufTy).Contents (Elt F)) v40 v41
  have v43 := (broadcastInDim S20000x512 ![0, 1] bcast_S20000x1_S20000x512_0_1 : (⟨S20000x1, .f32⟩ : BufTy).Contents (Elt F) → (⟨S20000x512, .f32⟩ : BufTy).Contents (Elt F)) v35
  have v44 := (subf : (⟨S20000x512, .f32⟩ : BufTy).Contents (Elt F) → (⟨S20000x512, .f32⟩ : BufTy).Contents (Elt F) → (⟨S20000x512, .f32⟩ : BufTy).Contents (Elt F)) v31 v43
  have cst_9 := (constant (F := F) S_ .f32 0x3727C5AC#32 : (⟨S_, .f32⟩ : BufTy).Contents (Elt F))
  have v45 := (broadcastInDim S20000x1 ![] bcast_S_S20000x1 : (⟨S_, .f32⟩ : BufTy).Contents (Elt F) → (⟨S20000x1, .f32⟩ : BufTy).Contents (Elt F)) cst_9
  have v46 := (addf : (⟨S20000x1, .f32⟩ : BufTy).Contents (Elt F) → (⟨S20000x1, .f32⟩ : BufTy).Contents (Elt F) → (⟨S20000x1, .f32⟩ : BufTy).Contents (Elt F)) v42 v45
  have v47 := (Host.rsqrt : (⟨S20000x1, .f32⟩ : BufTy).Contents (Elt F) → (⟨S20000x1, .f32⟩ : BufTy).Contents (Elt F)) v46
  have v48 := (broadcastInDim S20000x512 ![0, 1] bcast_S20000x1_S20000x512_0_1 : (⟨S20000x1, .f32⟩ : BufTy).Contents (Elt F) → (⟨S20000x512, .f32⟩ : BufTy).Contents (Elt F)) v47
  have v49 := (mulf : (⟨S20000x512, .f32⟩ : BufTy).Contents (Elt F) → (⟨S20000x512, .f32⟩ : BufTy).Contents (Elt F) → (⟨S20000x512, .f32⟩ : BufTy).Contents (Elt F)) v44 v48
  have v50 := (broadcastInDim S1x512 ![1] bcast_S512_S1x512_1 : (⟨S512, .f32⟩ : BufTy).Contents (Elt F) → (⟨S1x512, .f32⟩ : BufTy).Contents (Elt F)) g
  have v51 := (broadcastInDim S20000x512 ![0, 1] bcast_S1x512_S20000x512_0_1 : (⟨S1x512, .f32⟩ : BufTy).Contents (Elt F) → (⟨S20000x512, .f32⟩ : BufTy).Contents (Elt F)) v50
  have v52 := (mulf : (⟨S20000x512, .f32⟩ : BufTy).Contents (Elt F) → (⟨S20000x512, .f32⟩ : BufTy).Contents (Elt F) → (⟨S20000x512, .f32⟩ : BufTy).Contents (Elt F)) v49 v51
  have v53 := (broadcastInDim S1x512 ![1] bcast_S512_S1x512_1 : (⟨S512, .f32⟩ : BufTy).Contents (Elt F) → (⟨S1x512, .f32⟩ : BufTy).Contents (Elt F)) b
  have v54 := (broadcastInDim S20000x512 ![0, 1] bcast_S1x512_S20000x512_0_1 : (⟨S1x512, .f32⟩ : BufTy).Contents (Elt F) → (⟨S20000x512, .f32⟩ : BufTy).Contents (Elt F)) v53
  have v55 := (addf : (⟨S20000x512, .f32⟩ : BufTy).Contents (Elt F) → (⟨S20000x512, .f32⟩ : BufTy).Contents (Elt F) → (⟨S20000x512, .f32⟩ : BufTy).Contents (Elt F)) v52 v54
  have cst_10 := (constant (F := F) S_ .f32 0x00000000#32 : (⟨S_, .f32⟩ : BufTy).Contents (Elt F))
  have v56 := (broadcastInDim S20000x512 ![] bcast_S_S20000x512 : (⟨S_, .f32⟩ : BufTy).Contents (Elt F) → (⟨S20000x512, .f32⟩ : BufTy).Contents (Elt F)) cst_10
  have v57 := (cmpf .oge : (⟨S20000x512, .f32⟩ : BufTy).Contents (Elt F) → (⟨S20000x512, .f32⟩ : BufTy).Contents (Elt F) → (⟨S20000x512, .i1⟩ : BufTy).Contents (Elt F)) v55 v56
  have v58 := (broadcastInDim S1x1 ![1] bcast_S1_S1x1_1 : (⟨S1, .f32⟩ : BufTy).Contents (Elt F) → (⟨S1x1, .f32⟩ : BufTy).Contents (Elt F)) a
  have v59 := (broadcastInDim S20000x512 ![0, 1] bcast_S1x1_S20000x512_0_1 : (⟨S1x1, .f32⟩ : BufTy).Contents (Elt F) → (⟨S20000x512, .f32⟩ : BufTy).Contents (Elt F)) v58
  have v60 := (mulf : (⟨S20000x512, .f32⟩ : BufTy).Contents (Elt F) → (⟨S20000x512, .f32⟩ : BufTy).Contents (Elt F) → (⟨S20000x512, .f32⟩ : BufTy).Contents (Elt F)) v59 v55
  have v61 := (select v57 v55 v60 : (⟨S20000x512, .f32⟩ : BufTy).Contents (Elt F))
  v61

/-- The three layers in sequence over one edge table. -/
def network (x : (⟨S20000x512, .f32⟩ : BufTy).Contents (Elt F)) (ei : (⟨S2x320000, .i32⟩ : BufTy).Contents (Elt F))
    (Wl0 : (⟨S512x512, .f32⟩ : BufTy).Contents (Elt F)) (bl0 : (⟨S512, .f32⟩ : BufTy).Contents (Elt F)) (Wr0 : (⟨S512x512, .f32⟩ : BufTy).Contents (Elt F)) (g0 b0 : (⟨S512, .f32⟩ : BufTy).Contents (Elt F))
    (Wl1 : (⟨S512x512, .f32⟩ : BufTy).Contents (Elt F)) (bl1 : (⟨S512, .f32⟩ : BufTy).Contents (Elt F)) (Wr1 : (⟨S512x512, .f32⟩ : BufTy).Contents (Elt F)) (g1 b1 : (⟨S512, .f32⟩ : BufTy).Contents (Elt F))
    (Wl2 : (⟨S512x512, .f32⟩ : BufTy).Contents (Elt F)) (bl2 : (⟨S512, .f32⟩ : BufTy).Contents (Elt F)) (Wr2 : (⟨S512x512, .f32⟩ : BufTy).Contents (Elt F)) (g2 b2 : (⟨S512, .f32⟩ : BufTy).Contents (Elt F))
    (a : (⟨S1, .f32⟩ : BufTy).Contents (Elt F)) : (⟨S20000x512, .f32⟩ : BufTy).Contents (Elt F) :=
  have h1 := layer zeroRes x (neighbourMean x (srcRow ei) (dstRow ei)) Wl0 bl0 Wr0 g0 b0 a
  have h2 := layer h1 h1 (neighbourMean h1 (srcRow ei) (dstRow ei)) Wl1 bl1 Wr1 g1 b1 a
  layer h2 h2 (neighbourMean h2 (srcRow ei) (dstRow ei)) Wl2 bl2 Wr2 g2 b2 a

end Cert.Layers

end
-- ==== Proof.LibHostDotPlain.lean ====
/-
  A plain host matrix product read at an index.

  A host `dot_general` of a left operand `[M, K]` by a right operand `[K, N]` that contracts the left operand's
  second axis against the right operand's first, with no batch axis, is at the exact values the textbook product:
  entry `(p, o)` is the sum over `k : Fin K` of `l (p, k) * r (k, o)`, whatever the schedule key. It is the same
  sum a `tpu.matmul` of that layout started from zero computes, so a product computed row block by row block and a
  product computed whole agree entry by entry. Stated for any record whose six axis lists are
  `[1] [0] [0] [1] [] []` (on a printed record each hypothesis is `rfl`), general in the three extents and in the
  operands' float formats.
-/
import Idealize.ShloMosaic.PureOps.Ideal.Laws
import Idealize.ShloMosaic.Lib.ValueIdx
import proofs.«171848_j82592221102604_1_alg».proof.Proof.LibMatmulPlain

noncomputable section

open scoped BigOperators

namespace Cert.HostDotPlain

open Idealize.ShloMosaic Idealize.ShloMosaic.ValueIdx Cert.MatmulPlain

variable {M K N : ℕ}

/-- A plain host matrix product read at `(p, o)`: `∑ k, l (p, k) * r (k, o)`. -/
theorem dotGeneral_plain_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (p : Fin M) (o : Fin N) :
    FloatOps.dotGeneral d prec sched l r (ix2 p o) = ∑ k : Fin K, l (ix2 p k) * r (ix2 k o) := by
  rw [Ideal.dotGeneral_apply,
    ← Equiv.sum_comp (contrEquiv1 d K (contr_rank d hlc) (contr_size d hlc)).symm]
  refine Finset.sum_congr rfl fun k _ => ?_
  rw [lhsIdx_eq d hlc hln hlb p o k, rhsIdx_eq d hlc hrc hln hrn hlb hrb p o k]

end Cert.HostDotPlain

end
-- ==== Proof.LibHostColumn.lean ====
/-
  Host layout and reduction forms read at an index, in two-axis coordinates: a vector broadcast to a column
  (`broadcast_in_dim` `[a] → [a, 1]` along axis 0), a column broadcast along the rows (`[a, 1] → [a, b]` along axes 0, 1),
  and the host's reduce with an add body along the columns of `[a, b]` from a rank-zero initial value, read at a row at the
  exact values as the initial value plus the sum of the row's entries. General in the extents, the layout forms in the
  element type. (What `jnp.sum(…, axis=1, keepdims=True)` and a subtraction of the result from every column lower to.)
-/
import Idealize.ShloMosaic.Lib.Pipeline.Value
import Idealize.ShloMosaic.Lib.ValueIdx
import Idealize.ShloMosaic.PureOps.Ideal.Laws

noncomputable section

open scoped BigOperators

namespace Cert.HostColumn

open Idealize.ShloMosaic Idealize.ShloMosaic.ValueIdx

variable {α : Type}

/-- `[a] → [a, 1]` along axis 0: entry `(p, u)` is entry `p`. -/
theorem bid_a_a1_apply {a : ℕ} (p : Fin a) (u : Fin 1) (x : (⟨1, ![a]⟩ : Shape).Idx → α)
    (h : (⟨1, ![a]⟩ : Shape).BroadcastsInDim ⟨2, ![a, 1]⟩ ![0]) :
    broadcastInDim ⟨2, ![a, 1]⟩ ![0] h x (ix2 p u) = x (ix1 p) := by
  refine broadcastInDim_apply ![0] h x _ _ fun ax => ?_
  match ax with
  | ⟨0, _⟩ =>
    show p.val = if a = 1 then 0 else p.val
    split
    · have := p.isLt; omega
    · rfl

/-- `[a, 1] → [a, b]` along axes 0, 1: entry `(p, q)` is entry `(p, 0)`. -/
theorem bid_a1_ab_apply {a b : ℕ} (p : Fin a) (q : Fin b) (x : (⟨2, ![a, 1]⟩ : Shape).Idx → α)
    (h : (⟨2, ![a, 1]⟩ : Shape).BroadcastsInDim ⟨2, ![a, b]⟩ ![0, 1]) :
    broadcastInDim ⟨2, ![a, b]⟩ ![0, 1] h x (ix2 p q) = x (ix2 p (0 : Fin 1)) := by
  refine broadcastInDim_apply ![0, 1] h x _ _ fun ax => ?_
  match ax with
  | ⟨0, _⟩ =>
    show p.val = if a = 1 then 0 else p.val
    split
    · have := p.isLt; omega
    · rfl
  | ⟨1, _⟩ =>
    show 0 = if 1 = 1 then 0 else q.val
    exact (if_pos rfl).symm

/-- The reduced index `r` with the column coordinate `k` put back is `(r, k)`. -/
theorem lift_cols {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

/-- The host's sum along the columns of `[a, b]`, at row `r`: the initial value plus the sum of the row's entries. -/
theorem hostSum_cols {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd x init h' hu (ix1 r) = init ix0 + ∑ k : Fin b, x (ix2 r k) := by
  simp only [Host.reduceAdd, Ideal.hostReduceAdd_def]
  rw [Ideal.hostReduceAdd_single h' h]
  have e0 : Shape.Idx.first hu = ix0 := funext fun d => d.elim0
  rw [e0]
  exact congrArg (init ix0 + ·) (Finset.sum_congr rfl fun k _ => congrArg x (lift_cols h r k))

end Cert.HostColumn

end
-- ==== Proof.LibHostLayout.lean ====
/-
  Host layout operations read at coordinates: broadcast_in_dim between ranks 1, 2 and 3, a scalar splat, and a pad
  that extends the last axis on its high side. A broadcast_in_dim copies the operand along the new axes and along
  its own unit axes, so an entry of the result is the operand's entry at the coordinates the dimension map keeps
  (0 on a unit axis). A high-side pad of the last axis keeps the operand where the last coordinate is inside the
  operand's extent and holds the padding value beyond it. General in the extents and in the element type.
-/
import Idealize.ShloMosaic.Lib.Pipeline.Value
import Idealize.ShloMosaic.Lib.ValueIdx
import Idealize.ShloMosaic.Lib.KernelVsHost

namespace Cert.HostLayout

open Idealize.ShloMosaic Idealize.ShloMosaic.ValueIdx

variable {α : Type}

/-- A rank-zero operand splat to any shape reads its one entry everywhere. -/
theorem bid_scalar_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun ax => ax.elim0

/-- [a, b] → [a, b, 1] along axes 0, 1: entry (p, q, u) is entry (p, q). -/
theorem bid_ab_ab1_apply {a b : ℕ} (p : Fin a) (q : Fin b) (u : Fin 1) (x : (⟨2, ![a, b]⟩ : Shape).Idx → α)
    (h : (⟨2, ![a, b]⟩ : Shape).BroadcastsInDim ⟨3, ![a, b, 1]⟩ ![0, 1]) :
    broadcastInDim ⟨3, ![a, b, 1]⟩ ![0, 1] h x (ix3 p q u) = x (ix2 p q) := by
  refine broadcastInDim_apply ![0, 1] h x _ _ fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- [a, b, 1] → [a, b, c] along axes 0, 1, 2: entry (p, q, r) is entry (p, q, 0). -/
theorem bid_ab1_abc_apply {a b c : ℕ} (p : Fin a) (q : Fin b) (r : Fin c) (x : (⟨3, ![a, b, 1]⟩ : Shape).Idx → α)
    (h : (⟨3, ![a, b, 1]⟩ : Shape).BroadcastsInDim ⟨3, ![a, b, c]⟩ ![0, 1, 2]) :
    broadcastInDim ⟨3, ![a, b, c]⟩ ![0, 1, 2] h x (ix3 p q r) = x (ix3 p q (0 : Fin 1)) := by
  refine broadcastInDim_apply ![0, 1, 2] h x _ _ fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show 0 = if 1 = 1 then 0 else r.val
    exact (if_pos rfl).symm

/-- [c] → [1, 1, c] along axis 2: entry (u, v, r) is entry r. -/
theorem bid_c_11c_apply {c : ℕ} (u v : Fin 1) (r : Fin c) (x : (⟨1, ![c]⟩ : Shape).Idx → α)
    (h : (⟨1, ![c]⟩ : Shape).BroadcastsInDim ⟨3, ![1, 1, c]⟩ ![2]) :
    broadcastInDim ⟨3, ![1, 1, c]⟩ ![2] h x (ix3 u v r) = x (ix1 r) := by
  refine broadcastInDim_apply ![2] h x _ _ fun ax => ?_
  match ax with
  | ⟨0, _⟩ =>
    show r.val = if c = 1 then 0 else r.val
    split
    · have := r.isLt; omega
    · rfl

/-- [1, 1, c] → [a, b, c] along axes 0, 1, 2: entry (p, q, r) is entry (0, 0, r). -/
theorem bid_11c_abc_apply {a b c : ℕ} (p : Fin a) (q : Fin b) (r : Fin c) (x : (⟨3, ![1, 1, c]⟩ : Shape).Idx → α)
    (h : (⟨3, ![1, 1, c]⟩ : Shape).BroadcastsInDim ⟨3, ![a, b, c]⟩ ![0, 1, 2]) :
    broadcastInDim ⟨3, ![a, b, c]⟩ ![0, 1, 2] h x (ix3 p q r) = x (ix3 (0 : Fin 1) (0 : Fin 1) r) := by
  refine broadcastInDim_apply ![0, 1, 2] h x _ _ fun ax => ?_
  match ax with
  | ⟨0, _⟩ =>
    show 0 = if 1 = 1 then 0 else p.val
    exact (if_pos rfl).symm
  | ⟨1, _⟩ =>
    show 0 = if 1 = 1 then 0 else q.val
    exact (if_pos rfl).symm
  | ⟨2, _⟩ =>
    show r.val = if c = 1 then 0 else r.val
    split
    · have := r.isLt; omega
    · rfl

/-- [a, c] → [a, 1, c] along axes 0, 2: entry (p, u, r) is entry (p, r). -/
theorem bid_ac_a1c_apply {a c : ℕ} (p : Fin a) (u : Fin 1) (r : Fin c) (x : (⟨2, ![a, c]⟩ : Shape).Idx → α)
    (h : (⟨2, ![a, c]⟩ : Shape).BroadcastsInDim ⟨3, ![a, 1, c]⟩ ![0, 2]) :
    broadcastInDim ⟨3, ![a, 1, c]⟩ ![0, 2] h x (ix3 p u r) = x (ix2 p r) := by
  refine broadcastInDim_apply ![0, 2] h x _ _ fun ax => ?_
  match ax with
  | ⟨0, _⟩ =>
    show p.val = if a = 1 then 0 else p.val
    split
    · have := p.isLt; omega
    · rfl
  | ⟨1, _⟩ =>
    show r.val = if c = 1 then 0 else r.val
    split
    · have := r.isLt; omega
    · rfl

/-- [a, 1, c] → [a, b, c] along axes 0, 1, 2: entry (p, q, r) is entry (p, 0, r). -/
theorem bid_a1c_abc_apply {a b c : ℕ} (p : Fin a) (q : Fin b) (r : Fin c) (x : (⟨3, ![a, 1, c]⟩ : Shape).Idx → α)
    (h : (⟨3, ![a, 1, c]⟩ : Shape).BroadcastsInDim ⟨3, ![a, b, c]⟩ ![0, 1, 2]) :
    broadcastInDim ⟨3, ![a, b, c]⟩ ![0, 1, 2] h x (ix3 p q r) = x (ix3 p (0 : Fin 1) r) := by
  refine broadcastInDim_apply ![0, 1, 2] h x _ _ fun ax => ?_
  match ax with
  | ⟨0, _⟩ =>
    show p.val = if a = 1 then 0 else p.val
    split
    · have := p.isLt; omega
    · rfl
  | ⟨1, _⟩ =>
    show 0 = if 1 = 1 then 0 else q.val
    exact (if_pos rfl).symm
  | ⟨2, _⟩ =>
    show r.val = if c = 1 then 0 else r.val
    split
    · have := r.isLt; omega
    · rfl

/-- [c] → [1, c] along axis 1: entry (u, r) is entry r. -/
theorem bid_c_1c_apply {c : ℕ} (u : Fin 1) (r : Fin c) (x : (⟨1, ![c]⟩ : Shape).Idx → α)
    (h : (⟨1, ![c]⟩ : Shape).BroadcastsInDim ⟨2, ![1, c]⟩ ![1]) :
    broadcastInDim ⟨2, ![1, c]⟩ ![1] h x (ix2 u r) = x (ix1 r) := by
  refine broadcastInDim_apply ![1] h x _ _ fun ax => ?_
  match ax with
  | ⟨0, _⟩ =>
    show r.val = if c = 1 then 0 else r.val
    split
    · have := r.isLt; omega
    · rfl

/-- [1, c] → [a, c] along axes 0, 1: entry (p, r) is entry (0, r). -/
theorem bid_1c_ac_apply {a c : ℕ} (p : Fin a) (r : Fin c) (x : (⟨2, ![1, c]⟩ : Shape).Idx → α)
    (h : (⟨2, ![1, c]⟩ : Shape).BroadcastsInDim ⟨2, ![a, c]⟩ ![0, 1]) :
    broadcastInDim ⟨2, ![a, c]⟩ ![0, 1] h x (ix2 p r) = x (ix2 (0 : Fin 1) r) := by
  refine broadcastInDim_apply ![0, 1] h x _ _ fun ax => ?_
  match ax with
  | ⟨0, _⟩ =>
    show 0 = if 1 = 1 then 0 else p.val
    exact (if_pos rfl).symm
  | ⟨1, _⟩ =>
    show r.val = if c = 1 then 0 else r.val
    split
    · have := r.isLt; omega
    · rfl

/-! ## The last axis padded on its high side -/

/-- A vector of n entries padded to N on the high side: entry j inside the operand is the operand's. -/
theorem pad1_inside {n N p : ℕ} {u : Shape} (x : (⟨1, ![n]⟩ : Shape).Idx → α) (v : u.Idx → α)
    (h : (⟨1, ![n]⟩ : Shape).Pads ![0] ![p] ![0] ⟨1, ![N]⟩) (hu : 0 < u.numel) (j : Fin N) (hj : j.val < n) :
    pad ⟨1, ![N]⟩ ![0] ![p] ![0] x v h hu (ix1 j) = x (ix1 (⟨j.val, hj⟩ : Fin n)) :=
  pad_apply_of_inside ![0] ![p] ![0] x v h hu _ _ fun ax => by
    match ax with
    | ⟨0, _⟩ => show j.val = 0 + j.val * (0 + 1); omega

/-- Beyond the operand it is the padding value. -/
theorem pad1_outside {n N p : ℕ} {u : Shape} (x : (⟨1, ![n]⟩ : Shape).Idx → α) (v : u.Idx → α)
    (h : (⟨1, ![n]⟩ : Shape).Pads ![0] ![p] ![0] ⟨1, ![N]⟩) (hu : 0 < u.numel) (j : Fin N) (hj : ¬j.val < n) :
    pad ⟨1, ![N]⟩ ![0] ![p] ![0] x v h hu (ix1 j) = v (Shape.Idx.first hu) :=
  pad_apply_of_not_inside ![0] ![p] ![0] x v h hu _ (0 : Fin 1) fun hh => hj (by
    have h3 : (j.val - 0) / (0 + 1) < n := hh.2.2
    simpa using h3)

/-- A matrix [a, n] whose rows are padded to N on the high side: entry (i, j) with j inside is the operand's. -/
theorem pad2_inside {a n N p : ℕ} {u : Shape} (x : (⟨2, ![a, n]⟩ : Shape).Idx → α) (v : u.Idx → α)
    (h : (⟨2, ![a, n]⟩ : Shape).Pads ![0, 0] ![0, p] ![0, 0] ⟨2, ![a, N]⟩) (hu : 0 < u.numel) (i : Fin a) (j : Fin N)
    (hj : j.val < n) :
    pad ⟨2, ![a, N]⟩ ![0, 0] ![0, p] ![0, 0] x v h hu (ix2 i j) = x (ix2 i (⟨j.val, hj⟩ : Fin n)) :=
  pad_apply_of_inside ![0, 0] ![0, p] ![0, 0] x v h hu _ _ fun ax => by
    match ax with
    | ⟨0, _⟩ => show i.val = 0 + i.val * (0 + 1); omega
    | ⟨1, _⟩ => show j.val = 0 + j.val * (0 + 1); omega

/-- Beyond the rows' extent it is the padding value. -/
theorem pad2_outside {a n N p : ℕ} {u : Shape} (x : (⟨2, ![a, n]⟩ : Shape).Idx → α) (v : u.Idx → α)
    (h : (⟨2, ![a, n]⟩ : Shape).Pads ![0, 0] ![0, p] ![0, 0] ⟨2, ![a, N]⟩) (hu : 0 < u.numel) (i : Fin a) (j : Fin N)
    (hj : ¬j.val < n) :
    pad ⟨2, ![a, N]⟩ ![0, 0] ![0, p] ![0, 0] x v h hu (ix2 i j) = v (Shape.Idx.first hu) :=
  pad_apply_of_not_inside ![0, 0] ![0, p] ![0, 0] x v h hu _ (1 : Fin 2) fun hh => hj (by
    have h3 : (j.val - 0) / (0 + 1) < n := hh.2.2
    simpa using h3)

end Cert.HostLayout
-- ==== Proof.BridgeRef.lean ====
/-
  The reference's layer, read entry by entry.

  `Cert.Layers.layer` is cut at its natural joints into four functions of arrays — the sum of the four terms
  `res + ((agg · Wlᵀ + bl) + h · Wrᵀ)`, the row mean of an array, the deviations from it, the row variance — and the
  closing stage that normalises, scales, shifts and rectifies; the layer is their composition, by unfolding. Each is
  then read at an index at the exact values: the host's products as sums over the contraction coordinate (a transposed
  weight matrix read at `(k, q)` is the matrix at `(q, k)`), the host's row sums as the zero word plus the sum of the
  row, the broadcasts at the coordinates they keep. The layer at `(p, q)` is the one function `normRow` of the row
  `k ↦ pre (p, k)`.
-/
import proofs.«171848_j82592221102604_1_alg».proof.Proof.Layers
import Idealize.ShloMosaic.Lib.ValueLayout
import proofs.«171848_j82592221102604_1_alg».proof.Proof.LibHostDotPlain
import proofs.«171848_j82592221102604_1_alg».proof.Proof.LibHostColumn
import proofs.«171848_j82592221102604_1_alg».proof.Proof.LibHostLayout
import proofs.«171848_j82592221102604_1_alg».proof.Proof.BridgeNorm

noncomputable section

open scoped BigOperators

namespace Cert.Bridge

open Idealize.ShloMosaic Idealize.ShloMosaic.ValueIdx Cert.ReferenceIdeal Cert.ReferenceIdeal.Gen

/-! ## The layer cut at its joints -/

section Joints

variable {F : FTy → Type} [FloatOps F]

/-- The sum of the four terms, as the reference associates it: `res + ((agg · Wlᵀ + bl) + h · Wrᵀ)`. -/
def refPre (res : (⟨S20000x512, .f32⟩ : BufTy).Contents (Elt F)) (h : (⟨S20000x512, .f32⟩ : BufTy).Contents (Elt F)) (agg : (⟨S20000x512, .f32⟩ : BufTy).Contents (Elt F)) (Wl : (⟨S512x512, .f32⟩ : BufTy).Contents (Elt F)) (bl : (⟨S512, .f32⟩ : BufTy).Contents (Elt F)) (Wr : (⟨S512x512, .f32⟩ : BufTy).Contents (Elt F)) :
    (⟨S20000x512, .f32⟩ : BufTy).Contents (Elt F) :=
  have v22 := ((transpose S512x512 [1, 0] · transposes_S512x512_S512x512_1_0) : (⟨S512x512, .f32⟩ : BufTy).Contents (Elt F) → (⟨S512x512, .f32⟩ : BufTy).Contents (Elt F)) Wl
  have v23 := ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)) agg v22
  have v24 := (broadcastInDim S1x512 ![1] bcast_S512_S1x512_1 : (⟨S512, .f32⟩ : BufTy).Contents (Elt F) → (⟨S1x512, .f32⟩ : BufTy).Contents (Elt F)) bl
  have v25 := (broadcastInDim S20000x512 ![0, 1] bcast_S1x512_S20000x512_0_1 : (⟨S1x512, .f32⟩ : BufTy).Contents (Elt F) → (⟨S20000x512, .f32⟩ : BufTy).Contents (Elt F)) v24
  have v26 := (addf : (⟨S20000x512, .f32⟩ : BufTy).Contents (Elt F) → (⟨S20000x512, .f32⟩ : BufTy).Contents (Elt F) → (⟨S20000x512, .f32⟩ : BufTy).Contents (Elt F)) v23 v25
  have v27 := ((transpose S512x512 [1, 0] · transposes_S512x512_S512x512_1_0) : (⟨S512x512, .f32⟩ : BufTy).Contents (Elt F) → (⟨S512x512, .f32⟩ : BufTy).Contents (Elt F)) Wr
  have v28 := ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)) h v27
  have v29 := (addf : (⟨S20000x512, .f32⟩ : BufTy).Contents (Elt F) → (⟨S20000x512, .f32⟩ : BufTy).Contents (Elt F) → (⟨S20000x512, .f32⟩ : BufTy).Contents (Elt F)) v26 v28
  have v31 := (addf : (⟨S20000x512, .f32⟩ : BufTy).Contents (Elt F) → (⟨S20000x512, .f32⟩ : BufTy).Contents (Elt F) → (⟨S20000x512, .f32⟩ : BufTy).Contents (Elt F)) res v29
  v31

/-- The row means of an array, as a column: the host's row sum from the zero word, over the float 512. -/
def refMean (v31 : (⟨S20000x512, .f32⟩ : BufTy).Contents (Elt F)) : (⟨S20000x1, .f32⟩ : BufTy).Contents (Elt F) :=
  have cst_5 := (constant (F := F) S_ .f32 0x00000000#32 : (⟨S_, .f32⟩ : BufTy).Contents (Elt F))
  have v32 := ((fun x v => Host.reduceAdd x v reducesTo_S20000x512_S20000_d1 h_S_) : (⟨S20000x512, .f32⟩ : BufTy).Contents (Elt F) → (⟨S_, .f32⟩ : BufTy).Contents (Elt F) → (⟨S20000, .f32⟩ : BufTy).Contents (Elt F)) v31 cst_5
  have v33 := (broadcastInDim S20000x1 ![0] bcast_S20000_S20000x1_0 : (⟨S20000, .f32⟩ : BufTy).Contents (Elt F) → (⟨S20000x1, .f32⟩ : BufTy).Contents (Elt F)) v32
  have cst_6 := (constant (F := F) S_ .f32 0x44000000#32 : (⟨S_, .f32⟩ : BufTy).Contents (Elt F))
  have v34 := (broadcastInDim S20000x1 ![] bcast_S_S20000x1 : (⟨S_, .f32⟩ : BufTy).Contents (Elt F) → (⟨S20000x1, .f32⟩ : BufTy).Contents (Elt F)) cst_6
  have v35 := (Host.divf : (⟨S20000x1, .f32⟩ : BufTy).Contents (Elt F) → (⟨S20000x1, .f32⟩ : BufTy).Contents (Elt F) → (⟨S20000x1, .f32⟩ : BufTy).Contents (Elt F)) v33 v34
  v35

/-- The deviations of an array from its row means. -/
def refDev (v31 : (⟨S20000x512, .f32⟩ : BufTy).Contents (Elt F)) : (⟨S20000x512, .f32⟩ : BufTy).Contents (Elt F) :=
  have v36 := (broadcastInDim S20000x512 ![0, 1] bcast_S20000x1_S20000x512_0_1 : (⟨S20000x1, .f32⟩ : BufTy).Contents (Elt F) → (⟨S20000x512, .f32⟩ : BufTy).Contents (Elt F)) (refMean v31)
  have v37 := (subf : (⟨S20000x512, .f32⟩ : BufTy).Contents (Elt F) → (⟨S20000x512, .f32⟩ : BufTy).Contents (Elt F) → (⟨S20000x512, .f32⟩ : BufTy).Contents (Elt F)) v31 v36
  v37

/-- The row variances of an array, as a column. -/
def refVar (v31 : (⟨S20000x512, .f32⟩ : BufTy).Contents (Elt F)) : (⟨S20000x1, .f32⟩ : BufTy).Contents (Elt F) :=
  have v38 := (mulf : (⟨S20000x512, .f32⟩ : BufTy).Contents (Elt F) → (⟨S20000x512, .f32⟩ : BufTy).Contents (Elt F) → (⟨S20000x512, .f32⟩ : BufTy).Contents (Elt F)) (refDev v31) (refDev v31)
  have cst_7 := (constant (F := F) S_ .f32 0x00000000#32 : (⟨S_, .f32⟩ : BufTy).Contents (Elt F))
  have v39 := ((fun x v => Host.reduceAdd x v reducesTo_S20000x512_S20000_d1 h_S_) : (⟨S20000x512, .f32⟩ : BufTy).Contents (Elt F) → (⟨S_, .f32⟩ : BufTy).Contents (Elt F) → (⟨S20000, .f32⟩ : BufTy).Contents (Elt F)) v38 cst_7
  have v40 := (broadcastInDim S20000x1 ![0] bcast_S20000_S20000x1_0 : (⟨S20000, .f32⟩ : BufTy).Contents (Elt F) → (⟨S20000x1, .f32⟩ : BufTy).Contents (Elt F)) v39
  have cst_8 := (constant (F := F) S_ .f32 0x44000000#32 : (⟨S_, .f32⟩ : BufTy).Contents (Elt F))
  have v41 := (broadcastInDim S20000x1 ![] bcast_S_S20000x1 : (⟨S_, .f32⟩ : BufTy).Contents (Elt F) → (⟨S20000x1, .f32⟩ : BufTy).Contents (Elt F)) cst_8
  have v42 := (Host.divf : (⟨S20000x1, .f32⟩ : BufTy).Contents (Elt F) → (⟨S20000x1, .f32⟩ : BufTy).Contents (Elt F) → (⟨S20000x1, .f32⟩ : BufTy).Contents (Elt F)) v40 v41
  v42

/-- The closing stage: normalise, scale by `g`, shift by `b`, rectify with slope `a`. -/
def refOut (v31 : (⟨S20000x512, .f32⟩ : BufTy).Contents (Elt F)) (g : (⟨S512, .f32⟩ : BufTy).Contents (Elt F)) (b : (⟨S512, .f32⟩ : BufTy).Contents (Elt F)) (a : (⟨S1, .f32⟩ : BufTy).Contents (Elt F)) :
    (⟨S20000x512, .f32⟩ : BufTy).Contents (Elt F) :=
  have cst_9 := (constant (F := F) S_ .f32 0x3727C5AC#32 : (⟨S_, .f32⟩ : BufTy).Contents (Elt F))
  have v45 := (broadcastInDim S20000x1 ![] bcast_S_S20000x1 : (⟨S_, .f32⟩ : BufTy).Contents (Elt F) → (⟨S20000x1, .f32⟩ : BufTy).Contents (Elt F)) cst_9
  have v46 := (addf : (⟨S20000x1, .f32⟩ : BufTy).Contents (Elt F) → (⟨S20000x1, .f32⟩ : BufTy).Contents (Elt F) → (⟨S20000x1, .f32⟩ : BufTy).Contents (Elt F)) (refVar v31) v45
  have v47 := (Host.rsqrt : (⟨S20000x1, .f32⟩ : BufTy).Contents (Elt F) → (⟨S20000x1, .f32⟩ : BufTy).Contents (Elt F)) v46
  have v48 := (broadcastInDim S20000x512 ![0, 1] bcast_S20000x1_S20000x512_0_1 : (⟨S20000x1, .f32⟩ : BufTy).Contents (Elt F) → (⟨S20000x512, .f32⟩ : BufTy).Contents (Elt F)) v47
  have v49 := (mulf : (⟨S20000x512, .f32⟩ : BufTy).Contents (Elt F) → (⟨S20000x512, .f32⟩ : BufTy).Contents (Elt F) → (⟨S20000x512, .f32⟩ : BufTy).Contents (Elt F)) (refDev v31) v48
  have v50 := (broadcastInDim S1x512 ![1] bcast_S512_S1x512_1 : (⟨S512, .f32⟩ : BufTy).Contents (Elt F) → (⟨S1x512, .f32⟩ : BufTy).Contents (Elt F)) g
  have v51 := (broadcastInDim S20000x512 ![0, 1] bcast_S1x512_S20000x512_0_1 : (⟨S1x512, .f32⟩ : BufTy).Contents (Elt F) → (⟨S20000x512, .f32⟩ : BufTy).Contents (Elt F)) v50
  have v52 := (mulf : (⟨S20000x512, .f32⟩ : BufTy).Contents (Elt F) → (⟨S20000x512, .f32⟩ : BufTy).Contents (Elt F) → (⟨S20000x512, .f32⟩ : BufTy).Contents (Elt F)) v49 v51
  have v53 := (broadcastInDim S1x512 ![1] bcast_S512_S1x512_1 : (⟨S512, .f32⟩ : BufTy).Contents (Elt F) → (⟨S1x512, .f32⟩ : BufTy).Contents (Elt F)) b
  have v54 := (broadcastInDim S20000x512 ![0, 1] bcast_S1x512_S20000x512_0_1 : (⟨S1x512, .f32⟩ : BufTy).Contents (Elt F) → (⟨S20000x512, .f32⟩ : BufTy).Contents (Elt F)) v53
  have v55 := (addf : (⟨S20000x512, .f32⟩ : BufTy).Contents (Elt F) → (⟨S20000x512, .f32⟩ : BufTy).Contents (Elt F) → (⟨S20000x512, .f32⟩ : BufTy).Contents (Elt F)) v52 v54
  have cst_10 := (constant (F := F) S_ .f32 0x00000000#32 : (⟨S_, .f32⟩ : BufTy).Contents (Elt F))
  have v56 := (broadcastInDim S20000x512 ![] bcast_S_S20000x512 : (⟨S_, .f32⟩ : BufTy).Contents (Elt F) → (⟨S20000x512, .f32⟩ : BufTy).Contents (Elt F)) cst_10
  have v57 := (cmpf .oge : (⟨S20000x512, .f32⟩ : BufTy).Contents (Elt F) → (⟨S20000x512, .f32⟩ : BufTy).Contents (Elt F) → (⟨S20000x512, .i1⟩ : BufTy).Contents (Elt F)) v55 v56
  have v58 := (broadcastInDim S1x1 ![1] bcast_S1_S1x1_1 : (⟨S1, .f32⟩ : BufTy).Contents (Elt F) → (⟨S1x1, .f32⟩ : BufTy).Contents (Elt F)) a
  have v59 := (broadcastInDim S20000x512 ![0, 1] bcast_S1x1_S20000x512_0_1 : (⟨S1x1, .f32⟩ : BufTy).Contents (Elt F) → (⟨S20000x512, .f32⟩ : BufTy).Contents (Elt F)) v58
  have v60 := (mulf : (⟨S20000x512, .f32⟩ : BufTy).Contents (Elt F) → (⟨S20000x512, .f32⟩ : BufTy).Contents (Elt F) → (⟨S20000x512, .f32⟩ : BufTy).Contents (Elt F)) v59 v55
  have v61 := (select v57 v55 v60 : (⟨S20000x512, .f32⟩ : BufTy).Contents (Elt F))
  v61

/-- The layer is the closing stage of the sum of the four terms: the same operations in the same order. -/
theorem layer_eq (res : (⟨S20000x512, .f32⟩ : BufTy).Contents (Elt F)) (h : (⟨S20000x512, .f32⟩ : BufTy).Contents (Elt F)) (agg : (⟨S20000x512, .f32⟩ : BufTy).Contents (Elt F)) (Wl : (⟨S512x512, .f32⟩ : BufTy).Contents (Elt F)) (bl : (⟨S512, .f32⟩ : BufTy).Contents (Elt F)) (Wr : (⟨S512x512, .f32⟩ : BufTy).Contents (Elt F)) (g : (⟨S512, .f32⟩ : BufTy).Contents (Elt F)) (b : (⟨S512, .f32⟩ : BufTy).Contents (Elt F)) (a : (⟨S1, .f32⟩ : BufTy).Contents (Elt F)) :
    Cert.Layers.layer res h agg Wl bl Wr g b a = refOut (refPre res h agg Wl bl Wr) g b a := rfl

end Joints

/-! ## Host forms at an index -/

/-- The host's quotient at an index. -/
theorem hostDivf_apply {s : Shape} (x y : FVec Ideal s .f32) (i : s.Idx) : Host.divf x y i = Ideal.div (x i) (y i) := rfl

/-- The host's reciprocal square root at an index. -/
theorem hostRsqrt_apply {s : Shape} (x : FVec Ideal s .f32) (i : s.Idx) : Host.rsqrt x i = Ideal.rsqrt (x i) := rfl

/-- A splat float constant of rank zero reads its word. -/
theorem constant0_apply (w : BitVec 32) : constant (F := Ideal) S_ .f32 w ix0 = Ideal.ofBits .f32 w := rfl

/-- `[1, 1] → [a, b]` along axes 0, 1: every entry is the one entry. -/
theorem bid_11_ab_apply {α : Type} {a b : ℕ} (p : Fin a) (q : Fin b) (x : (⟨2, ![1, 1]⟩ : Shape).Idx → α)
    (h : (⟨2, ![1, 1]⟩ : Shape).BroadcastsInDim ⟨2, ![a, b]⟩ ![0, 1]) :
    broadcastInDim ⟨2, ![a, b]⟩ ![0, 1] h x (ix2 p q) = x (ix2 (0 : Fin 1) (0 : Fin 1)) := by
  refine broadcastInDim_apply ![0, 1] h x _ _ fun ax => ?_
  match ax with
  | ⟨0, _⟩ =>
    show 0 = if 1 = 1 then 0 else p.val
    exact (if_pos rfl).symm
  | ⟨1, _⟩ =>
    show 0 = if 1 = 1 then 0 else q.val
    exact (if_pos rfl).symm

/-- A host product of the layer at `(p, q)`: the sum over the contraction coordinate. -/
theorem hostProduct_apply (l : FVec Ideal S20000x512 .f32) (w : FVec Ideal S512x512 .f32) (p : Fin 20000) (q : Fin 512) :
    Host.dotGeneral dot_S20000x512_S512x512_S20000x512_1_0_0_1_n_n none l w (ix2 p q)
      = ∑ k : Fin 512, l (ix2 p k) * w (ix2 k q) :=
  Cert.HostDotPlain.dotGeneral_plain_apply dot_S20000x512_S512x512_S20000x512_1_0_0_1_n_n rfl rfl rfl rfl rfl rfl none
    .single l w p q

/-! ## The joints at an index -/

/-- The sum of the four terms at `(p, q)`, as the reference associates it. -/
theorem refPre_apply (res h agg : FVec Ideal S20000x512 .f32) (Wl Wr : FVec Ideal S512x512 .f32) (bl : FVec Ideal S512 .f32)
    (p : Fin 20000) (q : Fin 512) :
    refPre (F := Ideal) res h agg Wl bl Wr (ix2 p q)
      = res (ix2 p q)
          + ((∑ k : Fin 512, agg (ix2 p k) * Wl (ix2 q k) + bl (ix1 q)) + ∑ k : Fin 512, h (ix2 p k) * Wr (ix2 q k)) := by
  unfold refPre
  simp only []
  rw [addf_apply, addf_apply, addf_apply, hostProduct_apply, hostProduct_apply, Cert.HostLayout.bid_1c_ac_apply,
    Cert.HostLayout.bid_c_1c_apply]
  have eT : ∀ (W : FVec Ideal S512x512 .f32) (k o : Fin 512),
      transpose S512x512 [1, 0] W transposes_S512x512_S512x512_1_0 (ix2 k o) = W (ix2 o k) :=
    fun W k o => transpose_ix2_apply W _ k o
  simp only [eT]

/-- The row mean of an array at `(p, u)`. -/
theorem refMean_apply (x : FVec Ideal S20000x512 .f32) (p : Fin 20000) (u : Fin 1) :
    refMean (F := Ideal) x (ix2 p u) = rowMean fun k => x (ix2 p k) := by
  unfold refMean rowMean
  simp only []
  rw [hostDivf_apply, Cert.HostColumn.bid_a_a1_apply,
    Cert.HostColumn.hostSum_cols x _ reducesTo_S20000x512_S20000_d1 (by decide) h_S_ p,
    Cert.HostLayout.bid_scalar_apply, constant0_apply, constant0_apply, Ideal.ofBits_zero_f32, zero_add]

/-- The deviation from the row mean at `(p, q)`. -/
theorem refDev_apply (x : FVec Ideal S20000x512 .f32) (p : Fin 20000) (q : Fin 512) :
    refDev (F := Ideal) x (ix2 p q) = x (ix2 p q) - rowMean fun k => x (ix2 p k) := by
  unfold refDev
  simp only []
  rw [subf_apply, Cert.HostColumn.bid_a1_ab_apply, refMean_apply]

/-- The row variance of an array at `(p, u)`. -/
theorem refVar_apply (x : FVec Ideal S20000x512 .f32) (p : Fin 20000) (u : Fin 1) :
    refVar (F := Ideal) x (ix2 p u) = rowVar fun k => x (ix2 p k) := by
  unfold refVar rowVar
  simp only []
  rw [hostDivf_apply, Cert.HostColumn.bid_a_a1_apply,
    Cert.HostColumn.hostSum_cols _ _ reducesTo_S20000x512_S20000_d1 (by decide) h_S_ p,
    Cert.HostLayout.bid_scalar_apply, constant0_apply, constant0_apply, Ideal.ofBits_zero_f32, zero_add]
  refine congrArg₂ Ideal.div (Finset.sum_congr rfl fun k _ => ?_) rfl
  rw [mulf_apply, refDev_apply]

/-- The closing stage at `(p, q)`: the row function of the row `k ↦ x (p, k)`. -/
theorem refOut_apply (x : FVec Ideal S20000x512 .f32) (g b : FVec Ideal S512 .f32) (a : FVec Ideal S1 .f32)
    (p : Fin 20000) (q : Fin 512) :
    refOut (F := Ideal) x g b a (ix2 p q)
      = normRow (fun k => x (ix2 p k)) (g (ix1 q)) (b (ix1 q)) (a (ix1 (0 : Fin 1))) q := by
  unfold refOut normRow leaky
  simp only []
  simp only [select_apply, cmpf_apply, mulf_apply, addf_apply, Cert.HostLayout.bid_scalar_apply, constant0_apply,
    refDev_apply]
  rw [Cert.HostColumn.bid_a1_ab_apply, hostRsqrt_apply, addf_apply, refVar_apply, Cert.HostLayout.bid_scalar_apply,
    constant0_apply, Cert.HostLayout.bid_1c_ac_apply, Cert.HostLayout.bid_c_1c_apply, Cert.HostLayout.bid_1c_ac_apply,
    Cert.HostLayout.bid_c_1c_apply, bid_11_ab_apply, Cert.HostLayout.bid_c_1c_apply]
  rfl

/-- The reference's layer at `(p, q)`: the row function of the row of the four-term sum. -/
theorem layer_apply (res h agg : FVec Ideal S20000x512 .f32) (Wl Wr : FVec Ideal S512x512 .f32)
    (bl g b : FVec Ideal S512 .f32) (a : FVec Ideal S1 .f32) (p : Fin 20000) (q : Fin 512) :
    Cert.Layers.layer (F := Ideal) res h agg Wl bl Wr g b a (ix2 p q)
      = normRow (fun k => refPre (F := Ideal) res h agg Wl bl Wr (ix2 p k)) (g (ix1 q)) (b (ix1 q))
          (a (ix1 (0 : Fin 1))) q :=
  (congrFun (layer_eq (F := Ideal) res h agg Wl bl Wr g b a) (ix2 p q)).trans
    (refOut_apply (refPre (F := Ideal) res h agg Wl bl Wr) g b a p q)

end Cert.Bridge

end
-- ==== Proof.BridgeSame.lean ====
/-
  The three layers' kernels compute the same functions.

  The program launches the same kernel body three times. The printed bodies of the second and third launches are
  spelt like the first one up to two details, neither of which changes a value: the features' block passes through a
  shape cast to its own shape before it is narrowed for the product (the identity), and the small constant added to
  the variance is handed on as a scalar and splat where it is used rather than splat where it is made. So each
  stored value of the second and third bodies is the first body's function of the same operands, over any float type.
-/
import proofs.«171848_j82592221102604_1_alg».proof.Proof.Gen.KernelIdeal.Skeleton
import Idealize.ShloMosaic.Lib.Pipeline.Value

noncomputable section

namespace Cert.Bridge

open Idealize.ShloMosaic Cert.KernelIdeal Cert.KernelIdeal.Gen

variable {F : FTy → Type} [FloatOps F]

/-! ## The second launch against the first -/

/-- The four-term sum: the extra shape cast of the features' block to its own shape is the identity. -/
theorem k1_pay2_eq (v0 v3 : Vec F S1000x512 .f32) (v6 v9 : Vec F S512x512 .f32) (v14 : Vec F S512 .f32)
    (v16 : Vec F S1000x512 .f32) : k1_pay2 v0 v3 v6 v9 v14 v16 = k0_pay2 v0 v3 v6 v9 v14 v16 :=
  (show k1_pay2 v0 v3 v6 v9 v14 v16
      = k0_pay2 v0 (shapeCast S1000x512 v3 shapeCasts_S1000x512_S1000x512) v6 v9 v14 v16 from rfl).trans
    (congrArg (fun x => k0_pay2 v0 x v6 v9 v14 v16) (shapeCast_self v3 _))

/-- The row mean. -/
theorem k1_pay3_eq (v0 v3 : Vec F S1000x512 .f32) (v6 v9 : Vec F S512x512 .f32) (v14 : Vec F S512 .f32)
    (v16 : Vec F S1000x512 .f32) : k1_pay3 v0 v3 v6 v9 v14 v16 = k0_pay3 v0 v3 v6 v9 v14 v16 := by
  unfold k1_pay3 k0_pay3
  rw [k1_pay2_eq]

/-- The row variance. -/
theorem k1_pay4_eq (v0 v3 : Vec F S1000x512 .f32) (v6 v9 : Vec F S512x512 .f32) (v14 : Vec F S512 .f32)
    (v16 : Vec F S1000x512 .f32) : k1_pay4 v0 v3 v6 v9 v14 v16 = k0_pay4 v0 v3 v6 v9 v14 v16 := by
  unfold k1_pay4 k0_pay4
  rw [k1_pay2_eq, k1_pay3_eq]

/-- The scale as a row. -/
theorem k1_pay5_eq (v : Vec F S512 .f32) : k1_pay5 v = k0_pay5 v := rfl

/-- The shift as a row. -/
theorem k1_pay6_eq (v : Vec F S512 .f32) : k1_pay6 v = k0_pay6 v := rfl

/-- The deviations from the row mean. -/
theorem k1_pay7_eq (v0 v3 : Vec F S1000x512 .f32) (v6 v9 : Vec F S512x512 .f32) (v14 : Vec F S512 .f32)
    (v16 : Vec F S1000x512 .f32) : k1_pay7 v0 v3 v6 v9 v14 v16 = k0_pay7 v0 v3 v6 v9 v14 v16 := by
  unfold k1_pay7 k0_pay7
  rw [k1_pay2_eq, k1_pay3_eq]

/-- The stored value: the small constant handed on as a scalar is splat inside; splat outside, it is the first
    launch's operand. -/
theorem k1_pay1_eq (v32 : FVec F S1000x1 .f32) (v34 v36 : FVec F S1x512 .f32) (v38 : FVec F S1000x512 .f32) (c : F .f32)
    (v48 : Vec F S1 .f32) : k1_pay1 v32 v34 v36 v38 c v48 = k0_pay1 v32 v34 v36 v38 (broadcast S1000x1 c) v48 := rfl

/-- The first launch's splat of the small constant is the splat of the scalar the later launches hand on. -/
theorem k0_pay8_eq : k0_pay8 (F := F) = broadcast S1000x1 (Scalar.ofBits .f32 0x3727C5AC#32 : F .f32) := rfl

/-- The whole stored value of the second launch, from its loads, is the first launch's. -/
theorem k1_block_eq (v0 v3 : Vec F S1000x512 .f32) (v6 v9 : Vec F S512x512 .f32) (v14 : Vec F S512 .f32)
    (v16 : Vec F S1000x512 .f32) (g b : Vec F S512 .f32) (a : Vec F S1 .f32) :
    k1_pay1 (k1_pay4 v0 v3 v6 v9 v14 v16) (k1_pay5 g) (k1_pay6 b) (k1_pay7 v0 v3 v6 v9 v14 v16)
        (Scalar.ofBits .f32 0x3727C5AC#32) a
      = k0_pay1 (k0_pay4 v0 v3 v6 v9 v14 v16) (k0_pay5 g) (k0_pay6 b) (k0_pay7 v0 v3 v6 v9 v14 v16) k0_pay8 a := by
  rw [k1_pay4_eq, k1_pay7_eq]
  rfl

/-! ## The third launch against the second: the same text -/

theorem k2_pay1_eq (v32 : FVec F S1000x1 .f32) (v34 v36 : FVec F S1x512 .f32) (v38 : FVec F S1000x512 .f32) (c : F .f32)
    (v48 : Vec F S1 .f32) : k2_pay1 v32 v34 v36 v38 c v48 = k1_pay1 v32 v34 v36 v38 c v48 := rfl

theorem k2_pay2_eq (v0 v3 : Vec F S1000x512 .f32) (v6 v9 : Vec F S512x512 .f32) (v14 : Vec F S512 .f32)
    (v16 : Vec F S1000x512 .f32) : k2_pay2 v0 v3 v6 v9 v14 v16 = k1_pay2 v0 v3 v6 v9 v14 v16 := rfl

theorem k2_pay3_eq (v0 v3 : Vec F S1000x512 .f32) (v6 v9 : Vec F S512x512 .f32) (v14 : Vec F S512 .f32)
    (v16 : Vec F S1000x512 .f32) : k2_pay3 v0 v3 v6 v9 v14 v16 = k1_pay3 v0 v3 v6 v9 v14 v16 := rfl

theorem k2_pay4_eq (v0 v3 : Vec F S1000x512 .f32) (v6 v9 : Vec F S512x512 .f32) (v14 : Vec F S512 .f32)
    (v16 : Vec F S1000x512 .f32) : k2_pay4 v0 v3 v6 v9 v14 v16 = k1_pay4 v0 v3 v6 v9 v14 v16 := rfl

theorem k2_pay5_eq (v : Vec F S512 .f32) : k2_pay5 v = k1_pay5 v := rfl

theorem k2_pay6_eq (v : Vec F S512 .f32) : k2_pay6 v = k1_pay6 v := rfl

theorem k2_pay7_eq (v0 v3 : Vec F S1000x512 .f32) (v6 v9 : Vec F S512x512 .f32) (v14 : Vec F S512 .f32)
    (v16 : Vec F S1000x512 .f32) : k2_pay7 v0 v3 v6 v9 v14 v16 = k1_pay7 v0 v3 v6 v9 v14 v16 := rfl

/-- The whole stored value of the third launch, from its loads, is the first launch's. -/
theorem k2_block_eq (v0 v3 : Vec F S1000x512 .f32) (v6 v9 : Vec F S512x512 .f32) (v14 : Vec F S512 .f32)
    (v16 : Vec F S1000x512 .f32) (g b : Vec F S512 .f32) (a : Vec F S1 .f32) :
    k2_pay1 (k2_pay4 v0 v3 v6 v9 v14 v16) (k2_pay5 g) (k2_pay6 b) (k2_pay7 v0 v3 v6 v9 v14 v16)
        (Scalar.ofBits .f32 0x3727C5AC#32) a
      = k0_pay1 (k0_pay4 v0 v3 v6 v9 v14 v16) (k0_pay5 g) (k0_pay6 b) (k0_pay7 v0 v3 v6 v9 v14 v16) k0_pay8 a :=
  (show _ = k1_pay1 (k1_pay4 v0 v3 v6 v9 v14 v16) (k1_pay5 g) (k1_pay6 b) (k1_pay7 v0 v3 v6 v9 v14 v16)
      (Scalar.ofBits .f32 0x3727C5AC#32) a from rfl).trans (k1_block_eq v0 v3 v6 v9 v14 v16 g b a)

end Cert.Bridge

end
-- ==== Proof.Bridge.lean ====
/-
  The bridge: one block of the kernel's body is the corresponding thousand rows of the reference's layer.

  At grid point `t` the kernel's body reads rows `1000 t … 1000 t + 999` of the three arrays and the two weight
  matrices transposed. Its sum of the four terms, `((res + agg · WlT) + bl) + h · WrT`, and the reference's,
  `res + ((agg · Wlᵀ + bl) + h · Wrᵀ)`, are the same sums over the contraction coordinate, associated differently;
  addition of extended reals is associative, so the two agree entry by entry with no finiteness asked. Everything after
  the sum is the same function of a row on both sides, so the stored block agrees with the layer row by row. The second
  and third launches store the same function of their loads as the first, so the statement serves all three layers.
-/
import proofs.«171848_j82592221102604_1_alg».proof.Proof.BridgeKernel
import proofs.«171848_j82592221102604_1_alg».proof.Proof.BridgeRef
import proofs.«171848_j82592221102604_1_alg».proof.Proof.BridgeSame

noncomputable section

open scoped BigOperators

namespace Cert.Bridge

open Idealize.ShloMosaic Idealize.ShloMosaic.ValueIdx

/-- Row `r` of the block at grid point `t` is row `1000 t + r` of the array. -/
theorem row_lt (t : Fin 20) (r : Fin 1000) : 1000 * t.val + r.val < 20000 := by
  have := t.isLt; have := r.isLt; omega

/-- The row of the array that row `r` of the block at grid point `t` is. -/
abbrev blockRow (t : Fin 20) (r : Fin 1000) : Fin 20000 := ⟨1000 * t.val + r.val, row_lt t r⟩

/-- The sums of the four terms agree: the kernel's association against the reference's. -/
theorem pre_eq
    (res h agg : FVec Ideal Cert.KernelIdeal.S20000x512 .f32) (Wl Wr : FVec Ideal Cert.KernelIdeal.S512x512 .f32)
    (bl : FVec Ideal Cert.KernelIdeal.S512 .f32) (t : Fin 20)
    (v0 v3 v15 : Vec Ideal Cert.KernelIdeal.S1000x512 .f32) (v5 v8 : Vec Ideal Cert.KernelIdeal.S512x512 .f32)
    (hv0 : ∀ (r : Fin 1000) (k : Fin 512), v0 (ix2 r k) = agg (ix2 (blockRow t r) k))
    (hv3 : ∀ (r : Fin 1000) (k : Fin 512), v3 (ix2 r k) = h (ix2 (blockRow t r) k))
    (hv15 : ∀ (r : Fin 1000) (k : Fin 512), v15 (ix2 r k) = res (ix2 (blockRow t r) k))
    (hv5 : ∀ (k o : Fin 512), v5 (ix2 k o) = Wl (ix2 o k))
    (hv8 : ∀ (k o : Fin 512), v8 (ix2 k o) = Wr (ix2 o k))
    (r : Fin 1000) (q : Fin 512) :
    Cert.KernelIdeal.Gen.k0_pay2 (F := Ideal) v0 v3 v5 v8 bl v15 (ix2 r q)
      = refPre (F := Ideal) res h agg Wl bl Wr (ix2 (blockRow t r) q) := by
  rw [pre_apply, refPre_apply, hv15 r q]
  have eL : ∑ k : Fin 512, v0 (ix2 r k) * v5 (ix2 k q) = ∑ k : Fin 512, agg (ix2 (blockRow t r) k) * Wl (ix2 q k) :=
    Finset.sum_congr rfl fun k _ => by rw [hv0 r k, hv5 k q]
  have eR : ∑ k : Fin 512, v3 (ix2 r k) * v8 (ix2 k q) = ∑ k : Fin 512, h (ix2 (blockRow t r) k) * Wr (ix2 q k) :=
    Finset.sum_congr rfl fun k _ => by rw [hv3 r k, hv8 k q]
  rw [eL, eR, add_assoc, add_assoc, add_assoc]

/-- One block of the first launch's body computes the corresponding rows of the layer. -/
theorem block_eq
    (res h agg : FVec Ideal Cert.KernelIdeal.S20000x512 .f32) (Wl Wr : FVec Ideal Cert.KernelIdeal.S512x512 .f32)
    (bl g b : FVec Ideal Cert.KernelIdeal.S512 .f32) (a : FVec Ideal Cert.KernelIdeal.S1 .f32) (t : Fin 20)
    (v0 v3 v15 : Vec Ideal Cert.KernelIdeal.S1000x512 .f32) (v5 v8 : Vec Ideal Cert.KernelIdeal.S512x512 .f32)
    (hv0 : ∀ (r : Fin 1000) (k : Fin 512), v0 (ix2 r k) = agg (ix2 (blockRow t r) k))
    (hv3 : ∀ (r : Fin 1000) (k : Fin 512), v3 (ix2 r k) = h (ix2 (blockRow t r) k))
    (hv15 : ∀ (r : Fin 1000) (k : Fin 512), v15 (ix2 r k) = res (ix2 (blockRow t r) k))
    (hv5 : ∀ (k o : Fin 512), v5 (ix2 k o) = Wl (ix2 o k))
    (hv8 : ∀ (k o : Fin 512), v8 (ix2 k o) = Wr (ix2 o k))
    (r : Fin 1000) (q : Fin 512) :
    Cert.KernelIdeal.Gen.k0_pay1 (F := Ideal) (Cert.KernelIdeal.Gen.k0_pay4 v0 v3 v5 v8 bl v15)
        (Cert.KernelIdeal.Gen.k0_pay5 g) (Cert.KernelIdeal.Gen.k0_pay6 b)
        (Cert.KernelIdeal.Gen.k0_pay7 v0 v3 v5 v8 bl v15) Cert.KernelIdeal.Gen.k0_pay8 a (ix2 r q)
      = Cert.Layers.layer (F := Ideal) res h agg Wl bl Wr g b a (ix2 (blockRow t r) q) := by
  rw [block_apply, layer_apply]
  exact normRow_congr (fun k => pre_eq res h agg Wl Wr bl t v0 v3 v15 v5 v8 hv0 hv3 hv15 hv5 hv8 r k) _ _ _ q

/-- The same for the second launch's body. -/
theorem block_eq_k1
    (res h agg : FVec Ideal Cert.KernelIdeal.S20000x512 .f32) (Wl Wr : FVec Ideal Cert.KernelIdeal.S512x512 .f32)
    (bl g b : FVec Ideal Cert.KernelIdeal.S512 .f32) (a : FVec Ideal Cert.KernelIdeal.S1 .f32) (t : Fin 20)
    (v0 v3 v16 : Vec Ideal Cert.KernelIdeal.S1000x512 .f32) (v6 v9 : Vec Ideal Cert.KernelIdeal.S512x512 .f32)
    (hv0 : ∀ (r : Fin 1000) (k : Fin 512), v0 (ix2 r k) = agg (ix2 (blockRow t r) k))
    (hv3 : ∀ (r : Fin 1000) (k : Fin 512), v3 (ix2 r k) = h (ix2 (blockRow t r) k))
    (hv16 : ∀ (r : Fin 1000) (k : Fin 512), v16 (ix2 r k) = res (ix2 (blockRow t r) k))
    (hv6 : ∀ (k o : Fin 512), v6 (ix2 k o) = Wl (ix2 o k))
    (hv9 : ∀ (k o : Fin 512), v9 (ix2 k o) = Wr (ix2 o k))
    (r : Fin 1000) (q : Fin 512) :
    Cert.KernelIdeal.Gen.k1_pay1 (F := Ideal) (Cert.KernelIdeal.Gen.k1_pay4 v0 v3 v6 v9 bl v16)
        (Cert.KernelIdeal.Gen.k1_pay5 g) (Cert.KernelIdeal.Gen.k1_pay6 b)
        (Cert.KernelIdeal.Gen.k1_pay7 v0 v3 v6 v9 bl v16) (Scalar.ofBits .f32 0x3727C5AC#32) a (ix2 r q)
      = Cert.Layers.layer (F := Ideal) res h agg Wl bl Wr g b a (ix2 (blockRow t r) q) :=
  (congrFun (k1_block_eq (F := Ideal) v0 v3 v6 v9 bl v16 g b a) (ix2 r q)).trans
    (block_eq res h agg Wl Wr bl g b a t v0 v3 v16 v6 v9 hv0 hv3 hv16 hv6 hv9 r q)

/-- The same for the third launch's body. -/
theorem block_eq_k2
    (res h agg : FVec Ideal Cert.KernelIdeal.S20000x512 .f32) (Wl Wr : FVec Ideal Cert.KernelIdeal.S512x512 .f32)
    (bl g b : FVec Ideal Cert.KernelIdeal.S512 .f32) (a : FVec Ideal Cert.KernelIdeal.S1 .f32) (t : Fin 20)
    (v0 v3 v16 : Vec Ideal Cert.KernelIdeal.S1000x512 .f32) (v6 v9 : Vec Ideal Cert.KernelIdeal.S512x512 .f32)
    (hv0 : ∀ (r : Fin 1000) (k : Fin 512), v0 (ix2 r k) = agg (ix2 (blockRow t r) k))
    (hv3 : ∀ (r : Fin 1000) (k : Fin 512), v3 (ix2 r k) = h (ix2 (blockRow t r) k))
    (hv16 : ∀ (r : Fin 1000) (k : Fin 512), v16 (ix2 r k) = res (ix2 (blockRow t r) k))
    (hv6 : ∀ (k o : Fin 512), v6 (ix2 k o) = Wl (ix2 o k))
    (hv9 : ∀ (k o : Fin 512), v9 (ix2 k o) = Wr (ix2 o k))
    (r : Fin 1000) (q : Fin 512) :
    Cert.KernelIdeal.Gen.k2_pay1 (F := Ideal) (Cert.KernelIdeal.Gen.k2_pay4 v0 v3 v6 v9 bl v16)
        (Cert.KernelIdeal.Gen.k2_pay5 g) (Cert.KernelIdeal.Gen.k2_pay6 b)
        (Cert.KernelIdeal.Gen.k2_pay7 v0 v3 v6 v9 bl v16) (Scalar.ofBits .f32 0x3727C5AC#32) a (ix2 r q)
      = Cert.Layers.layer (F := Ideal) res h agg Wl bl Wr g b a (ix2 (blockRow t r) q) :=
  (congrFun (k2_block_eq (F := Ideal) v0 v3 v6 v9 bl v16 g b a) (ix2 r q)).trans
    (block_eq res h agg Wl Wr bl g b a t v0 v3 v16 v6 v9 hv0 hv3 hv16 hv6 hv9 r q)

end Cert.Bridge

end
-- ==== Proof.ILayer.lean ====
/-
  Each region's output array is one layer of the network, as a function of the contents the region is entered from:
  at the exact values, block `t` of the body's arithmetic on the blocks of the neighbour mean, the features and the residual
  and on the transposed weights is rows `1000 t … 1000 t + 999` of `Cert.Layers.layer` of the whole arrays (the bridge
  lemmas), and the twenty blocks tile the output.
-/
import proofs.«171848_j82592221102604_1_alg».proof.Proof.IBlocks
import proofs.«171848_j82592221102604_1_alg».proof.Proof.Bridge

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- A transposed square matrix read at `(k, o)` is the matrix at `(o, k)`. -/
theorem transpose_swap (x : FVec Ideal S512x512 .f32) (k o : Fin 512) :
    transpose S512x512 [1, 0] x transposes_S512x512_S512x512_1_0 (ix2 k o) = x (ix2 o k) :=
  transpose_apply [1, 0] x transposes_S512x512_S512x512_1_0 (ix2 k o) (ix2 o k) (fun b => match b with | ⟨0, _⟩ => rfl | ⟨1, _⟩ => rfl)

/-- Region 0's output array: the layer of the arrays it is entered from, `Wl` and `Wr` the matrices whose transposes
    windows 3 and 5 hold. -/
theorem layer0_final (c : Dev nD) (Wl Wr : FVec Ideal S512x512 .f32)
    (hWl : ∀ k o : Fin 512, (V c main_v23 : S512x512.Idx → Elt Ideal .f32) (ix2 k o) = Wl (ix2 o k))
    (hWr : ∀ k o : Fin 512, (V c main_v24 : S512x512.Idx → Elt Ideal .f32) (ix2 k o) = Wr (ix2 o k)) :
    (dat0 V c).arrAt 9 cfg0.N
      = Cert.Layers.layer (F := Ideal) (V c main_v4) (V c main_arg0) (V c main_v22) Wl (V c main_arg3) Wr (V c main_arg5) (V c main_arg6) (V c main_arg17) := by
  refine final0 V c _ (fun t y i h0 h1 => ?_)
  obtain ⟨r, q, rfl⟩ : ∃ (r : Fin 1000) (q : Fin 512), y = ix2 r q := ⟨y 0, y 1, eq_ix2 y⟩
  have hN : cfg0.N = 20 := N_0
  have ht : t.val < 20 := hN ▸ t.isLt
  obtain rfl : i = ix2 (Cert.Bridge.blockRow ⟨t.val, ht⟩ r) q := by
    funext a
    match a with
    | ⟨0, _⟩ => exact Fin.ext h0
    | ⟨1, _⟩ => exact Fin.ext h1
  unfold out0_9
  rw [View.canon_unit_zero hz2]
  simp only [View.ld_unit_zero (S := S1000x512) hz2, View.ld_unit_zero (S := S512x512) hz2, View.ld_unit_zero (S := S512) hz1, View.ld_unit_zero (S := S1) hz1]
  rw [iblk0_3_eq, iblk0_5_eq, iblk0_4_eq, iblk0_6_eq, iblk0_7_eq, iblk0_8_eq]
  exact Cert.Bridge.block_eq (V c main_v4) (V c main_arg0) (V c main_v22) Wl Wr (V c main_arg3) (V c main_arg5) (V c main_arg6) (V c main_arg17) ⟨t.val, ht⟩
    (iblk0 V c 0 t) (iblk0 V c 1 t) (iblk0 V c 2 t) (V c main_v23) (V c main_v24)
    (fun r k => iblk0_0_apply V c t (ix2 r k) (ix2 (Cert.Bridge.blockRow ⟨t.val, ht⟩ r) k) rfl rfl)
    (fun r k => iblk0_1_apply V c t (ix2 r k) (ix2 (Cert.Bridge.blockRow ⟨t.val, ht⟩ r) k) rfl rfl)
    (fun r k => iblk0_2_apply V c t (ix2 r k) (ix2 (Cert.Bridge.blockRow ⟨t.val, ht⟩ r) k) rfl rfl)
    hWl hWr r q

/-- Region 1's output array: the layer of the arrays it is entered from, `Wl` and `Wr` the matrices whose transposes
    windows 3 and 5 hold. -/
theorem layer1_final (c : Dev nD) (Wl Wr : FVec Ideal S512x512 .f32)
    (hWl : ∀ k o : Fin 512, (V c main_v44 : S512x512.Idx → Elt Ideal .f32) (ix2 k o) = Wl (ix2 o k))
    (hWr : ∀ k o : Fin 512, (V c main_v45 : S512x512.Idx → Elt Ideal .f32) (ix2 k o) = Wr (ix2 o k)) :
    (dat1 V c).arrAt 9 cfg1.N
      = Cert.Layers.layer (F := Ideal) (V c main_v25) (V c main_v25) (V c main_v43) Wl (V c main_arg8) Wr (V c main_arg10) (V c main_arg11) (V c main_arg17) := by
  refine final1 V c _ (fun t y i h0 h1 => ?_)
  obtain ⟨r, q, rfl⟩ : ∃ (r : Fin 1000) (q : Fin 512), y = ix2 r q := ⟨y 0, y 1, eq_ix2 y⟩
  have hN : cfg1.N = 20 := N_1
  have ht : t.val < 20 := hN ▸ t.isLt
  obtain rfl : i = ix2 (Cert.Bridge.blockRow ⟨t.val, ht⟩ r) q := by
    funext a
    match a with
    | ⟨0, _⟩ => exact Fin.ext h0
    | ⟨1, _⟩ => exact Fin.ext h1
  unfold out1_9
  rw [View.canon_unit_zero hz2]
  simp only [View.ld_unit_zero (S := S1000x512) hz2, View.ld_unit_zero (S := S512x512) hz2, View.ld_unit_zero (S := S512) hz1, View.ld_unit_zero (S := S1) hz1]
  rw [iblk1_3_eq, iblk1_5_eq, iblk1_4_eq, iblk1_6_eq, iblk1_7_eq, iblk1_8_eq]
  exact Cert.Bridge.block_eq_k1 (V c main_v25) (V c main_v25) (V c main_v43) Wl Wr (V c main_arg8) (V c main_arg10) (V c main_arg11) (V c main_arg17) ⟨t.val, ht⟩
    (iblk1 V c 0 t) (iblk1 V c 1 t) (iblk1 V c 2 t) (V c main_v44) (V c main_v45)
    (fun r k => iblk1_0_apply V c t (ix2 r k) (ix2 (Cert.Bridge.blockRow ⟨t.val, ht⟩ r) k) rfl rfl)
    (fun r k => iblk1_1_apply V c t (ix2 r k) (ix2 (Cert.Bridge.blockRow ⟨t.val, ht⟩ r) k) rfl rfl)
    (fun r k => iblk1_2_apply V c t (ix2 r k) (ix2 (Cert.Bridge.blockRow ⟨t.val, ht⟩ r) k) rfl rfl)
    hWl hWr r q

/-- Region 2's output array: the layer of the arrays it is entered from, `Wl` and `Wr` the matrices whose transposes
    windows 3 and 5 hold. -/
theorem layer2_final (c : Dev nD) (Wl Wr : FVec Ideal S512x512 .f32)
    (hWl : ∀ k o : Fin 512, (V c main_v65 : S512x512.Idx → Elt Ideal .f32) (ix2 k o) = Wl (ix2 o k))
    (hWr : ∀ k o : Fin 512, (V c main_v66 : S512x512.Idx → Elt Ideal .f32) (ix2 k o) = Wr (ix2 o k)) :
    (dat2 V c).arrAt 9 cfg2.N
      = Cert.Layers.layer (F := Ideal) (V c main_v46) (V c main_v46) (V c main_v64) Wl (V c main_arg13) Wr (V c main_arg15) (V c main_arg16) (V c main_arg17) := by
  refine final2 V c _ (fun t y i h0 h1 => ?_)
  obtain ⟨r, q, rfl⟩ : ∃ (r : Fin 1000) (q : Fin 512), y = ix2 r q := ⟨y 0, y 1, eq_ix2 y⟩
  have hN : cfg2.N = 20 := N_2
  have ht : t.val < 20 := hN ▸ t.isLt
  obtain rfl : i = ix2 (Cert.Bridge.blockRow ⟨t.val, ht⟩ r) q := by
    funext a
    match a with
    | ⟨0, _⟩ => exact Fin.ext h0
    | ⟨1, _⟩ => exact Fin.ext h1
  unfold out2_9
  rw [View.canon_unit_zero hz2]
  simp only [View.ld_unit_zero (S := S1000x512) hz2, View.ld_unit_zero (S := S512x512) hz2, View.ld_unit_zero (S := S512) hz1, View.ld_unit_zero (S := S1) hz1]
  rw [iblk2_3_eq, iblk2_5_eq, iblk2_4_eq, iblk2_6_eq, iblk2_7_eq, iblk2_8_eq]
  exact Cert.Bridge.block_eq_k2 (V c main_v46) (V c main_v46) (V c main_v64) Wl Wr (V c main_arg13) (V c main_arg15) (V c main_arg16) (V c main_arg17) ⟨t.val, ht⟩
    (iblk2 V c 0 t) (iblk2 V c 1 t) (iblk2 V c 2 t) (V c main_v65) (V c main_v66)
    (fun r k => iblk2_0_apply V c t (ix2 r k) (ix2 (Cert.Bridge.blockRow ⟨t.val, ht⟩ r) k) rfl rfl)
    (fun r k => iblk2_1_apply V c t (ix2 r k) (ix2 (Cert.Bridge.blockRow ⟨t.val, ht⟩ r) k) rfl rfl)
    (fun r k => iblk2_2_apply V c t (ix2 r k) (ix2 (Cert.Bridge.blockRow ⟨t.val, ht⟩ r) k) rfl rfl)
    hWl hWr r q

end Cert.KernelIdeal.Hand

end
-- ==== Proof.IChain.lean ====
/-
  The kernel program's result is the network. Each host stretch computes, of the contents before it, the neighbour mean of
  the current features over the edge rows and the two transposed weight matrices of its layer (and, the first one, the edge
  rows and the zero residual); each region's output array is `Cert.Layers.layer` of the arrays it is entered from. Chained from the launch memory through the six items, the contents of the result array after the last item are `Cert.Layers.network` of the arguments.
-/
import proofs.«171848_j82592221102604_1_alg».proof.Proof.IBounds
import proofs.«171848_j82592221102604_1_alg».proof.Proof.ILayer
import proofs.«171848_j82592221102604_1_alg».proof.Proof.Layers
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

/-! ## What the host stretches compute, from any contents -/

section Stretches
variable {F : FTy → Type} [FloatOps F] (W : Valuation τ sig (Elt F))

theorem stretch0_mean : StableHlo.after hostOps0 W (Proc.devRef .tc main_v22)
    = Cert.Layers.neighbourMean (W (Proc.devRef .tc main_arg0)) (Cert.Layers.srcRow (W (Proc.devRef .tc main_arg1))) (Cert.Layers.dstRow (W (Proc.devRef .tc main_arg1))) := by
  after_results_simp; rfl
theorem stretch0_src : StableHlo.after hostOps0 W (Proc.devRef .tc main_v1) = Cert.Layers.srcRow (W (Proc.devRef .tc main_arg1)) := by
  after_results_simp; rfl
theorem stretch0_dst : StableHlo.after hostOps0 W (Proc.devRef .tc main_v3) = Cert.Layers.dstRow (W (Proc.devRef .tc main_arg1)) := by
  after_results_simp; rfl
theorem stretch0_zero : StableHlo.after hostOps0 W (Proc.devRef .tc main_v4) = Cert.Layers.zeroRes := by
  after_results_simp; rfl
theorem stretch0_wl : StableHlo.after hostOps0 W (Proc.devRef .tc main_v23) = transpose S512x512 [1, 0] ((W (Proc.devRef .tc main_arg2)) : (⟨S512x512, .f32⟩ : BufTy).Contents (Elt F)) transposes_S512x512_S512x512_1_0 := by
  after_results_simp
theorem stretch0_wr : StableHlo.after hostOps0 W (Proc.devRef .tc main_v24) = transpose S512x512 [1, 0] ((W (Proc.devRef .tc main_arg4)) : (⟨S512x512, .f32⟩ : BufTy).Contents (Elt F)) transposes_S512x512_S512x512_1_0 := by
  after_results_simp
theorem stretch1_mean : StableHlo.after hostOps1 W (Proc.devRef .tc main_v43)
    = Cert.Layers.neighbourMean (W (Proc.devRef .tc main_v25)) (W (Proc.devRef .tc main_v1)) (W (Proc.devRef .tc main_v3)) := by
  after_results_simp; rfl
theorem stretch1_wl : StableHlo.after hostOps1 W (Proc.devRef .tc main_v44) = transpose S512x512 [1, 0] ((W (Proc.devRef .tc main_arg7)) : (⟨S512x512, .f32⟩ : BufTy).Contents (Elt F)) transposes_S512x512_S512x512_1_0 := by
  after_results_simp
theorem stretch1_wr : StableHlo.after hostOps1 W (Proc.devRef .tc main_v45) = transpose S512x512 [1, 0] ((W (Proc.devRef .tc main_arg9)) : (⟨S512x512, .f32⟩ : BufTy).Contents (Elt F)) transposes_S512x512_S512x512_1_0 := by
  after_results_simp
theorem stretch2_mean : StableHlo.after hostOps2 W (Proc.devRef .tc main_v64)
    = Cert.Layers.neighbourMean (W (Proc.devRef .tc main_v46)) (W (Proc.devRef .tc main_v1)) (W (Proc.devRef .tc main_v3)) := by
  after_results_simp; rfl
theorem stretch2_wl : StableHlo.after hostOps2 W (Proc.devRef .tc main_v65) = transpose S512x512 [1, 0] ((W (Proc.devRef .tc main_arg12)) : (⟨S512x512, .f32⟩ : BufTy).Contents (Elt F)) transposes_S512x512_S512x512_1_0 := by
  after_results_simp
theorem stretch2_wr : StableHlo.after hostOps2 W (Proc.devRef .tc main_v66) = transpose S512x512 [1, 0] ((W (Proc.devRef .tc main_arg14)) : (⟨S512x512, .f32⟩ : BufTy).Contents (Elt F)) transposes_S512x512_S512x512_1_0 := by
  after_results_simp

end Stretches

variable (m : (ℓ : Loc nD τ sig) → Buf (Elt Ideal) ℓ) (ρ : Dev nD → PrngReg)

/-! ## What no item writes stays -/

theorem B1_keep (c : Dev nD) (b : Ref sig .tc) (h : b ∉ hostOps0_W) : B1 m ρ c (Proc.devRef .tc b) = m ((c : Thread nD τ).loc b) :=
  (StableHlo.after_of_writes_sub hostOps0 _ hostOps0_writes h).trans rfl
theorem B3_keep (c : Dev nD) (b : Ref sig .tc) (h : b ∉ hostOps1_W) : B3 m ρ c (Proc.devRef .tc b) = B2 m ρ c (Proc.devRef .tc b) :=
  StableHlo.after_of_writes_sub hostOps1 _ hostOps1_writes h
theorem B5_keep (c : Dev nD) (b : Ref sig .tc) (h : b ∉ hostOps2_W) : B5 m ρ c (Proc.devRef .tc b) = B4 m ρ c (Proc.devRef .tc b) :=
  StableHlo.after_of_writes_sub hostOps2 _ hostOps2_writes h
/-- An argument at the entry of regions 0, 1, 2. -/
theorem B1_arg (c : Dev nD) (b : Ref sig .tc) (h0 : b ∉ hostOps0_W) : B1 m ρ c (Proc.devRef .tc b) = m ((c : Thread nD τ).loc b) := B1_keep m ρ c b h0
theorem B3_arg (c : Dev nD) (b : Ref sig .tc) (h0 : b ∉ hostOps0_W) (h1 : b ≠ main_v25) (h2 : b ∉ hostOps1_W) :
    B3 m ρ c (Proc.devRef .tc b) = m ((c : Thread nD τ).loc b) :=
  (B3_keep m ρ c b h2).trans ((B2_of_ne m ρ c b h1).trans (B1_keep m ρ c b h0))
theorem B5_arg (c : Dev nD) (b : Ref sig .tc) (h0 : b ∉ hostOps0_W) (h1 : b ≠ main_v25) (h2 : b ∉ hostOps1_W) (h3 : b ≠ main_v46) (h4 : b ∉ hostOps2_W) :
    B5 m ρ c (Proc.devRef .tc b) = m ((c : Thread nD τ).loc b) :=
  (B5_keep m ρ c b h4).trans ((B4_of_ne m ρ c b h3).trans (B3_arg m ρ c b h0 h1 h2))

/-! ## The layers' outputs, named -/

/-- The edge rows, of the launch memory. -/
abbrev src (c : Dev nD) := Cert.Layers.srcRow (F := Ideal) (m ((c : Thread nD τ).loc main_arg1))
abbrev dst (c : Dev nD) := Cert.Layers.dstRow (F := Ideal) (m ((c : Thread nD τ).loc main_arg1))
/-- The three layers' outputs as functions of the launch memory. -/
def H1 (c : Dev nD) := Cert.Layers.layer (F := Ideal) Cert.Layers.zeroRes (m ((c : Thread nD τ).loc main_arg0)) (Cert.Layers.neighbourMean (m ((c : Thread nD τ).loc main_arg0)) (src m c) (dst m c)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg17))
def H2 (c : Dev nD) := Cert.Layers.layer (F := Ideal) (H1 m c) (H1 m c) (Cert.Layers.neighbourMean (H1 m c) (src m c) (dst m c)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg17))
def H3 (c : Dev nD) := Cert.Layers.layer (F := Ideal) (H2 m c) (H2 m c) (Cert.Layers.neighbourMean (H2 m c) (src m c) (dst m c)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

theorem H3_eq (c : Dev nD) : H3 m c = Cert.Layers.network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := rfl

/-- The edge rows reach every stretch as the first one wrote them. -/
theorem B1_src (c : Dev nD) : B1 m ρ c (Proc.devRef .tc main_v1) = src m c := stretch0_src (B0 m ρ c)
theorem B1_dst (c : Dev nD) : B1 m ρ c (Proc.devRef .tc main_v3) = dst m c := stretch0_dst (B0 m ρ c)
theorem B2_src (c : Dev nD) : B2 m ρ c (Proc.devRef .tc main_v1) = src m c := (B2_of_ne m ρ c main_v1 (by decide)).trans (B1_src m ρ c)
theorem B2_dst (c : Dev nD) : B2 m ρ c (Proc.devRef .tc main_v3) = dst m c := (B2_of_ne m ρ c main_v3 (by decide)).trans (B1_dst m ρ c)
theorem B4_src (c : Dev nD) : B4 m ρ c (Proc.devRef .tc main_v1) = src m c :=
  (B4_of_ne m ρ c main_v1 (by decide)).trans ((B3_keep m ρ c main_v1 (by decide)).trans (B2_src m ρ c))
theorem B4_dst (c : Dev nD) : B4 m ρ c (Proc.devRef .tc main_v3) = dst m c :=
  (B4_of_ne m ρ c main_v3 (by decide)).trans ((B3_keep m ρ c main_v3 (by decide)).trans (B2_dst m ρ c))

/-- LAYER ONE. -/
theorem B2_h (c : Dev nD) : B2 m ρ c (Proc.devRef .tc main_v25) = H1 m c := by
  rw [B2_out, layer0_final (C1 m ρ) c (m ((c : Thread nD τ).loc main_arg2)) (m ((c : Thread nD τ).loc main_arg4))
    (fun k o => by
      show (B1 m ρ c (Proc.devRef .tc main_v23) : S512x512.Idx → Elt Ideal .f32) (ix2 k o) = _
      rw [show B1 m ρ c (Proc.devRef .tc main_v23) = _ from stretch0_wl (B0 m ρ c)]; exact transpose_swap _ k o)
    (fun k o => by
      show (B1 m ρ c (Proc.devRef .tc main_v24) : S512x512.Idx → Elt Ideal .f32) (ix2 k o) = _
      rw [show B1 m ρ c (Proc.devRef .tc main_v24) = _ from stretch0_wr (B0 m ρ c)]; exact transpose_swap _ k o)]
  show Cert.Layers.layer (B1 m ρ c (Proc.devRef .tc main_v4)) (B1 m ρ c (Proc.devRef .tc main_arg0)) (B1 m ρ c (Proc.devRef .tc main_v22)) _ (B1 m ρ c (Proc.devRef .tc main_arg3)) _ (B1 m ρ c (Proc.devRef .tc main_arg5)) (B1 m ρ c (Proc.devRef .tc main_arg6)) (B1 m ρ c (Proc.devRef .tc main_arg17)) = _
  rw [show B1 m ρ c (Proc.devRef .tc main_v4) = _ from stretch0_zero (B0 m ρ c), show B1 m ρ c (Proc.devRef .tc main_v22) = _ from stretch0_mean (B0 m ρ c),
    B1_arg m ρ c main_arg0 (by decide), B1_arg m ρ c main_arg3 (by decide), B1_arg m ρ c main_arg5 (by decide), B1_arg m ρ c main_arg6 (by decide), B1_arg m ρ c main_arg17 (by decide)]
  rfl

/-- LAYER TWO. -/
theorem B4_h (c : Dev nD) : B4 m ρ c (Proc.devRef .tc main_v46) = H2 m c := by
  have hT (b : Ref sig .tc) (h0 : b ∉ hostOps0_W) (h1 : b ≠ main_v25) : B2 m ρ c (Proc.devRef .tc b) = m ((c : Thread nD τ).loc b) :=
    (B2_of_ne m ρ c b h1).trans (B1_keep m ρ c b h0)
  rw [B4_out, layer1_final (C3 m ρ) c (m ((c : Thread nD τ).loc main_arg7)) (m ((c : Thread nD τ).loc main_arg9))
    (fun k o => by
      show (B3 m ρ c (Proc.devRef .tc main_v44) : S512x512.Idx → Elt Ideal .f32) (ix2 k o) = _
      rw [show B3 m ρ c (Proc.devRef .tc main_v44) = _ from stretch1_wl (B2 m ρ c), hT main_arg7 (by decide) (by decide)]; exact transpose_swap _ k o)
    (fun k o => by
      show (B3 m ρ c (Proc.devRef .tc main_v45) : S512x512.Idx → Elt Ideal .f32) (ix2 k o) = _
      rw [show B3 m ρ c (Proc.devRef .tc main_v45) = _ from stretch1_wr (B2 m ρ c), hT main_arg9 (by decide) (by decide)]; exact transpose_swap _ k o)]
  show Cert.Layers.layer (B3 m ρ c (Proc.devRef .tc main_v25)) (B3 m ρ c (Proc.devRef .tc main_v25)) (B3 m ρ c (Proc.devRef .tc main_v43)) _ (B3 m ρ c (Proc.devRef .tc main_arg8)) _ (B3 m ρ c (Proc.devRef .tc main_arg10)) (B3 m ρ c (Proc.devRef .tc main_arg11)) (B3 m ρ c (Proc.devRef .tc main_arg17)) = _
  rw [show B3 m ρ c (Proc.devRef .tc main_v43) = _ from stretch1_mean (B2 m ρ c), B2_src, B2_dst,
    B3_keep m ρ c main_v25 (by decide), B2_h,
    B3_arg m ρ c main_arg8 (by decide) (by decide) (by decide), B3_arg m ρ c main_arg10 (by decide) (by decide) (by decide),
    B3_arg m ρ c main_arg11 (by decide) (by decide) (by decide), B3_arg m ρ c main_arg17 (by decide) (by decide) (by decide)]
  rfl

/-- LAYER THREE. -/
theorem B6_h (c : Dev nD) : B6 m ρ c (Proc.devRef .tc main_v67) = H3 m c := by
  have hT (b : Ref sig .tc) (h0 : b ∉ hostOps0_W) (h1 : b ≠ main_v25) (h2 : b ∉ hostOps1_W) (h3 : b ≠ main_v46) : B4 m ρ c (Proc.devRef .tc b) = m ((c : Thread nD τ).loc b) :=
    (B4_of_ne m ρ c b h3).trans (B3_arg m ρ c b h0 h1 h2)
  rw [B6_out, layer2_final (C5 m ρ) c (m ((c : Thread nD τ).loc main_arg12)) (m ((c : Thread nD τ).loc main_arg14))
    (fun k o => by
      show (B5 m ρ c (Proc.devRef .tc main_v65) : S512x512.Idx → Elt Ideal .f32) (ix2 k o) = _
      rw [show B5 m ρ c (Proc.devRef .tc main_v65) = _ from stretch2_wl (B4 m ρ c), hT main_arg12 (by decide) (by decide) (by decide) (by decide)]; exact transpose_swap _ k o)
    (fun k o => by
      show (B5 m ρ c (Proc.devRef .tc main_v66) : S512x512.Idx → Elt Ideal .f32) (ix2 k o) = _
      rw [show B5 m ρ c (Proc.devRef .tc main_v66) = _ from stretch2_wr (B4 m ρ c), hT main_arg14 (by decide) (by decide) (by decide) (by decide)]; exact transpose_swap _ k o)]
  show Cert.Layers.layer (B5 m ρ c (Proc.devRef .tc main_v46)) (B5 m ρ c (Proc.devRef .tc main_v46)) (B5 m ρ c (Proc.devRef .tc main_v64)) _ (B5 m ρ c (Proc.devRef .tc main_arg13)) _ (B5 m ρ c (Proc.devRef .tc main_arg15)) (B5 m ρ c (Proc.devRef .tc main_arg16)) (B5 m ρ c (Proc.devRef .tc main_arg17)) = _
  rw [show B5 m ρ c (Proc.devRef .tc main_v64) = _ from stretch2_mean (B4 m ρ c), B4_src, B4_dst,
    B5_keep m ρ c main_v46 (by decide), B4_h,
    B5_arg m ρ c main_arg13 (by decide) (by decide) (by decide) (by decide) (by decide), B5_arg m ρ c main_arg15 (by decide) (by decide) (by decide) (by decide) (by decide),
    B5_arg m ρ c main_arg16 (by decide) (by decide) (by decide) (by decide) (by decide), B5_arg m ρ c main_arg17 (by decide) (by decide) (by decide) (by decide) (by decide)]
  rfl

end Cert.KernelIdeal.Hand

end
-- ==== Proof.IFinal.lean ====
/-
  The kernel program at the exact values: its run ends with every unscoped buffer at the contents after the sixth item,
  and the result array's contents there are the network of the arguments.
-/
import proofs.«171848_j82592221102604_1_alg».proof.Proof.IRun
import proofs.«171848_j82592221102604_1_alg».proof.Proof.IChain

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The kernel program at the exact values: every weakly fair execution ends with the result array at the network of the
    arguments, the arguments unchanged. -/
theorem run_network : θ_run defs (onTc (τ := τ) (main (F := Ideal))) ⟨m, fun _ => 0, ρ⟩ (fun r => ∀ c : Dev nD,
      r.2.mem ((c.tc : Thread nD τ).loc main_v67) = Cert.Layers.network (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c).1.trans ((B6_h m ρ c).trans (H3_eq m c)), (h c).2⟩) (run (F := Ideal) m ρ)

end Cert.KernelIdeal.Hand

end
-- ==== Proof.RefRunOps.lean ====
/-
  The reference program's 213 host operations as seven consecutive stretches, and the facts about the whole line
  that running it needs: the program is the line run in order, every operation touches device buffers only and
  determines its results, and each stretch writes only the buffers listed for it.
-/
import proofs.«171848_j82592221102604_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Positions 0–3: the two rows of the edge table, each sliced out and flattened. -/
def s0 : List (HloOp τ sig (Elt F)) :=
  [ unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 rfl shapeCasts_S1x320000_S320000 ]

/-- Positions 4–27: the neighbour mean of the input features. -/
def s1 : List (HloOp τ sig (Elt F)) :=
  [ nullary main_c (constantI S_ 32 0#32),
    unary main_c main_v4 (broadcastInDim S320000 ![] bcast_S_S320000 : (⟨S_, .i32⟩ : BufTy).Contents (Elt F) → (⟨S320000, .i32⟩ : BufTy).Contents (Elt F)),
    binary main_v1 main_v4 main_v5 (cmpi .slt : (⟨S320000, .i32⟩ : BufTy).Contents (Elt F) → (⟨S320000, .i32⟩ : BufTy).Contents (Elt F) → (⟨S320000, .i1⟩ : BufTy).Contents (Elt F)),
    nullary main_c_0 (constantI S_ 32 20000#32),
    unary main_c_0 main_v6 (broadcastInDim S320000 ![] bcast_S_S320000 : (⟨S_, .i32⟩ : BufTy).Contents (Elt F) → (⟨S320000, .i32⟩ : BufTy).Contents (Elt F)),
    binary main_v1 main_v6 main_v7 (addi : (⟨S320000, .i32⟩ : BufTy).Contents (Elt F) → (⟨S320000, .i32⟩ : BufTy).Contents (Elt F) → (⟨S320000, .i32⟩ : BufTy).Contents (Elt F)),
    ternary main_v5 main_v7 main_v1 main_v8 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v8 main_v9 (broadcastInDim S320000x1 ![0] bcast_S320000_S320000x1_0 : (⟨S320000, .i32⟩ : BufTy).Contents (Elt F) → (⟨S320000x1, .i32⟩ : BufTy).Contents (Elt F)),
    binary main_arg0 main_v9 main_v10 ((fun x i => Host.gather gather_S20000x512_S320000x1_S320000x512_1_0_n_n_0_1_1512 x i) : (⟨S20000x512, .f32⟩ : BufTy).Contents (Elt F) → (⟨S320000x1, .i32⟩ : BufTy).Contents (Elt F) → (⟨S320000x512, .f32⟩ : BufTy).Contents (Elt F)),
    nullary main_cst (constant S_ .f32 0x00000000#32),
    unary main_cst main_v11 (broadcastInDim S20000x512 ![] bcast_S_S20000x512 : (⟨S_, .f32⟩ : BufTy).Contents (Elt F) → (⟨S20000x512, .f32⟩ : BufTy).Contents (Elt F)),
    unary main_v3 main_v12 (broadcastInDim S320000x1 ![0] bcast_S320000_S320000x1_0 : (⟨S320000, .i32⟩ : BufTy).Contents (Elt F) → (⟨S320000x1, .i32⟩ : BufTy).Contents (Elt F)),
    ternary main_v11 main_v12 main_v10 main_v13 ((fun x i u => Host.scatterAdd scatter_S20000x512_S320000x1_S320000x512_1_0_0_1 x i u) : (⟨S20000x512, .f32⟩ : BufTy).Contents (Elt F) → (⟨S320000x1, .i32⟩ : BufTy).Contents (Elt F) → (⟨S320000x512, .f32⟩ : BufTy).Contents (Elt F) → (⟨S20000x512, .f32⟩ : BufTy).Contents (Elt F)),
    nullary main_cst_1 (constant S_ .f32 0x3F800000#32),
    unary main_cst_1 main_v14 (broadcastInDim S320000x1 ![] bcast_S_S320000x1 : (⟨S_, .f32⟩ : BufTy).Contents (Elt F) → (⟨S320000x1, .f32⟩ : BufTy).Contents (Elt F)),
    nullary main_cst_2 (constant S_ .f32 0x00000000#32),
    unary main_cst_2 main_v15 (broadcastInDim S20000x1 ![] bcast_S_S20000x1 : (⟨S_, .f32⟩ : BufTy).Contents (Elt F) → (⟨S20000x1, .f32⟩ : BufTy).Contents (Elt F)),
    unary main_v3 main_v16 (broadcastInDim S320000x1 ![0] bcast_S320000_S320000x1_0 : (⟨S320000, .i32⟩ : BufTy).Contents (Elt F) → (⟨S320000x1, .i32⟩ : BufTy).Contents (Elt F)),
    ternary main_v15 main_v16 main_v14 main_v17 ((fun x i u => Host.scatterAdd scatter_S20000x1_S320000x1_S320000x1_1_0_0_1 x i u) : (⟨S20000x1, .f32⟩ : BufTy).Contents (Elt F) → (⟨S320000x1, .i32⟩ : BufTy).Contents (Elt F) → (⟨S320000x1, .f32⟩ : BufTy).Contents (Elt F) → (⟨S20000x1, .f32⟩ : BufTy).Contents (Elt F)),
    nullary main_cst_3 (constant S_ .f32 0x3F800000#32),
    unary main_cst_3 main_v18 (broadcastInDim S20000x1 ![] bcast_S_S20000x1 : (⟨S_, .f32⟩ : BufTy).Contents (Elt F) → (⟨S20000x1, .f32⟩ : BufTy).Contents (Elt F)),
    binary main_v17 main_v18 main_v19 (maximumf : (⟨S20000x1, .f32⟩ : BufTy).Contents (Elt F) → (⟨S20000x1, .f32⟩ : BufTy).Contents (Elt F) → (⟨S20000x1, .f32⟩ : BufTy).Contents (Elt F)),
    unary main_v19 main_v20 (broadcastInDim S20000x512 ![0, 1] bcast_S20000x1_S20000x512_0_1 : (⟨S20000x1, .f32⟩ : BufTy).Contents (Elt F) → (⟨S20000x512, .f32⟩ : BufTy).Contents (Elt F)),
    binary main_v13 main_v20 main_v21 (Host.divf : (⟨S20000x512, .f32⟩ : BufTy).Contents (Elt F) → (⟨S20000x512, .f32⟩ : BufTy).Contents (Elt F) → (⟨S20000x512, .f32⟩ : BufTy).Contents (Elt F)) ]

/-- Positions 28–74: the first layer (positions 36–37 build its zero residual). -/
def s2 : List (HloOp τ sig (Elt F)) :=
  [ unary main_arg2 main_v22 ((transpose S512x512 [1, 0] · transposes_S512x512_S512x512_1_0) : (⟨S512x512, .f32⟩ : BufTy).Contents (Elt F) → (⟨S512x512, .f32⟩ : BufTy).Contents (Elt F)),
    binary main_v21 main_v22 main_v23 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    unary main_arg3 main_v24 (broadcastInDim S1x512 ![1] bcast_S512_S1x512_1 : (⟨S512, .f32⟩ : BufTy).Contents (Elt F) → (⟨S1x512, .f32⟩ : BufTy).Contents (Elt F)),
    unary main_v24 main_v25 (broadcastInDim S20000x512 ![0, 1] bcast_S1x512_S20000x512_0_1 : (⟨S1x512, .f32⟩ : BufTy).Contents (Elt F) → (⟨S20000x512, .f32⟩ : BufTy).Contents (Elt F)),
    binary main_v23 main_v25 main_v26 (addf : (⟨S20000x512, .f32⟩ : BufTy).Contents (Elt F) → (⟨S20000x512, .f32⟩ : BufTy).Contents (Elt F) → (⟨S20000x512, .f32⟩ : BufTy).Contents (Elt F)),
    unary main_arg4 main_v27 ((transpose S512x512 [1, 0] · transposes_S512x512_S512x512_1_0) : (⟨S512x512, .f32⟩ : BufTy).Contents (Elt F) → (⟨S512x512, .f32⟩ : BufTy).Contents (Elt F)),
    binary main_arg0 main_v27 main_v28 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    binary main_v26 main_v28 main_v29 (addf : (⟨S20000x512, .f32⟩ : BufTy).Contents (Elt F) → (⟨S20000x512, .f32⟩ : BufTy).Contents (Elt F) → (⟨S20000x512, .f32⟩ : BufTy).Contents (Elt F)),
    nullary main_cst_4 (constant S_ .f32 0x00000000#32),
    unary main_cst_4 main_v30 (broadcastInDim S20000x512 ![] bcast_S_S20000x512 : (⟨S_, .f32⟩ : BufTy).Contents (Elt F) → (⟨S20000x512, .f32⟩ : BufTy).Contents (Elt F)),
    binary main_v30 main_v29 main_v31 (addf : (⟨S20000x512, .f32⟩ : BufTy).Contents (Elt F) → (⟨S20000x512, .f32⟩ : BufTy).Contents (Elt F) → (⟨S20000x512, .f32⟩ : BufTy).Contents (Elt F)),
    nullary main_cst_5 (constant S_ .f32 0x00000000#32),
    binary main_v31 main_cst_5 main_v32 ((fun x v => Host.reduceAdd x v reducesTo_S20000x512_S20000_d1 h_S_) : (⟨S20000x512, .f32⟩ : BufTy).Contents (Elt F) → (⟨S_, .f32⟩ : BufTy).Contents (Elt F) → (⟨S20000, .f32⟩ : BufTy).Contents (Elt F)),
    unary main_v32 main_v33 (broadcastInDim S20000x1 ![0] bcast_S20000_S20000x1_0 : (⟨S20000, .f32⟩ : BufTy).Contents (Elt F) → (⟨S20000x1, .f32⟩ : BufTy).Contents (Elt F)),
    nullary main_cst_6 (constant S_ .f32 0x44000000#32),
    unary main_cst_6 main_v34 (broadcastInDim S20000x1 ![] bcast_S_S20000x1 : (⟨S_, .f32⟩ : BufTy).Contents (Elt F) → (⟨S20000x1, .f32⟩ : BufTy).Contents (Elt F)),
    binary main_v33 main_v34 main_v35 (Host.divf : (⟨S20000x1, .f32⟩ : BufTy).Contents (Elt F) → (⟨S20000x1, .f32⟩ : BufTy).Contents (Elt F) → (⟨S20000x1, .f32⟩ : BufTy).Contents (Elt F)),
    unary main_v35 main_v36 (broadcastInDim S20000x512 ![0, 1] bcast_S20000x1_S20000x512_0_1 : (⟨S20000x1, .f32⟩ : BufTy).Contents (Elt F) → (⟨S20000x512, .f32⟩ : BufTy).Contents (Elt F)),
    binary main_v31 main_v36 main_v37 (subf : (⟨S20000x512, .f32⟩ : BufTy).Contents (Elt F) → (⟨S20000x512, .f32⟩ : BufTy).Contents (Elt F) → (⟨S20000x512, .f32⟩ : BufTy).Contents (Elt F)),
    binary main_v37 main_v37 main_v38 (mulf : (⟨S20000x512, .f32⟩ : BufTy).Contents (Elt F) → (⟨S20000x512, .f32⟩ : BufTy).Contents (Elt F) → (⟨S20000x512, .f32⟩ : BufTy).Contents (Elt F)),
    nullary main_cst_7 (constant S_ .f32 0x00000000#32),
    binary main_v38 main_cst_7 main_v39 ((fun x v => Host.reduceAdd x v reducesTo_S20000x512_S20000_d1 h_S_) : (⟨S20000x512, .f32⟩ : BufTy).Contents (Elt F) → (⟨S_, .f32⟩ : BufTy).Contents (Elt F) → (⟨S20000, .f32⟩ : BufTy).Contents (Elt F)),
    unary main_v39 main_v40 (broadcastInDim S20000x1 ![0] bcast_S20000_S20000x1_0 : (⟨S20000, .f32⟩ : BufTy).Contents (Elt F) → (⟨S20000x1, .f32⟩ : BufTy).Contents (Elt F)),
    nullary main_cst_8 (constant S_ .f32 0x44000000#32),
    unary main_cst_8 main_v41 (broadcastInDim S20000x1 ![] bcast_S_S20000x1 : (⟨S_, .f32⟩ : BufTy).Contents (Elt F) → (⟨S20000x1, .f32⟩ : BufTy).Contents (Elt F)),
    binary main_v40 main_v41 main_v42 (Host.divf : (⟨S20000x1, .f32⟩ : BufTy).Contents (Elt F) → (⟨S20000x1, .f32⟩ : BufTy).Contents (Elt F) → (⟨S20000x1, .f32⟩ : BufTy).Contents (Elt F)),
    unary main_v35 main_v43 (broadcastInDim S20000x512 ![0, 1] bcast_S20000x1_S20000x512_0_1 : (⟨S20000x1, .f32⟩ : BufTy).Contents (Elt F) → (⟨S20000x512, .f32⟩ : BufTy).Contents (Elt F)),
    binary main_v31 main_v43 main_v44 (subf : (⟨S20000x512, .f32⟩ : BufTy).Contents (Elt F) → (⟨S20000x512, .f32⟩ : BufTy).Contents (Elt F) → (⟨S20000x512, .f32⟩ : BufTy).Contents (Elt F)),
    nullary main_cst_9 (constant S_ .f32 0x3727C5AC#32),
    unary main_cst_9 main_v45 (broadcastInDim S20000x1 ![] bcast_S_S20000x1 : (⟨S_, .f32⟩ : BufTy).Contents (Elt F) → (⟨S20000x1, .f32⟩ : BufTy).Contents (Elt F)),
    binary main_v42 main_v45 main_v46 (addf : (⟨S20000x1, .f32⟩ : BufTy).Contents (Elt F) → (⟨S20000x1, .f32⟩ : BufTy).Contents (Elt F) → (⟨S20000x1, .f32⟩ : BufTy).Contents (Elt F)),
    unary main_v46 main_v47 (Host.rsqrt : (⟨S20000x1, .f32⟩ : BufTy).Contents (Elt F) → (⟨S20000x1, .f32⟩ : BufTy).Contents (Elt F)),
    unary main_v47 main_v48 (broadcastInDim S20000x512 ![0, 1] bcast_S20000x1_S20000x512_0_1 : (⟨S20000x1, .f32⟩ : BufTy).Contents (Elt F) → (⟨S20000x512, .f32⟩ : BufTy).Contents (Elt F)),
    binary main_v44 main_v48 main_v49 (mulf : (⟨S20000x512, .f32⟩ : BufTy).Contents (Elt F) → (⟨S20000x512, .f32⟩ : BufTy).Contents (Elt F) → (⟨S20000x512, .f32⟩ : BufTy).Contents (Elt F)),
    unary main_arg5 main_v50 (broadcastInDim S1x512 ![1] bcast_S512_S1x512_1 : (⟨S512, .f32⟩ : BufTy).Contents (Elt F) → (⟨S1x512, .f32⟩ : BufTy).Contents (Elt F)),
    unary main_v50 main_v51 (broadcastInDim S20000x512 ![0, 1] bcast_S1x512_S20000x512_0_1 : (⟨S1x512, .f32⟩ : BufTy).Contents (Elt F) → (⟨S20000x512, .f32⟩ : BufTy).Contents (Elt F)),
    binary main_v49 main_v51 main_v52 (mulf : (⟨S20000x512, .f32⟩ : BufTy).Contents (Elt F) → (⟨S20000x512, .f32⟩ : BufTy).Contents (Elt F) → (⟨S20000x512, .f32⟩ : BufTy).Contents (Elt F)),
    unary main_arg6 main_v53 (broadcastInDim S1x512 ![1] bcast_S512_S1x512_1 : (⟨S512, .f32⟩ : BufTy).Contents (Elt F) → (⟨S1x512, .f32⟩ : BufTy).Contents (Elt F)),
    unary main_v53 main_v54 (broadcastInDim S20000x512 ![0, 1] bcast_S1x512_S20000x512_0_1 : (⟨S1x512, .f32⟩ : BufTy).Contents (Elt F) → (⟨S20000x512, .f32⟩ : BufTy).Contents (Elt F)),
    binary main_v52 main_v54 main_v55 (addf : (⟨S20000x512, .f32⟩ : BufTy).Contents (Elt F) → (⟨S20000x512, .f32⟩ : BufTy).Contents (Elt F) → (⟨S20000x512, .f32⟩ : BufTy).Contents (Elt F)),
    nullary main_cst_10 (constant S_ .f32 0x00000000#32),
    unary main_cst_10 main_v56 (broadcastInDim S20000x512 ![] bcast_S_S20000x512 : (⟨S_, .f32⟩ : BufTy).Contents (Elt F) → (⟨S20000x512, .f32⟩ : BufTy).Contents (Elt F)),
    binary main_v55 main_v56 main_v57 (cmpf .oge : (⟨S20000x512, .f32⟩ : BufTy).Contents (Elt F) → (⟨S20000x512, .f32⟩ : BufTy).Contents (Elt F) → (⟨S20000x512, .i1⟩ : BufTy).Contents (Elt F)),
    unary main_arg17 main_v58 (broadcastInDim S1x1 ![1] bcast_S1_S1x1_1 : (⟨S1, .f32⟩ : BufTy).Contents (Elt F) → (⟨S1x1, .f32⟩ : BufTy).Contents (Elt F)),
    unary main_v58 main_v59 (broadcastInDim S20000x512 ![0, 1] bcast_S1x1_S20000x512_0_1 : (⟨S1x1, .f32⟩ : BufTy).Contents (Elt F) → (⟨S20000x512, .f32⟩ : BufTy).Contents (Elt F)),
    binary main_v59 main_v55 main_v60 (mulf : (⟨S20000x512, .f32⟩ : BufTy).Contents (Elt F) → (⟨S20000x512, .f32⟩ : BufTy).Contents (Elt F) → (⟨S20000x512, .f32⟩ : BufTy).Contents (Elt F)),
    TRef.ternary (TRef.of (T := ⟨S20000x512, .i1⟩) main_v57) (TRef.of (T := ⟨S20000x512, .f32⟩) main_v55) (TRef.of (T := ⟨S20000x512, .f32⟩) main_v60) (TRef.of (T := ⟨S20000x512, .f32⟩) main_v61) select ]

/-- Positions 75–98: the neighbour mean of the first layer's output. -/
def s3 : List (HloOp τ sig (Elt F)) :=
  [ nullary main_c_11 (constantI S_ 32 0#32),
    unary main_c_11 main_v62 (broadcastInDim S320000 ![] bcast_S_S320000 : (⟨S_, .i32⟩ : BufTy).Contents (Elt F) → (⟨S320000, .i32⟩ : BufTy).Contents (Elt F)),
    binary main_v1 main_v62 main_v63 (cmpi .slt : (⟨S320000, .i32⟩ : BufTy).Contents (Elt F) → (⟨S320000, .i32⟩ : BufTy).Contents (Elt F) → (⟨S320000, .i1⟩ : BufTy).Contents (Elt F)),
    nullary main_c_12 (constantI S_ 32 20000#32),
    unary main_c_12 main_v64 (broadcastInDim S320000 ![] bcast_S_S320000 : (⟨S_, .i32⟩ : BufTy).Contents (Elt F) → (⟨S320000, .i32⟩ : BufTy).Contents (Elt F)),
    binary main_v1 main_v64 main_v65 (addi : (⟨S320000, .i32⟩ : BufTy).Contents (Elt F) → (⟨S320000, .i32⟩ : BufTy).Contents (Elt F) → (⟨S320000, .i32⟩ : BufTy).Contents (Elt F)),
    ternary main_v63 main_v65 main_v1 main_v66 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v66 main_v67 (broadcastInDim S320000x1 ![0] bcast_S320000_S320000x1_0 : (⟨S320000, .i32⟩ : BufTy).Contents (Elt F) → (⟨S320000x1, .i32⟩ : BufTy).Contents (Elt F)),
    binary main_v61 main_v67 main_v68 ((fun x i => Host.gather gather_S20000x512_S320000x1_S320000x512_1_0_n_n_0_1_1512 x i) : (⟨S20000x512, .f32⟩ : BufTy).Contents (Elt F) → (⟨S320000x1, .i32⟩ : BufTy).Contents (Elt F) → (⟨S320000x512, .f32⟩ : BufTy).Contents (Elt F)),
    nullary main_cst_13 (constant S_ .f32 0x00000000#32),
    unary main_cst_13 main_v69 (broadcastInDim S20000x512 ![] bcast_S_S20000x512 : (⟨S_, .f32⟩ : BufTy).Contents (Elt F) → (⟨S20000x512, .f32⟩ : BufTy).Contents (Elt F)),
    unary main_v3 main_v70 (broadcastInDim S320000x1 ![0] bcast_S320000_S320000x1_0 : (⟨S320000, .i32⟩ : BufTy).Contents (Elt F) → (⟨S320000x1, .i32⟩ : BufTy).Contents (Elt F)),
    ternary main_v69 main_v70 main_v68 main_v71 ((fun x i u => Host.scatterAdd scatter_S20000x512_S320000x1_S320000x512_1_0_0_1 x i u) : (⟨S20000x512, .f32⟩ : BufTy).Contents (Elt F) → (⟨S320000x1, .i32⟩ : BufTy).Contents (Elt F) → (⟨S320000x512, .f32⟩ : BufTy).Contents (Elt F) → (⟨S20000x512, .f32⟩ : BufTy).Contents (Elt F)),
    nullary main_cst_14 (constant S_ .f32 0x3F800000#32),
    unary main_cst_14 main_v72 (broadcastInDim S320000x1 ![] bcast_S_S320000x1 : (⟨S_, .f32⟩ : BufTy).Contents (Elt F) → (⟨S320000x1, .f32⟩ : BufTy).Contents (Elt F)),
    nullary main_cst_15 (constant S_ .f32 0x00000000#32),
    unary main_cst_15 main_v73 (broadcastInDim S20000x1 ![] bcast_S_S20000x1 : (⟨S_, .f32⟩ : BufTy).Contents (Elt F) → (⟨S20000x1, .f32⟩ : BufTy).Contents (Elt F)),
    unary main_v3 main_v74 (broadcastInDim S320000x1 ![0] bcast_S320000_S320000x1_0 : (⟨S320000, .i32⟩ : BufTy).Contents (Elt F) → (⟨S320000x1, .i32⟩ : BufTy).Contents (Elt F)),
    ternary main_v73 main_v74 main_v72 main_v75 ((fun x i u => Host.scatterAdd scatter_S20000x1_S320000x1_S320000x1_1_0_0_1 x i u) : (⟨S20000x1, .f32⟩ : BufTy).Contents (Elt F) → (⟨S320000x1, .i32⟩ : BufTy).Contents (Elt F) → (⟨S320000x1, .f32⟩ : BufTy).Contents (Elt F) → (⟨S20000x1, .f32⟩ : BufTy).Contents (Elt F)),
    nullary main_cst_16 (constant S_ .f32 0x3F800000#32),
    unary main_cst_16 main_v76 (broadcastInDim S20000x1 ![] bcast_S_S20000x1 : (⟨S_, .f32⟩ : BufTy).Contents (Elt F) → (⟨S20000x1, .f32⟩ : BufTy).Contents (Elt F)),
    binary main_v75 main_v76 main_v77 (maximumf : (⟨S20000x1, .f32⟩ : BufTy).Contents (Elt F) → (⟨S20000x1, .f32⟩ : BufTy).Contents (Elt F) → (⟨S20000x1, .f32⟩ : BufTy).Contents (Elt F)),
    unary main_v77 main_v78 (broadcastInDim S20000x512 ![0, 1] bcast_S20000x1_S20000x512_0_1 : (⟨S20000x1, .f32⟩ : BufTy).Contents (Elt F) → (⟨S20000x512, .f32⟩ : BufTy).Contents (Elt F)),
    binary main_v71 main_v78 main_v79 (Host.divf : (⟨S20000x512, .f32⟩ : BufTy).Contents (Elt F) → (⟨S20000x512, .f32⟩ : BufTy).Contents (Elt F) → (⟨S20000x512, .f32⟩ : BufTy).Contents (Elt F)) ]

/-- Positions 99–143: the second layer. -/
def s4 : List (HloOp τ sig (Elt F)) :=
  [ unary main_arg7 main_v80 ((transpose S512x512 [1, 0] · transposes_S512x512_S512x512_1_0) : (⟨S512x512, .f32⟩ : BufTy).Contents (Elt F) → (⟨S512x512, .f32⟩ : BufTy).Contents (Elt F)),
    binary main_v79 main_v80 main_v81 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    unary main_arg8 main_v82 (broadcastInDim S1x512 ![1] bcast_S512_S1x512_1 : (⟨S512, .f32⟩ : BufTy).Contents (Elt F) → (⟨S1x512, .f32⟩ : BufTy).Contents (Elt F)),
    unary main_v82 main_v83 (broadcastInDim S20000x512 ![0, 1] bcast_S1x512_S20000x512_0_1 : (⟨S1x512, .f32⟩ : BufTy).Contents (Elt F) → (⟨S20000x512, .f32⟩ : BufTy).Contents (Elt F)),
    binary main_v81 main_v83 main_v84 (addf : (⟨S20000x512, .f32⟩ : BufTy).Contents (Elt F) → (⟨S20000x512, .f32⟩ : BufTy).Contents (Elt F) → (⟨S20000x512, .f32⟩ : BufTy).Contents (Elt F)),
    unary main_arg9 main_v85 ((transpose S512x512 [1, 0] · transposes_S512x512_S512x512_1_0) : (⟨S512x512, .f32⟩ : BufTy).Contents (Elt F) → (⟨S512x512, .f32⟩ : BufTy).Contents (Elt F)),
    binary main_v61 main_v85 main_v86 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    binary main_v84 main_v86 main_v87 (addf : (⟨S20000x512, .f32⟩ : BufTy).Contents (Elt F) → (⟨S20000x512, .f32⟩ : BufTy).Contents (Elt F) → (⟨S20000x512, .f32⟩ : BufTy).Contents (Elt F)),
    binary main_v61 main_v87 main_v88 (addf : (⟨S20000x512, .f32⟩ : BufTy).Contents (Elt F) → (⟨S20000x512, .f32⟩ : BufTy).Contents (Elt F) → (⟨S20000x512, .f32⟩ : BufTy).Contents (Elt F)),
    nullary main_cst_17 (constant S_ .f32 0x00000000#32),
    binary main_v88 main_cst_17 main_v89 ((fun x v => Host.reduceAdd x v reducesTo_S20000x512_S20000_d1 h_S_) : (⟨S20000x512, .f32⟩ : BufTy).Contents (Elt F) → (⟨S_, .f32⟩ : BufTy).Contents (Elt F) → (⟨S20000, .f32⟩ : BufTy).Contents (Elt F)),
    unary main_v89 main_v90 (broadcastInDim S20000x1 ![0] bcast_S20000_S20000x1_0 : (⟨S20000, .f32⟩ : BufTy).Contents (Elt F) → (⟨S20000x1, .f32⟩ : BufTy).Contents (Elt F)),
    nullary main_cst_18 (constant S_ .f32 0x44000000#32),
    unary main_cst_18 main_v91 (broadcastInDim S20000x1 ![] bcast_S_S20000x1 : (⟨S_, .f32⟩ : BufTy).Contents (Elt F) → (⟨S20000x1, .f32⟩ : BufTy).Contents (Elt F)),
    binary main_v90 main_v91 main_v92 (Host.divf : (⟨S20000x1, .f32⟩ : BufTy).Contents (Elt F) → (⟨S20000x1, .f32⟩ : BufTy).Contents (Elt F) → (⟨S20000x1, .f32⟩ : BufTy).Contents (Elt F)),
    unary main_v92 main_v93 (broadcastInDim S20000x512 ![0, 1] bcast_S20000x1_S20000x512_0_1 : (⟨S20000x1, .f32⟩ : BufTy).Contents (Elt F) → (⟨S20000x512, .f32⟩ : BufTy).Contents (Elt F)),
    binary main_v88 main_v93 main_v94 (subf : (⟨S20000x512, .f32⟩ : BufTy).Contents (Elt F) → (⟨S20000x512, .f32⟩ : BufTy).Contents (Elt F) → (⟨S20000x512, .f32⟩ : BufTy).Contents (Elt F)),
    binary main_v94 main_v94 main_v95 (mulf : (⟨S20000x512, .f32⟩ : BufTy).Contents (Elt F) → (⟨S20000x512, .f32⟩ : BufTy).Contents (Elt F) → (⟨S20000x512, .f32⟩ : BufTy).Contents (Elt F)),
    nullary main_cst_19 (constant S_ .f32 0x00000000#32),
    binary main_v95 main_cst_19 main_v96 ((fun x v => Host.reduceAdd x v reducesTo_S20000x512_S20000_d1 h_S_) : (⟨S20000x512, .f32⟩ : BufTy).Contents (Elt F) → (⟨S_, .f32⟩ : BufTy).Contents (Elt F) → (⟨S20000, .f32⟩ : BufTy).Contents (Elt F)),
    unary main_v96 main_v97 (broadcastInDim S20000x1 ![0] bcast_S20000_S20000x1_0 : (⟨S20000, .f32⟩ : BufTy).Contents (Elt F) → (⟨S20000x1, .f32⟩ : BufTy).Contents (Elt F)),
    nullary main_cst_20 (constant S_ .f32 0x44000000#32),
    unary main_cst_20 main_v98 (broadcastInDim S20000x1 ![] bcast_S_S20000x1 : (⟨S_, .f32⟩ : BufTy).Contents (Elt F) → (⟨S20000x1, .f32⟩ : BufTy).Contents (Elt F)),
    binary main_v97 main_v98 main_v99 (Host.divf : (⟨S20000x1, .f32⟩ : BufTy).Contents (Elt F) → (⟨S20000x1, .f32⟩ : BufTy).Contents (Elt F) → (⟨S20000x1, .f32⟩ : BufTy).Contents (Elt F)),
    unary main_v92 main_v100 (broadcastInDim S20000x512 ![0, 1] bcast_S20000x1_S20000x512_0_1 : (⟨S20000x1, .f32⟩ : BufTy).Contents (Elt F) → (⟨S20000x512, .f32⟩ : BufTy).Contents (Elt F)),
    binary main_v88 main_v100 main_v101 (subf : (⟨S20000x512, .f32⟩ : BufTy).Contents (Elt F) → (⟨S20000x512, .f32⟩ : BufTy).Contents (Elt F) → (⟨S20000x512, .f32⟩ : BufTy).Contents (Elt F)),
    nullary main_cst_21 (constant S_ .f32 0x3727C5AC#32),
    unary main_cst_21 main_v102 (broadcastInDim S20000x1 ![] bcast_S_S20000x1 : (⟨S_, .f32⟩ : BufTy).Contents (Elt F) → (⟨S20000x1, .f32⟩ : BufTy).Contents (Elt F)),
    binary main_v99 main_v102 main_v103 (addf : (⟨S20000x1, .f32⟩ : BufTy).Contents (Elt F) → (⟨S20000x1, .f32⟩ : BufTy).Contents (Elt F) → (⟨S20000x1, .f32⟩ : BufTy).Contents (Elt F)),
    unary main_v103 main_v104 (Host.rsqrt : (⟨S20000x1, .f32⟩ : BufTy).Contents (Elt F) → (⟨S20000x1, .f32⟩ : BufTy).Contents (Elt F)),
    unary main_v104 main_v105 (broadcastInDim S20000x512 ![0, 1] bcast_S20000x1_S20000x512_0_1 : (⟨S20000x1, .f32⟩ : BufTy).Contents (Elt F) → (⟨S20000x512, .f32⟩ : BufTy).Contents (Elt F)),
    binary main_v101 main_v105 main_v106 (mulf : (⟨S20000x512, .f32⟩ : BufTy).Contents (Elt F) → (⟨S20000x512, .f32⟩ : BufTy).Contents (Elt F) → (⟨S20000x512, .f32⟩ : BufTy).Contents (Elt F)),
    unary main_arg10 main_v107 (broadcastInDim S1x512 ![1] bcast_S512_S1x512_1 : (⟨S512, .f32⟩ : BufTy).Contents (Elt F) → (⟨S1x512, .f32⟩ : BufTy).Contents (Elt F)),
    unary main_v107 main_v108 (broadcastInDim S20000x512 ![0, 1] bcast_S1x512_S20000x512_0_1 : (⟨S1x512, .f32⟩ : BufTy).Contents (Elt F) → (⟨S20000x512, .f32⟩ : BufTy).Contents (Elt F)),
    binary main_v106 main_v108 main_v109 (mulf : (⟨S20000x512, .f32⟩ : BufTy).Contents (Elt F) → (⟨S20000x512, .f32⟩ : BufTy).Contents (Elt F) → (⟨S20000x512, .f32⟩ : BufTy).Contents (Elt F)),
    unary main_arg11 main_v110 (broadcastInDim S1x512 ![1] bcast_S512_S1x512_1 : (⟨S512, .f32⟩ : BufTy).Contents (Elt F) → (⟨S1x512, .f32⟩ : BufTy).Contents (Elt F)),
    unary main_v110 main_v111 (broadcastInDim S20000x512 ![0, 1] bcast_S1x512_S20000x512_0_1 : (⟨S1x512, .f32⟩ : BufTy).Contents (Elt F) → (⟨S20000x512, .f32⟩ : BufTy).Contents (Elt F)),
    binary main_v109 main_v111 main_v112 (addf : (⟨S20000x512, .f32⟩ : BufTy).Contents (Elt F) → (⟨S20000x512, .f32⟩ : BufTy).Contents (Elt F) → (⟨S20000x512, .f32⟩ : BufTy).Contents (Elt F)),
    nullary main_cst_22 (constant S_ .f32 0x00000000#32),
    unary main_cst_22 main_v113 (broadcastInDim S20000x512 ![] bcast_S_S20000x512 : (⟨S_, .f32⟩ : BufTy).Contents (Elt F) → (⟨S20000x512, .f32⟩ : BufTy).Contents (Elt F)),
    binary main_v112 main_v113 main_v114 (cmpf .oge : (⟨S20000x512, .f32⟩ : BufTy).Contents (Elt F) → (⟨S20000x512, .f32⟩ : BufTy).Contents (Elt F) → (⟨S20000x512, .i1⟩ : BufTy).Contents (Elt F)),
    unary main_arg17 main_v115 (broadcastInDim S1x1 ![1] bcast_S1_S1x1_1 : (⟨S1, .f32⟩ : BufTy).Contents (Elt F) → (⟨S1x1, .f32⟩ : BufTy).Contents (Elt F)),
    unary main_v115 main_v116 (broadcastInDim S20000x512 ![0, 1] bcast_S1x1_S20000x512_0_1 : (⟨S1x1, .f32⟩ : BufTy).Contents (Elt F) → (⟨S20000x512, .f32⟩ : BufTy).Contents (Elt F)),
    binary main_v116 main_v112 main_v117 (mulf : (⟨S20000x512, .f32⟩ : BufTy).Contents (Elt F) → (⟨S20000x512, .f32⟩ : BufTy).Contents (Elt F) → (⟨S20000x512, .f32⟩ : BufTy).Contents (Elt F)),
    TRef.ternary (TRef.of (T := ⟨S20000x512, .i1⟩) main_v114) (TRef.of (T := ⟨S20000x512, .f32⟩) main_v112) (TRef.of (T := ⟨S20000x512, .f32⟩) main_v117) (TRef.of (T := ⟨S20000x512, .f32⟩) main_v118) select ]

/-- Positions 144–167: the neighbour mean of the second layer's output. -/
def s5 : List (HloOp τ sig (Elt F)) :=
  [ nullary main_c_23 (constantI S_ 32 0#32),
    unary main_c_23 main_v119 (broadcastInDim S320000 ![] bcast_S_S320000 : (⟨S_, .i32⟩ : BufTy).Contents (Elt F) → (⟨S320000, .i32⟩ : BufTy).Contents (Elt F)),
    binary main_v1 main_v119 main_v120 (cmpi .slt : (⟨S320000, .i32⟩ : BufTy).Contents (Elt F) → (⟨S320000, .i32⟩ : BufTy).Contents (Elt F) → (⟨S320000, .i1⟩ : BufTy).Contents (Elt F)),
    nullary main_c_24 (constantI S_ 32 20000#32),
    unary main_c_24 main_v121 (broadcastInDim S320000 ![] bcast_S_S320000 : (⟨S_, .i32⟩ : BufTy).Contents (Elt F) → (⟨S320000, .i32⟩ : BufTy).Contents (Elt F)),
    binary main_v1 main_v121 main_v122 (addi : (⟨S320000, .i32⟩ : BufTy).Contents (Elt F) → (⟨S320000, .i32⟩ : BufTy).Contents (Elt F) → (⟨S320000, .i32⟩ : BufTy).Contents (Elt F)),
    ternary main_v120 main_v122 main_v1 main_v123 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v123 main_v124 (broadcastInDim S320000x1 ![0] bcast_S320000_S320000x1_0 : (⟨S320000, .i32⟩ : BufTy).Contents (Elt F) → (⟨S320000x1, .i32⟩ : BufTy).Contents (Elt F)),
    binary main_v118 main_v124 main_v125 ((fun x i => Host.gather gather_S20000x512_S320000x1_S320000x512_1_0_n_n_0_1_1512 x i) : (⟨S20000x512, .f32⟩ : BufTy).Contents (Elt F) → (⟨S320000x1, .i32⟩ : BufTy).Contents (Elt F) → (⟨S320000x512, .f32⟩ : BufTy).Contents (Elt F)),
    nullary main_cst_25 (constant S_ .f32 0x00000000#32),
    unary main_cst_25 main_v126 (broadcastInDim S20000x512 ![] bcast_S_S20000x512 : (⟨S_, .f32⟩ : BufTy).Contents (Elt F) → (⟨S20000x512, .f32⟩ : BufTy).Contents (Elt F)),
    unary main_v3 main_v127 (broadcastInDim S320000x1 ![0] bcast_S320000_S320000x1_0 : (⟨S320000, .i32⟩ : BufTy).Contents (Elt F) → (⟨S320000x1, .i32⟩ : BufTy).Contents (Elt F)),
    ternary main_v126 main_v127 main_v125 main_v128 ((fun x i u => Host.scatterAdd scatter_S20000x512_S320000x1_S320000x512_1_0_0_1 x i u) : (⟨S20000x512, .f32⟩ : BufTy).Contents (Elt F) → (⟨S320000x1, .i32⟩ : BufTy).Contents (Elt F) → (⟨S320000x512, .f32⟩ : BufTy).Contents (Elt F) → (⟨S20000x512, .f32⟩ : BufTy).Contents (Elt F)),
    nullary main_cst_26 (constant S_ .f32 0x3F800000#32),
    unary main_cst_26 main_v129 (broadcastInDim S320000x1 ![] bcast_S_S320000x1 : (⟨S_, .f32⟩ : BufTy).Contents (Elt F) → (⟨S320000x1, .f32⟩ : BufTy).Contents (Elt F)),
    nullary main_cst_27 (constant S_ .f32 0x00000000#32),
    unary main_cst_27 main_v130 (broadcastInDim S20000x1 ![] bcast_S_S20000x1 : (⟨S_, .f32⟩ : BufTy).Contents (Elt F) → (⟨S20000x1, .f32⟩ : BufTy).Contents (Elt F)),
    unary main_v3 main_v131 (broadcastInDim S320000x1 ![0] bcast_S320000_S320000x1_0 : (⟨S320000, .i32⟩ : BufTy).Contents (Elt F) → (⟨S320000x1, .i32⟩ : BufTy).Contents (Elt F)),
    ternary main_v130 main_v131 main_v129 main_v132 ((fun x i u => Host.scatterAdd scatter_S20000x1_S320000x1_S320000x1_1_0_0_1 x i u) : (⟨S20000x1, .f32⟩ : BufTy).Contents (Elt F) → (⟨S320000x1, .i32⟩ : BufTy).Contents (Elt F) → (⟨S320000x1, .f32⟩ : BufTy).Contents (Elt F) → (⟨S20000x1, .f32⟩ : BufTy).Contents (Elt F)),
    nullary main_cst_28 (constant S_ .f32 0x3F800000#32),
    unary main_cst_28 main_v133 (broadcastInDim S20000x1 ![] bcast_S_S20000x1 : (⟨S_, .f32⟩ : BufTy).Contents (Elt F) → (⟨S20000x1, .f32⟩ : BufTy).Contents (Elt F)),
    binary main_v132 main_v133 main_v134 (maximumf : (⟨S20000x1, .f32⟩ : BufTy).Contents (Elt F) → (⟨S20000x1, .f32⟩ : BufTy).Contents (Elt F) → (⟨S20000x1, .f32⟩ : BufTy).Contents (Elt F)),
    unary main_v134 main_v135 (broadcastInDim S20000x512 ![0, 1] bcast_S20000x1_S20000x512_0_1 : (⟨S20000x1, .f32⟩ : BufTy).Contents (Elt F) → (⟨S20000x512, .f32⟩ : BufTy).Contents (Elt F)),
    binary main_v128 main_v135 main_v136 (Host.divf : (⟨S20000x512, .f32⟩ : BufTy).Contents (Elt F) → (⟨S20000x512, .f32⟩ : BufTy).Contents (Elt F) → (⟨S20000x512, .f32⟩ : BufTy).Contents (Elt F)) ]

/-- Positions 168–212: the third layer. -/
def s6 : List (HloOp τ sig (Elt F)) :=
  [ unary main_arg12 main_v137 ((transpose S512x512 [1, 0] · transposes_S512x512_S512x512_1_0) : (⟨S512x512, .f32⟩ : BufTy).Contents (Elt F) → (⟨S512x512, .f32⟩ : BufTy).Contents (Elt F)),
    binary main_v136 main_v137 main_v138 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    unary main_arg13 main_v139 (broadcastInDim S1x512 ![1] bcast_S512_S1x512_1 : (⟨S512, .f32⟩ : BufTy).Contents (Elt F) → (⟨S1x512, .f32⟩ : BufTy).Contents (Elt F)),
    unary main_v139 main_v140 (broadcastInDim S20000x512 ![0, 1] bcast_S1x512_S20000x512_0_1 : (⟨S1x512, .f32⟩ : BufTy).Contents (Elt F) → (⟨S20000x512, .f32⟩ : BufTy).Contents (Elt F)),
    binary main_v138 main_v140 main_v141 (addf : (⟨S20000x512, .f32⟩ : BufTy).Contents (Elt F) → (⟨S20000x512, .f32⟩ : BufTy).Contents (Elt F) → (⟨S20000x512, .f32⟩ : BufTy).Contents (Elt F)),
    unary main_arg14 main_v142 ((transpose S512x512 [1, 0] · transposes_S512x512_S512x512_1_0) : (⟨S512x512, .f32⟩ : BufTy).Contents (Elt F) → (⟨S512x512, .f32⟩ : BufTy).Contents (Elt F)),
    binary main_v118 main_v142 main_v143 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    binary main_v141 main_v143 main_v144 (addf : (⟨S20000x512, .f32⟩ : BufTy).Contents (Elt F) → (⟨S20000x512, .f32⟩ : BufTy).Contents (Elt F) → (⟨S20000x512, .f32⟩ : BufTy).Contents (Elt F)),
    binary main_v118 main_v144 main_v145 (addf : (⟨S20000x512, .f32⟩ : BufTy).Contents (Elt F) → (⟨S20000x512, .f32⟩ : BufTy).Contents (Elt F) → (⟨S20000x512, .f32⟩ : BufTy).Contents (Elt F)),
    nullary main_cst_29 (constant S_ .f32 0x00000000#32),
    binary main_v145 main_cst_29 main_v146 ((fun x v => Host.reduceAdd x v reducesTo_S20000x512_S20000_d1 h_S_) : (⟨S20000x512, .f32⟩ : BufTy).Contents (Elt F) → (⟨S_, .f32⟩ : BufTy).Contents (Elt F) → (⟨S20000, .f32⟩ : BufTy).Contents (Elt F)),
    unary main_v146 main_v147 (broadcastInDim S20000x1 ![0] bcast_S20000_S20000x1_0 : (⟨S20000, .f32⟩ : BufTy).Contents (Elt F) → (⟨S20000x1, .f32⟩ : BufTy).Contents (Elt F)),
    nullary main_cst_30 (constant S_ .f32 0x44000000#32),
    unary main_cst_30 main_v148 (broadcastInDim S20000x1 ![] bcast_S_S20000x1 : (⟨S_, .f32⟩ : BufTy).Contents (Elt F) → (⟨S20000x1, .f32⟩ : BufTy).Contents (Elt F)),
    binary main_v147 main_v148 main_v149 (Host.divf : (⟨S20000x1, .f32⟩ : BufTy).Contents (Elt F) → (⟨S20000x1, .f32⟩ : BufTy).Contents (Elt F) → (⟨S20000x1, .f32⟩ : BufTy).Contents (Elt F)),
    unary main_v149 main_v150 (broadcastInDim S20000x512 ![0, 1] bcast_S20000x1_S20000x512_0_1 : (⟨S20000x1, .f32⟩ : BufTy).Contents (Elt F) → (⟨S20000x512, .f32⟩ : BufTy).Contents (Elt F)),
    binary main_v145 main_v150 main_v151 (subf : (⟨S20000x512, .f32⟩ : BufTy).Contents (Elt F) → (⟨S20000x512, .f32⟩ : BufTy).Contents (Elt F) → (⟨S20000x512, .f32⟩ : BufTy).Contents (Elt F)),
    binary main_v151 main_v151 main_v152 (mulf : (⟨S20000x512, .f32⟩ : BufTy).Contents (Elt F) → (⟨S20000x512, .f32⟩ : BufTy).Contents (Elt F) → (⟨S20000x512, .f32⟩ : BufTy).Contents (Elt F)),
    nullary main_cst_31 (constant S_ .f32 0x00000000#32),
    binary main_v152 main_cst_31 main_v153 ((fun x v => Host.reduceAdd x v reducesTo_S20000x512_S20000_d1 h_S_) : (⟨S20000x512, .f32⟩ : BufTy).Contents (Elt F) → (⟨S_, .f32⟩ : BufTy).Contents (Elt F) → (⟨S20000, .f32⟩ : BufTy).Contents (Elt F)),
    unary main_v153 main_v154 (broadcastInDim S20000x1 ![0] bcast_S20000_S20000x1_0 : (⟨S20000, .f32⟩ : BufTy).Contents (Elt F) → (⟨S20000x1, .f32⟩ : BufTy).Contents (Elt F)),
    nullary main_cst_32 (constant S_ .f32 0x44000000#32),
    unary main_cst_32 main_v155 (broadcastInDim S20000x1 ![] bcast_S_S20000x1 : (⟨S_, .f32⟩ : BufTy).Contents (Elt F) → (⟨S20000x1, .f32⟩ : BufTy).Contents (Elt F)),
    binary main_v154 main_v155 main_v156 (Host.divf : (⟨S20000x1, .f32⟩ : BufTy).Contents (Elt F) → (⟨S20000x1, .f32⟩ : BufTy).Contents (Elt F) → (⟨S20000x1, .f32⟩ : BufTy).Contents (Elt F)),
    unary main_v149 main_v157 (broadcastInDim S20000x512 ![0, 1] bcast_S20000x1_S20000x512_0_1 : (⟨S20000x1, .f32⟩ : BufTy).Contents (Elt F) → (⟨S20000x512, .f32⟩ : BufTy).Contents (Elt F)),
    binary main_v145 main_v157 main_v158 (subf : (⟨S20000x512, .f32⟩ : BufTy).Contents (Elt F) → (⟨S20000x512, .f32⟩ : BufTy).Contents (Elt F) → (⟨S20000x512, .f32⟩ : BufTy).Contents (Elt F)),
    nullary main_cst_33 (constant S_ .f32 0x3727C5AC#32),
    unary main_cst_33 main_v159 (broadcastInDim S20000x1 ![] bcast_S_S20000x1 : (⟨S_, .f32⟩ : BufTy).Contents (Elt F) → (⟨S20000x1, .f32⟩ : BufTy).Contents (Elt F)),
    binary main_v156 main_v159 main_v160 (addf : (⟨S20000x1, .f32⟩ : BufTy).Contents (Elt F) → (⟨S20000x1, .f32⟩ : BufTy).Contents (Elt F) → (⟨S20000x1, .f32⟩ : BufTy).Contents (Elt F)),
    unary main_v160 main_v161 (Host.rsqrt : (⟨S20000x1, .f32⟩ : BufTy).Contents (Elt F) → (⟨S20000x1, .f32⟩ : BufTy).Contents (Elt F)),
    unary main_v161 main_v162 (broadcastInDim S20000x512 ![0, 1] bcast_S20000x1_S20000x512_0_1 : (⟨S20000x1, .f32⟩ : BufTy).Contents (Elt F) → (⟨S20000x512, .f32⟩ : BufTy).Contents (Elt F)),
    binary main_v158 main_v162 main_v163 (mulf : (⟨S20000x512, .f32⟩ : BufTy).Contents (Elt F) → (⟨S20000x512, .f32⟩ : BufTy).Contents (Elt F) → (⟨S20000x512, .f32⟩ : BufTy).Contents (Elt F)),
    unary main_arg15 main_v164 (broadcastInDim S1x512 ![1] bcast_S512_S1x512_1 : (⟨S512, .f32⟩ : BufTy).Contents (Elt F) → (⟨S1x512, .f32⟩ : BufTy).Contents (Elt F)),
    unary main_v164 main_v165 (broadcastInDim S20000x512 ![0, 1] bcast_S1x512_S20000x512_0_1 : (⟨S1x512, .f32⟩ : BufTy).Contents (Elt F) → (⟨S20000x512, .f32⟩ : BufTy).Contents (Elt F)),
    binary main_v163 main_v165 main_v166 (mulf : (⟨S20000x512, .f32⟩ : BufTy).Contents (Elt F) → (⟨S20000x512, .f32⟩ : BufTy).Contents (Elt F) → (⟨S20000x512, .f32⟩ : BufTy).Contents (Elt F)),
    unary main_arg16 main_v167 (broadcastInDim S1x512 ![1] bcast_S512_S1x512_1 : (⟨S512, .f32⟩ : BufTy).Contents (Elt F) → (⟨S1x512, .f32⟩ : BufTy).Contents (Elt F)),
    unary main_v167 main_v168 (broadcastInDim S20000x512 ![0, 1] bcast_S1x512_S20000x512_0_1 : (⟨S1x512, .f32⟩ : BufTy).Contents (Elt F) → (⟨S20000x512, .f32⟩ : BufTy).Contents (Elt F)),
    binary main_v166 main_v168 main_v169 (addf : (⟨S20000x512, .f32⟩ : BufTy).Contents (Elt F) → (⟨S20000x512, .f32⟩ : BufTy).Contents (Elt F) → (⟨S20000x512, .f32⟩ : BufTy).Contents (Elt F)),
    nullary main_cst_34 (constant S_ .f32 0x00000000#32),
    unary main_cst_34 main_v170 (broadcastInDim S20000x512 ![] bcast_S_S20000x512 : (⟨S_, .f32⟩ : BufTy).Contents (Elt F) → (⟨S20000x512, .f32⟩ : BufTy).Contents (Elt F)),
    binary main_v169 main_v170 main_v171 (cmpf .oge : (⟨S20000x512, .f32⟩ : BufTy).Contents (Elt F) → (⟨S20000x512, .f32⟩ : BufTy).Contents (Elt F) → (⟨S20000x512, .i1⟩ : BufTy).Contents (Elt F)),
    unary main_arg17 main_v172 (broadcastInDim S1x1 ![1] bcast_S1_S1x1_1 : (⟨S1, .f32⟩ : BufTy).Contents (Elt F) → (⟨S1x1, .f32⟩ : BufTy).Contents (Elt F)),
    unary main_v172 main_v173 (broadcastInDim S20000x512 ![0, 1] bcast_S1x1_S20000x512_0_1 : (⟨S1x1, .f32⟩ : BufTy).Contents (Elt F) → (⟨S20000x512, .f32⟩ : BufTy).Contents (Elt F)),
    binary main_v173 main_v169 main_v174 (mulf : (⟨S20000x512, .f32⟩ : BufTy).Contents (Elt F) → (⟨S20000x512, .f32⟩ : BufTy).Contents (Elt F) → (⟨S20000x512, .f32⟩ : BufTy).Contents (Elt F)),
    TRef.ternary (TRef.of (T := ⟨S20000x512, .i1⟩) main_v171) (TRef.of (T := ⟨S20000x512, .f32⟩) main_v169) (TRef.of (T := ⟨S20000x512, .f32⟩) main_v174) (TRef.of (T := ⟨S20000x512, .f32⟩) main_v175) select ]

/-- The whole line: the seven stretches in order. -/
def ops : List (HloOp τ sig (Elt F)) := s0 ++ (s1 ++ (s2 ++ (s3 ++ (s4 ++ (s5 ++ s6)))))

set_option maxRecDepth 8192 in
set_option maxHeartbeats 4000000 in
/-- The reference's @main is the line run in order. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

end Cert.RefRun

end
-- ==== Proof.RefRunFrames.lean ====
/-
  What the stretches touch and write: every operation of the line touches device buffers only and determines its
  results; each stretch writes exactly the buffers listed for it, so any other buffer holds after the stretch what it
  held before.
-/
import proofs.«171848_j82592221102604_1_alg».proof.Proof.RefRunOps

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## Device buffers only, and results determined -/

theorem s0_sub : (s0 : List (HloOp τ sig (Elt F))).Forall fun op => op.bufs ⊆ tcRefs τ sig :=
  ⟨unary_bufs_sub .., reshape_bufs_sub .., unary_bufs_sub .., reshape_bufs_sub ..⟩
theorem s1_sub : (s1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub ..⟩
theorem s2_sub : (s2 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., binary_bufs_sub .., nullary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., ternary_bufs_sub ..⟩
theorem s3_sub : (s3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub ..⟩
theorem s4_sub : (s4 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., ternary_bufs_sub ..⟩
theorem s5_sub : (s5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub ..⟩
theorem s6_sub : (s6 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., ternary_bufs_sub ..⟩

theorem ops_sub : (ops : List (HloOp τ sig (Elt F))).Forall fun op => op.bufs ⊆ tcRefs τ sig :=
  List.forall_append.mpr ⟨s0_sub, List.forall_append.mpr ⟨s1_sub, List.forall_append.mpr ⟨s2_sub,
    List.forall_append.mpr ⟨s3_sub, List.forall_append.mpr ⟨s4_sub, List.forall_append.mpr ⟨s5_sub, s6_sub⟩⟩⟩⟩⟩⟩

theorem s0_fresh : (s0 : List (HloOp τ sig (Elt F))).Forall fun op => op.fresh = ∅ := by
  unfold s0; simp only [List.Forall]; repeat' constructor
theorem s1_fresh : (s1 : List (HloOp τ sig (Elt F))).Forall fun op => op.fresh = ∅ := by
  unfold s1; simp only [List.Forall]; repeat' constructor
theorem s2_fresh : (s2 : List (HloOp τ sig (Elt F))).Forall fun op => op.fresh = ∅ := by
  unfold s2; simp only [List.Forall]; repeat' constructor
theorem s3_fresh : (s3 : List (HloOp τ sig (Elt F))).Forall fun op => op.fresh = ∅ := by
  unfold s3; simp only [List.Forall]; repeat' constructor
theorem s4_fresh : (s4 : List (HloOp τ sig (Elt F))).Forall fun op => op.fresh = ∅ := by
  unfold s4; simp only [List.Forall]; repeat' constructor
theorem s5_fresh : (s5 : List (HloOp τ sig (Elt F))).Forall fun op => op.fresh = ∅ := by
  unfold s5; simp only [List.Forall]; repeat' constructor
theorem s6_fresh : (s6 : List (HloOp τ sig (Elt F))).Forall fun op => op.fresh = ∅ := by
  unfold s6; simp only [List.Forall]; repeat' constructor

theorem ops_fresh : ∀ op ∈ (ops : List (HloOp τ sig (Elt F))), op.fresh = ∅ :=
  List.forall_iff_forall_mem.mp <|
    List.forall_append.mpr ⟨s0_fresh, List.forall_append.mpr ⟨s1_fresh, List.forall_append.mpr ⟨s2_fresh,
      List.forall_append.mpr ⟨s3_fresh, List.forall_append.mpr ⟨s4_fresh, List.forall_append.mpr ⟨s5_fresh, s6_fresh⟩⟩⟩⟩⟩⟩

/-! ## What each stretch writes -/

/-- The buffers the operations of `s0` write, in order. -/
abbrev s0_W : List (Ref sig .tc) := [main_v0, main_v1, main_v2, main_v3]
theorem s0_writes : (s0 : List (HloOp τ sig (Elt F))).Forall fun op => op.writes ⊆ (s0_W.map (Proc.devRef (τ := τ) .tc)).toFinset := by
  unfold s0
  simp only [List.Forall, nullary_writes, unary_writes, binary_writes, ternary_writes, reshape_writes, Finset.singleton_subset_iff, List.mem_toFinset]
  refine ⟨?_, ?_, ?_, ?_⟩ <;> exact List.mem_map_of_mem (by decide)
/-- A buffer `s0` does not write holds after it what it held before. -/
theorem s0_frame (W : Valuation τ sig (Elt F)) {r : Ref sig .tc} (h : r ∉ s0_W) :
    after s0 W (Proc.devRef .tc r) = W (Proc.devRef .tc r) :=
  after_of_writes_sub s0 W s0_writes h

/-- The buffers the operations of `s1` write, in order. -/
abbrev s1_W : List (Ref sig .tc) := [main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21]
theorem s1_writes : (s1 : List (HloOp τ sig (Elt F))).Forall fun op => op.writes ⊆ (s1_W.map (Proc.devRef (τ := τ) .tc)).toFinset := by
  unfold s1
  simp only [List.Forall, nullary_writes, unary_writes, binary_writes, ternary_writes, reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_⟩ <;> exact List.mem_map_of_mem (by decide)
/-- A buffer `s1` does not write holds after it what it held before. -/
theorem s1_frame (W : Valuation τ sig (Elt F)) {r : Ref sig .tc} (h : r ∉ s1_W) :
    after s1 W (Proc.devRef .tc r) = W (Proc.devRef .tc r) :=
  after_of_writes_sub s1 W s1_writes h

/-- The buffers the operations of `s2` write, in order. -/
abbrev s2_W : List (Ref sig .tc) := [main_v22, main_v23, main_v24, main_v25, main_v26, main_v27, main_v28, main_v29, main_cst_4, main_v30, main_v31, main_cst_5, main_v32, main_v33, main_cst_6, main_v34, main_v35, main_v36, main_v37, main_v38, main_cst_7, main_v39, main_v40, main_cst_8, main_v41, main_v42, main_v43, main_v44, main_cst_9, main_v45, main_v46, main_v47, main_v48, main_v49, main_v50, main_v51, main_v52, main_v53, main_v54, main_v55, main_cst_10, main_v56, main_v57, main_v58, main_v59, main_v60, main_v61]
theorem s2_writes : (s2 : List (HloOp τ sig (Elt F))).Forall fun op => op.writes ⊆ (s2_W.map (Proc.devRef (τ := τ) .tc)).toFinset := by
  unfold s2
  simp only [List.Forall, nullary_writes, unary_writes, binary_writes, ternary_writes, reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)
/-- A buffer `s2` does not write holds after it what it held before. -/
theorem s2_frame (W : Valuation τ sig (Elt F)) {r : Ref sig .tc} (h : r ∉ s2_W) :
    after s2 W (Proc.devRef .tc r) = W (Proc.devRef .tc r) :=
  after_of_writes_sub s2 W s2_writes h

/-- The buffers the operations of `s3` write, in order. -/
abbrev s3_W : List (Ref sig .tc) := [main_c_11, main_v62, main_v63, main_c_12, main_v64, main_v65, main_v66, main_v67, main_v68, main_cst_13, main_v69, main_v70, main_v71, main_cst_14, main_v72, main_cst_15, main_v73, main_v74, main_v75, main_cst_16, main_v76, main_v77, main_v78, main_v79]
theorem s3_writes : (s3 : List (HloOp τ sig (Elt F))).Forall fun op => op.writes ⊆ (s3_W.map (Proc.devRef (τ := τ) .tc)).toFinset := by
  unfold s3
  simp only [List.Forall, nullary_writes, unary_writes, binary_writes, ternary_writes, reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_⟩ <;> exact List.mem_map_of_mem (by decide)
/-- A buffer `s3` does not write holds after it what it held before. -/
theorem s3_frame (W : Valuation τ sig (Elt F)) {r : Ref sig .tc} (h : r ∉ s3_W) :
    after s3 W (Proc.devRef .tc r) = W (Proc.devRef .tc r) :=
  after_of_writes_sub s3 W s3_writes h

/-- The buffers the operations of `s4` write, in order. -/
abbrev s4_W : List (Ref sig .tc) := [main_v80, main_v81, main_v82, main_v83, main_v84, main_v85, main_v86, main_v87, main_v88, main_cst_17, main_v89, main_v90, main_cst_18, main_v91, main_v92, main_v93, main_v94, main_v95, main_cst_19, main_v96, main_v97, main_cst_20, main_v98, main_v99, main_v100, main_v101, main_cst_21, main_v102, main_v103, main_v104, main_v105, main_v106, main_v107, main_v108, main_v109, main_v110, main_v111, main_v112, main_cst_22, main_v113, main_v114, main_v115, main_v116, main_v117, main_v118]
theorem s4_writes : (s4 : List (HloOp τ sig (Elt F))).Forall fun op => op.writes ⊆ (s4_W.map (Proc.devRef (τ := τ) .tc)).toFinset := by
  unfold s4
  simp only [List.Forall, nullary_writes, unary_writes, binary_writes, ternary_writes, reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)
/-- A buffer `s4` does not write holds after it what it held before. -/
theorem s4_frame (W : Valuation τ sig (Elt F)) {r : Ref sig .tc} (h : r ∉ s4_W) :
    after s4 W (Proc.devRef .tc r) = W (Proc.devRef .tc r) :=
  after_of_writes_sub s4 W s4_writes h

/-- The buffers the operations of `s5` write, in order. -/
abbrev s5_W : List (Ref sig .tc) := [main_c_23, main_v119, main_v120, main_c_24, main_v121, main_v122, main_v123, main_v124, main_v125, main_cst_25, main_v126, main_v127, main_v128, main_cst_26, main_v129, main_cst_27, main_v130, main_v131, main_v132, main_cst_28, main_v133, main_v134, main_v135, main_v136]
theorem s5_writes : (s5 : List (HloOp τ sig (Elt F))).Forall fun op => op.writes ⊆ (s5_W.map (Proc.devRef (τ := τ) .tc)).toFinset := by
  unfold s5
  simp only [List.Forall, nullary_writes, unary_writes, binary_writes, ternary_writes, reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_⟩ <;> exact List.mem_map_of_mem (by decide)
/-- A buffer `s5` does not write holds after it what it held before. -/
theorem s5_frame (W : Valuation τ sig (Elt F)) {r : Ref sig .tc} (h : r ∉ s5_W) :
    after s5 W (Proc.devRef .tc r) = W (Proc.devRef .tc r) :=
  after_of_writes_sub s5 W s5_writes h

/-- The buffers the operations of `s6` write, in order. -/
abbrev s6_W : List (Ref sig .tc) := [main_v137, main_v138, main_v139, main_v140, main_v141, main_v142, main_v143, main_v144, main_v145, main_cst_29, main_v146, main_v147, main_cst_30, main_v148, main_v149, main_v150, main_v151, main_v152, main_cst_31, main_v153, main_v154, main_cst_32, main_v155, main_v156, main_v157, main_v158, main_cst_33, main_v159, main_v160, main_v161, main_v162, main_v163, main_v164, main_v165, main_v166, main_v167, main_v168, main_v169, main_cst_34, main_v170, main_v171, main_v172, main_v173, main_v174, main_v175]
theorem s6_writes : (s6 : List (HloOp τ sig (Elt F))).Forall fun op => op.writes ⊆ (s6_W.map (Proc.devRef (τ := τ) .tc)).toFinset := by
  unfold s6
  simp only [List.Forall, nullary_writes, unary_writes, binary_writes, ternary_writes, reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)
/-- A buffer `s6` does not write holds after it what it held before. -/
theorem s6_frame (W : Valuation τ sig (Elt F)) {r : Ref sig .tc} (h : r ∉ s6_W) :
    after s6 W (Proc.devRef .tc r) = W (Proc.devRef .tc r) :=
  after_of_writes_sub s6 W s6_writes h

end Cert.RefRun

end
-- ==== Proof.RefRunMeans.lean ====
/-
  What the short stretches compute, over any contents `W` of the buffers before them: the first stretch leaves the
  edges' source and destination numbers in `main_v1` and `main_v3`; each neighbour-mean stretch leaves, in the buffer
  it ends in, the neighbour mean of the features it reads over those two rows. Each equation is the stretch's
  operations composed, which is the host function's definition.
-/
import proofs.«171848_j82592221102604_1_alg».proof.Proof.RefRunOps
import proofs.«171848_j82592221102604_1_alg».proof.Proof.Layers

noncomputable section

namespace Cert.RefRun

open Cert.ReferenceIdeal Cert.ReferenceIdeal.Gen Idealize.ShloMosaic Idealize.ShloMosaic.TcCoe Idealize.SL.Sem Idealize.ShloMosaic.StableHlo
open Cert.Layers

variable {F : FTy → Type} [FloatOps F]

/-- After the first stretch `main_v1` holds the edges' source numbers. -/
theorem s0_v1 (W : Valuation τ sig (Elt F)) :
    after s0 W (Proc.devRef .tc main_v1) = srcRow (W (Proc.devRef .tc main_arg1)) := by
  unfold s0; after_results; rfl

/-- After the first stretch `main_v3` holds the edges' destination numbers. -/
theorem s0_v3 (W : Valuation τ sig (Elt F)) :
    after s0 W (Proc.devRef .tc main_v3) = dstRow (W (Proc.devRef .tc main_arg1)) := by
  unfold s0; after_results; rfl

/-- The second stretch: the neighbour mean of the input features. -/
theorem s1_v21 (W : Valuation τ sig (Elt F)) :
    after s1 W (Proc.devRef .tc main_v21) = neighbourMean (W (Proc.devRef .tc main_arg0)) (W (Proc.devRef .tc main_v1)) (W (Proc.devRef .tc main_v3)) := by
  unfold s1; after_results_simp; rfl

/-- The fourth stretch: the neighbour mean of the first layer's output. -/
theorem s3_v79 (W : Valuation τ sig (Elt F)) :
    after s3 W (Proc.devRef .tc main_v79) = neighbourMean (W (Proc.devRef .tc main_v61)) (W (Proc.devRef .tc main_v1)) (W (Proc.devRef .tc main_v3)) := by
  unfold s3; after_results_simp; rfl

/-- The sixth stretch: the neighbour mean of the second layer's output. -/
theorem s5_v136 (W : Valuation τ sig (Elt F)) :
    after s5 W (Proc.devRef .tc main_v136) = neighbourMean (W (Proc.devRef .tc main_v118)) (W (Proc.devRef .tc main_v1)) (W (Proc.devRef .tc main_v3)) := by
  unfold s5; after_results_simp; rfl

end Cert.RefRun

end
-- ==== Proof.RefRunLayer1.lean ====
/-
  What the first layer's stretch computes, over any contents `W` of the buffers before it: the buffer it ends in
  holds the layer function of the residual, the features, the neighbour mean and the layer's parameters as `W` has
  them. The equation is the stretch's operations composed, which is the layer function's definition.
-/
import proofs.«171848_j82592221102604_1_alg».proof.Proof.RefRunOps
import proofs.«171848_j82592221102604_1_alg».proof.Proof.Layers

noncomputable section

namespace Cert.RefRun

open Cert.ReferenceIdeal Cert.ReferenceIdeal.Gen Idealize.ShloMosaic Idealize.ShloMosaic.TcCoe Idealize.SL.Sem Idealize.ShloMosaic.StableHlo
open Cert.Layers

variable {F : FTy → Type} [FloatOps F]

/-- The third stretch: the first layer, its residual the zero array the stretch builds itself. -/
theorem s2_v61 (W : Valuation τ sig (Elt F)) :
    after s2 W (Proc.devRef .tc main_v61)
      = layer zeroRes (W (Proc.devRef .tc main_arg0)) (W (Proc.devRef .tc main_v21)) (W (Proc.devRef .tc main_arg2)) (W (Proc.devRef .tc main_arg3)) (W (Proc.devRef .tc main_arg4)) (W (Proc.devRef .tc main_arg5)) (W (Proc.devRef .tc main_arg6)) (W (Proc.devRef .tc main_arg17)) := by
  unfold s2; after_results_simp; rfl

end Cert.RefRun

end
-- ==== Proof.RefRunLayer2.lean ====
/-
  What the second layer's stretch computes, over any contents `W` of the buffers before it: the buffer it ends in
  holds the layer function of the residual, the features, the neighbour mean and the layer's parameters as `W` has
  them. The equation is the stretch's operations composed, which is the layer function's definition.
-/
import proofs.«171848_j82592221102604_1_alg».proof.Proof.RefRunOps
import proofs.«171848_j82592221102604_1_alg».proof.Proof.Layers

noncomputable section

namespace Cert.RefRun

open Cert.ReferenceIdeal Cert.ReferenceIdeal.Gen Idealize.ShloMosaic Idealize.ShloMosaic.TcCoe Idealize.SL.Sem Idealize.ShloMosaic.StableHlo
open Cert.Layers

variable {F : FTy → Type} [FloatOps F]

/-- The fifth stretch: the second layer, the first layer's output both its features and its residual. -/
theorem s4_v118 (W : Valuation τ sig (Elt F)) :
    after s4 W (Proc.devRef .tc main_v118)
      = layer (W (Proc.devRef .tc main_v61)) (W (Proc.devRef .tc main_v61)) (W (Proc.devRef .tc main_v79)) (W (Proc.devRef .tc main_arg7)) (W (Proc.devRef .tc main_arg8)) (W (Proc.devRef .tc main_arg9)) (W (Proc.devRef .tc main_arg10)) (W (Proc.devRef .tc main_arg11)) (W (Proc.devRef .tc main_arg17)) := by
  unfold s4; after_results_simp; rfl

end Cert.RefRun

end
-- ==== Proof.RefRunLayer3.lean ====
/-
  What the third layer's stretch computes, over any contents `W` of the buffers before it: the buffer it ends in
  holds the layer function of the residual, the features, the neighbour mean and the layer's parameters as `W` has
  them. The equation is the stretch's operations composed, which is the layer function's definition.
-/
import proofs.«171848_j82592221102604_1_alg».proof.Proof.RefRunOps
import proofs.«171848_j82592221102604_1_alg».proof.Proof.Layers

noncomputable section

namespace Cert.RefRun

open Cert.ReferenceIdeal Cert.ReferenceIdeal.Gen Idealize.ShloMosaic Idealize.ShloMosaic.TcCoe Idealize.SL.Sem Idealize.ShloMosaic.StableHlo
open Cert.Layers

variable {F : FTy → Type} [FloatOps F]

/-- The seventh stretch: the third layer, the second layer's output both its features and its residual. -/
theorem s6_v175 (W : Valuation τ sig (Elt F)) :
    after s6 W (Proc.devRef .tc main_v175)
      = layer (W (Proc.devRef .tc main_v118)) (W (Proc.devRef .tc main_v118)) (W (Proc.devRef .tc main_v136)) (W (Proc.devRef .tc main_arg12)) (W (Proc.devRef .tc main_arg13)) (W (Proc.devRef .tc main_arg14)) (W (Proc.devRef .tc main_arg15)) (W (Proc.devRef .tc main_arg16)) (W (Proc.devRef .tc main_arg17)) := by
  unfold s6; after_results_simp; rfl

end Cert.RefRun

end
-- ==== Proof.LibAfterAppend.lean ====
/-
  A straight line of host operations run in two stretches: the contents after the whole line are the contents after
  the second stretch started from the contents after the first. (The contents after a line are a left fold of the
  operations' results.)
-/
import Idealize.ShloMosaic.Lib.StableHlo.Run

namespace Cert.AfterAppend

open Idealize.ShloMosaic Idealize.ShloMosaic.StableHlo

variable {nD : Nat} {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.AfterAppend
-- ==== Proof.RefRun.lean ====
/-
  The reference's run read back as the network function.

  The 213 operations are seven stretches; the contents after the whole line are the contents after the last stretch
  started from the contents after the ones before it. Reading backwards from the result buffer: the last stretch
  leaves there the third layer of what the sixth left, the sixth the neighbour mean of what the fifth left, and so on
  down to the first, which leaves the two edge rows; every buffer a stretch reads but does not write is carried
  through it unchanged. Composed, that is the three-layer network of the arguments' launch contents. No stretch
  writes an argument, so the arguments end as they began.
-/
import proofs.«171848_j82592221102604_1_alg».proof.Proof.RefRunFrames
import proofs.«171848_j82592221102604_1_alg».proof.Proof.RefRunMeans
import proofs.«171848_j82592221102604_1_alg».proof.Proof.RefRunLayer1
import proofs.«171848_j82592221102604_1_alg».proof.Proof.RefRunLayer2
import proofs.«171848_j82592221102604_1_alg».proof.Proof.RefRunLayer3
import proofs.«171848_j82592221102604_1_alg».proof.Proof.LibAfterAppend

noncomputable section

namespace Cert.RefRun

open Cert.ReferenceIdeal Cert.ReferenceIdeal.Gen Idealize.ShloMosaic Idealize.ShloMosaic.TcCoe Idealize.SL.Sem Idealize.ShloMosaic.StableHlo
open Cert.Layers Cert.AfterAppend

variable {F : FTy → Type} [FloatOps F]

/-- The whole line as its stretches run one after the other. -/
theorem after_ops_eq (V : Valuation τ sig (Elt F)) :
    after ops V = after s6 (after s5 (after s4 (after s3 (after s2 (after s1 (after s0 V)))))) := by
  unfold ops; simp only [after_append]

/-- A buffer none of the stretches writes holds after the line what it held before. -/
theorem ops_frame (V : Valuation τ sig (Elt F)) {r : Ref sig .tc} (h0 : r ∉ s0_W) (h1 : r ∉ s1_W) (h2 : r ∉ s2_W)
    (h3 : r ∉ s3_W) (h4 : r ∉ s4_W) (h5 : r ∉ s5_W) (h6 : r ∉ s6_W) :
    after ops V (Proc.devRef .tc r) = V (Proc.devRef .tc r) := by
  rw [after_ops_eq, s6_frame _ h6, s5_frame _ h5, s4_frame _ h4, s3_frame _ h3, s2_frame _ h2, s1_frame _ h1, s0_frame _ h0]

/-- After the line the result buffer holds the network of the arguments' contents before it. -/
theorem ops_v175 (V : Valuation τ sig (Elt F)) :
    after ops V (Proc.devRef .tc main_v175)
      = network (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  rw [after_ops_eq]
  -- the third layer, of what the sixth stretch leaves
  rw [s6_v175, s5_v136]
  rw [s5_frame _ (r := main_v118) (by decide),
    s5_frame _ (r := main_arg12) (by decide),
    s5_frame _ (r := main_arg13) (by decide),
    s5_frame _ (r := main_arg14) (by decide),
    s5_frame _ (r := main_arg15) (by decide),
    s5_frame _ (r := main_arg16) (by decide),
    s5_frame _ (r := main_arg17) (by decide)]
  -- the second layer, of what the fourth stretch leaves
  rw [s4_v118]
  rw [s4_frame _ (r := main_v1) (by decide),
    s4_frame _ (r := main_v3) (by decide),
    s4_frame _ (r := main_arg12) (by decide),
    s4_frame _ (r := main_arg13) (by decide),
    s4_frame _ (r := main_arg14) (by decide),
    s4_frame _ (r := main_arg15) (by decide),
    s4_frame _ (r := main_arg16) (by decide),
    s4_frame _ (r := main_arg17) (by decide)]
  rw [s3_v79]
  rw [s3_frame _ (r := main_v61) (by decide),
    s3_frame _ (r := main_v1) (by decide),
    s3_frame _ (r := main_v3) (by decide),
    s3_frame _ (r := main_arg7) (by decide),
    s3_frame _ (r := main_arg8) (by decide),
    s3_frame _ (r := main_arg9) (by decide),
    s3_frame _ (r := main_arg10) (by decide),
    s3_frame _ (r := main_arg11) (by decide),
    s3_frame _ (r := main_arg12) (by decide),
    s3_frame _ (r := main_arg13) (by decide),
    s3_frame _ (r := main_arg14) (by decide),
    s3_frame _ (r := main_arg15) (by decide),
    s3_frame _ (r := main_arg16) (by decide),
    s3_frame _ (r := main_arg17) (by decide)]
  -- the first layer, of what the second stretch leaves
  rw [s2_v61]
  rw [s2_frame _ (r := main_v1) (by decide),
    s2_frame _ (r := main_v3) (by decide),
    s2_frame _ (r := main_arg7) (by decide),
    s2_frame _ (r := main_arg8) (by decide),
    s2_frame _ (r := main_arg9) (by decide),
    s2_frame _ (r := main_arg10) (by decide),
    s2_frame _ (r := main_arg11) (by decide),
    s2_frame _ (r := main_arg12) (by decide),
    s2_frame _ (r := main_arg13) (by decide),
    s2_frame _ (r := main_arg14) (by decide),
    s2_frame _ (r := main_arg15) (by decide),
    s2_frame _ (r := main_arg16) (by decide),
    s2_frame _ (r := main_arg17) (by decide)]
  rw [s1_v21]
  rw [s1_frame _ (r := main_arg0) (by decide),
    s1_frame _ (r := main_v1) (by decide),
    s1_frame _ (r := main_v3) (by decide),
    s1_frame _ (r := main_arg2) (by decide),
    s1_frame _ (r := main_arg3) (by decide),
    s1_frame _ (r := main_arg4) (by decide),
    s1_frame _ (r := main_arg5) (by decide),
    s1_frame _ (r := main_arg6) (by decide),
    s1_frame _ (r := main_arg7) (by decide),
    s1_frame _ (r := main_arg8) (by decide),
    s1_frame _ (r := main_arg9) (by decide),
    s1_frame _ (r := main_arg10) (by decide),
    s1_frame _ (r := main_arg11) (by decide),
    s1_frame _ (r := main_arg12) (by decide),
    s1_frame _ (r := main_arg13) (by decide),
    s1_frame _ (r := main_arg14) (by decide),
    s1_frame _ (r := main_arg15) (by decide),
    s1_frame _ (r := main_arg16) (by decide),
    s1_frame _ (r := main_arg17) (by decide)]
  -- the edge rows
  rw [s0_v1, s0_v3]
  rw [s0_frame _ (r := main_arg0) (by decide),
    s0_frame _ (r := main_arg2) (by decide),
    s0_frame _ (r := main_arg3) (by decide),
    s0_frame _ (r := main_arg4) (by decide),
    s0_frame _ (r := main_arg5) (by decide),
    s0_frame _ (r := main_arg6) (by decide),
    s0_frame _ (r := main_arg7) (by decide),
    s0_frame _ (r := main_arg8) (by decide),
    s0_frame _ (r := main_arg9) (by decide),
    s0_frame _ (r := main_arg10) (by decide),
    s0_frame _ (r := main_arg11) (by decide),
    s0_frame _ (r := main_arg12) (by decide),
    s0_frame _ (r := main_arg13) (by decide),
    s0_frame _ (r := main_arg14) (by decide),
    s0_frame _ (r := main_arg15) (by decide),
    s0_frame _ (r := main_arg16) (by decide),
    s0_frame _ (r := main_arg17) (by decide)]
  rfl

/-- On every device, for any float values, from any memory with zero counters: every weakly fair execution of the
    reference's @main terminates with the result buffer at the network of the arguments' launch contents and the
    arguments unchanged. -/
theorem run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ fun r => ∀ c : Dev nD,
      r.2.mem ((c.tc : Thread nD τ).loc main_v175)
        = network (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
            (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v175).trans (ops_v175 _),
      (h c main_arg0).trans (ops_frame _ (by decide) (by decide) (by decide) (by decide) (by decide) (by decide) (by decide)),
      (h c main_arg1).trans (ops_frame _ (by decide) (by decide) (by decide) (by decide) (by decide) (by decide) (by decide)),
      (h c main_arg2).trans (ops_frame _ (by decide) (by decide) (by decide) (by decide) (by decide) (by decide) (by decide)),
      (h c main_arg3).trans (ops_frame _ (by decide) (by decide) (by decide) (by decide) (by decide) (by decide) (by decide)),
      (h c main_arg4).trans (ops_frame _ (by decide) (by decide) (by decide) (by decide) (by decide) (by decide) (by decide)),
      (h c main_arg5).trans (ops_frame _ (by decide) (by decide) (by decide) (by decide) (by decide) (by decide) (by decide)),
      (h c main_arg6).trans (ops_frame _ (by decide) (by decide) (by decide) (by decide) (by decide) (by decide) (by decide)),
      (h c main_arg7).trans (ops_frame _ (by decide) (by decide) (by decide) (by decide) (by decide) (by decide) (by decide)),
      (h c main_arg8).trans (ops_frame _ (by decide) (by decide) (by decide) (by decide) (by decide) (by decide) (by decide)),
      (h c main_arg9).trans (ops_frame _ (by decide) (by decide) (by decide) (by decide) (by decide) (by decide) (by decide)),
      (h c main_arg10).trans (ops_frame _ (by decide) (by decide) (by decide) (by decide) (by decide) (by decide) (by decide)),
      (h c main_arg11).trans (ops_frame _ (by decide) (by decide) (by decide) (by decide) (by decide) (by decide) (by decide)),
      (h c main_arg12).trans (ops_frame _ (by decide) (by decide) (by decide) (by decide) (by decide) (by decide) (by decide)),
      (h c main_arg13).trans (ops_frame _ (by decide) (by decide) (by decide) (by decide) (by decide) (by decide) (by decide)),
      (h c main_arg14).trans (ops_frame _ (by decide) (by decide) (by decide) (by decide) (by decide) (by decide) (by decide)),
      (h c main_arg15).trans (ops_frame _ (by decide) (by decide) (by decide) (by decide) (by decide) (by decide) (by decide)),
      (h c main_arg16).trans (ops_frame _ (by decide) (by decide) (by decide) (by decide) (by decide) (by decide) (by decide)),
      (h c main_arg17).trans (ops_frame _ (by decide) (by decide) (by decide) (by decide) (by decide) (by decide) (by decide))⟩)
    (run_seq scopedRefs_eq scopedSems_eq defs main (fun _ => ops) main_eq (fun _ => ops_sub) m ρ (fun _ => ops_fresh))

end Cert.RefRun

end
-- ==== Proof.lean ====
/-
  A three-layer graph network — per layer the mean of each node's in-neighbours' features, two 512×512 products and a bias
  added to a residual, a row-wise normalisation and a leaky rectifier — as three kernel launches among host operations,
  against the same network written with host operations only.

  Both programs compute `Cert.Layers.network` of their arguments (Proof/Layers.lean). The reference's run reads its 213
  operations stretch by stretch as that function (Proof/RefRun.lean). The kernel program's run is built item by item
  (Proof/IRun.lean): each launch's twenty blocks of a thousand rows tile its output array, and at the exact values a block
  of the body's arithmetic is the same thousand rows of one layer (Proof/Bridge.lean: the kernel adds the four terms as
  ((res + agg·Wlᵀ) + bl) + h·Wrᵀ, the reference as res + ((agg·Wlᵀ + bl) + h·Wrᵀ); addition of extended reals is
  associative and commutative, so nothing here needs the inputs finite). The word-level program's frame is the same
  run read at words (Proof/KRun.lean). Nothing was rewritten by the idealisation, so it preserves trivially.
-/
import proofs.«171848_j82592221102604_1_alg».proof.Defs
import proofs.«171848_j82592221102604_1_alg».proof.Proof.Gen.Kernel
import proofs.«171848_j82592221102604_1_alg».proof.Proof.Gen.KernelIdeal
import proofs.«171848_j82592221102604_1_alg».proof.Proof.Gen.ReferenceIdeal
import proofs.«171848_j82592221102604_1_alg».proof.Proof.Gen.Pre_finite_inputs
import proofs.«171848_j82592221102604_1_alg».proof.Proof.KRun
import proofs.«171848_j82592221102604_1_alg».proof.Proof.IFinal
import proofs.«171848_j82592221102604_1_alg».proof.Proof.RefRun

noncomputable section

namespace Cert.Proof

open Idealize.ShloMosaic Idealize.ShloMosaic.TcCoe Idealize.SL.Sem

/-- The word-level kernel program runs to the end, faults nowhere and leaves its arguments as launched. -/
theorem frame_kernel : Cert.frame_Kernel := fun m ρ _ =>
  (θ_run Cert.Kernel.defs _ _).mono (fun _ h c => (h c).2) (Cert.Kernel.Hand.run (F := Bits) m ρ)

/-- So does the kernel program at the exact values. -/
theorem frame_kernelIdeal : Cert.frame_KernelIdeal := fun m ρ _ =>
  (θ_run Cert.KernelIdeal.defs _ _).mono (fun _ h c => (h c).2) (Cert.KernelIdeal.Hand.run (F := Ideal) m ρ)

/-- So does the reference: its run with the result dropped. -/
theorem frame_referenceIdeal : Cert.frame_ReferenceIdeal := fun m ρ _ =>
  (θ_run Cert.ReferenceIdeal.defs _ _).mono (fun _ h c => (h c).2) (Cert.RefRun.run (F := Ideal) m ρ)

/-- At the exact values both programs end with their result arrays at the network of the arguments, which agree. -/
theorem algebraic : Cert.algebraic_KernelIdeal_ReferenceIdeal := by
  intro m ρ m' ρ' _ hagree
  refine ⟨fun c => Cert.Layers.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    Cert.KernelIdeal.Hand.run_network m ρ, ?_⟩
  refine (θ_run Cert.ReferenceIdeal.defs _ _).mono (fun _ h c => ⟨(h c).1.trans ?_, (h c).2⟩) (Cert.RefRun.run (F := Ideal) m' ρ')
  obtain ⟨e0, e1, e2, e3, e4, e5, e6, e7, e8, e9, e10, e11, e12, e13, e14, e15, e16, e17⟩ := hagree c
  rw [e0, e1, e2, e3, e4, e5, e6, e7, e8, e9, e10, e11, e12, e13, e14, e15, e16, e17]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
